-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x48 : Shape := ⟨2, ![1024, 48]⟩
abbrev S1024x48x384 : Shape := ⟨3, ![1024, 48, 384]⟩
abbrev S7x256x384 : Shape := ⟨3, ![7, 256, 384]⟩
abbrev S7x256 : Shape := ⟨2, ![7, 256]⟩
abbrev S7x192x256 : Shape := ⟨3, ![7, 192, 256]⟩
abbrev S7x192 : Shape := ⟨2, ![7, 192]⟩
abbrev S7x160x192 : Shape := ⟨3, ![7, 160, 192]⟩
abbrev S7x160 : Shape := ⟨2, ![7, 160]⟩
abbrev S7x1x160 : Shape := ⟨3, ![7, 1, 160]⟩
abbrev S7x1 : Shape := ⟨2, ![7, 1]⟩
abbrev S_ : Shape := ⟨0, ![]⟩

class Facts : Prop where
  bcast_S_S1024x48x384 : S_.BroadcastsInDim S1024x48x384 (![] : Fin 0 → Fin S1024x48x384.rank)
  reducesTo_S1024x48x384_S_d0_1_2 : S1024x48x384.ReducesTo [0, 1, 2] S_
  h_S_ : 0 < S_.numel
  bcast_S_S7x256x384 : S_.BroadcastsInDim S7x256x384 (![] : Fin 0 → Fin S7x256x384.rank)
  reducesTo_S7x256x384_S_d0_1_2 : S7x256x384.ReducesTo [0, 1, 2] S_
  bcast_S_S7x256 : S_.BroadcastsInDim S7x256 (![] : Fin 0 → Fin S7x256.rank)
  reducesTo_S7x256_S_d0_1 : S7x256.ReducesTo [0, 1] S_
  bcast_S_S7x192x256 : S_.BroadcastsInDim S7x192x256 (![] : Fin 0 → Fin S7x192x256.rank)
  reducesTo_S7x192x256_S_d0_1_2 : S7x192x256.ReducesTo [0, 1, 2] S_
  bcast_S_S7x192 : S_.BroadcastsInDim S7x192 (![] : Fin 0 → Fin S7x192.rank)
  reducesTo_S7x192_S_d0_1 : S7x192.ReducesTo [0, 1] S_
  bcast_S_S7x160x192 : S_.BroadcastsInDim S7x160x192 (![] : Fin 0 → Fin S7x160x192.rank)
  reducesTo_S7x160x192_S_d0_1_2 : S7x160x192.ReducesTo [0, 1, 2] S_
  bcast_S_S7x160 : S_.BroadcastsInDim S7x160 (![] : Fin 0 → Fin S7x160.rank)
  reducesTo_S7x160_S_d0_1 : S7x160.ReducesTo [0, 1] S_
  bcast_S_S7x1x160 : S_.BroadcastsInDim S7x1x160 (![] : Fin 0 → Fin S7x1x160.rank)
  reducesTo_S7x1x160_S_d0_1_2 : S7x1x160.ReducesTo [0, 1, 2] S_
  bcast_S_S7x1 : S_.BroadcastsInDim S7x1 (![] : Fin 0 → Fin S7x1.rank)
  reducesTo_S7x1_S_d0_1 : S7x1.ReducesTo [0, 1] S_

variable [Facts]

def fn_part2 {F : FTy → Type} [FloatOps F] (main_arg8 : FVec F S7x1x160 .f32) (main_arg9 : FVec F S7x1 .f32) (main_v33 : IVec S_ 1) : IVec S_ 1 :=
  let main_v34 : FVec F S7x1x160 .f32 := Host.absf main_arg8
  let main_cst_12 : FVec F S_ .f32 := constant S_ .f32 0x7F800000#32
  let main_v35 : FVec F S7x1x160 .f32 := broadcastInDim S7x1x160 ![] bcast_S_S7x1x160 main_cst_12
  let main_v36 : IVec S7x1x160 1 := cmpf .olt main_v34 main_v35
  let main_c_13 : IVec S_ 1 := constantI S_ 1 1#1
  let main_v37 : IVec S_ 1 := (fun x v => Host.reduce IntOp.andi x v reducesTo_S7x1x160_S_d0_1_2 h_S_) main_v36 main_c_13
  let main_v38 : IVec S_ 1 := andi main_v33 main_v37
  let main_v39 : FVec F S7x1 .f32 := Host.absf main_arg9
  let main_cst_14 : FVec F S_ .f32 := constant S_ .f32 0x7F800000#32
  let main_v40 : FVec F S7x1 .f32 := broadcastInDim S7x1 ![] bcast_S_S7x1 main_cst_14
  let main_v41 : IVec S7x1 1 := cmpf .olt main_v39 main_v40
  let main_c_15 : IVec S_ 1 := constantI S_ 1 1#1
  let main_v42 : IVec S_ 1 := (fun x v => Host.reduce IntOp.andi x v reducesTo_S7x1_S_d0_1 h_S_) main_v41 main_c_15
  let main_v43 : IVec S_ 1 := andi main_v38 main_v42
  main_v43

def fn_part1 {F : FTy → Type} [FloatOps F] (main_arg5 : FVec F S7x192 .f32) (main_arg6 : FVec F S7x160x192 .f32) (main_arg7 : FVec F S7x160 .f32) (main_arg8 : FVec F S7x1x160 .f32) (main_arg9 : FVec F S7x1 .f32) (main_v13 : IVec S_ 1) (main_v16 : IVec S7x192x256 1) : IVec S_ 1 :=
  let main_c_5 : IVec S_ 1 := constantI S_ 1 1#1
  let main_v17 : IVec S_ 1 := (fun x v => Host.reduce IntOp.andi x v reducesTo_S7x192x256_S_d0_1_2 h_S_) main_v16 main_c_5
  let main_v18 : IVec S_ 1 := andi main_v13 main_v17
  let main_v19 : FVec F S7x192 .f32 := Host.absf main_arg5
  let main_cst_6 : FVec F S_ .f32 := constant S_ .f32 0x7F800000#32
  let main_v20 : FVec F S7x192 .f32 := broadcastInDim S7x192 ![] bcast_S_S7x192 main_cst_6
  let main_v21 : IVec S7x192 1 := cmpf .olt main_v19 main_v20
  let main_c_7 : IVec S_ 1 := constantI S_ 1 1#1
  let main_v22 : IVec S_ 1 := (fun x v => Host.reduce IntOp.andi x v reducesTo_S7x192_S_d0_1 h_S_) main_v21 main_c_7
  let main_v23 : IVec S_ 1 := andi main_v18 main_v22
  let main_v24 : FVec F S7x160x192 .f32 := Host.absf main_arg6
  let main_cst_8 : FVec F S_ .f32 := constant S_ .f32 0x7F800000#32
  let main_v25 : FVec F S7x160x192 .f32 := broadcastInDim S7x160x192 ![] bcast_S_S7x160x192 main_cst_8
  let main_v26 : IVec S7x160x192 1 := cmpf .olt main_v24 main_v25
  let main_c_9 : IVec S_ 1 := constantI S_ 1 1#1
  let main_v27 : IVec S_ 1 := (fun x v => Host.reduce IntOp.andi x v reducesTo_S7x160x192_S_d0_1_2 h_S_) main_v26 main_c_9
  let main_v28 : IVec S_ 1 := andi main_v23 main_v27
  let main_v29 : FVec F S7x160 .f32 := Host.absf main_arg7
  let main_cst_10 : FVec F S_ .f32 := constant S_ .f32 0x7F800000#32
  let main_v30 : FVec F S7x160 .f32 := broadcastInDim S7x160 ![] bcast_S_S7x160 main_cst_10
  let main_v31 : IVec S7x160 1 := cmpf .olt main_v29 main_v30
  let main_c_11 : IVec S_ 1 := constantI S_ 1 1#1
  let main_v32 : IVec S_ 1 := (fun x v => Host.reduce IntOp.andi x v reducesTo_S7x160_S_d0_1 h_S_) main_v31 main_c_11
  let main_v33 : IVec S_ 1 := andi main_v28 main_v32
  fn_part2 (F := F) main_arg8 main_arg9 main_v33

def fn {F : FTy → Type} [FloatOps F] (main_arg0 : IVec S1024x48 32) (main_arg1 : FVec F S1024x48x384 .f32) (main_arg2 : FVec F S7x256x384 .f32) (main_arg3 : FVec F S7x256 .f32) (main_arg4 : FVec F S7x192x256 .f32) (main_arg5 : FVec F S7x192 .f32) (main_arg6 : FVec F S7x160x192 .f32) (main_arg7 : FVec F S7x160 .f32) (main_arg8 : FVec F S7x1x160 .f32) (main_arg9 : FVec F S7x1 .f32) : IVec S_ 1 :=
  let main_v0 : FVec F S1024x48x384 .f32 := Host.absf main_arg1
  let main_cst : FVec F S_ .f32 := constant S_ .f32 0x7F800000#32
  let main_v1 : FVec F S1024x48x384 .f32 := broadcastInDim S1024x48x384 ![] bcast_S_S1024x48x384 main_cst
  let main_v2 : IVec S1024x48x384 1 := cmpf .olt main_v0 main_v1
  let main_c : IVec S_ 1 := constantI S_ 1 1#1
  let main_v3 : IVec S_ 1 := (fun x v => Host.reduce IntOp.andi x v reducesTo_S1024x48x384_S_d0_1_2 h_S_) main_v2 main_c
  let main_v4 : FVec F S7x256x384 .f32 := Host.absf main_arg2
  let main_cst_0 : FVec F S_ .f32 := constant S_ .f32 0x7F800000#32
  let main_v5 : FVec F S7x256x384 .f32 := broadcastInDim S7x256x384 ![] bcast_S_S7x256x384 main_cst_0
  let main_v6 : IVec S7x256x384 1 := cmpf .olt main_v4 main_v5
  let main_c_1 : IVec S_ 1 := constantI S_ 1 1#1
  let main_v7 : IVec S_ 1 := (fun x v => Host.reduce IntOp.andi x v reducesTo_S7x256x384_S_d0_1_2 h_S_) main_v6 main_c_1
  let main_v8 : IVec S_ 1 := andi main_v3 main_v7
  let main_v9 : FVec F S7x256 .f32 := Host.absf main_arg3
  let main_cst_2 : FVec F S_ .f32 := constant S_ .f32 0x7F800000#32
  let main_v10 : FVec F S7x256 .f32 := broadcastInDim S7x256 ![] bcast_S_S7x256 main_cst_2
  let main_v11 : IVec S7x256 1 := cmpf .olt main_v9 main_v10
  let main_c_3 : IVec S_ 1 := constantI S_ 1 1#1
  let main_v12 : IVec S_ 1 := (fun x v => Host.reduce IntOp.andi x v reducesTo_S7x256_S_d0_1 h_S_) main_v11 main_c_3
  let main_v13 : IVec S_ 1 := andi main_v8 main_v12
  let main_v14 : FVec F S7x192x256 .f32 := Host.absf main_arg4
  let main_cst_4 : FVec F S_ .f32 := constant S_ .f32 0x7F800000#32
  let main_v15 : FVec F S7x192x256 .f32 := broadcastInDim S7x192x256 ![] bcast_S_S7x192x256 main_cst_4
  let main_v16 : IVec S7x192x256 1 := cmpf .olt main_v14 main_v15
  fn_part1 (F := F) main_arg5 main_arg6 main_arg7 main_arg8 main_arg9 main_v13 main_v16
-- ==== Kernel.lean ====
abbrev S1024x48 : Shape := ⟨2, ![1024, 48]⟩
abbrev S1024x48x384 : Shape := ⟨3, ![1024, 48, 384]⟩
abbrev S7x256x384 : Shape := ⟨3, ![7, 256, 384]⟩
abbrev S7x256 : Shape := ⟨2, ![7, 256]⟩
abbrev S7x192x256 : Shape := ⟨3, ![7, 192, 256]⟩
abbrev S7x192 : Shape := ⟨2, ![7, 192]⟩
abbrev S7x160x192 : Shape := ⟨3, ![7, 160, 192]⟩
abbrev S7x160 : Shape := ⟨2, ![7, 160]⟩
abbrev S7x1x160 : Shape := ⟨3, ![7, 1, 160]⟩
abbrev S7x1 : Shape := ⟨2, ![7, 1]⟩
abbrev S1024x1 : Shape := ⟨2, ![1024, 1]⟩
abbrev S64x48 : Shape := ⟨2, ![64, 48]⟩
abbrev S64x48x384 : Shape := ⟨3, ![64, 48, 384]⟩
abbrev S64x1 : Shape := ⟨2, ![64, 1]⟩
abbrev S3072x384 : Shape := ⟨2, ![3072, 384]⟩
abbrev S3072x1 : Shape := ⟨2, ![3072, 1]⟩
abbrev S1x256x384 : Shape := ⟨3, ![1, 256, 384]⟩
abbrev S256x384 : Shape := ⟨2, ![256, 384]⟩
abbrev S384x256 : Shape := ⟨2, ![384, 256]⟩
abbrev S3072x256 : Shape := ⟨2, ![3072, 256]⟩
abbrev S1x256 : Shape := ⟨2, ![1, 256]⟩
abbrev S256 : Shape := ⟨1, ![256]⟩
abbrev S1x192x256 : Shape := ⟨3, ![1, 192, 256]⟩
abbrev S192x256 : Shape := ⟨2, ![192, 256]⟩
abbrev S256x192 : Shape := ⟨2, ![256, 192]⟩
abbrev S3072x192 : Shape := ⟨2, ![3072, 192]⟩
abbrev S1x192 : Shape := ⟨2, ![1, 192]⟩
abbrev S192 : Shape := ⟨1, ![192]⟩
abbrev S1x160x192 : Shape := ⟨3, ![1, 160, 192]⟩
abbrev S160x192 : Shape := ⟨2, ![160, 192]⟩
abbrev S192x160 : Shape := ⟨2, ![192, 160]⟩
abbrev S3072x160 : Shape := ⟨2, ![3072, 160]⟩
abbrev S1x160 : Shape := ⟨2, ![1, 160]⟩
abbrev S160 : Shape := ⟨1, ![160]⟩
abbrev S1x1x160 : Shape := ⟨3, ![1, 1, 160]⟩
abbrev S160x1 : Shape := ⟨2, ![160, 1]⟩
abbrev S1x1 : Shape := ⟨2, ![1, 1]⟩
abbrev S1 : Shape := ⟨1, ![1]⟩
abbrev S64 : Shape := ⟨1, ![64]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S1024x48, .i32⟩
  | .hbm, ⟨1, _⟩ => ⟨S1024x48x384, .f32⟩
  | .hbm, ⟨2, _⟩ => ⟨S7x256x384, .f32⟩
  | .hbm, ⟨3, _⟩ => ⟨S7x256, .f32⟩
  | .hbm, ⟨4, _⟩ => ⟨S7x192x256, .f32⟩
  | .hbm, ⟨5, _⟩ => ⟨S7x192, .f32⟩
  | .hbm, ⟨6, _⟩ => ⟨S7x160x192, .f32⟩
  | .hbm, ⟨7, _⟩ => ⟨S7x160, .f32⟩
  | .hbm, ⟨8, _⟩ => ⟨S7x1x160, .f32⟩
  | .hbm, ⟨9, _⟩ => ⟨S7x1, .f32⟩
  | .hbm, ⟨10, _⟩ => ⟨S1024x1, .f32⟩
  | .hbm, ⟨11, _⟩ => ⟨S1024, .f32⟩
  | .local _ .vmem, ⟨0, _⟩ => ⟨S64x48, .i32⟩
  | .local _ .vmem, ⟨1, _⟩ => ⟨S64x48, .i32⟩
  | .local _ .vmem, ⟨2, _⟩ => ⟨S64x48x384, .f32⟩
  | .local _ .vmem, ⟨3, _⟩ => ⟨S64x48x384, .f32⟩
  | .local _ .vmem, ⟨4, _⟩ => ⟨S7x256x384, .f32⟩
  | .local _ .vmem, ⟨5, _⟩ => ⟨S7x256, .f32⟩
  | .local _ .vmem, ⟨6, _⟩ => ⟨S7x192x256, .f32⟩
  | .local _ .vmem, ⟨7, _⟩ => ⟨S7x192, .f32⟩
  | .local _ .vmem, ⟨8, _⟩ => ⟨S7x160x192, .f32⟩
  | .local _ .vmem, ⟨9, _⟩ => ⟨S7x160, .f32⟩
  | .local _ .vmem, ⟨10, _⟩ => ⟨S7x1x160, .f32⟩
  | .local _ .vmem, ⟨11, _⟩ => ⟨S7x1, .f32⟩
  | .local _ .vmem, ⟨12, _⟩ => ⟨S64x1, .f32⟩
  | .local _ .vmem, ⟨13, _⟩ => ⟨S64x1, .f32⟩
  | _, _ => ⟨S1024x48, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x48 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x48x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x160x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x1x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S64x48x384_S64x48x384_0_0_0 : ∀ a, (![0, 0, 0] : Fin 3 → Nat) a + S64x48x384.size a ≤ S64x48x384.size a
  h_S64x48x384 : 0 < S64x48x384.numel
  bitsLt_bf16_f32 : FTy.bits .bf16 < FTy.bits .f32
  shapeCasts_S64x48x384_S3072x384 : S64x48x384.ShapeCasts S3072x384
  inb_S64x48_S64x48_0_0 : ∀ a, (![0, 0] : Fin 2 → Nat) a + S64x48.size a ≤ S64x48.size a
  h_S64x48 : 0 < S64x48.numel
  shapeCasts_S64x48_S3072x1 : S64x48.ShapeCasts S3072x1
  inb_S7x256x384_S1x256x384_0_0_0 : ∀ a, (![0, 0, 0] : Fin 3 → Nat) a + S1x256x384.size a ≤ S7x256x384.size a
  h_S1x256x384 : 0 < S1x256x384.numel
  shapeCasts_S1x256x384_S256x384 : S1x256x384.ShapeCasts S256x384
  transposes_S256x384_p1_0_S384x256 : S256x384.Transposes [1, 0] S384x256
  inb_S7x256_S1x256_0_0 : ∀ a, (![0, 0] : Fin 2 → Nat) a + S1x256.size a ≤ S7x256.size a
  h_S1x256 : 0 < S1x256.numel
  shapeCasts_S1x256_S256 : S1x256.ShapeCasts S256
  shapeCasts_S256_S1x256 : S256.ShapeCasts S1x256
  broadcasts_S1x256_S3072x256 : S1x256.Broadcasts S3072x256
  inb_S7x192x256_S1x192x256_0_0_0 : ∀ a, (![0, 0, 0] : Fin 3 → Nat) a + S1x192x256.size a ≤ S7x192x256.size a
  h_S1x192x256 : 0 < S1x192x256.numel
  shapeCasts_S1x192x256_S192x256 : S1x192x256.ShapeCasts S192x256
  transposes_S192x256_p1_0_S256x192 : S192x256.Transposes [1, 0] S256x192
  inb_S7x192_S1x192_0_0 : ∀ a, (![0, 0] : Fin 2 → Nat) a + S1x192.size a ≤ S7x192.size a
  h_S1x192 : 0 < S1x192.numel
  shapeCasts_S1x192_S192 : S1x192.ShapeCasts S192
  shapeCasts_S192_S1x192 : S192.ShapeCasts S1x192
  broadcasts_S1x192_S3072x192 : S1x192.Broadcasts S3072x192
  inb_S7x160x192_S1x160x192_0_0_0 : ∀ a, (![0, 0, 0] : Fin 3 → Nat) a + S1x160x192.size a ≤ S7x160x192.size a
  h_S1x160x192 : 0 < S1x160x192.numel
  shapeCasts_S1x160x192_S160x192 : S1x160x192.ShapeCasts S160x192
  transposes_S160x192_p1_0_S192x160 : S160x192.Transposes [1, 0] S192x160
  inb_S7x160_S1x160_0_0 : ∀ a, (![0, 0] : Fin 2 → Nat) a + S1x160.size a ≤ S7x160.size a
  h_S1x160 : 0 < S1x160.numel
  shapeCasts_S1x160_S160 : S1x160.ShapeCasts S160
  shapeCasts_S160_S1x160 : S160.ShapeCasts S1x160
  broadcasts_S1x160_S3072x160 : S1x160.Broadcasts S3072x160
  inb_S7x1x160_S1x1x160_0_0_0 : ∀ a, (![0, 0, 0] : Fin 3 → Nat) a + S1x1x160.size a ≤ S7x1x160.size a
  h_S1x1x160 : 0 < S1x1x160.numel
  shapeCasts_S1x1x160_S1x160 : S1x1x160.ShapeCasts S1x160
  transposes_S1x160_p1_0_S160x1 : S1x160.Transposes [1, 0] S160x1
  inb_S7x1_S1x1_0_0 : ∀ a, (![0, 0] : Fin 2 → Nat) a + S1x1.size a ≤ S7x1.size a
  h_S1x1 : 0 < S1x1.numel
  shapeCasts_S1x1_S1 : S1x1.ShapeCasts S1
  shapeCasts_S1_S1x1 : S1.ShapeCasts S1x1
  broadcasts_S1x1_S3072x1 : S1x1.Broadcasts S3072x1
  inb_S7x256x384_S1x256x384_1_0_0 : ∀ a, (![1, 0, 0] : Fin 3 → Nat) a + S1x256x384.size a ≤ S7x256x384.size a
  inb_S7x256_S1x256_1_0 : ∀ a, (![1, 0] : Fin 2 → Nat) a + S1x256.size a ≤ S7x256.size a
  inb_S7x192x256_S1x192x256_1_0_0 : ∀ a, (![1, 0, 0] : Fin 3 → Nat) a + S1x192x256.size a ≤ S7x192x256.size a
  inb_S7x192_S1x192_1_0 : ∀ a, (![1, 0] : Fin 2 → Nat) a + S1x192.size a ≤ S7x192.size a
  inb_S7x160x192_S1x160x192_1_0_0 : ∀ a, (![1, 0, 0] : Fin 3 → Nat) a + S1x160x192.size a ≤ S7x160x192.size a
  inb_S7x160_S1x160_1_0 : ∀ a, (![1, 0] : Fin 2 → Nat) a + S1x160.size a ≤ S7x160.size a
  inb_S7x1x160_S1x1x160_1_0_0 : ∀ a, (![1, 0, 0] : Fin 3 → Nat) a + S1x1x160.size a ≤ S7x1x160.size a
  inb_S7x1_S1x1_1_0 : ∀ a, (![1, 0] : Fin 2 → Nat) a + S1x1.size a ≤ S7x1.size a
  inb_S7x256x384_S1x256x384_2_0_0 : ∀ a, (![2, 0, 0] : Fin 3 → Nat) a + S1x256x384.size a ≤ S7x256x384.size a
  inb_S7x256_S1x256_2_0 : ∀ a, (![2, 0] : Fin 2 → Nat) a + S1x256.size a ≤ S7x256.size a
  inb_S7x192x256_S1x192x256_2_0_0 : ∀ a, (![2, 0, 0] : Fin 3 → Nat) a + S1x192x256.size a ≤ S7x192x256.size a
  inb_S7x192_S1x192_2_0 : ∀ a, (![2, 0] : Fin 2 → Nat) a + S1x192.size a ≤ S7x192.size a
  inb_S7x160x192_S1x160x192_2_0_0 : ∀ a, (![2, 0, 0] : Fin 3 → Nat) a + S1x160x192.size a ≤ S7x160x192.size a
  inb_S7x160_S1x160_2_0 : ∀ a, (![2, 0] : Fin 2 → Nat) a + S1x160.size a ≤ S7x160.size a
  inb_S7x1x160_S1x1x160_2_0_0 : ∀ a, (![2, 0, 0] : Fin 3 → Nat) a + S1x1x160.size a ≤ S7x1x160.size a
  inb_S7x1_S1x1_2_0 : ∀ a, (![2, 0] : Fin 2 → Nat) a + S1x1.size a ≤ S7x1.size a
  inb_S7x256x384_S1x256x384_3_0_0 : ∀ a, (![3, 0, 0] : Fin 3 → Nat) a + S1x256x384.size a ≤ S7x256x384.size a
  inb_S7x256_S1x256_3_0 : ∀ a, (![3, 0] : Fin 2 → Nat) a + S1x256.size a ≤ S7x256.size a
  inb_S7x192x256_S1x192x256_3_0_0 : ∀ a, (![3, 0, 0] : Fin 3 → Nat) a + S1x192x256.size a ≤ S7x192x256.size a
  inb_S7x192_S1x192_3_0 : ∀ a, (![3, 0] : Fin 2 → Nat) a + S1x192.size a ≤ S7x192.size a
  inb_S7x160x192_S1x160x192_3_0_0 : ∀ a, (![3, 0, 0] : Fin 3 → Nat) a + S1x160x192.size a ≤ S7x160x192.size a
  inb_S7x160_S1x160_3_0 : ∀ a, (![3, 0] : Fin 2 → Nat) a + S1x160.size a ≤ S7x160.size a
  inb_S7x1x160_S1x1x160_3_0_0 : ∀ a, (![3, 0, 0] : Fin 3 → Nat) a + S1x1x160.size a ≤ S7x1x160.size a
  inb_S7x1_S1x1_3_0 : ∀ a, (![3, 0] : Fin 2 → Nat) a + S1x1.size a ≤ S7x1.size a
  inb_S7x256x384_S1x256x384_4_0_0 : ∀ a, (![4, 0, 0] : Fin 3 → Nat) a + S1x256x384.size a ≤ S7x256x384.size a
  inb_S7x256_S1x256_4_0 : ∀ a, (![4, 0] : Fin 2 → Nat) a + S1x256.size a ≤ S7x256.size a
  inb_S7x192x256_S1x192x256_4_0_0 : ∀ a, (![4, 0, 0] : Fin 3 → Nat) a + S1x192x256.size a ≤ S7x192x256.size a
  inb_S7x192_S1x192_4_0 : ∀ a, (![4, 0] : Fin 2 → Nat) a + S1x192.size a ≤ S7x192.size a
  inb_S7x160x192_S1x160x192_4_0_0 : ∀ a, (![4, 0, 0] : Fin 3 → Nat) a + S1x160x192.size a ≤ S7x160x192.size a
  inb_S7x160_S1x160_4_0 : ∀ a, (![4, 0] : Fin 2 → Nat) a + S1x160.size a ≤ S7x160.size a
  inb_S7x1x160_S1x1x160_4_0_0 : ∀ a, (![4, 0, 0] : Fin 3 → Nat) a + S1x1x160.size a ≤ S7x1x160.size a
  inb_S7x1_S1x1_4_0 : ∀ a, (![4, 0] : Fin 2 → Nat) a + S1x1.size a ≤ S7x1.size a
  inb_S7x256x384_S1x256x384_5_0_0 : ∀ a, (![5, 0, 0] : Fin 3 → Nat) a + S1x256x384.size a ≤ S7x256x384.size a
  inb_S7x256_S1x256_5_0 : ∀ a, (![5, 0] : Fin 2 → Nat) a + S1x256.size a ≤ S7x256.size a
  inb_S7x192x256_S1x192x256_5_0_0 : ∀ a, (![5, 0, 0] : Fin 3 → Nat) a + S1x192x256.size a ≤ S7x192x256.size a
  inb_S7x192_S1x192_5_0 : ∀ a, (![5, 0] : Fin 2 → Nat) a + S1x192.size a ≤ S7x192.size a
  inb_S7x160x192_S1x160x192_5_0_0 : ∀ a, (![5, 0, 0] : Fin 3 → Nat) a + S1x160x192.size a ≤ S7x160x192.size a
  inb_S7x160_S1x160_5_0 : ∀ a, (![5, 0] : Fin 2 → Nat) a + S1x160.size a ≤ S7x160.size a
  inb_S7x1x160_S1x1x160_5_0_0 : ∀ a, (![5, 0, 0] : Fin 3 → Nat) a + S1x1x160.size a ≤ S7x1x160.size a
  inb_S7x1_S1x1_5_0 : ∀ a, (![5, 0] : Fin 2 → Nat) a + S1x1.size a ≤ S7x1.size a
  inb_S7x256x384_S1x256x384_6_0_0 : ∀ a, (![6, 0, 0] : Fin 3 → Nat) a + S1x256x384.size a ≤ S7x256x384.size a
  inb_S7x256_S1x256_6_0 : ∀ a, (![6, 0] : Fin 2 → Nat) a + S1x256.size a ≤ S7x256.size a
  inb_S7x192x256_S1x192x256_6_0_0 : ∀ a, (![6, 0, 0] : Fin 3 → Nat) a + S1x192x256.size a ≤ S7x192x256.size a
  inb_S7x192_S1x192_6_0 : ∀ a, (![6, 0] : Fin 2 → Nat) a + S1x192.size a ≤ S7x192.size a
  inb_S7x160x192_S1x160x192_6_0_0 : ∀ a, (![6, 0, 0] : Fin 3 → Nat) a + S1x160x192.size a ≤ S7x160x192.size a
  inb_S7x160_S1x160_6_0 : ∀ a, (![6, 0] : Fin 2 → Nat) a + S1x160.size a ≤ S7x160.size a
  inb_S7x1x160_S1x1x160_6_0_0 : ∀ a, (![6, 0, 0] : Fin 3 → Nat) a + S1x1x160.size a ≤ S7x1x160.size a
  inb_S7x1_S1x1_6_0 : ∀ a, (![6, 0] : Fin 2 → Nat) a + S1x1.size a ≤ S7x1.size a
  shapeCasts_S3072x1_S64x48 : S3072x1.ShapeCasts S64x48
  reduces_S64x48_S64 : S64x48.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S1024x1_S1024 : S1024x1.ShapeCasts S1024
  dot_S3072x384_S384x256_S3072x256_1_0_0_1_n_n_wf : DotDims.WF S3072x384 S384x256 S3072x256 [1] [0] [0] [1] [] []
  dot_S3072x256_S256x192_S3072x192_1_0_0_1_n_n_wf : DotDims.WF S3072x256 S256x192 S3072x192 [1] [0] [0] [1] [] []
  dot_S3072x192_S192x160_S3072x160_1_0_0_1_n_n_wf : DotDims.WF S3072x192 S192x160 S3072x160 [1] [0] [0] [1] [] []
  dot_S3072x160_S160x1_S3072x1_1_0_0_1_n_n_wf : DotDims.WF S3072x160 S160x1 S3072x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x48.size a ≤ S1024x48.size a
  hwx0_0 : ∀ i : grid0.Coords, EltTy.bits .i32 = 32 ∨ (Rect.block (s := S1024x48) S64x48.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x48x384.size a ≤ S1024x48x384.size a
  hwx0_1 : ∀ i : grid0.Coords, EltTy.bits .f32 = 32 ∨ (Rect.block (s := S1024x48x384) S64x48x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x256x384.size a ≤ S7x256x384.size a
  hwx0_2 : ∀ i : grid0.Coords, EltTy.bits .f32 = 32 ∨ (Rect.block (s := S7x256x384) S7x256x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x256.size a ≤ S7x256.size a
  hwx0_3 : ∀ i : grid0.Coords, EltTy.bits .f32 = 32 ∨ (Rect.block (s := S7x256) S7x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x192x256.size a ≤ S7x192x256.size a
  hwx0_4 : ∀ i : grid0.Coords, EltTy.bits .f32 = 32 ∨ (Rect.block (s := S7x192x256) S7x192x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x192.size a ≤ S7x192.size a
  hwx0_5 : ∀ i : grid0.Coords, EltTy.bits .f32 = 32 ∨ (Rect.block (s := S7x192) S7x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x160x192.size a ≤ S7x160x192.size a
  hwx0_6 : ∀ i : grid0.Coords, EltTy.bits .f32 = 32 ∨ (Rect.block (s := S7x160x192) S7x160x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7x160.size a ≤ S7x160.size a
  hwx0_7 : ∀ i : grid0.Coords, EltTy.bits .f32 = 32 ∨ (Rect.block (s := S7x160) S7x160.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S7x1x160.size a ≤ S7x1x160.size a
  hwx0_8 : ∀ i : grid0.Coords, EltTy.bits .f32 = 32 ∨ (Rect.block (s := S7x1x160) S7x1x160.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S7x1.size a ≤ S7x1.size a
  hwx0_9 : ∀ i : grid0.Coords, EltTy.bits .f32 = 32 ∨ (Rect.block (s := S7x1) S7x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S1024x1.size a
  hwx0_10 : ∀ i : grid0.Coords, EltTy.bits .f32 = 32 ∨ (Rect.block (s := S1024x1) S64x1.size (cc0_transform_10 i) (hinb0_10 i)).WholeWords (EltTy.packing .f32)

variable [Facts₀]

def dot_S3072x384_S384x256_S3072x256_1_0_0_1_n_n : DotDims S3072x384 S384x256 S3072x256 where
  lhsContracting := [1]
  rhsContracting := [0]
  lhsNonContracting := [0]
  rhsNonContracting := [1]
  lhsBatch := []
  rhsBatch := []
  wf := dot_S3072x384_S384x256_S3072x256_1_0_0_1_n_n_wf
def dot_S3072x256_S256x192_S3072x192_1_0_0_1_n_n : DotDims S3072x256 S256x192 S3072x192 where
  lhsContracting := [1]
  rhsContracting := [0]
  lhsNonContracting := [0]
  rhsNonContracting := [1]
  lhsBatch := []
  rhsBatch := []
  wf := dot_S3072x256_S256x192_S3072x192_1_0_0_1_n_n_wf
def dot_S3072x192_S192x160_S3072x160_1_0_0_1_n_n : DotDims S3072x192 S192x160 S3072x160 where
  lhsContracting := [1]
  rhsContracting := [0]
  lhsNonContracting := [0]
  rhsNonContracting := [1]
  lhsBatch := []
  rhsBatch := []
  wf := dot_S3072x192_S192x160_S3072x160_1_0_0_1_n_n_wf
def dot_S3072x160_S160x1_S3072x1_1_0_0_1_n_n : DotDims S3072x160 S160x1 S3072x1 where
  lhsContracting := [1]
  rhsContracting := [0]
  lhsNonContracting := [0]
  rhsNonContracting := [1]
  lhsBatch := []
  rhsBatch := []
  wf := dot_S3072x160_S160x1_S3072x1_1_0_0_1_n_n_wf

abbrev win0_0 : Pipeline.Window sig grid0 :=
  Pipeline.Window.ofSpec (Memref.whole main_arg0) S64x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x48x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x192x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S7x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S7x160x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S7x160.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S7x1x160.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S7x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S64x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x48 : Shape := ⟨2, ![1024, 48]⟩
abbrev S1024x48x384 : Shape := ⟨3, ![1024, 48, 384]⟩
abbrev S7x256x384 : Shape := ⟨3, ![7, 256, 384]⟩
abbrev S7x256 : Shape := ⟨2, ![7, 256]⟩
abbrev S7x192x256 : Shape := ⟨3, ![7, 192, 256]⟩
abbrev S7x192 : Shape := ⟨2, ![7, 192]⟩
abbrev S7x160x192 : Shape := ⟨3, ![7, 160, 192]⟩
abbrev S7x160 : Shape := ⟨2, ![7, 160]⟩
abbrev S7x1x160 : Shape := ⟨3, ![7, 1, 160]⟩
abbrev S7x1 : Shape := ⟨2, ![7, 1]⟩
abbrev S_ : Shape := ⟨0, ![]⟩
abbrev S1x256x384 : Shape := ⟨3, ![1, 256, 384]⟩
abbrev S256x384 : Shape := ⟨2, ![256, 384]⟩
abbrev S1024x48x256 : Shape := ⟨3, ![1024, 48, 256]⟩
abbrev S1x256 : Shape := ⟨2, ![1, 256]⟩
abbrev S256 : Shape := ⟨1, ![256]⟩
abbrev S1x1x256 : Shape := ⟨3, ![1, 1, 256]⟩
abbrev S1x192x256 : Shape := ⟨3, ![1, 192, 256]⟩
abbrev S192x256 : Shape := ⟨2, ![192, 256]⟩
abbrev S1024x48x192 : Shape := ⟨3, ![1024, 48, 192]⟩
abbrev S1x192 : Shape := ⟨2, ![1, 192]⟩
abbrev S192 : Shape := ⟨1, ![192]⟩
abbrev S1x1x192 : Shape := ⟨3, ![1, 1, 192]⟩
abbrev S1x160x192 : Shape := ⟨3, ![1, 160, 192]⟩
abbrev S160x192 : Shape := ⟨2, ![160, 192]⟩
abbrev S1024x48x160 : Shape := ⟨3, ![1024, 48, 160]⟩
abbrev S1x160 : Shape := ⟨2, ![1, 160]⟩
abbrev S160 : Shape := ⟨1, ![160]⟩
abbrev S1x1x160 : Shape := ⟨3, ![1, 1, 160]⟩
abbrev S1024x48x1 : Shape := ⟨3, ![1024, 48, 1]⟩
abbrev S1x1 : Shape := ⟨2, ![1, 1]⟩
abbrev S1 : Shape := ⟨1, ![1]⟩
abbrev S1x1x1 : Shape := ⟨3, ![1, 1, 1]⟩
abbrev S1024 : Shape := ⟨1, ![1024]⟩

abbrev nBuf : Space → Nat
  | .hbm => 588
  | .vmem => 0
  | .smem => 0
  | _ => 0

abbrev hbmTy0_0 (i : Nat) : BufTy := match i % 128 with
  | 0 => ⟨S1024x48, .i32⟩
  | 1 => ⟨S1024x48x384, .f32⟩
  | 2 => ⟨S7x256x384, .f32⟩
  | 3 => ⟨S7x256, .f32⟩
  | 4 => ⟨S7x192x256, .f32⟩
  | 5 => ⟨S7x192, .f32⟩
  | 6 => ⟨S7x160x192, .f32⟩
  | 7 => ⟨S7x160, .f32⟩
  | 8 => ⟨S7x1x160, .f32⟩
  | 9 => ⟨S7x1, .f32⟩
  | 10 => ⟨S_, .f32⟩
  | 11 => ⟨S1024x48, .f32⟩
  | 12 => ⟨S_, .i32⟩
  | 13 => ⟨S1024x48, .i32⟩
  | 14 => ⟨S1024x48, .i1⟩
  | 15 => ⟨S1x256x384, .f32⟩
  | 16 => ⟨S256x384, .f32⟩
  | 17 => ⟨S1024x48x256, .f32⟩
  | 18 => ⟨S1x256, .f32⟩
  | 19 => ⟨S256, .f32⟩
  | 20 => ⟨S1x1x256, .f32⟩
  | 21 => ⟨S1024x48x256, .f32⟩
  | 22 => ⟨S1024x48x256, .f32⟩
  | 23 => ⟨S_, .f32⟩
  | 24 => ⟨S_, .f32⟩
  | 25 => ⟨S1024x48x256, .f32⟩
  | 26 => ⟨S1024x48x256, .f32⟩
  | 27 => ⟨S_, .f32⟩
  | 28 => ⟨S1024x48x256, .f32⟩
  | 29 => ⟨S1024x48x256, .f32⟩
  | 30 => ⟨S_, .f32⟩
  | 31 => ⟨S1024x48x256, .f32⟩
  | 32 => ⟨S1024x48x256, .f32⟩
  | 33 => ⟨S1024x48x256, .f32⟩
  | 34 => ⟨S_, .f32⟩
  | 35 => ⟨S1024x48x256, .f32⟩
  | 36 => ⟨S1024x48x256, .f32⟩
  | 37 => ⟨S1024x48x256, .f32⟩
  | 38 => ⟨S1x192x256, .f32⟩
  | 39 => ⟨S192x256, .f32⟩
  | 40 => ⟨S1024x48x192, .f32⟩
  | 41 => ⟨S1x192, .f32⟩
  | 42 => ⟨S192, .f32⟩
  | 43 => ⟨S1x1x192, .f32⟩
  | 44 => ⟨S1024x48x192, .f32⟩
  | 45 => ⟨S1024x48x192, .f32⟩
  | 46 => ⟨S_, .f32⟩
  | 47 => ⟨S_, .f32⟩
  | 48 => ⟨S1024x48x192, .f32⟩
  | 49 => ⟨S1024x48x192, .f32⟩
  | 50 => ⟨S_, .f32⟩
  | 51 => ⟨S1024x48x192, .f32⟩
  | 52 => ⟨S1024x48x192, .f32⟩
  | 53 => ⟨S_, .f32⟩
  | 54 => ⟨S1024x48x192, .f32⟩
  | 55 => ⟨S1024x48x192, .f32⟩
  | 56 => ⟨S1024x48x192, .f32⟩
  | 57 => ⟨S_, .f32⟩
  | 58 => ⟨S1024x48x192, .f32⟩
  | 59 => ⟨S1024x48x192, .f32⟩
  | 60 => ⟨S1024x48x192, .f32⟩
  | 61 => ⟨S1x160x192, .f32⟩
  | 62 => ⟨S160x192, .f32⟩
  | 63 => ⟨S1024x48x160, .f32⟩
  | 64 => ⟨S1x160, .f32⟩
  | 65 => ⟨S160, .f32⟩
  | 66 => ⟨S1x1x160, .f32⟩
  | 67 => ⟨S1024x48x160, .f32⟩
  | 68 => ⟨S1024x48x160, .f32⟩
  | 69 => ⟨S_, .f32⟩
  | 70 => ⟨S_, .f32⟩
  | 71 => ⟨S1024x48x160, .f32⟩
  | 72 => ⟨S1024x48x160, .f32⟩
  | 73 => ⟨S_, .f32⟩
  | 74 => ⟨S1024x48x160, .f32⟩
  | 75 => ⟨S1024x48x160, .f32⟩
  | 76 => ⟨S_, .f32⟩
  | 77 => ⟨S1024x48x160, .f32⟩
  | 78 => ⟨S1024x48x160, .f32⟩
  | 79 => ⟨S1024x48x160, .f32⟩
  | 80 => ⟨S_, .f32⟩
  | 81 => ⟨S1024x48x160, .f32⟩
  | 82 => ⟨S1024x48x160, .f32⟩
  | 83 => ⟨S1024x48x160, .f32⟩
  | 84 => ⟨S1x1x160, .f32⟩
  | 85 => ⟨S1x160, .f32⟩
  | 86 => ⟨S1024x48x1, .f32⟩
  | 87 => ⟨S1x1, .f32⟩
  | 88 => ⟨S1, .f32⟩
  | 89 => ⟨S1x1x1, .f32⟩
  | 90 => ⟨S1024x48x1, .f32⟩
  | 91 => ⟨S1024x48x1, .f32⟩
  | 92 => ⟨S1024x48, .f32⟩
  | 93 => ⟨S1024x48, .f32⟩
  | 94 => ⟨S_, .i32⟩
  | 95 => ⟨S1024x48, .i32⟩
  | 96 => ⟨S1024x48, .i1⟩
  | 97 => ⟨S1x256x384, .f32⟩
  | 98 => ⟨S256x384, .f32⟩
  | 99 => ⟨S1024x48x256, .f32⟩
  | 100 => ⟨S1x256, .f32⟩
  | 101 => ⟨S256, .f32⟩
  | 102 => ⟨S1x1x256, .f32⟩
  | 103 => ⟨S1024x48x256, .f32⟩
  | 104 => ⟨S1024x48x256, .f32⟩
  | 105 => ⟨S_, .f32⟩
  | 106 => ⟨S_, .f32⟩
  | 107 => ⟨S1024x48x256, .f32⟩
  | 108 => ⟨S1024x48x256, .f32⟩
  | 109 => ⟨S_, .f32⟩
  | 110 => ⟨S1024x48x256, .f32⟩
  | 111 => ⟨S1024x48x256, .f32⟩
  | 112 => ⟨S_, .f32⟩
  | 113 => ⟨S1024x48x256, .f32⟩
  | 114 => ⟨S1024x48x256, .f32⟩
  | 115 => ⟨S1024x48x256, .f32⟩
  | 116 => ⟨S_, .f32⟩
  | 117 => ⟨S1024x48x256, .f32⟩
  | 118 => ⟨S1024x48x256, .f32⟩
  | 119 => ⟨S1024x48x256, .f32⟩
  | 120 => ⟨S1x192x256, .f32⟩
  | 121 => ⟨S192x256, .f32⟩
  | 122 => ⟨S1024x48x192, .f32⟩
  | 123 => ⟨S1x192, .f32⟩
  | 124 => ⟨S192, .f32⟩
  | 125 => ⟨S1x1x192, .f32⟩
  | 126 => ⟨S1024x48x192, .f32⟩
  | 127 => ⟨S1024x48x192, .f32⟩
  | _ => ⟨S1024x48, .i32⟩

abbrev hbmTy0_1 (i : Nat) : BufTy := match i % 128 with
  | 0 => ⟨S_, .f32⟩
  | 1 => ⟨S_, .f32⟩
  | 2 => ⟨S1024x48x192, .f32⟩
  | 3 => ⟨S1024x48x192, .f32⟩
  | 4 => ⟨S_, .f32⟩
  | 5 => ⟨S1024x48x192, .f32⟩
  | 6 => ⟨S1024x48x192, .f32⟩
  | 7 => ⟨S_, .f32⟩
  | 8 => ⟨S1024x48x192, .f32⟩
  | 9 => ⟨S1024x48x192, .f32⟩
  | 10 => ⟨S1024x48x192, .f32⟩
  | 11 => ⟨S_, .f32⟩
  | 12 => ⟨S1024x48x192, .f32⟩
  | 13 => ⟨S1024x48x192, .f32⟩
  | 14 => ⟨S1024x48x192, .f32⟩
  | 15 => ⟨S1x160x192, .f32⟩
  | 16 => ⟨S160x192, .f32⟩
  | 17 => ⟨S1024x48x160, .f32⟩
  | 18 => ⟨S1x160, .f32⟩
  | 19 => ⟨S160, .f32⟩
  | 20 => ⟨S1x1x160, .f32⟩
  | 21 => ⟨S1024x48x160, .f32⟩
  | 22 => ⟨S1024x48x160, .f32⟩
  | 23 => ⟨S_, .f32⟩
  | 24 => ⟨S_, .f32⟩
  | 25 => ⟨S1024x48x160, .f32⟩
  | 26 => ⟨S1024x48x160, .f32⟩
  | 27 => ⟨S_, .f32⟩
  | 28 => ⟨S1024x48x160, .f32⟩
  | 29 => ⟨S1024x48x160, .f32⟩
  | 30 => ⟨S_, .f32⟩
  | 31 => ⟨S1024x48x160, .f32⟩
  | 32 => ⟨S1024x48x160, .f32⟩
  | 33 => ⟨S1024x48x160, .f32⟩
  | 34 => ⟨S_, .f32⟩
  | 35 => ⟨S1024x48x160, .f32⟩
  | 36 => ⟨S1024x48x160, .f32⟩
  | 37 => ⟨S1024x48x160, .f32⟩
  | 38 => ⟨S1x1x160, .f32⟩
  | 39 => ⟨S1x160, .f32⟩
  | 40 => ⟨S1024x48x1, .f32⟩
  | 41 => ⟨S1x1, .f32⟩
  | 42 => ⟨S1, .f32⟩
  | 43 => ⟨S1x1x1, .f32⟩
  | 44 => ⟨S1024x48x1, .f32⟩
  | 45 => ⟨S1024x48x1, .f32⟩
  | 46 => ⟨S1024x48, .f32⟩
  | 47 => ⟨S1024x48, .f32⟩
  | 48 => ⟨S_, .i32⟩
  | 49 => ⟨S1024x48, .i32⟩
  | 50 => ⟨S1024x48, .i1⟩
  | 51 => ⟨S1x256x384, .f32⟩
  | 52 => ⟨S256x384, .f32⟩
  | 53 => ⟨S1024x48x256, .f32⟩
  | 54 => ⟨S1x256, .f32⟩
  | 55 => ⟨S256, .f32⟩
  | 56 => ⟨S1x1x256, .f32⟩
  | 57 => ⟨S1024x48x256, .f32⟩
  | 58 => ⟨S1024x48x256, .f32⟩
  | 59 => ⟨S_, .f32⟩
  | 60 => ⟨S_, .f32⟩
  | 61 => ⟨S1024x48x256, .f32⟩
  | 62 => ⟨S1024x48x256, .f32⟩
  | 63 => ⟨S_, .f32⟩
  | 64 => ⟨S1024x48x256, .f32⟩
  | 65 => ⟨S1024x48x256, .f32⟩
  | 66 => ⟨S_, .f32⟩
  | 67 => ⟨S1024x48x256, .f32⟩
  | 68 => ⟨S1024x48x256, .f32⟩
  | 69 => ⟨S1024x48x256, .f32⟩
  | 70 => ⟨S_, .f32⟩
  | 71 => ⟨S1024x48x256, .f32⟩
  | 72 => ⟨S1024x48x256, .f32⟩
  | 73 => ⟨S1024x48x256, .f32⟩
  | 74 => ⟨S1x192x256, .f32⟩
  | 75 => ⟨S192x256, .f32⟩
  | 76 => ⟨S1024x48x192, .f32⟩
  | 77 => ⟨S1x192, .f32⟩
  | 78 => ⟨S192, .f32⟩
  | 79 => ⟨S1x1x192, .f32⟩
  | 80 => ⟨S1024x48x192, .f32⟩
  | 81 => ⟨S1024x48x192, .f32⟩
  | 82 => ⟨S_, .f32⟩
  | 83 => ⟨S_, .f32⟩
  | 84 => ⟨S1024x48x192, .f32⟩
  | 85 => ⟨S1024x48x192, .f32⟩
  | 86 => ⟨S_, .f32⟩
  | 87 => ⟨S1024x48x192, .f32⟩
  | 88 => ⟨S1024x48x192, .f32⟩
  | 89 => ⟨S_, .f32⟩
  | 90 => ⟨S1024x48x192, .f32⟩
  | 91 => ⟨S1024x48x192, .f32⟩
  | 92 => ⟨S1024x48x192, .f32⟩
  | 93 => ⟨S_, .f32⟩
  | 94 => ⟨S1024x48x192, .f32⟩
  | 95 => ⟨S1024x48x192, .f32⟩
  | 96 => ⟨S1024x48x192, .f32⟩
  | 97 => ⟨S1x160x192, .f32⟩
  | 98 => ⟨S160x192, .f32⟩
  | 99 => ⟨S1024x48x160, .f32⟩
  | 100 => ⟨S1x160, .f32⟩
  | 101 => ⟨S160, .f32⟩
  | 102 => ⟨S1x1x160, .f32⟩
  | 103 => ⟨S1024x48x160, .f32⟩
  | 104 => ⟨S1024x48x160, .f32⟩
  | 105 => ⟨S_, .f32⟩
  | 106 => ⟨S_, .f32⟩
  | 107 => ⟨S1024x48x160, .f32⟩
  | 108 => ⟨S1024x48x160, .f32⟩
  | 109 => ⟨S_, .f32⟩
  | 110 => ⟨S1024x48x160, .f32⟩
  | 111 => ⟨S1024x48x160, .f32⟩
  | 112 => ⟨S_, .f32⟩
  | 113 => ⟨S1024x48x160, .f32⟩
  | 114 => ⟨S1024x48x160, .f32⟩
  | 115 => ⟨S1024x48x160, .f32⟩
  | 116 => ⟨S_, .f32⟩
  | 117 => ⟨S1024x48x160, .f32⟩
  | 118 => ⟨S1024x48x160, .f32⟩
  | 119 => ⟨S1024x48x160, .f32⟩
  | 120 => ⟨S1x1x160, .f32⟩
  | 121 => ⟨S1x160, .f32⟩
  | 122 => ⟨S1024x48x1, .f32⟩
  | 123 => ⟨S1x1, .f32⟩
  | 124 => ⟨S1, .f32⟩
  | 125 => ⟨S1x1x1, .f32⟩
  | 126 => ⟨S1024x48x1, .f32⟩
  | 127 => ⟨S1024x48x1, .f32⟩
  | _ => ⟨S1024x48, .i32⟩

abbrev hbmTy0_2 (i : Nat) : BufTy := match i % 128 with
  | 0 => ⟨S1024x48, .f32⟩
  | 1 => ⟨S1024x48, .f32⟩
  | 2 => ⟨S_, .i32⟩
  | 3 => ⟨S1024x48, .i32⟩
  | 4 => ⟨S1024x48, .i1⟩
  | 5 => ⟨S1x256x384, .f32⟩
  | 6 => ⟨S256x384, .f32⟩
  | 7 => ⟨S1024x48x256, .f32⟩
  | 8 => ⟨S1x256, .f32⟩
  | 9 => ⟨S256, .f32⟩
  | 10 => ⟨S1x1x256, .f32⟩
  | 11 => ⟨S1024x48x256, .f32⟩
  | 12 => ⟨S1024x48x256, .f32⟩
  | 13 => ⟨S_, .f32⟩
  | 14 => ⟨S_, .f32⟩
  | 15 => ⟨S1024x48x256, .f32⟩
  | 16 => ⟨S1024x48x256, .f32⟩
  | 17 => ⟨S_, .f32⟩
  | 18 => ⟨S1024x48x256, .f32⟩
  | 19 => ⟨S1024x48x256, .f32⟩
  | 20 => ⟨S_, .f32⟩
  | 21 => ⟨S1024x48x256, .f32⟩
  | 22 => ⟨S1024x48x256, .f32⟩
  | 23 => ⟨S1024x48x256, .f32⟩
  | 24 => ⟨S_, .f32⟩
  | 25 => ⟨S1024x48x256, .f32⟩
  | 26 => ⟨S1024x48x256, .f32⟩
  | 27 => ⟨S1024x48x256, .f32⟩
  | 28 => ⟨S1x192x256, .f32⟩
  | 29 => ⟨S192x256, .f32⟩
  | 30 => ⟨S1024x48x192, .f32⟩
  | 31 => ⟨S1x192, .f32⟩
  | 32 => ⟨S192, .f32⟩
  | 33 => ⟨S1x1x192, .f32⟩
  | 34 => ⟨S1024x48x192, .f32⟩
  | 35 => ⟨S1024x48x192, .f32⟩
  | 36 => ⟨S_, .f32⟩
  | 37 => ⟨S_, .f32⟩
  | 38 => ⟨S1024x48x192, .f32⟩
  | 39 => ⟨S1024x48x192, .f32⟩
  | 40 => ⟨S_, .f32⟩
  | 41 => ⟨S1024x48x192, .f32⟩
  | 42 => ⟨S1024x48x192, .f32⟩
  | 43 => ⟨S_, .f32⟩
  | 44 => ⟨S1024x48x192, .f32⟩
  | 45 => ⟨S1024x48x192, .f32⟩
  | 46 => ⟨S1024x48x192, .f32⟩
  | 47 => ⟨S_, .f32⟩
  | 48 => ⟨S1024x48x192, .f32⟩
  | 49 => ⟨S1024x48x192, .f32⟩
  | 50 => ⟨S1024x48x192, .f32⟩
  | 51 => ⟨S1x160x192, .f32⟩
  | 52 => ⟨S160x192, .f32⟩
  | 53 => ⟨S1024x48x160, .f32⟩
  | 54 => ⟨S1x160, .f32⟩
  | 55 => ⟨S160, .f32⟩
  | 56 => ⟨S1x1x160, .f32⟩
  | 57 => ⟨S1024x48x160, .f32⟩
  | 58 => ⟨S1024x48x160, .f32⟩
  | 59 => ⟨S_, .f32⟩
  | 60 => ⟨S_, .f32⟩
  | 61 => ⟨S1024x48x160, .f32⟩
  | 62 => ⟨S1024x48x160, .f32⟩
  | 63 => ⟨S_, .f32⟩
  | 64 => ⟨S1024x48x160, .f32⟩
  | 65 => ⟨S1024x48x160, .f32⟩
  | 66 => ⟨S_, .f32⟩
  | 67 => ⟨S1024x48x160, .f32⟩
  | 68 => ⟨S1024x48x160, .f32⟩
  | 69 => ⟨S1024x48x160, .f32⟩
  | 70 => ⟨S_, .f32⟩
  | 71 => ⟨S1024x48x160, .f32⟩
  | 72 => ⟨S1024x48x160, .f32⟩
  | 73 => ⟨S1024x48x160, .f32⟩
  | 74 => ⟨S1x1x160, .f32⟩
  | 75 => ⟨S1x160, .f32⟩
  | 76 => ⟨S1024x48x1, .f32⟩
  | 77 => ⟨S1x1, .f32⟩
  | 78 => ⟨S1, .f32⟩
  | 79 => ⟨S1x1x1, .f32⟩
  | 80 => ⟨S1024x48x1, .f32⟩
  | 81 => ⟨S1024x48x1, .f32⟩
  | 82 => ⟨S1024x48, .f32⟩
  | 83 => ⟨S1024x48, .f32⟩
  | 84 => ⟨S_, .i32⟩
  | 85 => ⟨S1024x48, .i32⟩
  | 86 => ⟨S1024x48, .i1⟩
  | 87 => ⟨S1x256x384, .f32⟩
  | 88 => ⟨S256x384, .f32⟩
  | 89 => ⟨S1024x48x256, .f32⟩
  | 90 => ⟨S1x256, .f32⟩
  | 91 => ⟨S256, .f32⟩
  | 92 => ⟨S1x1x256, .f32⟩
  | 93 => ⟨S1024x48x256, .f32⟩
  | 94 => ⟨S1024x48x256, .f32⟩
  | 95 => ⟨S_, .f32⟩
  | 96 => ⟨S_, .f32⟩
  | 97 => ⟨S1024x48x256, .f32⟩
  | 98 => ⟨S1024x48x256, .f32⟩
  | 99 => ⟨S_, .f32⟩
  | 100 => ⟨S1024x48x256, .f32⟩
  | 101 => ⟨S1024x48x256, .f32⟩
  | 102 => ⟨S_, .f32⟩
  | 103 => ⟨S1024x48x256, .f32⟩
  | 104 => ⟨S1024x48x256, .f32⟩
  | 105 => ⟨S1024x48x256, .f32⟩
  | 106 => ⟨S_, .f32⟩
  | 107 => ⟨S1024x48x256, .f32⟩
  | 108 => ⟨S1024x48x256, .f32⟩
  | 109 => ⟨S1024x48x256, .f32⟩
  | 110 => ⟨S1x192x256, .f32⟩
  | 111 => ⟨S192x256, .f32⟩
  | 112 => ⟨S1024x48x192, .f32⟩
  | 113 => ⟨S1x192, .f32⟩
  | 114 => ⟨S192, .f32⟩
  | 115 => ⟨S1x1x192, .f32⟩
  | 116 => ⟨S1024x48x192, .f32⟩
  | 117 => ⟨S1024x48x192, .f32⟩
  | 118 => ⟨S_, .f32⟩
  | 119 => ⟨S_, .f32⟩
  | 120 => ⟨S1024x48x192, .f32⟩
  | 121 => ⟨S1024x48x192, .f32⟩
  | 122 => ⟨S_, .f32⟩
  | 123 => ⟨S1024x48x192, .f32⟩
  | 124 => ⟨S1024x48x192, .f32⟩
  | 125 => ⟨S_, .f32⟩
  | 126 => ⟨S1024x48x192, .f32⟩
  | 127 => ⟨S1024x48x192, .f32⟩
  | _ => ⟨S1024x48, .i32⟩

abbrev hbmTy0_3 (i : Nat) : BufTy := match i % 128 with
  | 0 => ⟨S1024x48x192, .f32⟩
  | 1 => ⟨S_, .f32⟩
  | 2 => ⟨S1024x48x192, .f32⟩
  | 3 => ⟨S1024x48x192, .f32⟩
  | 4 => ⟨S1024x48x192, .f32⟩
  | 5 => ⟨S1x160x192, .f32⟩
  | 6 => ⟨S160x192, .f32⟩
  | 7 => ⟨S1024x48x160, .f32⟩
  | 8 => ⟨S1x160, .f32⟩
  | 9 => ⟨S160, .f32⟩
  | 10 => ⟨S1x1x160, .f32⟩
  | 11 => ⟨S1024x48x160, .f32⟩
  | 12 => ⟨S1024x48x160, .f32⟩
  | 13 => ⟨S_, .f32⟩
  | 14 => ⟨S_, .f32⟩
  | 15 => ⟨S1024x48x160, .f32⟩
  | 16 => ⟨S1024x48x160, .f32⟩
  | 17 => ⟨S_, .f32⟩
  | 18 => ⟨S1024x48x160, .f32⟩
  | 19 => ⟨S1024x48x160, .f32⟩
  | 20 => ⟨S_, .f32⟩
  | 21 => ⟨S1024x48x160, .f32⟩
  | 22 => ⟨S1024x48x160, .f32⟩
  | 23 => ⟨S1024x48x160, .f32⟩
  | 24 => ⟨S_, .f32⟩
  | 25 => ⟨S1024x48x160, .f32⟩
  | 26 => ⟨S1024x48x160, .f32⟩
  | 27 => ⟨S1024x48x160, .f32⟩
  | 28 => ⟨S1x1x160, .f32⟩
  | 29 => ⟨S1x160, .f32⟩
  | 30 => ⟨S1024x48x1, .f32⟩
  | 31 => ⟨S1x1, .f32⟩
  | 32 => ⟨S1, .f32⟩
  | 33 => ⟨S1x1x1, .f32⟩
  | 34 => ⟨S1024x48x1, .f32⟩
  | 35 => ⟨S1024x48x1, .f32⟩
  | 36 => ⟨S1024x48, .f32⟩
  | 37 => ⟨S1024x48, .f32⟩
  | 38 => ⟨S_, .i32⟩
  | 39 => ⟨S1024x48, .i32⟩
  | 40 => ⟨S1024x48, .i1⟩
  | 41 => ⟨S1x256x384, .f32⟩
  | 42 => ⟨S256x384, .f32⟩
  | 43 => ⟨S1024x48x256, .f32⟩
  | 44 => ⟨S1x256, .f32⟩
  | 45 => ⟨S256, .f32⟩
  | 46 => ⟨S1x1x256, .f32⟩
  | 47 => ⟨S1024x48x256, .f32⟩
  | 48 => ⟨S1024x48x256, .f32⟩
  | 49 => ⟨S_, .f32⟩
  | 50 => ⟨S_, .f32⟩
  | 51 => ⟨S1024x48x256, .f32⟩
  | 52 => ⟨S1024x48x256, .f32⟩
  | 53 => ⟨S_, .f32⟩
  | 54 => ⟨S1024x48x256, .f32⟩
  | 55 => ⟨S1024x48x256, .f32⟩
  | 56 => ⟨S_, .f32⟩
  | 57 => ⟨S1024x48x256, .f32⟩
  | 58 => ⟨S1024x48x256, .f32⟩
  | 59 => ⟨S1024x48x256, .f32⟩
  | 60 => ⟨S_, .f32⟩
  | 61 => ⟨S1024x48x256, .f32⟩
  | 62 => ⟨S1024x48x256, .f32⟩
  | 63 => ⟨S1024x48x256, .f32⟩
  | 64 => ⟨S1x192x256, .f32⟩
  | 65 => ⟨S192x256, .f32⟩
  | 66 => ⟨S1024x48x192, .f32⟩
  | 67 => ⟨S1x192, .f32⟩
  | 68 => ⟨S192, .f32⟩
  | 69 => ⟨S1x1x192, .f32⟩
  | 70 => ⟨S1024x48x192, .f32⟩
  | 71 => ⟨S1024x48x192, .f32⟩
  | 72 => ⟨S_, .f32⟩
  | 73 => ⟨S_, .f32⟩
  | 74 => ⟨S1024x48x192, .f32⟩
  | 75 => ⟨S1024x48x192, .f32⟩
  | 76 => ⟨S_, .f32⟩
  | 77 => ⟨S1024x48x192, .f32⟩
  | 78 => ⟨S1024x48x192, .f32⟩
  | 79 => ⟨S_, .f32⟩
  | 80 => ⟨S1024x48x192, .f32⟩
  | 81 => ⟨S1024x48x192, .f32⟩
  | 82 => ⟨S1024x48x192, .f32⟩
  | 83 => ⟨S_, .f32⟩
  | 84 => ⟨S1024x48x192, .f32⟩
  | 85 => ⟨S1024x48x192, .f32⟩
  | 86 => ⟨S1024x48x192, .f32⟩
  | 87 => ⟨S1x160x192, .f32⟩
  | 88 => ⟨S160x192, .f32⟩
  | 89 => ⟨S1024x48x160, .f32⟩
  | 90 => ⟨S1x160, .f32⟩
  | 91 => ⟨S160, .f32⟩
  | 92 => ⟨S1x1x160, .f32⟩
  | 93 => ⟨S1024x48x160, .f32⟩
  | 94 => ⟨S1024x48x160, .f32⟩
  | 95 => ⟨S_, .f32⟩
  | 96 => ⟨S_, .f32⟩
  | 97 => ⟨S1024x48x160, .f32⟩
  | 98 => ⟨S1024x48x160, .f32⟩
  | 99 => ⟨S_, .f32⟩
  | 100 => ⟨S1024x48x160, .f32⟩
  | 101 => ⟨S1024x48x160, .f32⟩
  | 102 => ⟨S_, .f32⟩
  | 103 => ⟨S1024x48x160, .f32⟩
  | 104 => ⟨S1024x48x160, .f32⟩
  | 105 => ⟨S1024x48x160, .f32⟩
  | 106 => ⟨S_, .f32⟩
  | 107 => ⟨S1024x48x160, .f32⟩
  | 108 => ⟨S1024x48x160, .f32⟩
  | 109 => ⟨S1024x48x160, .f32⟩
  | 110 => ⟨S1x1x160, .f32⟩
  | 111 => ⟨S1x160, .f32⟩
  | 112 => ⟨S1024x48x1, .f32⟩
  | 113 => ⟨S1x1, .f32⟩
  | 114 => ⟨S1, .f32⟩
  | 115 => ⟨S1x1x1, .f32⟩
  | 116 => ⟨S1024x48x1, .f32⟩
  | 117 => ⟨S1024x48x1, .f32⟩
  | 118 => ⟨S1024x48, .f32⟩
  | 119 => ⟨S1024x48, .f32⟩
  | 120 => ⟨S_, .i32⟩
  | 121 => ⟨S1024x48, .i32⟩
  | 122 => ⟨S1024x48, .i1⟩
  | 123 => ⟨S1x256x384, .f32⟩
  | 124 => ⟨S256x384, .f32⟩
  | 125 => ⟨S1024x48x256, .f32⟩
  | 126 => ⟨S1x256, .f32⟩
  | 127 => ⟨S256, .f32⟩
  | _ => ⟨S1024x48, .i32⟩

abbrev hbmTy0_4 (i : Nat) : BufTy := match i % 128 with
  | 0 => ⟨S1x1x256, .f32⟩
  | 1 => ⟨S1024x48x256, .f32⟩
  | 2 => ⟨S1024x48x256, .f32⟩
  | 3 => ⟨S_, .f32⟩
  | 4 => ⟨S_, .f32⟩
  | 5 => ⟨S1024x48x256, .f32⟩
  | 6 => ⟨S1024x48x256, .f32⟩
  | 7 => ⟨S_, .f32⟩
  | 8 => ⟨S1024x48x256, .f32⟩
  | 9 => ⟨S1024x48x256, .f32⟩
  | 10 => ⟨S_, .f32⟩
  | 11 => ⟨S1024x48x256, .f32⟩
  | 12 => ⟨S1024x48x256, .f32⟩
  | 13 => ⟨S1024x48x256, .f32⟩
  | 14 => ⟨S_, .f32⟩
  | 15 => ⟨S1024x48x256, .f32⟩
  | 16 => ⟨S1024x48x256, .f32⟩
  | 17 => ⟨S1024x48x256, .f32⟩
  | 18 => ⟨S1x192x256, .f32⟩
  | 19 => ⟨S192x256, .f32⟩
  | 20 => ⟨S1024x48x192, .f32⟩
  | 21 => ⟨S1x192, .f32⟩
  | 22 => ⟨S192, .f32⟩
  | 23 => ⟨S1x1x192, .f32⟩
  | 24 => ⟨S1024x48x192, .f32⟩
  | 25 => ⟨S1024x48x192, .f32⟩
  | 26 => ⟨S_, .f32⟩
  | 27 => ⟨S_, .f32⟩
  | 28 => ⟨S1024x48x192, .f32⟩
  | 29 => ⟨S1024x48x192, .f32⟩
  | 30 => ⟨S_, .f32⟩
  | 31 => ⟨S1024x48x192, .f32⟩
  | 32 => ⟨S1024x48x192, .f32⟩
  | 33 => ⟨S_, .f32⟩
  | 34 => ⟨S1024x48x192, .f32⟩
  | 35 => ⟨S1024x48x192, .f32⟩
  | 36 => ⟨S1024x48x192, .f32⟩
  | 37 => ⟨S_, .f32⟩
  | 38 => ⟨S1024x48x192, .f32⟩
  | 39 => ⟨S1024x48x192, .f32⟩
  | 40 => ⟨S1024x48x192, .f32⟩
  | 41 => ⟨S1x160x192, .f32⟩
  | 42 => ⟨S160x192, .f32⟩
  | 43 => ⟨S1024x48x160, .f32⟩
  | 44 => ⟨S1x160, .f32⟩
  | 45 => ⟨S160, .f32⟩
  | 46 => ⟨S1x1x160, .f32⟩
  | 47 => ⟨S1024x48x160, .f32⟩
  | 48 => ⟨S1024x48x160, .f32⟩
  | 49 => ⟨S_, .f32⟩
  | 50 => ⟨S_, .f32⟩
  | 51 => ⟨S1024x48x160, .f32⟩
  | 52 => ⟨S1024x48x160, .f32⟩
  | 53 => ⟨S_, .f32⟩
  | 54 => ⟨S1024x48x160, .f32⟩
  | 55 => ⟨S1024x48x160, .f32⟩
  | 56 => ⟨S_, .f32⟩
  | 57 => ⟨S1024x48x160, .f32⟩
  | 58 => ⟨S1024x48x160, .f32⟩
  | 59 => ⟨S1024x48x160, .f32⟩
  | 60 => ⟨S_, .f32⟩
  | 61 => ⟨S1024x48x160, .f32⟩
  | 62 => ⟨S1024x48x160, .f32⟩
  | 63 => ⟨S1024x48x160, .f32⟩
  | 64 => ⟨S1x1x160, .f32⟩
  | 65 => ⟨S1x160, .f32⟩
  | 66 => ⟨S1024x48x1, .f32⟩
  | 67 => ⟨S1x1, .f32⟩
  | 68 => ⟨S1, .f32⟩
  | 69 => ⟨S1x1x1, .f32⟩
  | 70 => ⟨S1024x48x1, .f32⟩
  | 71 => ⟨S1024x48x1, .f32⟩
  | 72 => ⟨S1024x48, .f32⟩
  | 73 => ⟨S1024x48, .f32⟩
  | 74 => ⟨S_, .f32⟩
  | 75 => ⟨S1024, .f32⟩
  | _ => ⟨S1024x48, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x48, .i32⟩

abbrev bufTy : (tb : Table) → Fin (tcTables nBuf tb) → BufTy
  | .hbm, ⟨i, _⟩ => hbmTy i
  | _, _ => ⟨S1024x48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_2 : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_cst_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_c_3 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_4 : Ref sig .tc := ⟨.hbm, 105, rfl⟩
abbrev main_call4_cst : Ref sig .tc := ⟨.hbm, 106, rfl⟩
abbrev main_call4_v0 : Ref sig .tc := ⟨.hbm, 107, rfl⟩
abbrev main_call4_v1 : Ref sig .tc := ⟨.hbm, 108, rfl⟩
abbrev main_call4_cst_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_5 : Ref sig .tc := ⟨.hbm, 128, rfl⟩
abbrev main_call5_cst : Ref sig .tc := ⟨.hbm, 129, rfl⟩
abbrev main_call5_v0 : Ref sig .tc := ⟨.hbm, 130, rfl⟩
abbrev main_call5_v1 : Ref sig .tc := ⟨.hbm, 131, rfl⟩
abbrev main_call5_cst_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_v8 : Ref sig .tc := ⟨.hbm, 139, rfl⟩
abbrev main_call5_v9 : Ref sig .tc := ⟨.hbm, 140, rfl⟩
abbrev main_call5_v10 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_cst_6 : Ref sig .tc := ⟨.hbm, 151, rfl⟩
abbrev main_call6_cst : Ref sig .tc := ⟨.hbm, 152, rfl⟩
abbrev main_call6_v0 : Ref sig .tc := ⟨.hbm, 153, rfl⟩
abbrev main_call6_v1 : Ref sig .tc := ⟨.hbm, 154, rfl⟩
abbrev main_call6_cst_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_c_7 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_cst_8 : Ref sig .tc := ⟨.hbm, 187, rfl⟩
abbrev main_call8_cst : Ref sig .tc := ⟨.hbm, 188, rfl⟩
abbrev main_call8_v0 : Ref sig .tc := ⟨.hbm, 189, rfl⟩
abbrev main_call8_v1 : Ref sig .tc := ⟨.hbm, 190, rfl⟩
abbrev main_call8_cst_0 : Ref sig .tc := ⟨.hbm, 191, rfl⟩
abbrev main_call8_v2 : Ref sig .tc := ⟨.hbm, 192, rfl⟩
abbrev main_call8_v3 : Ref sig .tc := ⟨.hbm, 193, rfl⟩
abbrev main_call8_v4 : Ref sig .tc := ⟨.hbm, 194, rfl⟩
abbrev main_call8_v5 : Ref sig .tc := ⟨.hbm, 195, rfl⟩
abbrev main_call8_v6 : Ref sig .tc := ⟨.hbm, 196, rfl⟩
abbrev main_call8_v7 : Ref sig .tc := ⟨.hbm, 197, rfl⟩
abbrev main_call8_v8 : Ref sig .tc := ⟨.hbm, 198, rfl⟩
abbrev main_call8_v9 : Ref sig .tc := ⟨.hbm, 199, rfl⟩
abbrev main_call8_v10 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_cst_9 : Ref sig .tc := ⟨.hbm, 210, rfl⟩
abbrev main_call9_cst : Ref sig .tc := ⟨.hbm, 211, rfl⟩
abbrev main_call9_v0 : Ref sig .tc := ⟨.hbm, 212, rfl⟩
abbrev main_call9_v1 : Ref sig .tc := ⟨.hbm, 213, rfl⟩
abbrev main_call9_cst_0 : Ref sig .tc := ⟨.hbm, 214, rfl⟩
abbrev main_call9_v2 : Ref sig .tc := ⟨.hbm, 215, rfl⟩
abbrev main_call9_v3 : Ref sig .tc := ⟨.hbm, 216, rfl⟩
abbrev main_call9_v4 : Ref sig .tc := ⟨.hbm, 217, rfl⟩
abbrev main_call9_v5 : Ref sig .tc := ⟨.hbm, 218, rfl⟩
abbrev main_call9_v6 : Ref sig .tc := ⟨.hbm, 219, rfl⟩
abbrev main_call9_v7 : Ref sig .tc := ⟨.hbm, 220, rfl⟩
abbrev main_call9_v8 : Ref sig .tc := ⟨.hbm, 221, rfl⟩
abbrev main_call9_v9 : Ref sig .tc := ⟨.hbm, 222, rfl⟩
abbrev main_call9_v10 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_cst_10 : Ref sig .tc := ⟨.hbm, 233, rfl⟩
abbrev main_call10_cst : Ref sig .tc := ⟨.hbm, 234, rfl⟩
abbrev main_call10_v0 : Ref sig .tc := ⟨.hbm, 235, rfl⟩
abbrev main_call10_v1 : Ref sig .tc := ⟨.hbm, 236, rfl⟩
abbrev main_call10_cst_0 : Ref sig .tc := ⟨.hbm, 237, rfl⟩
abbrev main_call10_v2 : Ref sig .tc := ⟨.hbm, 238, rfl⟩
abbrev main_call10_v3 : Ref sig .tc := ⟨.hbm, 239, rfl⟩
abbrev main_call10_v4 : Ref sig .tc := ⟨.hbm, 240, rfl⟩
abbrev main_call10_v5 : Ref sig .tc := ⟨.hbm, 241, rfl⟩
abbrev main_call10_v6 : Ref sig .tc := ⟨.hbm, 242, rfl⟩
abbrev main_call10_v7 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_c_11 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_cst_12 : Ref sig .tc := ⟨.hbm, 269, rfl⟩
abbrev main_call12_cst : Ref sig .tc := ⟨.hbm, 270, rfl⟩
abbrev main_call12_v0 : Ref sig .tc := ⟨.hbm, 271, rfl⟩
abbrev main_call12_v1 : Ref sig .tc := ⟨.hbm, 272, rfl⟩
abbrev main_call12_cst_0 : Ref sig .tc := ⟨.hbm, 273, rfl⟩
abbrev main_call12_v2 : Ref sig .tc := ⟨.hbm, 274, rfl⟩
abbrev main_call12_v3 : Ref sig .tc := ⟨.hbm, 275, rfl⟩
abbrev main_call12_v4 : Ref sig .tc := ⟨.hbm, 276, rfl⟩
abbrev main_call12_v5 : Ref sig .tc := ⟨.hbm, 277, rfl⟩
abbrev main_call12_v6 : Ref sig .tc := ⟨.hbm, 278, rfl⟩
abbrev main_call12_v7 : Ref sig .tc := ⟨.hbm, 279, rfl⟩
abbrev main_call12_v8 : Ref sig .tc := ⟨.hbm, 280, rfl⟩
abbrev main_call12_v9 : Ref sig .tc := ⟨.hbm, 281, rfl⟩
abbrev main_call12_v10 : Ref sig .tc := ⟨.hbm, 282, rfl⟩
abbrev main_v128 : Ref sig .tc := ⟨.hbm, 283, rfl⟩
abbrev main_v129 : Ref sig .tc := ⟨.hbm, 284, rfl⟩
abbrev main_v130 : Ref sig .tc := ⟨.hbm, 285, rfl⟩
abbrev main_v131 : Ref sig .tc := ⟨.hbm, 286, rfl⟩
abbrev main_v132 : Ref sig .tc := ⟨.hbm, 287, rfl⟩
abbrev main_v133 : Ref sig .tc := ⟨.hbm, 288, rfl⟩
abbrev main_v134 : Ref sig .tc := ⟨.hbm, 289, rfl⟩
abbrev main_v135 : Ref sig .tc := ⟨.hbm, 290, rfl⟩
abbrev main_v136 : Ref sig .tc := ⟨.hbm, 291, rfl⟩
abbrev main_cst_13 : Ref sig .tc := ⟨.hbm, 292, rfl⟩
abbrev main_call13_cst : Ref sig .tc := ⟨.hbm, 293, rfl⟩
abbrev main_call13_v0 : Ref sig .tc := ⟨.hbm, 294, rfl⟩
abbrev main_call13_v1 : Ref sig .tc := ⟨.hbm, 295, rfl⟩
abbrev main_call13_cst_0 : Ref sig .tc := ⟨.hbm, 296, rfl⟩
abbrev main_call13_v2 : Ref sig .tc := ⟨.hbm, 297, rfl⟩
abbrev main_call13_v3 : Ref sig .tc := ⟨.hbm, 298, rfl⟩
abbrev main_call13_v4 : Ref sig .tc := ⟨.hbm, 299, rfl⟩
abbrev main_call13_v5 : Ref sig .tc := ⟨.hbm, 300, rfl⟩
abbrev main_call13_v6 : Ref sig .tc := ⟨.hbm, 301, rfl⟩
abbrev main_call13_v7 : Ref sig .tc := ⟨.hbm, 302, rfl⟩
abbrev main_call13_v8 : Ref sig .tc := ⟨.hbm, 303, rfl⟩
abbrev main_call13_v9 : Ref sig .tc := ⟨.hbm, 304, rfl⟩
abbrev main_call13_v10 : Ref sig .tc := ⟨.hbm, 305, rfl⟩
abbrev main_v137 : Ref sig .tc := ⟨.hbm, 306, rfl⟩
abbrev main_v138 : Ref sig .tc := ⟨.hbm, 307, rfl⟩
abbrev main_v139 : Ref sig .tc := ⟨.hbm, 308, rfl⟩
abbrev main_v140 : Ref sig .tc := ⟨.hbm, 309, rfl⟩
abbrev main_v141 : Ref sig .tc := ⟨.hbm, 310, rfl⟩
abbrev main_v142 : Ref sig .tc := ⟨.hbm, 311, rfl⟩
abbrev main_v143 : Ref sig .tc := ⟨.hbm, 312, rfl⟩
abbrev main_v144 : Ref sig .tc := ⟨.hbm, 313, rfl⟩
abbrev main_v145 : Ref sig .tc := ⟨.hbm, 314, rfl⟩
abbrev main_cst_14 : Ref sig .tc := ⟨.hbm, 315, rfl⟩
abbrev main_call14_cst : Ref sig .tc := ⟨.hbm, 316, rfl⟩
abbrev main_call14_v0 : Ref sig .tc := ⟨.hbm, 317, rfl⟩
abbrev main_call14_v1 : Ref sig .tc := ⟨.hbm, 318, rfl⟩
abbrev main_call14_cst_0 : Ref sig .tc := ⟨.hbm, 319, rfl⟩
abbrev main_call14_v2 : Ref sig .tc := ⟨.hbm, 320, rfl⟩
abbrev main_call14_v3 : Ref sig .tc := ⟨.hbm, 321, rfl⟩
abbrev main_call14_v4 : Ref sig .tc := ⟨.hbm, 322, rfl⟩
abbrev main_call14_v5 : Ref sig .tc := ⟨.hbm, 323, rfl⟩
abbrev main_call14_v6 : Ref sig .tc := ⟨.hbm, 324, rfl⟩
abbrev main_call14_v7 : Ref sig .tc := ⟨.hbm, 325, rfl⟩
abbrev main_call14_v8 : Ref sig .tc := ⟨.hbm, 326, rfl⟩
abbrev main_call14_v9 : Ref sig .tc := ⟨.hbm, 327, rfl⟩
abbrev main_call14_v10 : Ref sig .tc := ⟨.hbm, 328, rfl⟩
abbrev main_v146 : Ref sig .tc := ⟨.hbm, 329, rfl⟩
abbrev main_v147 : Ref sig .tc := ⟨.hbm, 330, rfl⟩
abbrev main_v148 : Ref sig .tc := ⟨.hbm, 331, rfl⟩
abbrev main_v149 : Ref sig .tc := ⟨.hbm, 332, rfl⟩
abbrev main_v150 : Ref sig .tc := ⟨.hbm, 333, rfl⟩
abbrev main_v151 : Ref sig .tc := ⟨.hbm, 334, rfl⟩
abbrev main_v152 : Ref sig .tc := ⟨.hbm, 335, rfl⟩
abbrev main_v153 : Ref sig .tc := ⟨.hbm, 336, rfl⟩
abbrev main_v154 : Ref sig .tc := ⟨.hbm, 337, rfl⟩
abbrev main_v155 : Ref sig .tc := ⟨.hbm, 338, rfl⟩
abbrev main_v156 : Ref sig .tc := ⟨.hbm, 339, rfl⟩
abbrev main_c_15 : Ref sig .tc := ⟨.hbm, 340, rfl⟩
abbrev main_v157 : Ref sig .tc := ⟨.hbm, 341, rfl⟩
abbrev main_v158 : Ref sig .tc := ⟨.hbm, 342, rfl⟩
abbrev main_v159 : Ref sig .tc := ⟨.hbm, 343, rfl⟩
abbrev main_v160 : Ref sig .tc := ⟨.hbm, 344, rfl⟩
abbrev main_v161 : Ref sig .tc := ⟨.hbm, 345, rfl⟩
abbrev main_v162 : Ref sig .tc := ⟨.hbm, 346, rfl⟩
abbrev main_v163 : Ref sig .tc := ⟨.hbm, 347, rfl⟩
abbrev main_v164 : Ref sig .tc := ⟨.hbm, 348, rfl⟩
abbrev main_v165 : Ref sig .tc := ⟨.hbm, 349, rfl⟩
abbrev main_v166 : Ref sig .tc := ⟨.hbm, 350, rfl⟩
abbrev main_cst_16 : Ref sig .tc := ⟨.hbm, 351, rfl⟩
abbrev main_call16_cst : Ref sig .tc := ⟨.hbm, 352, rfl⟩
abbrev main_call16_v0 : Ref sig .tc := ⟨.hbm, 353, rfl⟩
abbrev main_call16_v1 : Ref sig .tc := ⟨.hbm, 354, rfl⟩
abbrev main_call16_cst_0 : Ref sig .tc := ⟨.hbm, 355, rfl⟩
abbrev main_call16_v2 : Ref sig .tc := ⟨.hbm, 356, rfl⟩
abbrev main_call16_v3 : Ref sig .tc := ⟨.hbm, 357, rfl⟩
abbrev main_call16_v4 : Ref sig .tc := ⟨.hbm, 358, rfl⟩
abbrev main_call16_v5 : Ref sig .tc := ⟨.hbm, 359, rfl⟩
abbrev main_call16_v6 : Ref sig .tc := ⟨.hbm, 360, rfl⟩
abbrev main_call16_v7 : Ref sig .tc := ⟨.hbm, 361, rfl⟩
abbrev main_call16_v8 : Ref sig .tc := ⟨.hbm, 362, rfl⟩
abbrev main_call16_v9 : Ref sig .tc := ⟨.hbm, 363, rfl⟩
abbrev main_call16_v10 : Ref sig .tc := ⟨.hbm, 364, rfl⟩
abbrev main_v167 : Ref sig .tc := ⟨.hbm, 365, rfl⟩
abbrev main_v168 : Ref sig .tc := ⟨.hbm, 366, rfl⟩
abbrev main_v169 : Ref sig .tc := ⟨.hbm, 367, rfl⟩
abbrev main_v170 : Ref sig .tc := ⟨.hbm, 368, rfl⟩
abbrev main_v171 : Ref sig .tc := ⟨.hbm, 369, rfl⟩
abbrev main_v172 : Ref sig .tc := ⟨.hbm, 370, rfl⟩
abbrev main_v173 : Ref sig .tc := ⟨.hbm, 371, rfl⟩
abbrev main_v174 : Ref sig .tc := ⟨.hbm, 372, rfl⟩
abbrev main_v175 : Ref sig .tc := ⟨.hbm, 373, rfl⟩
abbrev main_cst_17 : Ref sig .tc := ⟨.hbm, 374, rfl⟩
abbrev main_call17_cst : Ref sig .tc := ⟨.hbm, 375, rfl⟩
abbrev main_call17_v0 : Ref sig .tc := ⟨.hbm, 376, rfl⟩
abbrev main_call17_v1 : Ref sig .tc := ⟨.hbm, 377, rfl⟩
abbrev main_call17_cst_0 : Ref sig .tc := ⟨.hbm, 378, rfl⟩
abbrev main_call17_v2 : Ref sig .tc := ⟨.hbm, 379, rfl⟩
abbrev main_call17_v3 : Ref sig .tc := ⟨.hbm, 380, rfl⟩
abbrev main_call17_v4 : Ref sig .tc := ⟨.hbm, 381, rfl⟩
abbrev main_call17_v5 : Ref sig .tc := ⟨.hbm, 382, rfl⟩
abbrev main_call17_v6 : Ref sig .tc := ⟨.hbm, 383, rfl⟩
abbrev main_call17_v7 : Ref sig .tc := ⟨.hbm, 384, rfl⟩
abbrev main_call17_v8 : Ref sig .tc := ⟨.hbm, 385, rfl⟩
abbrev main_call17_v9 : Ref sig .tc := ⟨.hbm, 386, rfl⟩
abbrev main_call17_v10 : Ref sig .tc := ⟨.hbm, 387, rfl⟩
abbrev main_v176 : Ref sig .tc := ⟨.hbm, 388, rfl⟩
abbrev main_v177 : Ref sig .tc := ⟨.hbm, 389, rfl⟩
abbrev main_v178 : Ref sig .tc := ⟨.hbm, 390, rfl⟩
abbrev main_v179 : Ref sig .tc := ⟨.hbm, 391, rfl⟩
abbrev main_v180 : Ref sig .tc := ⟨.hbm, 392, rfl⟩
abbrev main_v181 : Ref sig .tc := ⟨.hbm, 393, rfl⟩
abbrev main_v182 : Ref sig .tc := ⟨.hbm, 394, rfl⟩
abbrev main_v183 : Ref sig .tc := ⟨.hbm, 395, rfl⟩
abbrev main_v184 : Ref sig .tc := ⟨.hbm, 396, rfl⟩
abbrev main_cst_18 : Ref sig .tc := ⟨.hbm, 397, rfl⟩
abbrev main_call18_cst : Ref sig .tc := ⟨.hbm, 398, rfl⟩
abbrev main_call18_v0 : Ref sig .tc := ⟨.hbm, 399, rfl⟩
abbrev main_call18_v1 : Ref sig .tc := ⟨.hbm, 400, rfl⟩
abbrev main_call18_cst_0 : Ref sig .tc := ⟨.hbm, 401, rfl⟩
abbrev main_call18_v2 : Ref sig .tc := ⟨.hbm, 402, rfl⟩
abbrev main_call18_v3 : Ref sig .tc := ⟨.hbm, 403, rfl⟩
abbrev main_call18_v4 : Ref sig .tc := ⟨.hbm, 404, rfl⟩
abbrev main_call18_v5 : Ref sig .tc := ⟨.hbm, 405, rfl⟩
abbrev main_call18_v6 : Ref sig .tc := ⟨.hbm, 406, rfl⟩
abbrev main_call18_v7 : Ref sig .tc := ⟨.hbm, 407, rfl⟩
abbrev main_call18_v8 : Ref sig .tc := ⟨.hbm, 408, rfl⟩
abbrev main_call18_v9 : Ref sig .tc := ⟨.hbm, 409, rfl⟩
abbrev main_call18_v10 : Ref sig .tc := ⟨.hbm, 410, rfl⟩
abbrev main_v185 : Ref sig .tc := ⟨.hbm, 411, rfl⟩
abbrev main_v186 : Ref sig .tc := ⟨.hbm, 412, rfl⟩
abbrev main_v187 : Ref sig .tc := ⟨.hbm, 413, rfl⟩
abbrev main_v188 : Ref sig .tc := ⟨.hbm, 414, rfl⟩
abbrev main_v189 : Ref sig .tc := ⟨.hbm, 415, rfl⟩
abbrev main_v190 : Ref sig .tc := ⟨.hbm, 416, rfl⟩
abbrev main_v191 : Ref sig .tc := ⟨.hbm, 417, rfl⟩
abbrev main_v192 : Ref sig .tc := ⟨.hbm, 418, rfl⟩
abbrev main_v193 : Ref sig .tc := ⟨.hbm, 419, rfl⟩
abbrev main_v194 : Ref sig .tc := ⟨.hbm, 420, rfl⟩
abbrev main_v195 : Ref sig .tc := ⟨.hbm, 421, rfl⟩
abbrev main_c_19 : Ref sig .tc := ⟨.hbm, 422, rfl⟩
abbrev main_v196 : Ref sig .tc := ⟨.hbm, 423, rfl⟩
abbrev main_v197 : Ref sig .tc := ⟨.hbm, 424, rfl⟩
abbrev main_v198 : Ref sig .tc := ⟨.hbm, 425, rfl⟩
abbrev main_v199 : Ref sig .tc := ⟨.hbm, 426, rfl⟩
abbrev main_v200 : Ref sig .tc := ⟨.hbm, 427, rfl⟩
abbrev main_v201 : Ref sig .tc := ⟨.hbm, 428, rfl⟩
abbrev main_v202 : Ref sig .tc := ⟨.hbm, 429, rfl⟩
abbrev main_v203 : Ref sig .tc := ⟨.hbm, 430, rfl⟩
abbrev main_v204 : Ref sig .tc := ⟨.hbm, 431, rfl⟩
abbrev main_v205 : Ref sig .tc := ⟨.hbm, 432, rfl⟩
abbrev main_cst_20 : Ref sig .tc := ⟨.hbm, 433, rfl⟩
abbrev main_call20_cst : Ref sig .tc := ⟨.hbm, 434, rfl⟩
abbrev main_call20_v0 : Ref sig .tc := ⟨.hbm, 435, rfl⟩
abbrev main_call20_v1 : Ref sig .tc := ⟨.hbm, 436, rfl⟩
abbrev main_call20_cst_0 : Ref sig .tc := ⟨.hbm, 437, rfl⟩
abbrev main_call20_v2 : Ref sig .tc := ⟨.hbm, 438, rfl⟩
abbrev main_call20_v3 : Ref sig .tc := ⟨.hbm, 439, rfl⟩
abbrev main_call20_v4 : Ref sig .tc := ⟨.hbm, 440, rfl⟩
abbrev main_call20_v5 : Ref sig .tc := ⟨.hbm, 441, rfl⟩
abbrev main_call20_v6 : Ref sig .tc := ⟨.hbm, 442, rfl⟩
abbrev main_call20_v7 : Ref sig .tc := ⟨.hbm, 443, rfl⟩
abbrev main_call20_v8 : Ref sig .tc := ⟨.hbm, 444, rfl⟩
abbrev main_call20_v9 : Ref sig .tc := ⟨.hbm, 445, rfl⟩
abbrev main_call20_v10 : Ref sig .tc := ⟨.hbm, 446, rfl⟩
abbrev main_v206 : Ref sig .tc := ⟨.hbm, 447, rfl⟩
abbrev main_v207 : Ref sig .tc := ⟨.hbm, 448, rfl⟩
abbrev main_v208 : Ref sig .tc := ⟨.hbm, 449, rfl⟩
abbrev main_v209 : Ref sig .tc := ⟨.hbm, 450, rfl⟩
abbrev main_v210 : Ref sig .tc := ⟨.hbm, 451, rfl⟩
abbrev main_v211 : Ref sig .tc := ⟨.hbm, 452, rfl⟩
abbrev main_v212 : Ref sig .tc := ⟨.hbm, 453, rfl⟩
abbrev main_v213 : Ref sig .tc := ⟨.hbm, 454, rfl⟩
abbrev main_v214 : Ref sig .tc := ⟨.hbm, 455, rfl⟩
abbrev main_cst_21 : Ref sig .tc := ⟨.hbm, 456, rfl⟩
abbrev main_call21_cst : Ref sig .tc := ⟨.hbm, 457, rfl⟩
abbrev main_call21_v0 : Ref sig .tc := ⟨.hbm, 458, rfl⟩
abbrev main_call21_v1 : Ref sig .tc := ⟨.hbm, 459, rfl⟩
abbrev main_call21_cst_0 : Ref sig .tc := ⟨.hbm, 460, rfl⟩
abbrev main_call21_v2 : Ref sig .tc := ⟨.hbm, 461, rfl⟩
abbrev main_call21_v3 : Ref sig .tc := ⟨.hbm, 462, rfl⟩
abbrev main_call21_v4 : Ref sig .tc := ⟨.hbm, 463, rfl⟩
abbrev main_call21_v5 : Ref sig .tc := ⟨.hbm, 464, rfl⟩
abbrev main_call21_v6 : Ref sig .tc := ⟨.hbm, 465, rfl⟩
abbrev main_call21_v7 : Ref sig .tc := ⟨.hbm, 466, rfl⟩
abbrev main_call21_v8 : Ref sig .tc := ⟨.hbm, 467, rfl⟩
abbrev main_call21_v9 : Ref sig .tc := ⟨.hbm, 468, rfl⟩
abbrev main_call21_v10 : Ref sig .tc := ⟨.hbm, 469, rfl⟩
abbrev main_v215 : Ref sig .tc := ⟨.hbm, 470, rfl⟩
abbrev main_v216 : Ref sig .tc := ⟨.hbm, 471, rfl⟩
abbrev main_v217 : Ref sig .tc := ⟨.hbm, 472, rfl⟩
abbrev main_v218 : Ref sig .tc := ⟨.hbm, 473, rfl⟩
abbrev main_v219 : Ref sig .tc := ⟨.hbm, 474, rfl⟩
abbrev main_v220 : Ref sig .tc := ⟨.hbm, 475, rfl⟩
abbrev main_v221 : Ref sig .tc := ⟨.hbm, 476, rfl⟩
abbrev main_v222 : Ref sig .tc := ⟨.hbm, 477, rfl⟩
abbrev main_v223 : Ref sig .tc := ⟨.hbm, 478, rfl⟩
abbrev main_cst_22 : Ref sig .tc := ⟨.hbm, 479, rfl⟩
abbrev main_call22_cst : Ref sig .tc := ⟨.hbm, 480, rfl⟩
abbrev main_call22_v0 : Ref sig .tc := ⟨.hbm, 481, rfl⟩
abbrev main_call22_v1 : Ref sig .tc := ⟨.hbm, 482, rfl⟩
abbrev main_call22_cst_0 : Ref sig .tc := ⟨.hbm, 483, rfl⟩
abbrev main_call22_v2 : Ref sig .tc := ⟨.hbm, 484, rfl⟩
abbrev main_call22_v3 : Ref sig .tc := ⟨.hbm, 485, rfl⟩
abbrev main_call22_v4 : Ref sig .tc := ⟨.hbm, 486, rfl⟩
abbrev main_call22_v5 : Ref sig .tc := ⟨.hbm, 487, rfl⟩
abbrev main_call22_v6 : Ref sig .tc := ⟨.hbm, 488, rfl⟩
abbrev main_call22_v7 : Ref sig .tc := ⟨.hbm, 489, rfl⟩
abbrev main_call22_v8 : Ref sig .tc := ⟨.hbm, 490, rfl⟩
abbrev main_call22_v9 : Ref sig .tc := ⟨.hbm, 491, rfl⟩
abbrev main_call22_v10 : Ref sig .tc := ⟨.hbm, 492, rfl⟩
abbrev main_v224 : Ref sig .tc := ⟨.hbm, 493, rfl⟩
abbrev main_v225 : Ref sig .tc := ⟨.hbm, 494, rfl⟩
abbrev main_v226 : Ref sig .tc := ⟨.hbm, 495, rfl⟩
abbrev main_v227 : Ref sig .tc := ⟨.hbm, 496, rfl⟩
abbrev main_v228 : Ref sig .tc := ⟨.hbm, 497, rfl⟩
abbrev main_v229 : Ref sig .tc := ⟨.hbm, 498, rfl⟩
abbrev main_v230 : Ref sig .tc := ⟨.hbm, 499, rfl⟩
abbrev main_v231 : Ref sig .tc := ⟨.hbm, 500, rfl⟩
abbrev main_v232 : Ref sig .tc := ⟨.hbm, 501, rfl⟩
abbrev main_v233 : Ref sig .tc := ⟨.hbm, 502, rfl⟩
abbrev main_v234 : Ref sig .tc := ⟨.hbm, 503, rfl⟩
abbrev main_c_23 : Ref sig .tc := ⟨.hbm, 504, rfl⟩
abbrev main_v235 : Ref sig .tc := ⟨.hbm, 505, rfl⟩
abbrev main_v236 : Ref sig .tc := ⟨.hbm, 506, rfl⟩
abbrev main_v237 : Ref sig .tc := ⟨.hbm, 507, rfl⟩
abbrev main_v238 : Ref sig .tc := ⟨.hbm, 508, rfl⟩
abbrev main_v239 : Ref sig .tc := ⟨.hbm, 509, rfl⟩
abbrev main_v240 : Ref sig .tc := ⟨.hbm, 510, rfl⟩
abbrev main_v241 : Ref sig .tc := ⟨.hbm, 511, rfl⟩
abbrev main_v242 : Ref sig .tc := ⟨.hbm, 512, rfl⟩
abbrev main_v243 : Ref sig .tc := ⟨.hbm, 513, rfl⟩
abbrev main_v244 : Ref sig .tc := ⟨.hbm, 514, rfl⟩
abbrev main_cst_24 : Ref sig .tc := ⟨.hbm, 515, rfl⟩
abbrev main_call24_cst : Ref sig .tc := ⟨.hbm, 516, rfl⟩
abbrev main_call24_v0 : Ref sig .tc := ⟨.hbm, 517, rfl⟩
abbrev main_call24_v1 : Ref sig .tc := ⟨.hbm, 518, rfl⟩
abbrev main_call24_cst_0 : Ref sig .tc := ⟨.hbm, 519, rfl⟩
abbrev main_call24_v2 : Ref sig .tc := ⟨.hbm, 520, rfl⟩
abbrev main_call24_v3 : Ref sig .tc := ⟨.hbm, 521, rfl⟩
abbrev main_call24_v4 : Ref sig .tc := ⟨.hbm, 522, rfl⟩
abbrev main_call24_v5 : Ref sig .tc := ⟨.hbm, 523, rfl⟩
abbrev main_call24_v6 : Ref sig .tc := ⟨.hbm, 524, rfl⟩
abbrev main_call24_v7 : Ref sig .tc := ⟨.hbm, 525, rfl⟩
abbrev main_call24_v8 : Ref sig .tc := ⟨.hbm, 526, rfl⟩
abbrev main_call24_v9 : Ref sig .tc := ⟨.hbm, 527, rfl⟩
abbrev main_call24_v10 : Ref sig .tc := ⟨.hbm, 528, rfl⟩
abbrev main_v245 : Ref sig .tc := ⟨.hbm, 529, rfl⟩
abbrev main_v246 : Ref sig .tc := ⟨.hbm, 530, rfl⟩
abbrev main_v247 : Ref sig .tc := ⟨.hbm, 531, rfl⟩
abbrev main_v248 : Ref sig .tc := ⟨.hbm, 532, rfl⟩
abbrev main_v249 : Ref sig .tc := ⟨.hbm, 533, rfl⟩
abbrev main_v250 : Ref sig .tc := ⟨.hbm, 534, rfl⟩
abbrev main_v251 : Ref sig .tc := ⟨.hbm, 535, rfl⟩
abbrev main_v252 : Ref sig .tc := ⟨.hbm, 536, rfl⟩
abbrev main_v253 : Ref sig .tc := ⟨.hbm, 537, rfl⟩
abbrev main_cst_25 : Ref sig .tc := ⟨.hbm, 538, rfl⟩
abbrev main_call25_cst : Ref sig .tc := ⟨.hbm, 539, rfl⟩
abbrev main_call25_v0 : Ref sig .tc := ⟨.hbm, 540, rfl⟩
abbrev main_call25_v1 : Ref sig .tc := ⟨.hbm, 541, rfl⟩
abbrev main_call25_cst_0 : Ref sig .tc := ⟨.hbm, 542, rfl⟩
abbrev main_call25_v2 : Ref sig .tc := ⟨.hbm, 543, rfl⟩
abbrev main_call25_v3 : Ref sig .tc := ⟨.hbm, 544, rfl⟩
abbrev main_call25_v4 : Ref sig .tc := ⟨.hbm, 545, rfl⟩
abbrev main_call25_v5 : Ref sig .tc := ⟨.hbm, 546, rfl⟩
abbrev main_call25_v6 : Ref sig .tc := ⟨.hbm, 547, rfl⟩
abbrev main_call25_v7 : Ref sig .tc := ⟨.hbm, 548, rfl⟩
abbrev main_call25_v8 : Ref sig .tc := ⟨.hbm, 549, rfl⟩
abbrev main_call25_v9 : Ref sig .tc := ⟨.hbm, 550, rfl⟩
abbrev main_call25_v10 : Ref sig .tc := ⟨.hbm, 551, rfl⟩
abbrev main_v254 : Ref sig .tc := ⟨.hbm, 552, rfl⟩
abbrev main_v255 : Ref sig .tc := ⟨.hbm, 553, rfl⟩
abbrev main_v256 : Ref sig .tc := ⟨.hbm, 554, rfl⟩
abbrev main_v257 : Ref sig .tc := ⟨.hbm, 555, rfl⟩
abbrev main_v258 : Ref sig .tc := ⟨.hbm, 556, rfl⟩
abbrev main_v259 : Ref sig .tc := ⟨.hbm, 557, rfl⟩
abbrev main_v260 : Ref sig .tc := ⟨.hbm, 558, rfl⟩
abbrev main_v261 : Ref sig .tc := ⟨.hbm, 559, rfl⟩
abbrev main_v262 : Ref sig .tc := ⟨.hbm, 560, rfl⟩
abbrev main_cst_26 : Ref sig .tc := ⟨.hbm, 561, rfl⟩
abbrev main_call26_cst : Ref sig .tc := ⟨.hbm, 562, rfl⟩
abbrev main_call26_v0 : Ref sig .tc := ⟨.hbm, 563, rfl⟩
abbrev main_call26_v1 : Ref sig .tc := ⟨.hbm, 564, rfl⟩
abbrev main_call26_cst_0 : Ref sig .tc := ⟨.hbm, 565, rfl⟩
abbrev main_call26_v2 : Ref sig .tc := ⟨.hbm, 566, rfl⟩
abbrev main_call26_v3 : Ref sig .tc := ⟨.hbm, 567, rfl⟩
abbrev main_call26_v4 : Ref sig .tc := ⟨.hbm, 568, rfl⟩
abbrev main_call26_v5 : Ref sig .tc := ⟨.hbm, 569, rfl⟩
abbrev main_call26_v6 : Ref sig .tc := ⟨.hbm, 570, rfl⟩
abbrev main_call26_v7 : Ref sig .tc := ⟨.hbm, 571, rfl⟩
abbrev main_call26_v8 : Ref sig .tc := ⟨.hbm, 572, rfl⟩
abbrev main_call26_v9 : Ref sig .tc := ⟨.hbm, 573, rfl⟩
abbrev main_call26_v10 : Ref sig .tc := ⟨.hbm, 574, rfl⟩
abbrev main_v263 : Ref sig .tc := ⟨.hbm, 575, rfl⟩
abbrev main_v264 : Ref sig .tc := ⟨.hbm, 576, rfl⟩
abbrev main_v265 : Ref sig .tc := ⟨.hbm, 577, rfl⟩
abbrev main_v266 : Ref sig .tc := ⟨.hbm, 578, rfl⟩
abbrev main_v267 : Ref sig .tc := ⟨.hbm, 579, rfl⟩
abbrev main_v268 : Ref sig .tc := ⟨.hbm, 580, rfl⟩
abbrev main_v269 : Ref sig .tc := ⟨.hbm, 581, rfl⟩
abbrev main_v270 : Ref sig .tc := ⟨.hbm, 582, rfl⟩
abbrev main_v271 : Ref sig .tc := ⟨.hbm, 583, rfl⟩
abbrev main_v272 : Ref sig .tc := ⟨.hbm, 584, rfl⟩
abbrev main_v273 : Ref sig .tc := ⟨.hbm, 585, rfl⟩
abbrev main_cst_27 : Ref sig .tc := ⟨.hbm, 586, rfl⟩
abbrev main_v274 : Ref sig .tc := ⟨.hbm, 587, rfl⟩

abbrev nD : Nat := 1
abbrev τ : Topo := Topo.v7x

variable {F : FTy → Type} [FloatOps F]

class Facts₀ : Prop where
  bcast_S_S1024x48 : S_.BroadcastsInDim S1024x48 (![] : Fin 0 → Fin S1024x48.rank)
  slices_S7x256x384_S1x256x384_0_0_0 : S7x256x384.Slices ![0, 0, 0] S1x256x384
  shapeCasts_S1x256x384_S256x384 : S1x256x384.ShapeCasts S256x384
  slices_S7x256_S1x256_0_0 : S7x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S1024x48x256_0_1_2 : S1x1x256.BroadcastsInDim S1024x48x256 (![0, 1, 2] : Fin 3 → Fin S1024x48x256.rank)
  bcast_S_S1024x48x256 : S_.BroadcastsInDim S1024x48x256 (![] : Fin 0 → Fin S1024x48x256.rank)
  slices_S7x192x256_S1x192x256_0_0_0 : S7x192x256.Slices ![0, 0, 0] S1x192x256
  shapeCasts_S1x192x256_S192x256 : S1x192x256.ShapeCasts S192x256
  slices_S7x192_S1x192_0_0 : S7x192.Slices ![0, 0] S1x192
  shapeCasts_S1x192_S192 : S1x192.ShapeCasts S192
  bcast_S192_S1x1x192_2 : S192.BroadcastsInDim S1x1x192 (![2] : Fin 1 → Fin S1x1x192.rank)
  bcast_S1x1x192_S1024x48x192_0_1_2 : S1x1x192.BroadcastsInDim S1024x48x192 (![0, 1, 2] : Fin 3 → Fin S1024x48x192.rank)
  bcast_S_S1024x48x192 : S_.BroadcastsInDim S1024x48x192 (![] : Fin 0 → Fin S1024x48x192.rank)
  slices_S7x160x192_S1x160x192_0_0_0 : S7x160x192.Slices ![0, 0, 0] S1x160x192
  shapeCasts_S1x160x192_S160x192 : S1x160x192.ShapeCasts S160x192
  slices_S7x160_S1x160_0_0 : S7x160.Slices ![0, 0] S1x160
  shapeCasts_S1x160_S160 : S1x160.ShapeCasts S160
  bcast_S160_S1x1x160_2 : S160.BroadcastsInDim S1x1x160 (![2] : Fin 1 → Fin S1x1x160.rank)
  bcast_S1x1x160_S1024x48x160_0_1_2 : S1x1x160.BroadcastsInDim S1024x48x160 (![0, 1, 2] : Fin 3 → Fin S1024x48x160.rank)
  bcast_S_S1024x48x160 : S_.BroadcastsInDim S1024x48x160 (![] : Fin 0 → Fin S1024x48x160.rank)
  slices_S7x1x160_S1x1x160_0_0_0 : S7x1x160.Slices ![0, 0, 0] S1x1x160
  shapeCasts_S1x1x160_S1x160 : S1x1x160.ShapeCasts S1x160
  slices_S7x1_S1x1_0_0 : S7x1.Slices ![0, 0] S1x1
  shapeCasts_S1x1_S1 : S1x1.ShapeCasts S1
  bcast_S1_S1x1x1_2 : S1.BroadcastsInDim S1x1x1 (![2] : Fin 1 → Fin S1x1x1.rank)
  bcast_S1x1x1_S1024x48x1_0_1_2 : S1x1x1.BroadcastsInDim S1024x48x1 (![0, 1, 2] : Fin 3 → Fin S1024x48x1.rank)
  shapeCasts_S1024x48x1_S1024x48 : S1024x48x1.ShapeCasts S1024x48
  slices_S7x256x384_S1x256x384_1_0_0 : S7x256x384.Slices ![1, 0, 0] S1x256x384
  slices_S7x256_S1x256_1_0 : S7x256.Slices ![1, 0] S1x256
  slices_S7x192x256_S1x192x256_1_0_0 : S7x192x256.Slices ![1, 0, 0] S1x192x256
  slices_S7x192_S1x192_1_0 : S7x192.Slices ![1, 0] S1x192
  slices_S7x160x192_S1x160x192_1_0_0 : S7x160x192.Slices ![1, 0, 0] S1x160x192
  slices_S7x160_S1x160_1_0 : S7x160.Slices ![1, 0] S1x160
  slices_S7x1x160_S1x1x160_1_0_0 : S7x1x160.Slices ![1, 0, 0] S1x1x160
  slices_S7x1_S1x1_1_0 : S7x1.Slices ![1, 0] S1x1
  slices_S7x256x384_S1x256x384_2_0_0 : S7x256x384.Slices ![2, 0, 0] S1x256x384
  slices_S7x256_S1x256_2_0 : S7x256.Slices ![2, 0] S1x256
  slices_S7x192x256_S1x192x256_2_0_0 : S7x192x256.Slices ![2, 0, 0] S1x192x256
  slices_S7x192_S1x192_2_0 : S7x192.Slices ![2, 0] S1x192
  slices_S7x160x192_S1x160x192_2_0_0 : S7x160x192.Slices ![2, 0, 0] S1x160x192
  slices_S7x160_S1x160_2_0 : S7x160.Slices ![2, 0] S1x160
  slices_S7x1x160_S1x1x160_2_0_0 : S7x1x160.Slices ![2, 0, 0] S1x1x160
  slices_S7x1_S1x1_2_0 : S7x1.Slices ![2, 0] S1x1
  slices_S7x256x384_S1x256x384_3_0_0 : S7x256x384.Slices ![3, 0, 0] S1x256x384
  slices_S7x256_S1x256_3_0 : S7x256.Slices ![3, 0] S1x256
  slices_S7x192x256_S1x192x256_3_0_0 : S7x192x256.Slices ![3, 0, 0] S1x192x256
  slices_S7x192_S1x192_3_0 : S7x192.Slices ![3, 0] S1x192
  slices_S7x160x192_S1x160x192_3_0_0 : S7x160x192.Slices ![3, 0, 0] S1x160x192
  slices_S7x160_S1x160_3_0 : S7x160.Slices ![3, 0] S1x160
  slices_S7x1x160_S1x1x160_3_0_0 : S7x1x160.Slices ![3, 0, 0] S1x1x160
  slices_S7x1_S1x1_3_0 : S7x1.Slices ![3, 0] S1x1
  slices_S7x256x384_S1x256x384_4_0_0 : S7x256x384.Slices ![4, 0, 0] S1x256x384
  slices_S7x256_S1x256_4_0 : S7x256.Slices ![4, 0] S1x256
  slices_S7x192x256_S1x192x256_4_0_0 : S7x192x256.Slices ![4, 0, 0] S1x192x256
  slices_S7x192_S1x192_4_0 : S7x192.Slices ![4, 0] S1x192
  slices_S7x160x192_S1x160x192_4_0_0 : S7x160x192.Slices ![4, 0, 0] S1x160x192
  slices_S7x160_S1x160_4_0 : S7x160.Slices ![4, 0] S1x160
  slices_S7x1x160_S1x1x160_4_0_0 : S7x1x160.Slices ![4, 0, 0] S1x1x160
  slices_S7x1_S1x1_4_0 : S7x1.Slices ![4, 0] S1x1
  slices_S7x256x384_S1x256x384_5_0_0 : S7x256x384.Slices ![5, 0, 0] S1x256x384
  slices_S7x256_S1x256_5_0 : S7x256.Slices ![5, 0] S1x256
  slices_S7x192x256_S1x192x256_5_0_0 : S7x192x256.Slices ![5, 0, 0] S1x192x256
  slices_S7x192_S1x192_5_0 : S7x192.Slices ![5, 0] S1x192
  slices_S7x160x192_S1x160x192_5_0_0 : S7x160x192.Slices ![5, 0, 0] S1x160x192
  slices_S7x160_S1x160_5_0 : S7x160.Slices ![5, 0] S1x160
  slices_S7x1x160_S1x1x160_5_0_0 : S7x1x160.Slices ![5, 0, 0] S1x1x160
  slices_S7x1_S1x1_5_0 : S7x1.Slices ![5, 0] S1x1
  slices_S7x256x384_S1x256x384_6_0_0 : S7x256x384.Slices ![6, 0, 0] S1x256x384
  slices_S7x256_S1x256_6_0 : S7x256.Slices ![6, 0] S1x256
  slices_S7x192x256_S1x192x256_6_0_0 : S7x192x256.Slices ![6, 0, 0] S1x192x256
  slices_S7x192_S1x192_6_0 : S7x192.Slices ![6, 0] S1x192
  slices_S7x160x192_S1x160x192_6_0_0 : S7x160x192.Slices ![6, 0, 0] S1x160x192
  slices_S7x160_S1x160_6_0 : S7x160.Slices ![6, 0] S1x160
  slices_S7x1x160_S1x1x160_6_0_0 : S7x1x160.Slices ![6, 0, 0] S1x1x160
  slices_S7x1_S1x1_6_0 : S7x1.Slices ![6, 0] S1x1
  reducesTo_S1024x48_S1024_d1 : S1024x48.ReducesTo [1] S1024
  h_S_ : 0 < S_.numel
  dot_S1024x48x384_S256x384_S1024x48x256_2_1_01_0_n_n_wf : DotDims.WF S1024x48x384 S256x384 S1024x48x256 [2] [1] [0, 1] [0] [] []
  dot_S1024x48x256_S192x256_S1024x48x192_2_1_01_0_n_n_wf : DotDims.WF S1024x48x256 S192x256 S1024x48x192 [2] [1] [0, 1] [0] [] []
  dot_S1024x48x192_S160x192_S1024x48x160_2_1_01_0_n_n_wf : DotDims.WF S1024x48x192 S160x192 S1024x48x160 [2] [1] [0, 1] [0] [] []
  dot_S1024x48x160_S1x160_S1024x48x1_2_1_01_0_n_n_wf : DotDims.WF S1024x48x160 S1x160 S1024x48x1 [2] [1] [0, 1] [0] [] []

variable [Facts₀]

def dot_S1024x48x384_S256x384_S1024x48x256_2_1_01_0_n_n : DotDims S1024x48x384 S256x384 S1024x48x256 where
  lhsContracting := [2]
  rhsContracting := [1]
  lhsNonContracting := [0, 1]
  rhsNonContracting := [0]
  lhsBatch := []
  rhsBatch := []
  wf := dot_S1024x48x384_S256x384_S1024x48x256_2_1_01_0_n_n_wf
def dot_S1024x48x256_S192x256_S1024x48x192_2_1_01_0_n_n : DotDims S1024x48x256 S192x256 S1024x48x192 where
  lhsContracting := [2]
  rhsContracting := [1]
  lhsNonContracting := [0, 1]
  rhsNonContracting := [0]
  lhsBatch := []
  rhsBatch := []
  wf := dot_S1024x48x256_S192x256_S1024x48x192_2_1_01_0_n_n_wf
def dot_S1024x48x192_S160x192_S1024x48x160_2_1_01_0_n_n : DotDims S1024x48x192 S160x192 S1024x48x160 where
  lhsContracting := [2]
  rhsContracting := [1]
  lhsNonContracting := [0, 1]
  rhsNonContracting := [0]
  lhsBatch := []
  rhsBatch := []
  wf := dot_S1024x48x192_S160x192_S1024x48x160_2_1_01_0_n_n_wf
def dot_S1024x48x160_S1x160_S1024x48x1_2_1_01_0_n_n : DotDims S1024x48x160 S1x160 S1024x48x1 where
  lhsContracting := [2]
  rhsContracting := [1]
  lhsNonContracting := [0, 1]
  rhsNonContracting := [0]
  lhsBatch := []
  rhsBatch := []
  wf := dot_S1024x48x160_S1x160_S1024x48x1_2_1_01_0_n_n_wf

class Facts : Prop extends Facts₀ where

variable [Facts]
-- ==== Proof.BlockTerm.lean ====
/-
  The kernel body's value as a composition of a few named whole-vector functions.

  The body works on one block of 64 molecules: its 64 · 48 = 3072 atoms are the ROWS of a matrix with 384 columns.
  For each species it applies, to all rows at once, three layers "matrix product with the transposed weights, plus
  the bias row, then celu" and a fourth layer without celu, getting one column of 3072 numbers; a select on the
  species column keeps that number on the rows of that species. After the seven species the column is read as a
  64 × 48 matrix and summed along its rows.

  Here each of those steps is a definition spelt operation by operation as the body spells it, and the body's one
  stored value is shown to be their composition, by unfolding alone.
-/
import proofs.«151302_j80032420593970_1_alg».proof.Proof.Gen.KernelIdeal.Frame
import Idealize.ShloMosaic.PureOps.Ideal

noncomputable section

namespace Cert.KernelIdeal.Rows

open Cert.KernelIdeal Cert.KernelIdeal.Gen Idealize.ShloMosaic

/-- celu with the tenth scale on every entry, the result narrowed to bf16 (which changes nothing on extended reals). -/
def celuV (S : Shape) (h : FVec Ideal S .f32) : FVec Ideal S .bf16 :=
  truncf .bf16
    (select (cmpf .ogt h (broadcast S (Scalar.ofBits .f32 0x00000000#32))) h
      (mulf (broadcast S (Scalar.ofBits .f32 0x3DCCCCCD#32))
        (subf (exp (divf h (broadcast S (Scalar.ofBits .f32 0x3DCCCCCD#32)))) (broadcast S (Scalar.ofBits .f32 0x3F800000#32)))))
    bitsLt_bf16_f32

/-- First layer on all rows: rows times the transposed 256 × 384 weights, plus the bias row. -/
def lin1 (x : FVec Ideal S3072x384 .bf16) (w : FVec Ideal S1x256x384 .f32) (b : FVec Ideal S1x256 .f32) : FVec Ideal S3072x256 .f32 :=
  addf
    (matmul dot_S3072x384_S384x256_S3072x256_1_0_0_1_n_n none x
      (transpose S384x256 [1, 0] (truncf .bf16 (shapeCast S256x384 w shapeCasts_S1x256x384_S256x384) bitsLt_bf16_f32) transposes_S256x384_p1_0_S384x256)
      (constant S3072x256 .f32 0x00000000#32))
    (broadcastTo S3072x256 (shapeCast S1x256 (shapeCast S256 b shapeCasts_S1x256_S256) shapeCasts_S256_S1x256) broadcasts_S1x256_S3072x256)

/-- Second layer: 256 → 192. -/
def lin2 (x : FVec Ideal S3072x256 .bf16) (w : FVec Ideal S1x192x256 .f32) (b : FVec Ideal S1x192 .f32) : FVec Ideal S3072x192 .f32 :=
  addf
    (matmul dot_S3072x256_S256x192_S3072x192_1_0_0_1_n_n none x
      (transpose S256x192 [1, 0] (truncf .bf16 (shapeCast S192x256 w shapeCasts_S1x192x256_S192x256) bitsLt_bf16_f32) transposes_S192x256_p1_0_S256x192)
      (constant S3072x192 .f32 0x00000000#32))
    (broadcastTo S3072x192 (shapeCast S1x192 (shapeCast S192 b shapeCasts_S1x192_S192) shapeCasts_S192_S1x192) broadcasts_S1x192_S3072x192)

/-- Third layer: 192 → 160. -/
def lin3 (x : FVec Ideal S3072x192 .bf16) (w : FVec Ideal S1x160x192 .f32) (b : FVec Ideal S1x160 .f32) : FVec Ideal S3072x160 .f32 :=
  addf
    (matmul dot_S3072x192_S192x160_S3072x160_1_0_0_1_n_n none x
      (transpose S192x160 [1, 0] (truncf .bf16 (shapeCast S160x192 w shapeCasts_S1x160x192_S160x192) bitsLt_bf16_f32) transposes_S160x192_p1_0_S192x160)
      (constant S3072x160 .f32 0x00000000#32))
    (broadcastTo S3072x160 (shapeCast S1x160 (shapeCast S160 b shapeCasts_S1x160_S160) shapeCasts_S160_S1x160) broadcasts_S1x160_S3072x160)

/-- Fourth layer: 160 → 1, one number per row. -/
def lin4 (x : FVec Ideal S3072x160 .bf16) (w : FVec Ideal S1x1x160 .f32) (b : FVec Ideal S1x1 .f32) : FVec Ideal S3072x1 .f32 :=
  addf
    (matmul dot_S3072x160_S160x1_S3072x1_1_0_0_1_n_n none x
      (transpose S160x1 [1, 0] (truncf .bf16 (shapeCast S1x160 w shapeCasts_S1x1x160_S1x160) bitsLt_bf16_f32) transposes_S1x160_p1_0_S160x1)
      (constant S3072x1 .f32 0x00000000#32))
    (broadcastTo S3072x1 (shapeCast S1x1 (shapeCast S1 b shapeCasts_S1x1_S1) shapeCasts_S1_S1x1) broadcasts_S1x1_S3072x1)

/-- One species' network on all rows. -/
def expertV (x : FVec Ideal S3072x384 .bf16)
    (w1 : FVec Ideal S1x256x384 .f32) (b1 : FVec Ideal S1x256 .f32) (w2 : FVec Ideal S1x192x256 .f32) (b2 : FVec Ideal S1x192 .f32)
    (w3 : FVec Ideal S1x160x192 .f32) (b3 : FVec Ideal S1x160 .f32) (w4 : FVec Ideal S1x1x160 .f32) (b4 : FVec Ideal S1x1 .f32) :
    FVec Ideal S3072x1 .f32 :=
  lin4 (celuV S3072x160 (lin3 (celuV S3072x192 (lin2 (celuV S3072x256 (lin1 x w1 b1)) w2 b2)) w3 b3)) w4 b4

/-- One routing step on all rows: `o` on the rows whose species word is `s`, `e` on the others. -/
def pickV (s : BitVec 32) (sp : IVec S3072x1 32) (o e : FVec Ideal S3072x1 .f32) : FVec Ideal S3072x1 .f32 :=
  select (cmpi .eq sp (broadcast S3072x1 s)) o e

/-- The rows' numbers as a 64 × 48 matrix, summed along each row of it, as a column of 64. -/
def sumAtoms (e : FVec Ideal S3072x1 .f32) : FVec Ideal S64x1 .f32 :=
  shapeCast S64x1 (multiReduction .add [1] S64 (shapeCast S64x48 e shapeCasts_S3072x1_S64x48) 0x00000000#32 reduces_S64x48_S64 (.inl rfl) rfl)
    shapeCasts_S64_S64x1

/-- The block's atoms as rows. -/
def rowsOf (v : FVec Ideal S64x48x384 .f32) : FVec Ideal S3072x384 .bf16 :=
  shapeCast S3072x384 (truncf .bf16 v bitsLt_bf16_f32) shapeCasts_S64x48x384_S3072x384

/-- The block's species words as a column. -/
def speciesCol (v : IVec S64x48 32) : IVec S3072x1 32 := shapeCast S3072x1 v shapeCasts_S64x48_S3072x1

/-- The column every row starts from: the zero word. -/
def zeroCol : FVec Ideal S3072x1 .f32 := broadcast S3072x1 (Scalar.ofBits .f32 0x00000000#32)

end Cert.KernelIdeal.Rows

end
-- ==== Proof.Energy.lean ====
/-
  The mathematics both programs compute, stated once on the extended reals.

  An atom with feature vector `x` (384 numbers) and species word `sp` gets an energy: for each of the seven
  species `s` a four-layer network (384 → 256 → 192 → 160 → 1, each layer affine, the first three followed by
  celu with scale `c`) is applied to `x`; the atom's energy is the output of the network of ITS species (chosen
  by a chain of seven selects on `sp`, starting from zero, later species overriding earlier ones), and a
  molecule's energy is the sum of its 48 atoms' energies.

  celu is spelt two ways: by a select, `x` where `0 < x` and `c · (e^(x/c) − 1)` elsewhere, and split as
  `max x 0 + c · (e^(min x 0 / c) − 1)`. The two agree at EVERY extended real as soon as `c ≠ 0`: above zero
  the split form's exponent is `0 / c = 0`, `e^0 − 1 = 0`, and `x + c · 0 = x`; elsewhere `max x 0 = 0`,
  `min x 0 = x` and `0 + y = y`. No finiteness is used.
-/
import Idealize.ShloMosaic.PureOps.Ideal
import Idealize.ShloMosaic.PureOps.Ideal.Laws
import Idealize.ShloMosaic.Lib.IdealHost
import Idealize.ShloMosaic.Lib.ValueIdx

noncomputable section

namespace Cert.Energy

open Idealize.ShloMosaic Idealize.ShloMosaic.ValueIdx
open scoped BigOperators

/-! ## celu -/

/-- celu with scale `c`, by cases on the sign of the argument. -/
def celu (c x : EReal) : EReal := if 0 < x then x else c * (Ideal.exp (Ideal.div x c) - 1)

/-- The split spelling, `max x 0 + c · (e^(min x 0 / c) − 1)`, is the same function when `c ≠ 0`. -/
theorem celu_split (c x : EReal) (hc : c ≠ 0) :
    max x 0 + c * (Ideal.exp (Ideal.div (min x 0) c) - 1) = celu c x := by
  unfold celu
  by_cases h : 0 < x
  · rw [if_pos h, max_eq_left h.le, min_eq_right h.le]
    have e0 : Ideal.div 0 c = 0 := by unfold Ideal.div; rw [if_neg hc, zero_mul]
    have e1 : Ideal.exp 0 - 1 = 0 := by
      rw [← EReal.coe_zero, Ideal.exp_coe, Real.exp_zero, ← EReal.coe_one, ← EReal.coe_sub, sub_self, EReal.coe_zero]
    rw [e0, e1, mul_zero, add_zero]
  · rw [if_neg h, max_eq_right (not_lt.mp h), min_eq_left (not_lt.mp h), zero_add]

/-- The select spelling: a select on the one-bit word of `x > 0`. -/
theorem celu_select (c x : EReal) :
    Scalar.select (Ideal.cmp .ogt x 0) x (c * (Ideal.exp (Ideal.div x c) - 1)) = celu c x := by
  unfold celu Scalar.select Ideal.cmp
  by_cases h : 0 < x <;> simp [h]

/-- The scale both programs use: the f32 word nearest one tenth, a positive real. -/
def tenth : EReal := Ideal.ofBits .f32 0x3DCCCCCD#32

theorem tenth_eq : tenth = ((13421773 / 134217728 : ℝ) : EReal) := by
  unfold tenth
  simp [Ideal.ofBits, Ideal.ieee, -EReal.coe_mul]; norm_num

theorem tenth_ne_zero : tenth ≠ 0 := by
  rw [tenth_eq]; exact EReal.coe_ne_zero.mpr (by norm_num)

/-! ## One expert -/

/-- An affine layer: output `j` is the inner product of the input with row `j` of the weights, plus bias `j`. -/
def affine {K J : ℕ} (x : Fin K → EReal) (W : Fin J → Fin K → EReal) (b : Fin J → EReal) (j : Fin J) : EReal :=
  (∑ k : Fin K, x k * W j k) + b j

/-- The four-layer network of one species on one atom's features. -/
def expert (c : EReal) (x : Fin 384 → EReal)
    (W1 : Fin 256 → Fin 384 → EReal) (b1 : Fin 256 → EReal)
    (W2 : Fin 192 → Fin 256 → EReal) (b2 : Fin 192 → EReal)
    (W3 : Fin 160 → Fin 192 → EReal) (b3 : Fin 160 → EReal)
    (W4 : Fin 1 → Fin 160 → EReal) (b4 : Fin 1 → EReal) : EReal :=
  affine (fun e => celu c (affine (fun g => celu c (affine (fun h => celu c (affine x W1 b1 h)) W2 b2 g)) W3 b3 e)) W4 b4 0

/-! ## Routing by species -/

/-- One step of the routing chain: `o` where the species word is `s`, the energy so far elsewhere. -/
def pick (sp s : BitVec 32) (o e : EReal) : EReal := Scalar.select (IntOp.cmpi .eq sp s) o e

/-- The chain over the seven species, from the zero word's value. -/
def routed (sp : BitVec 32) (o : Fin 7 → EReal) : EReal :=
  pick sp 6#32 (o 6) (pick sp 5#32 (o 5) (pick sp 4#32 (o 4) (pick sp 3#32 (o 3)
    (pick sp 2#32 (o 2) (pick sp 1#32 (o 1) (pick sp 0#32 (o 0) (Ideal.ofBits .f32 0x00000000#32)))))))

/-! ## The whole arrays -/

/-- Species `s`'s network, its weights cut out of the stacked arrays. -/
def expertOf (s : Fin 7) (x : Fin 384 → EReal)
    (W1 : (⟨3, ![7, 256, 384]⟩ : Shape).Idx → EReal) (B1 : (⟨2, ![7, 256]⟩ : Shape).Idx → EReal)
    (W2 : (⟨3, ![7, 192, 256]⟩ : Shape).Idx → EReal) (B2 : (⟨2, ![7, 192]⟩ : Shape).Idx → EReal)
    (W3 : (⟨3, ![7, 160, 192]⟩ : Shape).Idx → EReal) (B3 : (⟨2, ![7, 160]⟩ : Shape).Idx → EReal)
    (W4 : (⟨3, ![7, 1, 160]⟩ : Shape).Idx → EReal) (B4 : (⟨2, ![7, 1]⟩ : Shape).Idx → EReal) : EReal :=
  expert tenth x (fun j k => W1 (ix3 s j k)) (fun j => B1 (ix2 s j)) (fun j k => W2 (ix3 s j k)) (fun j => B2 (ix2 s j))
    (fun j k => W3 (ix3 s j k)) (fun j => B3 (ix2 s j)) (fun j k => W4 (ix3 s j k)) (fun j => B4 (ix2 s j))

/-- The energy of atom `a` of molecule `b`. -/
def atomEnergy (SP : (⟨2, ![1024, 48]⟩ : Shape).Idx → BitVec 32) (X : (⟨3, ![1024, 48, 384]⟩ : Shape).Idx → EReal)
    (W1 : (⟨3, ![7, 256, 384]⟩ : Shape).Idx → EReal) (B1 : (⟨2, ![7, 256]⟩ : Shape).Idx → EReal)
    (W2 : (⟨3, ![7, 192, 256]⟩ : Shape).Idx → EReal) (B2 : (⟨2, ![7, 192]⟩ : Shape).Idx → EReal)
    (W3 : (⟨3, ![7, 160, 192]⟩ : Shape).Idx → EReal) (B3 : (⟨2, ![7, 160]⟩ : Shape).Idx → EReal)
    (W4 : (⟨3, ![7, 1, 160]⟩ : Shape).Idx → EReal) (B4 : (⟨2, ![7, 1]⟩ : Shape).Idx → EReal)
    (b : Fin 1024) (a : Fin 48) : EReal :=
  routed (SP (ix2 b a)) (fun s => expertOf s (fun f => X (ix3 b a f)) W1 B1 W2 B2 W3 B3 W4 B4)

/-- The energy of molecule `b`: the sum over its 48 atoms. -/
def molEnergy (SP : (⟨2, ![1024, 48]⟩ : Shape).Idx → BitVec 32) (X : (⟨3, ![1024, 48, 384]⟩ : Shape).Idx → EReal)
    (W1 : (⟨3, ![7, 256, 384]⟩ : Shape).Idx → EReal) (B1 : (⟨2, ![7, 256]⟩ : Shape).Idx → EReal)
    (W2 : (⟨3, ![7, 192, 256]⟩ : Shape).Idx → EReal) (B2 : (⟨2, ![7, 192]⟩ : Shape).Idx → EReal)
    (W3 : (⟨3, ![7, 160, 192]⟩ : Shape).Idx → EReal) (B3 : (⟨2, ![7, 160]⟩ : Shape).Idx → EReal)
    (W4 : (⟨3, ![7, 1, 160]⟩ : Shape).Idx → EReal) (B4 : (⟨2, ![7, 1]⟩ : Shape).Idx → EReal)
    (b : Fin 1024) : EReal :=
  ∑ a : Fin 48, atomEnergy SP X W1 B1 W2 B2 W3 B3 W4 B4 b a

end Cert.Energy

end
-- ==== Proof.RowRead.lean ====
/-
  The row-wise functions of BlockTerm read at an entry.

  A matrix product into the zero matrix, at row `r` and column `j`, is the sum over the inner index `k` of
  left (r, k) times right (k, j); the right factor here is a transposed weight matrix, so right (k, j) is weight (j, k);
  the bias is one row spread over all rows. So each layer at (r, j) is the affine map of Energy applied to ROW `r` of
  its input, and by composition one species' column at row `r` is that species' network applied to row `r` of the
  block. The select on the species column is entrywise. The last step views the 3072 rows as 64 × 48 (row 48·b + a is
  atom `a` of the block's molecule `b`) and sums over `a`.
-/
import proofs.«151302_j80032420593970_1_alg».proof.Proof.BlockTerm
import proofs.«151302_j80032420593970_1_alg».proof.Proof.Energy
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Rows

open Cert.KernelIdeal Cert.KernelIdeal.Gen Idealize.ShloMosaic Idealize.ShloMosaic.ValueIdx
open scoped BigOperators

/-! ## The four matrix products -/

theorem mm1_lhs0 (i : S3072x256.Idx) (q : dot_S3072x384_S384x256_S3072x256_1_0_0_1_n_n.contr.Idx) : (dot_S3072x384_S384x256_S3072x256_1_0_0_1_n_n.lhsIdx i q 0).val = (i 0).val := by
  unfold DotDims.lhsIdx
  rw [dif_neg (show ¬(0 : Fin S3072x384.rank) ∈ dot_S3072x384_S384x256_S3072x256_1_0_0_1_n_n.lhsBatch by decide), dif_pos (show (0 : Fin S3072x384.rank) ∈ dot_S3072x384_S384x256_S3072x256_1_0_0_1_n_n.lhsNonContracting by decide)]
  rfl
theorem mm1_lhs1 (i : S3072x256.Idx) (q : dot_S3072x384_S384x256_S3072x256_1_0_0_1_n_n.contr.Idx) : (dot_S3072x384_S384x256_S3072x256_1_0_0_1_n_n.lhsIdx i q 1).val = (q ⟨0, by decide⟩).val :=
  dot_S3072x384_S384x256_S3072x256_1_0_0_1_n_n.lhsIdx_val_of_single rfl i q
theorem mm1_rhs0 (i : S3072x256.Idx) (q : dot_S3072x384_S384x256_S3072x256_1_0_0_1_n_n.contr.Idx) : (dot_S3072x384_S384x256_S3072x256_1_0_0_1_n_n.rhsIdx i q 0).val = (q ⟨0, by decide⟩).val :=
  dot_S3072x384_S384x256_S3072x256_1_0_0_1_n_n.rhsIdx_val_of_single rfl i q
theorem mm1_rhs1 (i : S3072x256.Idx) (q : dot_S3072x384_S384x256_S3072x256_1_0_0_1_n_n.contr.Idx) : (dot_S3072x384_S384x256_S3072x256_1_0_0_1_n_n.rhsIdx i q 1).val = (i 1).val := by
  unfold DotDims.rhsIdx
  rw [dif_neg (show ¬(1 : Fin S384x256.rank) ∈ dot_S3072x384_S384x256_S3072x256_1_0_0_1_n_n.rhsBatch by decide), dif_pos (show (1 : Fin S384x256.rank) ∈ dot_S3072x384_S384x256_S3072x256_1_0_0_1_n_n.rhsNonContracting by decide)]
  rfl

/-- The product of a 3072 × 384 by a 384 × 256 matrix into zeros, at (r, j): the sum over the inner index. -/
theorem mm1_apply (x : FVec Ideal S3072x384 .bf16) (y : FVec Ideal S384x256 .bf16) (r : Fin 3072) (j : Fin 256) :
    matmul dot_S3072x384_S384x256_S3072x256_1_0_0_1_n_n none x y (constant S3072x256 .f32 0x00000000#32) (ix2 r j) = ∑ k : Fin 384, x (ix2 r k) * y (ix2 k j) := by
  simp only [matmul]
  rw [Ideal.matmul_constant_zero_apply, ← Equiv.sum_comp (ValueIdx.contrEquiv1 dot_S3072x384_S384x256_S3072x256_1_0_0_1_n_n 384 rfl rfl).symm]
  refine Finset.sum_congr rfl fun k _ => ?_
  have hk := ValueIdx.contrEquiv1_symm_val dot_S3072x384_S384x256_S3072x256_1_0_0_1_n_n 384 rfl rfl k
  have el : dot_S3072x384_S384x256_S3072x256_1_0_0_1_n_n.lhsIdx (ix2 r j) ((ValueIdx.contrEquiv1 dot_S3072x384_S384x256_S3072x256_1_0_0_1_n_n 384 rfl rfl).symm k) = ix2 r k := funext fun a => Fin.ext (by
    match a with
    | ⟨0, _⟩ => exact mm1_lhs0 _ _
    | ⟨1, _⟩ => exact (mm1_lhs1 _ _).trans hk)
  have er : dot_S3072x384_S384x256_S3072x256_1_0_0_1_n_n.rhsIdx (ix2 r j) ((ValueIdx.contrEquiv1 dot_S3072x384_S384x256_S3072x256_1_0_0_1_n_n 384 rfl rfl).symm k) = ix2 k j := funext fun a => Fin.ext (by
    match a with
    | ⟨0, _⟩ => exact (mm1_rhs0 _ _).trans hk
    | ⟨1, _⟩ => exact mm1_rhs1 _ _)
  rw [el, er]

theorem mm2_lhs0 (i : S3072x192.Idx) (q : dot_S3072x256_S256x192_S3072x192_1_0_0_1_n_n.contr.Idx) : (dot_S3072x256_S256x192_S3072x192_1_0_0_1_n_n.lhsIdx i q 0).val = (i 0).val := by
  unfold DotDims.lhsIdx
  rw [dif_neg (show ¬(0 : Fin S3072x256.rank) ∈ dot_S3072x256_S256x192_S3072x192_1_0_0_1_n_n.lhsBatch by decide), dif_pos (show (0 : Fin S3072x256.rank) ∈ dot_S3072x256_S256x192_S3072x192_1_0_0_1_n_n.lhsNonContracting by decide)]
  rfl
theorem mm2_lhs1 (i : S3072x192.Idx) (q : dot_S3072x256_S256x192_S3072x192_1_0_0_1_n_n.contr.Idx) : (dot_S3072x256_S256x192_S3072x192_1_0_0_1_n_n.lhsIdx i q 1).val = (q ⟨0, by decide⟩).val :=
  dot_S3072x256_S256x192_S3072x192_1_0_0_1_n_n.lhsIdx_val_of_single rfl i q
theorem mm2_rhs0 (i : S3072x192.Idx) (q : dot_S3072x256_S256x192_S3072x192_1_0_0_1_n_n.contr.Idx) : (dot_S3072x256_S256x192_S3072x192_1_0_0_1_n_n.rhsIdx i q 0).val = (q ⟨0, by decide⟩).val :=
  dot_S3072x256_S256x192_S3072x192_1_0_0_1_n_n.rhsIdx_val_of_single rfl i q
theorem mm2_rhs1 (i : S3072x192.Idx) (q : dot_S3072x256_S256x192_S3072x192_1_0_0_1_n_n.contr.Idx) : (dot_S3072x256_S256x192_S3072x192_1_0_0_1_n_n.rhsIdx i q 1).val = (i 1).val := by
  unfold DotDims.rhsIdx
  rw [dif_neg (show ¬(1 : Fin S256x192.rank) ∈ dot_S3072x256_S256x192_S3072x192_1_0_0_1_n_n.rhsBatch by decide), dif_pos (show (1 : Fin S256x192.rank) ∈ dot_S3072x256_S256x192_S3072x192_1_0_0_1_n_n.rhsNonContracting by decide)]
  rfl

/-- The product of a 3072 × 256 by a 256 × 192 matrix into zeros, at (r, j): the sum over the inner index. -/
theorem mm2_apply (x : FVec Ideal S3072x256 .bf16) (y : FVec Ideal S256x192 .bf16) (r : Fin 3072) (j : Fin 192) :
    matmul dot_S3072x256_S256x192_S3072x192_1_0_0_1_n_n none x y (constant S3072x192 .f32 0x00000000#32) (ix2 r j) = ∑ k : Fin 256, x (ix2 r k) * y (ix2 k j) := by
  simp only [matmul]
  rw [Ideal.matmul_constant_zero_apply, ← Equiv.sum_comp (ValueIdx.contrEquiv1 dot_S3072x256_S256x192_S3072x192_1_0_0_1_n_n 256 rfl rfl).symm]
  refine Finset.sum_congr rfl fun k _ => ?_
  have hk := ValueIdx.contrEquiv1_symm_val dot_S3072x256_S256x192_S3072x192_1_0_0_1_n_n 256 rfl rfl k
  have el : dot_S3072x256_S256x192_S3072x192_1_0_0_1_n_n.lhsIdx (ix2 r j) ((ValueIdx.contrEquiv1 dot_S3072x256_S256x192_S3072x192_1_0_0_1_n_n 256 rfl rfl).symm k) = ix2 r k := funext fun a => Fin.ext (by
    match a with
    | ⟨0, _⟩ => exact mm2_lhs0 _ _
    | ⟨1, _⟩ => exact (mm2_lhs1 _ _).trans hk)
  have er : dot_S3072x256_S256x192_S3072x192_1_0_0_1_n_n.rhsIdx (ix2 r j) ((ValueIdx.contrEquiv1 dot_S3072x256_S256x192_S3072x192_1_0_0_1_n_n 256 rfl rfl).symm k) = ix2 k j := funext fun a => Fin.ext (by
    match a with
    | ⟨0, _⟩ => exact (mm2_rhs0 _ _).trans hk
    | ⟨1, _⟩ => exact mm2_rhs1 _ _)
  rw [el, er]

theorem mm3_lhs0 (i : S3072x160.Idx) (q : dot_S3072x192_S192x160_S3072x160_1_0_0_1_n_n.contr.Idx) : (dot_S3072x192_S192x160_S3072x160_1_0_0_1_n_n.lhsIdx i q 0).val = (i 0).val := by
  unfold DotDims.lhsIdx
  rw [dif_neg (show ¬(0 : Fin S3072x192.rank) ∈ dot_S3072x192_S192x160_S3072x160_1_0_0_1_n_n.lhsBatch by decide), dif_pos (show (0 : Fin S3072x192.rank) ∈ dot_S3072x192_S192x160_S3072x160_1_0_0_1_n_n.lhsNonContracting by decide)]
  rfl
theorem mm3_lhs1 (i : S3072x160.Idx) (q : dot_S3072x192_S192x160_S3072x160_1_0_0_1_n_n.contr.Idx) : (dot_S3072x192_S192x160_S3072x160_1_0_0_1_n_n.lhsIdx i q 1).val = (q ⟨0, by decide⟩).val :=
  dot_S3072x192_S192x160_S3072x160_1_0_0_1_n_n.lhsIdx_val_of_single rfl i q
theorem mm3_rhs0 (i : S3072x160.Idx) (q : dot_S3072x192_S192x160_S3072x160_1_0_0_1_n_n.contr.Idx) : (dot_S3072x192_S192x160_S3072x160_1_0_0_1_n_n.rhsIdx i q 0).val = (q ⟨0, by decide⟩).val :=
  dot_S3072x192_S192x160_S3072x160_1_0_0_1_n_n.rhsIdx_val_of_single rfl i q
theorem mm3_rhs1 (i : S3072x160.Idx) (q : dot_S3072x192_S192x160_S3072x160_1_0_0_1_n_n.contr.Idx) : (dot_S3072x192_S192x160_S3072x160_1_0_0_1_n_n.rhsIdx i q 1).val = (i 1).val := by
  unfold DotDims.rhsIdx
  rw [dif_neg (show ¬(1 : Fin S192x160.rank) ∈ dot_S3072x192_S192x160_S3072x160_1_0_0_1_n_n.rhsBatch by decide), dif_pos (show (1 : Fin S192x160.rank) ∈ dot_S3072x192_S192x160_S3072x160_1_0_0_1_n_n.rhsNonContracting by decide)]
  rfl

/-- The product of a 3072 × 192 by a 192 × 160 matrix into zeros, at (r, j): the sum over the inner index. -/
theorem mm3_apply (x : FVec Ideal S3072x192 .bf16) (y : FVec Ideal S192x160 .bf16) (r : Fin 3072) (j : Fin 160) :
    matmul dot_S3072x192_S192x160_S3072x160_1_0_0_1_n_n none x y (constant S3072x160 .f32 0x00000000#32) (ix2 r j) = ∑ k : Fin 192, x (ix2 r k) * y (ix2 k j) := by
  simp only [matmul]
  rw [Ideal.matmul_constant_zero_apply, ← Equiv.sum_comp (ValueIdx.contrEquiv1 dot_S3072x192_S192x160_S3072x160_1_0_0_1_n_n 192 rfl rfl).symm]
  refine Finset.sum_congr rfl fun k _ => ?_
  have hk := ValueIdx.contrEquiv1_symm_val dot_S3072x192_S192x160_S3072x160_1_0_0_1_n_n 192 rfl rfl k
  have el : dot_S3072x192_S192x160_S3072x160_1_0_0_1_n_n.lhsIdx (ix2 r j) ((ValueIdx.contrEquiv1 dot_S3072x192_S192x160_S3072x160_1_0_0_1_n_n 192 rfl rfl).symm k) = ix2 r k := funext fun a => Fin.ext (by
    match a with
    | ⟨0, _⟩ => exact mm3_lhs0 _ _
    | ⟨1, _⟩ => exact (mm3_lhs1 _ _).trans hk)
  have er : dot_S3072x192_S192x160_S3072x160_1_0_0_1_n_n.rhsIdx (ix2 r j) ((ValueIdx.contrEquiv1 dot_S3072x192_S192x160_S3072x160_1_0_0_1_n_n 192 rfl rfl).symm k) = ix2 k j := funext fun a => Fin.ext (by
    match a with
    | ⟨0, _⟩ => exact (mm3_rhs0 _ _).trans hk
    | ⟨1, _⟩ => exact mm3_rhs1 _ _)
  rw [el, er]

theorem mm4_lhs0 (i : S3072x1.Idx) (q : dot_S3072x160_S160x1_S3072x1_1_0_0_1_n_n.contr.Idx) : (dot_S3072x160_S160x1_S3072x1_1_0_0_1_n_n.lhsIdx i q 0).val = (i 0).val := by
  unfold DotDims.lhsIdx
  rw [dif_neg (show ¬(0 : Fin S3072x160.rank) ∈ dot_S3072x160_S160x1_S3072x1_1_0_0_1_n_n.lhsBatch by decide), dif_pos (show (0 : Fin S3072x160.rank) ∈ dot_S3072x160_S160x1_S3072x1_1_0_0_1_n_n.lhsNonContracting by decide)]
  rfl
theorem mm4_lhs1 (i : S3072x1.Idx) (q : dot_S3072x160_S160x1_S3072x1_1_0_0_1_n_n.contr.Idx) : (dot_S3072x160_S160x1_S3072x1_1_0_0_1_n_n.lhsIdx i q 1).val = (q ⟨0, by decide⟩).val :=
  dot_S3072x160_S160x1_S3072x1_1_0_0_1_n_n.lhsIdx_val_of_single rfl i q
theorem mm4_rhs0 (i : S3072x1.Idx) (q : dot_S3072x160_S160x1_S3072x1_1_0_0_1_n_n.contr.Idx) : (dot_S3072x160_S160x1_S3072x1_1_0_0_1_n_n.rhsIdx i q 0).val = (q ⟨0, by decide⟩).val :=
  dot_S3072x160_S160x1_S3072x1_1_0_0_1_n_n.rhsIdx_val_of_single rfl i q
theorem mm4_rhs1 (i : S3072x1.Idx) (q : dot_S3072x160_S160x1_S3072x1_1_0_0_1_n_n.contr.Idx) : (dot_S3072x160_S160x1_S3072x1_1_0_0_1_n_n.rhsIdx i q 1).val = (i 1).val := by
  unfold DotDims.rhsIdx
  rw [dif_neg (show ¬(1 : Fin S160x1.rank) ∈ dot_S3072x160_S160x1_S3072x1_1_0_0_1_n_n.rhsBatch by decide), dif_pos (show (1 : Fin S160x1.rank) ∈ dot_S3072x160_S160x1_S3072x1_1_0_0_1_n_n.rhsNonContracting by decide)]
  rfl

/-- The product of a 3072 × 160 by a 160 × 1 matrix into zeros, at (r, j): the sum over the inner index. -/
theorem mm4_apply (x : FVec Ideal S3072x160 .bf16) (y : FVec Ideal S160x1 .bf16) (r : Fin 3072) (j : Fin 1) :
    matmul dot_S3072x160_S160x1_S3072x1_1_0_0_1_n_n none x y (constant S3072x1 .f32 0x00000000#32) (ix2 r j) = ∑ k : Fin 160, x (ix2 r k) * y (ix2 k j) := by
  simp only [matmul]
  rw [Ideal.matmul_constant_zero_apply, ← Equiv.sum_comp (ValueIdx.contrEquiv1 dot_S3072x160_S160x1_S3072x1_1_0_0_1_n_n 160 rfl rfl).symm]
  refine Finset.sum_congr rfl fun k _ => ?_
  have hk := ValueIdx.contrEquiv1_symm_val dot_S3072x160_S160x1_S3072x1_1_0_0_1_n_n 160 rfl rfl k
  have el : dot_S3072x160_S160x1_S3072x1_1_0_0_1_n_n.lhsIdx (ix2 r j) ((ValueIdx.contrEquiv1 dot_S3072x160_S160x1_S3072x1_1_0_0_1_n_n 160 rfl rfl).symm k) = ix2 r k := funext fun a => Fin.ext (by
    match a with
    | ⟨0, _⟩ => exact mm4_lhs0 _ _
    | ⟨1, _⟩ => exact (mm4_lhs1 _ _).trans hk)
  have er : dot_S3072x160_S160x1_S3072x1_1_0_0_1_n_n.rhsIdx (ix2 r j) ((ValueIdx.contrEquiv1 dot_S3072x160_S160x1_S3072x1_1_0_0_1_n_n 160 rfl rfl).symm k) = ix2 k j := funext fun a => Fin.ext (by
    match a with
    | ⟨0, _⟩ => exact (mm4_rhs0 _ _).trans hk
    | ⟨1, _⟩ => exact mm4_rhs1 _ _)
  rw [el, er]

/-! ## The four layers -/

/-- Layer 1 at (r, j) is the affine map on row `r`: weights (j, k) read off the one-slab block, the bias off its one row. -/
theorem lin1_apply (x : FVec Ideal S3072x384 .bf16) (w : FVec Ideal S1x256x384 .f32) (b : FVec Ideal S1x256 .f32) (r : Fin 3072) (j : Fin 256) :
    lin1 x w b (ix2 r j)
      = Cert.Energy.affine (fun k : Fin 384 => x (ix2 r k)) (fun (j : Fin 256) (k : Fin 384) => w (ix3 (0 : Fin 1) j k))
          (fun j : Fin 256 => b (ix2 (0 : Fin 1) j)) j := by
  unfold lin1 Cert.Energy.affine
  refine congrArg₂ (· + ·) ?_ ?_
  · refine (mm1_apply x _ r j).trans (Finset.sum_congr rfl fun k _ => congrArg (x (ix2 r k) * ·) ?_)
    exact (transpose_ix2_apply _ _ k j).trans (shapeCast_1ab_ab_apply w _ j k)
  · exact (broadcastTo_1b_ab_apply _ _ r j).trans ((shapeCast_a_1a_apply _ _ (0 : Fin 1) j).trans (shapeCast_1a_a_apply b _ j))

/-- Layer 2 at (r, j) is the affine map on row `r`: weights (j, k) read off the one-slab block, the bias off its one row. -/
theorem lin2_apply (x : FVec Ideal S3072x256 .bf16) (w : FVec Ideal S1x192x256 .f32) (b : FVec Ideal S1x192 .f32) (r : Fin 3072) (j : Fin 192) :
    lin2 x w b (ix2 r j)
      = Cert.Energy.affine (fun k : Fin 256 => x (ix2 r k)) (fun (j : Fin 192) (k : Fin 256) => w (ix3 (0 : Fin 1) j k))
          (fun j : Fin 192 => b (ix2 (0 : Fin 1) j)) j := by
  unfold lin2 Cert.Energy.affine
  refine congrArg₂ (· + ·) ?_ ?_
  · refine (mm2_apply x _ r j).trans (Finset.sum_congr rfl fun k _ => congrArg (x (ix2 r k) * ·) ?_)
    exact (transpose_ix2_apply _ _ k j).trans (shapeCast_1ab_ab_apply w _ j k)
  · exact (broadcastTo_1b_ab_apply _ _ r j).trans ((shapeCast_a_1a_apply _ _ (0 : Fin 1) j).trans (shapeCast_1a_a_apply b _ j))

/-- Layer 3 at (r, j) is the affine map on row `r`: weights (j, k) read off the one-slab block, the bias off its one row. -/
theorem lin3_apply (x : FVec Ideal S3072x192 .bf16) (w : FVec Ideal S1x160x192 .f32) (b : FVec Ideal S1x160 .f32) (r : Fin 3072) (j : Fin 160) :
    lin3 x w b (ix2 r j)
      = Cert.Energy.affine (fun k : Fin 192 => x (ix2 r k)) (fun (j : Fin 160) (k : Fin 192) => w (ix3 (0 : Fin 1) j k))
          (fun j : Fin 160 => b (ix2 (0 : Fin 1) j)) j := by
  unfold lin3 Cert.Energy.affine
  refine congrArg₂ (· + ·) ?_ ?_
  · refine (mm3_apply x _ r j).trans (Finset.sum_congr rfl fun k _ => congrArg (x (ix2 r k) * ·) ?_)
    exact (transpose_ix2_apply _ _ k j).trans (shapeCast_1ab_ab_apply w _ j k)
  · exact (broadcastTo_1b_ab_apply _ _ r j).trans ((shapeCast_a_1a_apply _ _ (0 : Fin 1) j).trans (shapeCast_1a_a_apply b _ j))

/-- Layer 4 at (r, j) is the affine map on row `r`: weights (j, k) read off the one-slab block, the bias off its one row. -/
theorem lin4_apply (x : FVec Ideal S3072x160 .bf16) (w : FVec Ideal S1x1x160 .f32) (b : FVec Ideal S1x1 .f32) (r : Fin 3072) (j : Fin 1) :
    lin4 x w b (ix2 r j)
      = Cert.Energy.affine (fun k : Fin 160 => x (ix2 r k)) (fun (j : Fin 1) (k : Fin 160) => w (ix3 (0 : Fin 1) j k))
          (fun j : Fin 1 => b (ix2 (0 : Fin 1) j)) j := by
  unfold lin4 Cert.Energy.affine
  refine congrArg₂ (· + ·) ?_ ?_
  · refine (mm4_apply x _ r j).trans (Finset.sum_congr rfl fun k _ => congrArg (x (ix2 r k) * ·) ?_)
    exact (transpose_ix2_apply _ _ k j).trans (shapeCast_1ab_ab_apply w _ j k)
  · exact (broadcastTo_1b_ab_apply _ _ r j).trans ((shapeCast_a_1a_apply _ _ (0 : Fin 1) j).trans (shapeCast_1a_a_apply b _ j))

/-! ## celu, the expert, routing -/

/-- The body's celu at an entry is celu with the tenth scale of that entry. -/
theorem celuV_apply (S : Shape) (h : FVec Ideal S .f32) (i : S.Idx) : celuV S h i = Cert.Energy.celu Cert.Energy.tenth (h i) := by
  show Scalar.select (Ideal.cmp .ogt (h i) (Ideal.ofBits .f32 0x00000000#32)) (h i)
      (Ideal.ofBits .f32 0x3DCCCCCD#32 * (Ideal.exp (Ideal.div (h i) (Ideal.ofBits .f32 0x3DCCCCCD#32)) - Ideal.ofBits .f32 0x3F800000#32)) = _
  rw [Ideal.ofBits_zero_f32, Ideal.ofBits_one_f32]
  exact Cert.Energy.celu_select _ _

/-- One species' column at row `r` is its network on row `r` of the block. -/
theorem expertV_apply (x : FVec Ideal S3072x384 .bf16)
    (w1 : FVec Ideal S1x256x384 .f32) (b1 : FVec Ideal S1x256 .f32) (w2 : FVec Ideal S1x192x256 .f32) (b2 : FVec Ideal S1x192 .f32)
    (w3 : FVec Ideal S1x160x192 .f32) (b3 : FVec Ideal S1x160 .f32) (w4 : FVec Ideal S1x1x160 .f32) (b4 : FVec Ideal S1x1 .f32)
    (r : Fin 3072) :
    expertV x w1 b1 w2 b2 w3 b3 w4 b4 (ix2 r (0 : Fin 1))
      = Cert.Energy.expert Cert.Energy.tenth (fun k : Fin 384 => x (ix2 r k))
          (fun j k => w1 (ix3 (0 : Fin 1) j k)) (fun j => b1 (ix2 (0 : Fin 1) j))
          (fun j k => w2 (ix3 (0 : Fin 1) j k)) (fun j => b2 (ix2 (0 : Fin 1) j))
          (fun j k => w3 (ix3 (0 : Fin 1) j k)) (fun j => b3 (ix2 (0 : Fin 1) j))
          (fun j k => w4 (ix3 (0 : Fin 1) j k)) (fun j => b4 (ix2 (0 : Fin 1) j)) := by
  unfold expertV Cert.Energy.expert
  rw [lin4_apply]
  simp only [celuV_apply, lin3_apply, lin2_apply, lin1_apply]

/-- One routing step at a row. -/
theorem pickV_apply (s : BitVec 32) (sp : IVec S3072x1 32) (o e : FVec Ideal S3072x1 .f32) (i : S3072x1.Idx) :
    pickV s sp o e i = Cert.Energy.pick (sp i) s (o i) (e i) := rfl

/-! ## Rows and atoms -/

/-- Row 48·b + a of the block: atom `a` of its molecule `b`. -/
def rowOf (b : Fin 64) (a : Fin 48) : Fin 3072 := ⟨48 * b.val + a.val, by have := b.isLt; have := a.isLt; omega⟩

/-- Row 48·b + a of the rows matrix is atom (b, a)'s features. -/
theorem rowsOf_apply (v : FVec Ideal S64x48x384 .f32) (b : Fin 64) (a : Fin 48) (f : Fin 384) :
    rowsOf v (ix2 (rowOf b a) f) = v (ix3 b a f) := by
  unfold rowsOf
  refine shapeCast_apply _ _ _ (ix3 b a f) ?_
  rw [Shape.rowMajor_val_three, Shape.rowMajor_val_two]
  show (b.val * 48 + a.val) * 384 + f.val = (48 * b.val + a.val) * 384 + f.val
  omega

/-- Row 48·b + a of the species column is atom (b, a)'s species word. -/
theorem speciesCol_apply (v : IVec S64x48 32) (b : Fin 64) (a : Fin 48) :
    speciesCol v (ix2 (rowOf b a) (0 : Fin 1)) = v (ix2 b a) := by
  unfold speciesCol
  refine shapeCast_apply _ _ _ (ix2 b a) ?_
  rw [Shape.rowMajor_val_two, Shape.rowMajor_val_two]
  show b.val * 48 + a.val = (48 * b.val + a.val) * 1 + 0
  omega

/-- The sum over a molecule's atoms: entry (b, 0) of the result is the sum over `a` of the column at row 48·b + a. -/
theorem sumAtoms_apply (e : FVec Ideal S3072x1 .f32) (b : Fin 64) :
    sumAtoms e (ix2 b (0 : Fin 1)) = ∑ a : Fin 48, e (ix2 (rowOf b a) (0 : Fin 1)) := by
  unfold sumAtoms
  refine (shapeCast_apply _ _ _ (ix1 b) ?_).trans ?_
  · rw [Shape.rowMajor_val_one, Shape.rowMajor_val_two]
    show b.val = b.val * 1 + 0
    omega
  refine (Ideal.multiReduction_add_single (shapeCast S64x48 e shapeCasts_S3072x1_S64x48) 0x00000000#32 reduces_S64x48_S64 (.inl rfl) rfl (ix1 b)).trans ?_
  show (∑ a : Fin 48, (shapeCast S64x48 e shapeCasts_S3072x1_S64x48) (reduces_S64x48_S64.lift (ix1 b) a)) = _
  refine Finset.sum_congr rfl fun a _ => ?_
  have hl : reduces_S64x48_S64.lift (ix1 b) a = ix2 b a := funext fun d => Fin.ext (by
    match d with
    | ⟨0, _⟩ => rfl
    | ⟨1, _⟩ => rfl)
  rw [hl]
  refine shapeCast_apply _ _ _ (ix2 (rowOf b a) (0 : Fin 1)) ?_
  rw [Shape.rowMajor_val_two, Shape.rowMajor_val_two]
  show (48 * b.val + a.val) * 1 + 0 = b.val * 48 + a.val
  omega

end Cert.KernelIdeal.Rows

end
-- ==== Proof.BlockEq.lean ====
/-
  The body's stored value IS the composition of the row-wise functions of BlockTerm: per species, the slice of the
  body that computes that species' column and routes it is `pickV s` of `expertV` on that species' weight blocks, and the
  last slice also sums the atoms. Every equation here holds by unfolding the definitions on both sides: the two sides are
  the same operations in the same order.
-/
import proofs.«151302_j80032420593970_1_alg».proof.Proof.BlockTerm

noncomputable section

namespace Cert.KernelIdeal.Rows

open Cert.KernelIdeal Cert.KernelIdeal.Gen Idealize.ShloMosaic

variable (sp : IVec S3072x1 32) (e : FVec Ideal S3072x1 .f32) (x : FVec Ideal S3072x384 .bf16)
  (w1 : FVec Ideal S1x256x384 .f32) (b1 : FVec Ideal S1x256 .f32) (w2 : FVec Ideal S1x192x256 .f32) (b2 : FVec Ideal S1x192 .f32)
  (w3 : FVec Ideal S1x160x192 .f32) (b3 : FVec Ideal S1x160 .f32) (w4 : FVec Ideal S1x1x160 .f32) (b4 : FVec Ideal S1x1 .f32)

theorem rows_eq (v0 : FVec Ideal S64x48x384 .f32) : k0_pay2 (F := Ideal) v0 = rowsOf v0 := rfl
theorem species_eq (v3 : IVec S64x48 32) : k0_pay3 (F := Ideal) v3 = speciesCol v3 := rfl
theorem zero_eq : k0_pay4 (F := Ideal) = zeroCol := rfl

/-- Species 0. -/
theorem species0_eq (v0 : FVec Ideal S64x48x384 .f32) :
    k0_pay8 (F := Ideal) sp e (k0_pay6 (k0_pay5 v0 w1 b1 w2 b2) w3 b3 w4) (k0_pay7 b4)
      = pickV 0#32 sp (expertV (rowsOf v0) w1 b1 w2 b2 w3 b3 w4 b4) e := rfl

/-- Species 1. -/
theorem species1_eq :
    k0_pay12 (F := Ideal) sp e (k0_pay9 x w1 b1 w2 b2) (k0_pay10 x w1 b1 w2 b2) (k0_pay11 x w1 b1 w2 b2) w3 b3 w4 b4
      = pickV 1#32 sp (expertV x w1 b1 w2 b2 w3 b3 w4 b4) e := rfl

/-- Species 2. -/
theorem species2_eq :
    k0_pay14 (F := Ideal) sp e (k0_pay13 x w1 b1 w2 b2) w3 b3 w4 b4
      = pickV 2#32 sp (expertV x w1 b1 w2 b2 w3 b3 w4 b4) e := rfl

/-- Species 3. -/
theorem species3_eq :
    k0_pay18 (F := Ideal) sp e (k0_pay16 x (k0_pay15 w1) (constant S3072x256 .f32 0x00000000#32) b1 w2 b2) (k0_pay17 w3) b3 w4 b4
      = pickV 3#32 sp (expertV x w1 b1 w2 b2 w3 b3 w4 b4) e := rfl

/-- Species 4. -/
theorem species4_eq :
    k0_pay23 (F := Ideal) sp e (k0_pay21 (k0_pay19 x w1) (k0_pay20 b1) w2 b2 w3) (k0_pay22 b3) w4 b4
      = pickV 4#32 sp (expertV x w1 b1 w2 b2 w3 b3 w4 b4) e := rfl

/-- Species 5. -/
theorem species5_eq :
    k0_pay29 (F := Ideal) sp e
        (k0_pay27 (k0_pay24 x w1 b1) (k0_pay25 x w1 b1) (k0_pay26 x w1 b1) w2 b2 w3 b3)
        (k0_pay28 (k0_pay24 x w1 b1) (k0_pay25 x w1 b1) (k0_pay26 x w1 b1) w2 b2 w3 b3)
        (Scalar.ofBits .f32 0x3DCCCCCD#32) w4 b4
      = pickV 5#32 sp (expertV x w1 b1 w2 b2 w3 b3 w4 b4) e := rfl

/-- Species 6, and the sum over each molecule's atoms. -/
theorem species6_eq :
    k0_pay1 (F := Ideal) sp e
        (k0_pay33 (k0_pay30 x w1 b1) (k0_pay31 x w1 b1) (k0_pay32 x w1 b1) w2 b2 w3 b3)
        (k0_pay34 (k0_pay30 x w1 b1) (k0_pay31 x w1 b1) (k0_pay32 x w1 b1) w2 b2 w3 b3)
        (k0_pay35 (k0_pay30 x w1 b1) (k0_pay31 x w1 b1) (k0_pay32 x w1 b1) w2 b2 w3 b3)
        (Scalar.ofBits .f32 0x3DCCCCCD#32) w4 b4
      = sumAtoms (pickV 6#32 sp (expertV x w1 b1 w2 b2 w3 b3 w4 b4) e) := rfl

end Cert.KernelIdeal.Rows

end
-- ==== Proof.BlockValue.lean ====
/-
  What the body leaves in the output block, entry by entry.

  The body reads species `s`'s weights through unit rectangles at offsets (s, 0, 0) (or (s, 0)) of the stacked weight
  arrays: slab `s`. So species `s`'s column at a row is that species' network, its weights cut out of the stacks, on
  that row. Entry (b, 0) of the stored 64 × 1 block is then the sum over the 48 atoms `a` of the block's molecule `b` of
  the routed energy of atom (b, a): the species word at (b, a) chooses among the seven networks applied to the
  features at (b, a, ·).
-/
import proofs.«151302_j80032420593970_1_alg».proof.Proof.RowRead
import proofs.«151302_j80032420593970_1_alg».proof.Proof.BlockEq

noncomputable section

namespace Cert.KernelIdeal.Rows

open Cert.KernelIdeal Cert.KernelIdeal.Gen Idealize.ShloMosaic Idealize.ShloMosaic.ValueIdx
open scoped BigOperators

/-! ## Slab loads -/

/-- Slab `s` of a stack of matrices, read through the unit rectangle at offsets (s, 0, 0) and sizes (1, a, b). -/
theorem ld_slab3 {Val : EltTy → Type} {e : EltTy} {n a b : ℕ} (X : (⟨3, ![n, a, b]⟩ : Shape).Idx → Val e) (off : Fin 3 → ℕ)
    (inb : ∀ d, off d + (⟨3, ![1, a, b]⟩ : Shape).size d ≤ (⟨3, ![n, a, b]⟩ : Shape).size d)
    (s : Fin n) (h0 : off 0 = s.val) (h1 : off 1 = 0) (h2 : off 2 = 0) (j : Fin a) (k : Fin b) :
    View.ld X (Rect.unit off (⟨3, ![1, a, b]⟩ : Shape).size inb) (ix3 (0 : Fin 1) j k) = X (ix3 s j k) := by
  show X ((Rect.unit off _ inb).idx (ix3 (0 : Fin 1) j k)) = X (ix3 s j k)
  refine congrArg X (funext fun d => Fin.ext ?_)
  match d with
  | ⟨0, _⟩ => show off 0 + 1 * 0 = s.val; omega
  | ⟨1, _⟩ => show off 1 + 1 * j.val = j.val; omega
  | ⟨2, _⟩ => show off 2 + 1 * k.val = k.val; omega

/-- Row `s` of a stack of vectors, read through the unit rectangle at offsets (s, 0) and sizes (1, a). -/
theorem ld_slab2 {Val : EltTy → Type} {e : EltTy} {n a : ℕ} (X : (⟨2, ![n, a]⟩ : Shape).Idx → Val e) (off : Fin 2 → ℕ)
    (inb : ∀ d, off d + (⟨2, ![1, a]⟩ : Shape).size d ≤ (⟨2, ![n, a]⟩ : Shape).size d)
    (s : Fin n) (h0 : off 0 = s.val) (h1 : off 1 = 0) (j : Fin a) :
    View.ld X (Rect.unit off (⟨2, ![1, a]⟩ : Shape).size inb) (ix2 (0 : Fin 1) j) = X (ix2 s j) := by
  show X ((Rect.unit off _ inb).idx (ix2 (0 : Fin 1) j)) = X (ix2 s j)
  refine congrArg X (funext fun d => Fin.ext ?_)
  match d with
  | ⟨0, _⟩ => show off 0 + 1 * 0 = s.val; omega
  | ⟨1, _⟩ => show off 1 + 1 * j.val = j.val; omega

/-! ## Each species' column at a row, over the stacked weight arrays -/

/-- Species 0. -/
theorem expert0_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_2) (View.ld x3 r0_3) (View.ld x4 r0_4) (View.ld x5 r0_5) (View.ld x6 r0_6) (View.ld x7 r0_7) (View.ld x8 r0_8) (View.ld x9 r0_9) (ix2 r (0 : Fin 1))
      = Cert.Energy.expertOf 0 (fun k : Fin 384 => x (ix2 r k)) x2 x3 x4 x5 x6 x7 x8 x9 := by
  rw [expertV_apply]
  unfold Cert.Energy.expertOf
  have e2 : (fun (j : Fin 256) (k : Fin 384) => View.ld x2 r0_2 (ix3 (0 : Fin 1) j k)) = fun j k => x2 (ix3 (0 : Fin 7) j k) :=
    funext fun j => funext fun k => ld_slab3 (Val := Elt Ideal) x2 ![0, 0, 0] _ (0 : Fin 7) rfl rfl rfl j k
  have e3 : (fun (j : Fin 256) => View.ld x3 r0_3 (ix2 (0 : Fin 1) j)) = fun j => x3 (ix2 (0 : Fin 7) j) :=
    funext fun j => ld_slab2 (Val := Elt Ideal) x3 ![0, 0] _ (0 : Fin 7) rfl rfl j
  have e4 : (fun (j : Fin 192) (k : Fin 256) => View.ld x4 r0_4 (ix3 (0 : Fin 1) j k)) = fun j k => x4 (ix3 (0 : Fin 7) j k) :=
    funext fun j => funext fun k => ld_slab3 (Val := Elt Ideal) x4 ![0, 0, 0] _ (0 : Fin 7) rfl rfl rfl j k
  have e5 : (fun (j : Fin 192) => View.ld x5 r0_5 (ix2 (0 : Fin 1) j)) = fun j => x5 (ix2 (0 : Fin 7) j) :=
    funext fun j => ld_slab2 (Val := Elt Ideal) x5 ![0, 0] _ (0 : Fin 7) rfl rfl j
  have e6 : (fun (j : Fin 160) (k : Fin 192) => View.ld x6 r0_6 (ix3 (0 : Fin 1) j k)) = fun j k => x6 (ix3 (0 : Fin 7) j k) :=
    funext fun j => funext fun k => ld_slab3 (Val := Elt Ideal) x6 ![0, 0, 0] _ (0 : Fin 7) rfl rfl rfl j k
  have e7 : (fun (j : Fin 160) => View.ld x7 r0_7 (ix2 (0 : Fin 1) j)) = fun j => x7 (ix2 (0 : Fin 7) j) :=
    funext fun j => ld_slab2 (Val := Elt Ideal) x7 ![0, 0] _ (0 : Fin 7) rfl rfl j
  have e8 : (fun (j : Fin 1) (k : Fin 160) => View.ld x8 r0_8 (ix3 (0 : Fin 1) j k)) = fun j k => x8 (ix3 (0 : Fin 7) j k) :=
    funext fun j => funext fun k => ld_slab3 (Val := Elt Ideal) x8 ![0, 0, 0] _ (0 : Fin 7) rfl rfl rfl j k
  have e9 : (fun (j : Fin 1) => View.ld x9 r0_9 (ix2 (0 : Fin 1) j)) = fun j => x9 (ix2 (0 : Fin 7) j) :=
    funext fun j => ld_slab2 (Val := Elt Ideal) x9 ![0, 0] _ (0 : Fin 7) rfl rfl j
  rw [e2, e3, e4, e5, e6, e7, e8, e9]

/-- Species 1. -/
theorem expert1_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_10) (View.ld x3 r0_11) (View.ld x4 r0_12) (View.ld x5 r0_13) (View.ld x6 r0_14) (View.ld x7 r0_15) (View.ld x8 r0_16) (View.ld x9 r0_17) (ix2 r (0 : Fin 1))
      = Cert.Energy.expertOf 1 (fun k : Fin 384 => x (ix2 r k)) x2 x3 x4 x5 x6 x7 x8 x9 := by
  rw [expertV_apply]
  unfold Cert.Energy.expertOf
  have e2 : (fun (j : Fin 256) (k : Fin 384) => View.ld x2 r0_10 (ix3 (0 : Fin 1) j k)) = fun j k => x2 (ix3 (1 : Fin 7) j k) :=
    funext fun j => funext fun k => ld_slab3 (Val := Elt Ideal) x2 ![1, 0, 0] _ (1 : Fin 7) rfl rfl rfl j k
  have e3 : (fun (j : Fin 256) => View.ld x3 r0_11 (ix2 (0 : Fin 1) j)) = fun j => x3 (ix2 (1 : Fin 7) j) :=
    funext fun j => ld_slab2 (Val := Elt Ideal) x3 ![1, 0] _ (1 : Fin 7) rfl rfl j
  have e4 : (fun (j : Fin 192) (k : Fin 256) => View.ld x4 r0_12 (ix3 (0 : Fin 1) j k)) = fun j k => x4 (ix3 (1 : Fin 7) j k) :=
    funext fun j => funext fun k => ld_slab3 (Val := Elt Ideal) x4 ![1, 0, 0] _ (1 : Fin 7) rfl rfl rfl j k
  have e5 : (fun (j : Fin 192) => View.ld x5 r0_13 (ix2 (0 : Fin 1) j)) = fun j => x5 (ix2 (1 : Fin 7) j) :=
    funext fun j => ld_slab2 (Val := Elt Ideal) x5 ![1, 0] _ (1 : Fin 7) rfl rfl j
  have e6 : (fun (j : Fin 160) (k : Fin 192) => View.ld x6 r0_14 (ix3 (0 : Fin 1) j k)) = fun j k => x6 (ix3 (1 : Fin 7) j k) :=
    funext fun j => funext fun k => ld_slab3 (Val := Elt Ideal) x6 ![1, 0, 0] _ (1 : Fin 7) rfl rfl rfl j k
  have e7 : (fun (j : Fin 160) => View.ld x7 r0_15 (ix2 (0 : Fin 1) j)) = fun j => x7 (ix2 (1 : Fin 7) j) :=
    funext fun j => ld_slab2 (Val := Elt Ideal) x7 ![1, 0] _ (1 : Fin 7) rfl rfl j
  have e8 : (fun (j : Fin 1) (k : Fin 160) => View.ld x8 r0_16 (ix3 (0 : Fin 1) j k)) = fun j k => x8 (ix3 (1 : Fin 7) j k) :=
    funext fun j => funext fun k => ld_slab3 (Val := Elt Ideal) x8 ![1, 0, 0] _ (1 : Fin 7) rfl rfl rfl j k
  have e9 : (fun (j : Fin 1) => View.ld x9 r0_17 (ix2 (0 : Fin 1) j)) = fun j => x9 (ix2 (1 : Fin 7) j) :=
    funext fun j => ld_slab2 (Val := Elt Ideal) x9 ![1, 0] _ (1 : Fin 7) rfl rfl j
  rw [e2, e3, e4, e5, e6, e7, e8, e9]

/-- Species 2. -/
theorem expert2_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_18) (View.ld x3 r0_19) (View.ld x4 r0_20) (View.ld x5 r0_21) (View.ld x6 r0_22) (View.ld x7 r0_23) (View.ld x8 r0_24) (View.ld x9 r0_25) (ix2 r (0 : Fin 1))
      = Cert.Energy.expertOf 2 (fun k : Fin 384 => x (ix2 r k)) x2 x3 x4 x5 x6 x7 x8 x9 := by
  rw [expertV_apply]
  unfold Cert.Energy.expertOf
  have e2 : (fun (j : Fin 256) (k : Fin 384) => View.ld x2 r0_18 (ix3 (0 : Fin 1) j k)) = fun j k => x2 (ix3 (2 : Fin 7) j k) :=
    funext fun j => funext fun k => ld_slab3 (Val := Elt Ideal) x2 ![2, 0, 0] _ (2 : Fin 7) rfl rfl rfl j k
  have e3 : (fun (j : Fin 256) => View.ld x3 r0_19 (ix2 (0 : Fin 1) j)) = fun j => x3 (ix2 (2 : Fin 7) j) :=
    funext fun j => ld_slab2 (Val := Elt Ideal) x3 ![2, 0] _ (2 : Fin 7) rfl rfl j
  have e4 : (fun (j : Fin 192) (k : Fin 256) => View.ld x4 r0_20 (ix3 (0 : Fin 1) j k)) = fun j k => x4 (ix3 (2 : Fin 7) j k) :=
    funext fun j => funext fun k => ld_slab3 (Val := Elt Ideal) x4 ![2, 0, 0] _ (2 : Fin 7) rfl rfl rfl j k
  have e5 : (fun (j : Fin 192) => View.ld x5 r0_21 (ix2 (0 : Fin 1) j)) = fun j => x5 (ix2 (2 : Fin 7) j) :=
    funext fun j => ld_slab2 (Val := Elt Ideal) x5 ![2, 0] _ (2 : Fin 7) rfl rfl j
  have e6 : (fun (j : Fin 160) (k : Fin 192) => View.ld x6 r0_22 (ix3 (0 : Fin 1) j k)) = fun j k => x6 (ix3 (2 : Fin 7) j k) :=
    funext fun j => funext fun k => ld_slab3 (Val := Elt Ideal) x6 ![2, 0, 0] _ (2 : Fin 7) rfl rfl rfl j k
  have e7 : (fun (j : Fin 160) => View.ld x7 r0_23 (ix2 (0 : Fin 1) j)) = fun j => x7 (ix2 (2 : Fin 7) j) :=
    funext fun j => ld_slab2 (Val := Elt Ideal) x7 ![2, 0] _ (2 : Fin 7) rfl rfl j
  have e8 : (fun (j : Fin 1) (k : Fin 160) => View.ld x8 r0_24 (ix3 (0 : Fin 1) j k)) = fun j k => x8 (ix3 (2 : Fin 7) j k) :=
    funext fun j => funext fun k => ld_slab3 (Val := Elt Ideal) x8 ![2, 0, 0] _ (2 : Fin 7) rfl rfl rfl j k
  have e9 : (fun (j : Fin 1) => View.ld x9 r0_25 (ix2 (0 : Fin 1) j)) = fun j => x9 (ix2 (2 : Fin 7) j) :=
    funext fun j => ld_slab2 (Val := Elt Ideal) x9 ![2, 0] _ (2 : Fin 7) rfl rfl j
  rw [e2, e3, e4, e5, e6, e7, e8, e9]

/-- Species 3. -/
theorem expert3_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_26) (View.ld x3 r0_27) (View.ld x4 r0_28) (View.ld x5 r0_29) (View.ld x6 r0_30) (View.ld x7 r0_31) (View.ld x8 r0_32) (View.ld x9 r0_33) (ix2 r (0 : Fin 1))
      = Cert.Energy.expertOf 3 (fun k : Fin 384 => x (ix2 r k)) x2 x3 x4 x5 x6 x7 x8 x9 := by
  rw [expertV_apply]
  unfold Cert.Energy.expertOf
  have e2 : (fun (j : Fin 256) (k : Fin 384) => View.ld x2 r0_26 (ix3 (0 : Fin 1) j k)) = fun j k => x2 (ix3 (3 : Fin 7) j k) :=
    funext fun j => funext fun k => ld_slab3 (Val := Elt Ideal) x2 ![3, 0, 0] _ (3 : Fin 7) rfl rfl rfl j k
  have e3 : (fun (j : Fin 256) => View.ld x3 r0_27 (ix2 (0 : Fin 1) j)) = fun j => x3 (ix2 (3 : Fin 7) j) :=
    funext fun j => ld_slab2 (Val := Elt Ideal) x3 ![3, 0] _ (3 : Fin 7) rfl rfl j
  have e4 : (fun (j : Fin 192) (k : Fin 256) => View.ld x4 r0_28 (ix3 (0 : Fin 1) j k)) = fun j k => x4 (ix3 (3 : Fin 7) j k) :=
    funext fun j => funext fun k => ld_slab3 (Val := Elt Ideal) x4 ![3, 0, 0] _ (3 : Fin 7) rfl rfl rfl j k
  have e5 : (fun (j : Fin 192) => View.ld x5 r0_29 (ix2 (0 : Fin 1) j)) = fun j => x5 (ix2 (3 : Fin 7) j) :=
    funext fun j => ld_slab2 (Val := Elt Ideal) x5 ![3, 0] _ (3 : Fin 7) rfl rfl j
  have e6 : (fun (j : Fin 160) (k : Fin 192) => View.ld x6 r0_30 (ix3 (0 : Fin 1) j k)) = fun j k => x6 (ix3 (3 : Fin 7) j k) :=
    funext fun j => funext fun k => ld_slab3 (Val := Elt Ideal) x6 ![3, 0, 0] _ (3 : Fin 7) rfl rfl rfl j k
  have e7 : (fun (j : Fin 160) => View.ld x7 r0_31 (ix2 (0 : Fin 1) j)) = fun j => x7 (ix2 (3 : Fin 7) j) :=
    funext fun j => ld_slab2 (Val := Elt Ideal) x7 ![3, 0] _ (3 : Fin 7) rfl rfl j
  have e8 : (fun (j : Fin 1) (k : Fin 160) => View.ld x8 r0_32 (ix3 (0 : Fin 1) j k)) = fun j k => x8 (ix3 (3 : Fin 7) j k) :=
    funext fun j => funext fun k => ld_slab3 (Val := Elt Ideal) x8 ![3, 0, 0] _ (3 : Fin 7) rfl rfl rfl j k
  have e9 : (fun (j : Fin 1) => View.ld x9 r0_33 (ix2 (0 : Fin 1) j)) = fun j => x9 (ix2 (3 : Fin 7) j) :=
    funext fun j => ld_slab2 (Val := Elt Ideal) x9 ![3, 0] _ (3 : Fin 7) rfl rfl j
  rw [e2, e3, e4, e5, e6, e7, e8, e9]

/-- Species 4. -/
theorem expert4_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_34) (View.ld x3 r0_35) (View.ld x4 r0_36) (View.ld x5 r0_37) (View.ld x6 r0_38) (View.ld x7 r0_39) (View.ld x8 r0_40) (View.ld x9 r0_41) (ix2 r (0 : Fin 1))
      = Cert.Energy.expertOf 4 (fun k : Fin 384 => x (ix2 r k)) x2 x3 x4 x5 x6 x7 x8 x9 := by
  rw [expertV_apply]
  unfold Cert.Energy.expertOf
  have e2 : (fun (j : Fin 256) (k : Fin 384) => View.ld x2 r0_34 (ix3 (0 : Fin 1) j k)) = fun j k => x2 (ix3 (4 : Fin 7) j k) :=
    funext fun j => funext fun k => ld_slab3 (Val := Elt Ideal) x2 ![4, 0, 0] _ (4 : Fin 7) rfl rfl rfl j k
  have e3 : (fun (j : Fin 256) => View.ld x3 r0_35 (ix2 (0 : Fin 1) j)) = fun j => x3 (ix2 (4 : Fin 7) j) :=
    funext fun j => ld_slab2 (Val := Elt Ideal) x3 ![4, 0] _ (4 : Fin 7) rfl rfl j
  have e4 : (fun (j : Fin 192) (k : Fin 256) => View.ld x4 r0_36 (ix3 (0 : Fin 1) j k)) = fun j k => x4 (ix3 (4 : Fin 7) j k) :=
    funext fun j => funext fun k => ld_slab3 (Val := Elt Ideal) x4 ![4, 0, 0] _ (4 : Fin 7) rfl rfl rfl j k
  have e5 : (fun (j : Fin 192) => View.ld x5 r0_37 (ix2 (0 : Fin 1) j)) = fun j => x5 (ix2 (4 : Fin 7) j) :=
    funext fun j => ld_slab2 (Val := Elt Ideal) x5 ![4, 0] _ (4 : Fin 7) rfl rfl j
  have e6 : (fun (j : Fin 160) (k : Fin 192) => View.ld x6 r0_38 (ix3 (0 : Fin 1) j k)) = fun j k => x6 (ix3 (4 : Fin 7) j k) :=
    funext fun j => funext fun k => ld_slab3 (Val := Elt Ideal) x6 ![4, 0, 0] _ (4 : Fin 7) rfl rfl rfl j k
  have e7 : (fun (j : Fin 160) => View.ld x7 r0_39 (ix2 (0 : Fin 1) j)) = fun j => x7 (ix2 (4 : Fin 7) j) :=
    funext fun j => ld_slab2 (Val := Elt Ideal) x7 ![4, 0] _ (4 : Fin 7) rfl rfl j
  have e8 : (fun (j : Fin 1) (k : Fin 160) => View.ld x8 r0_40 (ix3 (0 : Fin 1) j k)) = fun j k => x8 (ix3 (4 : Fin 7) j k) :=
    funext fun j => funext fun k => ld_slab3 (Val := Elt Ideal) x8 ![4, 0, 0] _ (4 : Fin 7) rfl rfl rfl j k
  have e9 : (fun (j : Fin 1) => View.ld x9 r0_41 (ix2 (0 : Fin 1) j)) = fun j => x9 (ix2 (4 : Fin 7) j) :=
    funext fun j => ld_slab2 (Val := Elt Ideal) x9 ![4, 0] _ (4 : Fin 7) rfl rfl j
  rw [e2, e3, e4, e5, e6, e7, e8, e9]

/-- Species 5. -/
theorem expert5_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_42) (View.ld x3 r0_43) (View.ld x4 r0_44) (View.ld x5 r0_45) (View.ld x6 r0_46) (View.ld x7 r0_47) (View.ld x8 r0_48) (View.ld x9 r0_49) (ix2 r (0 : Fin 1))
      = Cert.Energy.expertOf 5 (fun k : Fin 384 => x (ix2 r k)) x2 x3 x4 x5 x6 x7 x8 x9 := by
  rw [expertV_apply]
  unfold Cert.Energy.expertOf
  have e2 : (fun (j : Fin 256) (k : Fin 384) => View.ld x2 r0_42 (ix3 (0 : Fin 1) j k)) = fun j k => x2 (ix3 (5 : Fin 7) j k) :=
    funext fun j => funext fun k => ld_slab3 (Val := Elt Ideal) x2 ![5, 0, 0] _ (5 : Fin 7) rfl rfl rfl j k
  have e3 : (fun (j : Fin 256) => View.ld x3 r0_43 (ix2 (0 : Fin 1) j)) = fun j => x3 (ix2 (5 : Fin 7) j) :=
    funext fun j => ld_slab2 (Val := Elt Ideal) x3 ![5, 0] _ (5 : Fin 7) rfl rfl j
  have e4 : (fun (j : Fin 192) (k : Fin 256) => View.ld x4 r0_44 (ix3 (0 : Fin 1) j k)) = fun j k => x4 (ix3 (5 : Fin 7) j k) :=
    funext fun j => funext fun k => ld_slab3 (Val := Elt Ideal) x4 ![5, 0, 0] _ (5 : Fin 7) rfl rfl rfl j k
  have e5 : (fun (j : Fin 192) => View.ld x5 r0_45 (ix2 (0 : Fin 1) j)) = fun j => x5 (ix2 (5 : Fin 7) j) :=
    funext fun j => ld_slab2 (Val := Elt Ideal) x5 ![5, 0] _ (5 : Fin 7) rfl rfl j
  have e6 : (fun (j : Fin 160) (k : Fin 192) => View.ld x6 r0_46 (ix3 (0 : Fin 1) j k)) = fun j k => x6 (ix3 (5 : Fin 7) j k) :=
    funext fun j => funext fun k => ld_slab3 (Val := Elt Ideal) x6 ![5, 0, 0] _ (5 : Fin 7) rfl rfl rfl j k
  have e7 : (fun (j : Fin 160) => View.ld x7 r0_47 (ix2 (0 : Fin 1) j)) = fun j => x7 (ix2 (5 : Fin 7) j) :=
    funext fun j => ld_slab2 (Val := Elt Ideal) x7 ![5, 0] _ (5 : Fin 7) rfl rfl j
  have e8 : (fun (j : Fin 1) (k : Fin 160) => View.ld x8 r0_48 (ix3 (0 : Fin 1) j k)) = fun j k => x8 (ix3 (5 : Fin 7) j k) :=
    funext fun j => funext fun k => ld_slab3 (Val := Elt Ideal) x8 ![5, 0, 0] _ (5 : Fin 7) rfl rfl rfl j k
  have e9 : (fun (j : Fin 1) => View.ld x9 r0_49 (ix2 (0 : Fin 1) j)) = fun j => x9 (ix2 (5 : Fin 7) j) :=
    funext fun j => ld_slab2 (Val := Elt Ideal) x9 ![5, 0] _ (5 : Fin 7) rfl rfl j
  rw [e2, e3, e4, e5, e6, e7, e8, e9]

/-- Species 6. -/
theorem expert6_block (x : FVec Ideal S3072x384 .bf16) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (r : Fin 3072) :
    expertV x (View.ld x2 r0_50) (View.ld x3 r0_51) (View.ld x4 r0_52) (View.ld x5 r0_53) (View.ld x6 r0_54) (View.ld x7 r0_55) (View.ld x8 r0_56) (View.ld x9 r0_57) (ix2 r (0 : Fin 1))
      = Cert.Energy.expertOf 6 (fun k : Fin 384 => x (ix2 r k)) x2 x3 x4 x5 x6 x7 x8 x9 := by
  rw [expertV_apply]
  unfold Cert.Energy.expertOf
  have e2 : (fun (j : Fin 256) (k : Fin 384) => View.ld x2 r0_50 (ix3 (0 : Fin 1) j k)) = fun j k => x2 (ix3 (6 : Fin 7) j k) :=
    funext fun j => funext fun k => ld_slab3 (Val := Elt Ideal) x2 ![6, 0, 0] _ (6 : Fin 7) rfl rfl rfl j k
  have e3 : (fun (j : Fin 256) => View.ld x3 r0_51 (ix2 (0 : Fin 1) j)) = fun j => x3 (ix2 (6 : Fin 7) j) :=
    funext fun j => ld_slab2 (Val := Elt Ideal) x3 ![6, 0] _ (6 : Fin 7) rfl rfl j
  have e4 : (fun (j : Fin 192) (k : Fin 256) => View.ld x4 r0_52 (ix3 (0 : Fin 1) j k)) = fun j k => x4 (ix3 (6 : Fin 7) j k) :=
    funext fun j => funext fun k => ld_slab3 (Val := Elt Ideal) x4 ![6, 0, 0] _ (6 : Fin 7) rfl rfl rfl j k
  have e5 : (fun (j : Fin 192) => View.ld x5 r0_53 (ix2 (0 : Fin 1) j)) = fun j => x5 (ix2 (6 : Fin 7) j) :=
    funext fun j => ld_slab2 (Val := Elt Ideal) x5 ![6, 0] _ (6 : Fin 7) rfl rfl j
  have e6 : (fun (j : Fin 160) (k : Fin 192) => View.ld x6 r0_54 (ix3 (0 : Fin 1) j k)) = fun j k => x6 (ix3 (6 : Fin 7) j k) :=
    funext fun j => funext fun k => ld_slab3 (Val := Elt Ideal) x6 ![6, 0, 0] _ (6 : Fin 7) rfl rfl rfl j k
  have e7 : (fun (j : Fin 160) => View.ld x7 r0_55 (ix2 (0 : Fin 1) j)) = fun j => x7 (ix2 (6 : Fin 7) j) :=
    funext fun j => ld_slab2 (Val := Elt Ideal) x7 ![6, 0] _ (6 : Fin 7) rfl rfl j
  have e8 : (fun (j : Fin 1) (k : Fin 160) => View.ld x8 r0_56 (ix3 (0 : Fin 1) j k)) = fun j k => x8 (ix3 (6 : Fin 7) j k) :=
    funext fun j => funext fun k => ld_slab3 (Val := Elt Ideal) x8 ![6, 0, 0] _ (6 : Fin 7) rfl rfl rfl j k
  have e9 : (fun (j : Fin 1) => View.ld x9 r0_57 (ix2 (0 : Fin 1) j)) = fun j => x9 (ix2 (6 : Fin 7) j) :=
    funext fun j => ld_slab2 (Val := Elt Ideal) x9 ![6, 0] _ (6 : Fin 7) rfl rfl j
  rw [e2, e3, e4, e5, e6, e7, e8, e9]

/-! ## The stored block -/

/-- Entry (b, 0) of what the body stores, as a function of the staged blocks: the molecule's atoms' routed energies, summed. -/
theorem out_apply (x0 : Vec Ideal S64x48 .i32) (x1 : Vec Ideal S64x48x384 .f32) (x2 : Vec Ideal S7x256x384 .f32) (x3 : Vec Ideal S7x256 .f32) (x4 : Vec Ideal S7x192x256 .f32) (x5 : Vec Ideal S7x192 .f32) (x6 : Vec Ideal S7x160x192 .f32) (x7 : Vec Ideal S7x160 .f32) (x8 : Vec Ideal S7x1x160 .f32) (x9 : Vec Ideal S7x1 .f32) (b : Fin 64) :
    out0_10 (F := Ideal) x0 x1 x2 x3 x4 x5 x6 x7 x8 x9 (ix2 b (0 : Fin 1))
      = ∑ a : Fin 48, Cert.Energy.routed (x0 (ix2 b a))
          (fun s => Cert.Energy.expertOf s (fun f : Fin 384 => x1 (ix3 b a f)) x2 x3 x4 x5 x6 x7 x8 x9) := by
  have hz2 : (![0, 0] : Fin 2 → ℕ) = fun _ => 0 := by
    funext d; match d with | ⟨0, _⟩ => rfl | ⟨1, _⟩ => rfl
  have hz3 : (![0, 0, 0] : Fin 3 → ℕ) = fun _ => 0 := by
    funext d; match d with | ⟨0, _⟩ => rfl | ⟨1, _⟩ => rfl | ⟨2, _⟩ => rfl
  unfold out0_10
  rw [View.canon_unit_zero hz2]
  simp only [View.ld_unit_zero (S := S64x48) hz2, View.ld_unit_zero (S := S64x48x384) hz3]
  rw [species6_eq, species5_eq, species4_eq, species3_eq, species2_eq, species1_eq, species0_eq, species_eq, rows_eq, zero_eq]
  rw [sumAtoms_apply]
  refine Finset.sum_congr rfl fun a _ => ?_
  unfold Cert.Energy.routed
  simp only [pickV_apply, expert0_block, expert1_block, expert2_block, expert3_block, expert4_block, expert5_block, expert6_block,
    speciesCol_apply, rowsOf_apply]
  rfl

end Cert.KernelIdeal.Rows

end
-- ==== Proof.KernelValue.lean ====
/-
  From the blocks to the whole result.

  The grid has 16 points; point `t` stages molecules 64·t … 64·t + 63 (their species words and features) and ALL the
  weights, and writes back rows 64·t … 64·t + 63 of a 1024 × 1 column. By BlockValue, entry (b, 0) of what point `t` writes
  is the energy of molecule 64·t + b; the 16 blocks tile the column, so the column ends holding every molecule's energy.
  The one host operation after the region reads the 1024 × 1 column as a vector of 1024.
-/
import proofs.«151302_j80032420593970_1_alg».proof.Proof.BlockValue
import Idealize.ShloMosaic.Lib.StableHlo.Run

set_option maxRecDepth 16384

noncomputable section

namespace Cert.KernelIdeal.Whole

open Cert.KernelIdeal Cert.KernelIdeal.Gen Cert.KernelIdeal.Rows Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The column the region's result array ends holding: row `i` is molecule `i`'s energy. -/
def energyCol (SP : S1024x48.Idx → BitVec 32) (X : S1024x48x384.Idx → Ideal .f32)
    (W1 : S7x256x384.Idx → Ideal .f32) (B1 : S7x256.Idx → Ideal .f32) (W2 : S7x192x256.Idx → Ideal .f32) (B2 : S7x192.Idx → Ideal .f32)
    (W3 : S7x160x192.Idx → Ideal .f32) (B3 : S7x160.Idx → Ideal .f32) (W4 : S7x1x160.Idx → Ideal .f32) (B4 : S7x1.Idx → Ideal .f32) :
    S1024x1.Idx → Ideal .f32 :=
  fun i => Cert.Energy.molEnergy SP X W1 B1 W2 B2 W3 B3 W4 B4 (i 0)

/-- The vector @main returns: entry `i` is molecule `i`'s energy. -/
def energyVec (SP : S1024x48.Idx → BitVec 32) (X : S1024x48x384.Idx → Ideal .f32)
    (W1 : S7x256x384.Idx → Ideal .f32) (B1 : S7x256.Idx → Ideal .f32) (W2 : S7x192x256.Idx → Ideal .f32) (B2 : S7x192.Idx → Ideal .f32)
    (W3 : S7x160x192.Idx → Ideal .f32) (B3 : S7x160.Idx → Ideal .f32) (W4 : S7x1x160.Idx → Ideal .f32) (B4 : S7x1.Idx → Ideal .f32) :
    S1024.Idx → Ideal .f32 :=
  fun i => Cert.Energy.molEnergy SP X W1 B1 W2 B2 W3 B3 W4 B4 (i 0)

/-- Molecule 64·t + b: row `b` of point `t`'s block. -/
def mol (t : Fin cfg0.N) (b : Fin 64) : Fin 1024 :=
  ⟨64 * t.val + b.val, by have := t.isLt; have hN : cfg0.N = 16 := N_0; have := b.isLt; omega⟩

/-! ## The index maps, decided over the 16 points -/

theorem idx_moving : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_10.index t (0 : Fin 2) = t.val ∧ win0_10.index t (1 : Fin 2) = 0 :=
  (by decide +kernel : ∀ t : Fin grid0.N, _)

theorem idx_w2 : ∀ t : Fin cfg0.N, win0_2.index t (0 : Fin 3) = 0 ∧ win0_2.index t (1 : Fin 3) = 0 ∧ win0_2.index t (2 : Fin 3) = 0 :=
  (by decide +kernel : ∀ t : Fin grid0.N, _)

theorem idx_w3 : ∀ t : Fin cfg0.N, win0_3.index t (0 : Fin 2) = 0 ∧ win0_3.index t (1 : Fin 2) = 0 :=
  (by decide +kernel : ∀ t : Fin grid0.N, _)

theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)

theorem idx_w5 : ∀ t : Fin cfg0.N, win0_5.index t (0 : Fin 2) = 0 ∧ win0_5.index t (1 : Fin 2) = 0 :=
  (by decide +kernel : ∀ t : Fin grid0.N, _)

theorem idx_w6 : ∀ t : Fin cfg0.N, win0_6.index t (0 : Fin 3) = 0 ∧ win0_6.index t (1 : Fin 3) = 0 ∧ win0_6.index t (2 : Fin 3) = 0 :=
  (by decide +kernel : ∀ t : Fin grid0.N, _)

theorem idx_w7 : ∀ t : Fin cfg0.N, win0_7.index t (0 : Fin 2) = 0 ∧ win0_7.index t (1 : Fin 2) = 0 :=
  (by decide +kernel : ∀ t : Fin grid0.N, _)

theorem idx_w8 : ∀ t : Fin cfg0.N, win0_8.index t (0 : Fin 3) = 0 ∧ win0_8.index t (1 : Fin 3) = 0 ∧ win0_8.index t (2 : Fin 3) = 0 :=
  (by decide +kernel : ∀ t : Fin grid0.N, _)

theorem idx_w9 : ∀ t : Fin cfg0.N, win0_9.index t (0 : Fin 2) = 0 ∧ win0_9.index t (1 : Fin 2) = 0 :=
  (by decide +kernel : ∀ t : Fin grid0.N, _)

/-! ## The staged blocks, read off the arrays -/

/-- Point `t`'s species block at (b, a) is the species array at (64·t + b, a). -/
theorem blk_species (c : Dev nD) (t : Fin cfg0.N) (b : Fin 64) (a : Fin 48) :
    (iblk m c 0 t : Vec Ideal S64x48 .i32) (ix2 b a) = V m c main_arg0 (ix2 (mol t b) a) := by
  obtain ⟨e0, e1, -⟩ := idx_moving t
  unfold iblk
  rw [View.read_apply]
  show V m c main_arg0 _ = V m c main_arg0 _
  refine congrArg (V m c main_arg0) (funext fun d => Fin.ext ?_)
  match d with
  | ⟨0, _⟩ => show win0_0.index t 0 * 64 + 1 * b.val = 64 * t.val + b.val; rw [e0]; omega
  | ⟨1, _⟩ => show win0_0.index t 1 * 48 + 1 * a.val = a.val; rw [e1]; omega

/-- Point `t`'s feature block at (b, a, f) is the feature array at (64·t + b, a, f). -/
theorem blk_features (c : Dev nD) (t : Fin cfg0.N) (b : Fin 64) (a : Fin 48) (f : Fin 384) :
    (iblk m c 1 t : Vec Ideal S64x48x384 .f32) (ix3 b a f) = V m c main_arg1 (ix3 (mol t b) a f) := by
  obtain ⟨-, -, e0, e1, e2, -⟩ := idx_moving t
  unfold iblk
  rw [View.read_apply]
  show V m c main_arg1 _ = V m c main_arg1 _
  refine congrArg (V m c main_arg1) (funext fun d => Fin.ext ?_)
  match d with
  | ⟨0, _⟩ => show win0_1.index t 0 * 64 + 1 * b.val = 64 * t.val + b.val; rw [e0]; omega
  | ⟨1, _⟩ => show win0_1.index t 1 * 48 + 1 * a.val = a.val; rw [e1]; omega
  | ⟨2, _⟩ => show win0_1.index t 2 * 384 + 1 * f.val = f.val; rw [e2]; omega

/-- Every point stages the whole of array 2. -/
theorem blk_w2 (c : Dev nD) (t : Fin cfg0.N) : (iblk m c 2 t : Vec Ideal S7x256x384 .f32) = V m c main_arg2 := by
  obtain ⟨e0, e1, e2⟩ := idx_w2 t
  funext i
  unfold iblk
  rw [View.read_apply]
  show V m c main_arg2 _ = V m c main_arg2 i
  refine congrArg (V m c main_arg2) (funext fun d => Fin.ext ?_)
  match d with
  | ⟨0, _⟩ => show win0_2.index t 0 * 7 + 1 * (i 0).val = (i 0).val; rw [e0]; omega
  | ⟨1, _⟩ => show win0_2.index t 1 * 256 + 1 * (i 1).val = (i 1).val; rw [e1]; omega
  | ⟨2, _⟩ => show win0_2.index t 2 * 384 + 1 * (i 2).val = (i 2).val; rw [e2]; omega

/-- Every point stages the whole of array 3. -/
theorem blk_w3 (c : Dev nD) (t : Fin cfg0.N) : (iblk m c 3 t : Vec Ideal S7x256 .f32) = V m c main_arg3 := by
  obtain ⟨e0, e1⟩ := idx_w3 t
  funext i
  unfold iblk
  rw [View.read_apply]
  show V m c main_arg3 _ = V m c main_arg3 i
  refine congrArg (V m c main_arg3) (funext fun d => Fin.ext ?_)
  match d with
  | ⟨0, _⟩ => show win0_3.index t 0 * 7 + 1 * (i 0).val = (i 0).val; rw [e0]; omega
  | ⟨1, _⟩ => show win0_3.index t 1 * 256 + 1 * (i 1).val = (i 1).val; rw [e1]; omega

/-- Every point stages the whole of array 4. -/
theorem blk_w4 (c : Dev nD) (t : Fin cfg0.N) : (iblk m c 4 t : Vec Ideal S7x192x256 .f32) = V m c main_arg4 := by
  obtain ⟨e0, e1, e2⟩ := idx_w4 t
  funext i
  unfold iblk
  rw [View.read_apply]
  show V m c main_arg4 _ = V m c main_arg4 i
  refine congrArg (V m c main_arg4) (funext fun d => Fin.ext ?_)
  match d with
  | ⟨0, _⟩ => show win0_4.index t 0 * 7 + 1 * (i 0).val = (i 0).val; rw [e0]; omega
  | ⟨1, _⟩ => show win0_4.index t 1 * 192 + 1 * (i 1).val = (i 1).val; rw [e1]; omega
  | ⟨2, _⟩ => show win0_4.index t 2 * 256 + 1 * (i 2).val = (i 2).val; rw [e2]; omega

/-- Every point stages the whole of array 5. -/
theorem blk_w5 (c : Dev nD) (t : Fin cfg0.N) : (iblk m c 5 t : Vec Ideal S7x192 .f32) = V m c main_arg5 := by
  obtain ⟨e0, e1⟩ := idx_w5 t
  funext i
  unfold iblk
  rw [View.read_apply]
  show V m c main_arg5 _ = V m c main_arg5 i
  refine congrArg (V m c main_arg5) (funext fun d => Fin.ext ?_)
  match d with
  | ⟨0, _⟩ => show win0_5.index t 0 * 7 + 1 * (i 0).val = (i 0).val; rw [e0]; omega
  | ⟨1, _⟩ => show win0_5.index t 1 * 192 + 1 * (i 1).val = (i 1).val; rw [e1]; omega

/-- Every point stages the whole of array 6. -/
theorem blk_w6 (c : Dev nD) (t : Fin cfg0.N) : (iblk m c 6 t : Vec Ideal S7x160x192 .f32) = V m c main_arg6 := by
  obtain ⟨e0, e1, e2⟩ := idx_w6 t
  funext i
  unfold iblk
  rw [View.read_apply]
  show V m c main_arg6 _ = V m c main_arg6 i
  refine congrArg (V m c main_arg6) (funext fun d => Fin.ext ?_)
  match d with
  | ⟨0, _⟩ => show win0_6.index t 0 * 7 + 1 * (i 0).val = (i 0).val; rw [e0]; omega
  | ⟨1, _⟩ => show win0_6.index t 1 * 160 + 1 * (i 1).val = (i 1).val; rw [e1]; omega
  | ⟨2, _⟩ => show win0_6.index t 2 * 192 + 1 * (i 2).val = (i 2).val; rw [e2]; omega

/-- Every point stages the whole of array 7. -/
theorem blk_w7 (c : Dev nD) (t : Fin cfg0.N) : (iblk m c 7 t : Vec Ideal S7x160 .f32) = V m c main_arg7 := by
  obtain ⟨e0, e1⟩ := idx_w7 t
  funext i
  unfold iblk
  rw [View.read_apply]
  show V m c main_arg7 _ = V m c main_arg7 i
  refine congrArg (V m c main_arg7) (funext fun d => Fin.ext ?_)
  match d with
  | ⟨0, _⟩ => show win0_7.index t 0 * 7 + 1 * (i 0).val = (i 0).val; rw [e0]; omega
  | ⟨1, _⟩ => show win0_7.index t 1 * 160 + 1 * (i 1).val = (i 1).val; rw [e1]; omega

/-- Every point stages the whole of array 8. -/
theorem blk_w8 (c : Dev nD) (t : Fin cfg0.N) : (iblk m c 8 t : Vec Ideal S7x1x160 .f32) = V m c main_arg8 := by
  obtain ⟨e0, e1, e2⟩ := idx_w8 t
  funext i
  unfold iblk
  rw [View.read_apply]
  show V m c main_arg8 _ = V m c main_arg8 i
  refine congrArg (V m c main_arg8) (funext fun d => Fin.ext ?_)
  match d with
  | ⟨0, _⟩ => show win0_8.index t 0 * 7 + 1 * (i 0).val = (i 0).val; rw [e0]; omega
  | ⟨1, _⟩ => show win0_8.index t 1 * 1 + 1 * (i 1).val = (i 1).val; rw [e1]; omega
  | ⟨2, _⟩ => show win0_8.index t 2 * 160 + 1 * (i 2).val = (i 2).val; rw [e2]; omega

/-- Every point stages the whole of array 9. -/
theorem blk_w9 (c : Dev nD) (t : Fin cfg0.N) : (iblk m c 9 t : Vec Ideal S7x1 .f32) = V m c main_arg9 := by
  obtain ⟨e0, e1⟩ := idx_w9 t
  funext i
  unfold iblk
  rw [View.read_apply]
  show V m c main_arg9 _ = V m c main_arg9 i
  refine congrArg (V m c main_arg9) (funext fun d => Fin.ext ?_)
  match d with
  | ⟨0, _⟩ => show win0_9.index t 0 * 7 + 1 * (i 0).val = (i 0).val; rw [e0]; omega
  | ⟨1, _⟩ => show win0_9.index t 1 * 1 + 1 * (i 1).val = (i 1).val; rw [e1]; omega

/-! ## What each point writes back, the cover, the array -/

/-- What point `t` writes back is block `t` of the energy column of the arrays as the region finds them. -/
theorem flushed_eq (c : Dev nD) (t : Fin cfg0.N) :
    (dats m 0 c).flushed 10 t = ((cfg0.win 10).blk t).view.read (Elt Ideal) (energyCol (V m c main_arg0) (V m c main_arg1) (V m c main_arg2) (V m c main_arg3) (V m c main_arg4) (V m c main_arg5) (V m c main_arg6) (V m c main_arg7) (V m c main_arg8) (V m c main_arg9)) := by
  show (cfg0.win 10).cut (grid0.coords t) ((dats m 0 c).after 10 t) = _
  rw [after0_10]
  funext y
  obtain ⟨b, u, rfl⟩ : ∃ (b : Fin 64) (u : Fin 1), y = ix2 b u := ⟨y 0, y 1, eq_ix2 (n0 := 64) (n1 := 1) y⟩
  obtain rfl : u = 0 := Subsingleton.elim _ _
  obtain ⟨-, -, -, -, -, e0, e1⟩ := idx_moving t
  have hi : (((cfg0.win 10).blk t).view.emb (ix2 b (0 : Fin 1))) 0 = mol t b := Fin.ext (by
    show win0_10.index t 0 * 64 + 1 * b.val = 64 * t.val + b.val; rw [e0]; omega)
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 b (0 : Fin 1))
      = Cert.Energy.molEnergy (V m c main_arg0) (V m c main_arg1) (V m c main_arg2) (V m c main_arg3) (V m c main_arg4) (V m c main_arg5) (V m c main_arg6) (V m c main_arg7) (V m c main_arg8) (V m c main_arg9) ((((cfg0.win 10).blk t).view.emb (ix2 b (0 : Fin 1))) 0)
  rw [hi]
  refine (out_apply (iblk m c 0 t) (iblk m c 1 t) (iblk m c 2 t) (iblk m c 3 t) (iblk m c 4 t) (iblk m c 5 t) (iblk m c 6 t) (iblk m c 7 t) (iblk m c 8 t) (iblk m c 9 t) b).trans ?_
  unfold Cert.Energy.molEnergy Cert.Energy.atomEnergy
  rw [blk_w2 m c t, blk_w3 m c t, blk_w4 m c t, blk_w5 m c t, blk_w6 m c t, blk_w7 m c t, blk_w8 m c t, blk_w9 m c t]
  refine Finset.sum_congr rfl fun a _ => ?_
  rw [blk_species m c t b a]
  simp only [blk_features m c t b a]

/-- The 16 blocks cover the column: row `r` is in block `r / 64`. -/
theorem cover (i : S1024x1.Idx) : ∃ t : Fin cfg0.N, (cfg0.win 10).flush t = true ∧ i ∈ ((cfg0.win 10).blk t).view.set := by
  have hN : cfg0.N = 16 := N_0
  have h0 : (i 0).val < 1024 := (i 0).isLt
  have h1 : (i 1).val < 1 := (i 1).isLt
  have hlt : (i 0).val / 64 < cfg0.N := by omega
  obtain ⟨-, -, -, -, -, e0, e1⟩ := idx_moving ⟨(i 0).val / 64, hlt⟩
  refine ⟨⟨(i 0).val / 64, hlt⟩, flush0_10 _, ?_⟩
  show i ∈ ((View.whole main_v0).slice (win0_10.rect ⟨(i 0).val / 64, hlt⟩)).set
  rw [View.set_slice_whole, Rect.mem_set_unit]
  intro a
  match a with
  | ⟨0, _⟩ =>
    show win0_10.index ⟨(i 0).val / 64, hlt⟩ 0 * 64 ≤ (i 0).val ∧ (i 0).val < win0_10.index ⟨(i 0).val / 64, hlt⟩ 0 * 64 + 64
    rw [e0]; show (i 0).val / 64 * 64 ≤ (i 0).val ∧ (i 0).val < (i 0).val / 64 * 64 + 64; omega
  | ⟨1, _⟩ =>
    show win0_10.index ⟨(i 0).val / 64, hlt⟩ 1 * 1 ≤ (i 1).val ∧ (i 1).val < win0_10.index ⟨(i 0).val / 64, hlt⟩ 1 * 1 + 1
    rw [e1]; omega

/-- The region's result array after the run: every molecule's energy, of the arguments as launched. -/
theorem final (c : Dev nD) : (dats m 0 c).arrAt 10 cfg0.N = energyCol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 10 (energyCol (V m c main_arg0) (V m c main_arg1) (V m c main_arg2) (V m c main_arg3) (V m c main_arg4) (V m c main_arg5) (V m c main_arg6) (V m c main_arg7) (V m c main_arg8) (V m c main_arg9)) (fun t _ => flushed_eq m c t) cover

/-! ## The host operation after the region, and the run -/

/-- @main's result: the column read as a vector. -/
theorem result_eq (c : Dev nD) :
    Pipeline.afterTail₀ cfgs (dats m) 0 (V0 m) [hostOps1] c main_v1 = energyVec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = energyCol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
    (Pipeline.withArrays_arr spec0 launch0.win.arr_inj c _ _ 10).trans (final m c)
  funext i
  obtain ⟨r, rfl⟩ : ∃ r : Fin 1024, i = ix1 r := ⟨i 0, eq_ix1 (n := 1024) i⟩
  show shapeCast S1024 (Pipeline.withArrays (cfgs 0).spec c (V0 m c) (fun w => (dats m 0 c).arrAt w (cfgs 0).N) (Proc.devRef .tc main_v0))
      shapeCasts_S1024x1_S1024 (ix1 r) = _
  rw [hA]
  refine (shapeCast_apply _ _ (ix1 r) (ix2 r (0 : Fin 1)) ?_).trans rfl
  rw [Shape.rowMajor_val_two, Shape.rowMajor_val_one]
  show r.val * 1 + 0 = r.val
  omega

/-- The idealized kernel's run, read: @main's result is every molecule's energy of the arguments, the arguments unchanged. -/
theorem run : θ_run defs (onTc (τ := τ) (main (F := Ideal))) ⟨m, fun _ => 0, ρ⟩ fun r => ∀ c : Dev nD,
      r.2.mem ((c.tc : Thread nD τ).loc main_v1) = energyVec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v1 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Whole

end
-- ==== Proof.RefLayers.lean ====
/-
  The reference's value as a composition of a few named whole-array functions, and those functions read at an entry.

  The reference keeps molecules and atoms apart: its arrays are 1024 × 48 × (features). For each species it applies, to
  every atom at once, three layers "contraction with the 256 × 384 (…) weight matrix over the last axis, plus the bias
  vector spread over molecules and atoms, then celu in its split form" and a fourth layer without celu whose 1024 × 48 × 1
  result is read as 1024 × 48; a select on the species array keeps that number where the species matches. After the seven
  species it sums over the atoms of each molecule.

  Read at atom (b, a): each layer is the affine map of Energy on the feature vector at (b, a, ·); the split celu is celu
  (Energy.celu_split, the scale being the nonzero tenth); so one species' array at (b, a) is that species' network on the
  atom's features.
-/
import proofs.«151302_j80032420593970_1_alg».proof.Proof.Gen.ReferenceIdeal
import proofs.«151302_j80032420593970_1_alg».proof.Proof.Energy
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Layers

open Cert.ReferenceIdeal Cert.ReferenceIdeal.Gen Idealize.ShloMosaic Idealize.ShloMosaic.ValueIdx
open scoped BigOperators

/-! ## The functions, spelt as the program spells them -/

/-- celu in its split form on every entry. -/
def celuH (S : Shape) (bc : S_.BroadcastsInDim S (![] : Fin 0 → Fin S.rank)) (h : FVec Ideal S .f32) : FVec Ideal S .f32 :=
  addf (maximumf h (broadcastInDim S ![] bc (constant (F := Ideal) S_ .f32 0x00000000#32)))
    (mulf (broadcastInDim S ![] bc (id (constant (F := Ideal) S_ .f32 0x3DCCCCCD#32)))
      (Host.expm1 (Host.divf (minimumf h (broadcastInDim S ![] bc (constant (F := Ideal) S_ .f32 0x00000000#32)))
        (broadcastInDim S ![] bc (id (constant (F := Ideal) S_ .f32 0x3DCCCCCD#32))))))

/-- Layer 1 on every atom: 384 → 256. -/
def linH1 (x : FVec Ideal S1024x48x384 .f32) (w : FVec Ideal S1x256x384 .f32) (b : FVec Ideal S1x256 .f32) : FVec Ideal S1024x48x256 .f32 :=
  addf (Host.dotGeneral dot_S1024x48x384_S256x384_S1024x48x256_2_1_01_0_n_n none x (shapeCast S256x384 w shapeCasts_S1x256x384_S256x384))
    (broadcastInDim S1024x48x256 ![0, 1, 2] bcast_S1x1x256_S1024x48x256_0_1_2 (broadcastInDim S1x1x256 ![2] bcast_S256_S1x1x256_2 (shapeCast S256 b shapeCasts_S1x256_S256)))

/-- Layer 2 on every atom: 256 → 192. -/
def linH2 (x : FVec Ideal S1024x48x256 .f32) (w : FVec Ideal S1x192x256 .f32) (b : FVec Ideal S1x192 .f32) : FVec Ideal S1024x48x192 .f32 :=
  addf (Host.dotGeneral dot_S1024x48x256_S192x256_S1024x48x192_2_1_01_0_n_n none x (shapeCast S192x256 w shapeCasts_S1x192x256_S192x256))
    (broadcastInDim S1024x48x192 ![0, 1, 2] bcast_S1x1x192_S1024x48x192_0_1_2 (broadcastInDim S1x1x192 ![2] bcast_S192_S1x1x192_2 (shapeCast S192 b shapeCasts_S1x192_S192)))

/-- Layer 3 on every atom: 192 → 160. -/
def linH3 (x : FVec Ideal S1024x48x192 .f32) (w : FVec Ideal S1x160x192 .f32) (b : FVec Ideal S1x160 .f32) : FVec Ideal S1024x48x160 .f32 :=
  addf (Host.dotGeneral dot_S1024x48x192_S160x192_S1024x48x160_2_1_01_0_n_n none x (shapeCast S160x192 w shapeCasts_S1x160x192_S160x192))
    (broadcastInDim S1024x48x160 ![0, 1, 2] bcast_S1x1x160_S1024x48x160_0_1_2 (broadcastInDim S1x1x160 ![2] bcast_S160_S1x1x160_2 (shapeCast S160 b shapeCasts_S1x160_S160)))

/-- Layer 4 on every atom: 160 → 1. -/
def linH4 (x : FVec Ideal S1024x48x160 .f32) (w : FVec Ideal S1x1x160 .f32) (b : FVec Ideal S1x1 .f32) : FVec Ideal S1024x48x1 .f32 :=
  addf (Host.dotGeneral dot_S1024x48x160_S1x160_S1024x48x1_2_1_01_0_n_n none x (shapeCast S1x160 w shapeCasts_S1x1x160_S1x160))
    (broadcastInDim S1024x48x1 ![0, 1, 2] bcast_S1x1x1_S1024x48x1_0_1_2 (broadcastInDim S1x1x1 ![2] bcast_S1_S1x1x1_2 (shapeCast S1 b shapeCasts_S1x1_S1)))

/-- One species' network on every atom, as a 1024 × 48 array. -/
def expertH (x : FVec Ideal S1024x48x384 .f32)
    (w1 : FVec Ideal S1x256x384 .f32) (b1 : FVec Ideal S1x256 .f32) (w2 : FVec Ideal S1x192x256 .f32) (b2 : FVec Ideal S1x192 .f32)
    (w3 : FVec Ideal S1x160x192 .f32) (b3 : FVec Ideal S1x160 .f32) (w4 : FVec Ideal S1x1x160 .f32) (b4 : FVec Ideal S1x1 .f32) :
    FVec Ideal S1024x48 .f32 :=
  shapeCast S1024x48
    (linH4 (celuH S1024x48x160 bcast_S_S1024x48x160 (linH3 (celuH S1024x48x192 bcast_S_S1024x48x192
      (linH2 (celuH S1024x48x256 bcast_S_S1024x48x256 (linH1 x w1 b1)) w2 b2)) w3 b3)) w4 b4)
    shapeCasts_S1024x48x1_S1024x48

/-- One routing step on every atom. -/
def pickH (s : BitVec 32) (sp : IVec S1024x48 32) (o e : FVec Ideal S1024x48 .f32) : FVec Ideal S1024x48 .f32 :=
  select (cmpi .eq sp (broadcastInDim S1024x48 ![] bcast_S_S1024x48 (constantI S_ 32 s))) o e

/-- The array every atom starts from: the zero word. -/
def zeroH : FVec Ideal S1024x48 .f32 := broadcastInDim S1024x48 ![] bcast_S_S1024x48 (constant (F := Ideal) S_ .f32 0x00000000#32)

/-- The sum over each molecule's atoms, from the zero word. -/
def sumH (e : FVec Ideal S1024x48 .f32) : FVec Ideal S1024 .f32 :=
  Host.reduceAdd (F := Ideal) e (constant (F := Ideal) S_ .f32 0x00000000#32) reducesTo_S1024x48_S1024_d1 h_S_

/-! ## The four contractions -/

theorem dg1_lhs0 (i : S1024x48x256.Idx) (q : dot_S1024x48x384_S256x384_S1024x48x256_2_1_01_0_n_n.contr.Idx) : (dot_S1024x48x384_S256x384_S1024x48x256_2_1_01_0_n_n.lhsIdx i q 0).val = (i 0).val := by
  unfold DotDims.lhsIdx
  rw [dif_neg (show ¬(0 : Fin S1024x48x384.rank) ∈ dot_S1024x48x384_S256x384_S1024x48x256_2_1_01_0_n_n.lhsBatch by decide), dif_pos (show (0 : Fin S1024x48x384.rank) ∈ dot_S1024x48x384_S256x384_S1024x48x256_2_1_01_0_n_n.lhsNonContracting by decide)]
  rfl
theorem dg1_lhs1 (i : S1024x48x256.Idx) (q : dot_S1024x48x384_S256x384_S1024x48x256_2_1_01_0_n_n.contr.Idx) : (dot_S1024x48x384_S256x384_S1024x48x256_2_1_01_0_n_n.lhsIdx i q 1).val = (i 1).val := by
  unfold DotDims.lhsIdx
  rw [dif_neg (show ¬(1 : Fin S1024x48x384.rank) ∈ dot_S1024x48x384_S256x384_S1024x48x256_2_1_01_0_n_n.lhsBatch by decide), dif_pos (show (1 : Fin S1024x48x384.rank) ∈ dot_S1024x48x384_S256x384_S1024x48x256_2_1_01_0_n_n.lhsNonContracting by decide)]
  rfl
theorem dg1_lhs2 (i : S1024x48x256.Idx) (q : dot_S1024x48x384_S256x384_S1024x48x256_2_1_01_0_n_n.contr.Idx) : (dot_S1024x48x384_S256x384_S1024x48x256_2_1_01_0_n_n.lhsIdx i q 2).val = (q ⟨0, by decide⟩).val :=
  dot_S1024x48x384_S256x384_S1024x48x256_2_1_01_0_n_n.lhsIdx_val_of_single rfl i q
theorem dg1_rhs0 (i : S1024x48x256.Idx) (q : dot_S1024x48x384_S256x384_S1024x48x256_2_1_01_0_n_n.contr.Idx) : (dot_S1024x48x384_S256x384_S1024x48x256_2_1_01_0_n_n.rhsIdx i q 0).val = (i 2).val := by
  unfold DotDims.rhsIdx
  rw [dif_neg (show ¬(0 : Fin S256x384.rank) ∈ dot_S1024x48x384_S256x384_S1024x48x256_2_1_01_0_n_n.rhsBatch by decide), dif_pos (show (0 : Fin S256x384.rank) ∈ dot_S1024x48x384_S256x384_S1024x48x256_2_1_01_0_n_n.rhsNonContracting by decide)]
  rfl
theorem dg1_rhs1 (i : S1024x48x256.Idx) (q : dot_S1024x48x384_S256x384_S1024x48x256_2_1_01_0_n_n.contr.Idx) : (dot_S1024x48x384_S256x384_S1024x48x256_2_1_01_0_n_n.rhsIdx i q 1).val = (q ⟨0, by decide⟩).val :=
  dot_S1024x48x384_S256x384_S1024x48x256_2_1_01_0_n_n.rhsIdx_val_of_single rfl i q

/-- The contraction over the last axis with a 256 × 384 matrix, at (b, a, j): the sum over the inner index. -/
theorem dg1_apply (x : FVec Ideal S1024x48x384 .f32) (y : FVec Ideal S256x384 .f32) (b : Fin 1024) (a : Fin 48) (j : Fin 256) :
    Host.dotGeneral dot_S1024x48x384_S256x384_S1024x48x256_2_1_01_0_n_n none x y (ix3 b a j) = ∑ k : Fin 384, x (ix3 b a k) * y (ix2 j k) := by
  simp only [Host.dotGeneral]
  rw [Ideal.dotGeneral_apply, ← Equiv.sum_comp (ValueIdx.contrEquiv1 dot_S1024x48x384_S256x384_S1024x48x256_2_1_01_0_n_n 384 rfl rfl).symm]
  refine Finset.sum_congr rfl fun k _ => ?_
  have hk := ValueIdx.contrEquiv1_symm_val dot_S1024x48x384_S256x384_S1024x48x256_2_1_01_0_n_n 384 rfl rfl k
  have el : dot_S1024x48x384_S256x384_S1024x48x256_2_1_01_0_n_n.lhsIdx (ix3 b a j) ((ValueIdx.contrEquiv1 dot_S1024x48x384_S256x384_S1024x48x256_2_1_01_0_n_n 384 rfl rfl).symm k) = ix3 b a k := funext fun d => Fin.ext (by
    match d with
    | ⟨0, _⟩ => exact dg1_lhs0 _ _
    | ⟨1, _⟩ => exact dg1_lhs1 _ _
    | ⟨2, _⟩ => exact (dg1_lhs2 _ _).trans hk)
  have er : dot_S1024x48x384_S256x384_S1024x48x256_2_1_01_0_n_n.rhsIdx (ix3 b a j) ((ValueIdx.contrEquiv1 dot_S1024x48x384_S256x384_S1024x48x256_2_1_01_0_n_n 384 rfl rfl).symm k) = ix2 j k := funext fun d => Fin.ext (by
    match d with
    | ⟨0, _⟩ => exact dg1_rhs0 _ _
    | ⟨1, _⟩ => exact (dg1_rhs1 _ _).trans hk)
  rw [el, er]

theorem dg2_lhs0 (i : S1024x48x192.Idx) (q : dot_S1024x48x256_S192x256_S1024x48x192_2_1_01_0_n_n.contr.Idx) : (dot_S1024x48x256_S192x256_S1024x48x192_2_1_01_0_n_n.lhsIdx i q 0).val = (i 0).val := by
  unfold DotDims.lhsIdx
  rw [dif_neg (show ¬(0 : Fin S1024x48x256.rank) ∈ dot_S1024x48x256_S192x256_S1024x48x192_2_1_01_0_n_n.lhsBatch by decide), dif_pos (show (0 : Fin S1024x48x256.rank) ∈ dot_S1024x48x256_S192x256_S1024x48x192_2_1_01_0_n_n.lhsNonContracting by decide)]
  rfl
theorem dg2_lhs1 (i : S1024x48x192.Idx) (q : dot_S1024x48x256_S192x256_S1024x48x192_2_1_01_0_n_n.contr.Idx) : (dot_S1024x48x256_S192x256_S1024x48x192_2_1_01_0_n_n.lhsIdx i q 1).val = (i 1).val := by
  unfold DotDims.lhsIdx
  rw [dif_neg (show ¬(1 : Fin S1024x48x256.rank) ∈ dot_S1024x48x256_S192x256_S1024x48x192_2_1_01_0_n_n.lhsBatch by decide), dif_pos (show (1 : Fin S1024x48x256.rank) ∈ dot_S1024x48x256_S192x256_S1024x48x192_2_1_01_0_n_n.lhsNonContracting by decide)]
  rfl
theorem dg2_lhs2 (i : S1024x48x192.Idx) (q : dot_S1024x48x256_S192x256_S1024x48x192_2_1_01_0_n_n.contr.Idx) : (dot_S1024x48x256_S192x256_S1024x48x192_2_1_01_0_n_n.lhsIdx i q 2).val = (q ⟨0, by decide⟩).val :=
  dot_S1024x48x256_S192x256_S1024x48x192_2_1_01_0_n_n.lhsIdx_val_of_single rfl i q
theorem dg2_rhs0 (i : S1024x48x192.Idx) (q : dot_S1024x48x256_S192x256_S1024x48x192_2_1_01_0_n_n.contr.Idx) : (dot_S1024x48x256_S192x256_S1024x48x192_2_1_01_0_n_n.rhsIdx i q 0).val = (i 2).val := by
  unfold DotDims.rhsIdx
  rw [dif_neg (show ¬(0 : Fin S192x256.rank) ∈ dot_S1024x48x256_S192x256_S1024x48x192_2_1_01_0_n_n.rhsBatch by decide), dif_pos (show (0 : Fin S192x256.rank) ∈ dot_S1024x48x256_S192x256_S1024x48x192_2_1_01_0_n_n.rhsNonContracting by decide)]
  rfl
theorem dg2_rhs1 (i : S1024x48x192.Idx) (q : dot_S1024x48x256_S192x256_S1024x48x192_2_1_01_0_n_n.contr.Idx) : (dot_S1024x48x256_S192x256_S1024x48x192_2_1_01_0_n_n.rhsIdx i q 1).val = (q ⟨0, by decide⟩).val :=
  dot_S1024x48x256_S192x256_S1024x48x192_2_1_01_0_n_n.rhsIdx_val_of_single rfl i q

/-- The contraction over the last axis with a 192 × 256 matrix, at (b, a, j): the sum over the inner index. -/
theorem dg2_apply (x : FVec Ideal S1024x48x256 .f32) (y : FVec Ideal S192x256 .f32) (b : Fin 1024) (a : Fin 48) (j : Fin 192) :
    Host.dotGeneral dot_S1024x48x256_S192x256_S1024x48x192_2_1_01_0_n_n none x y (ix3 b a j) = ∑ k : Fin 256, x (ix3 b a k) * y (ix2 j k) := by
  simp only [Host.dotGeneral]
  rw [Ideal.dotGeneral_apply, ← Equiv.sum_comp (ValueIdx.contrEquiv1 dot_S1024x48x256_S192x256_S1024x48x192_2_1_01_0_n_n 256 rfl rfl).symm]
  refine Finset.sum_congr rfl fun k _ => ?_
  have hk := ValueIdx.contrEquiv1_symm_val dot_S1024x48x256_S192x256_S1024x48x192_2_1_01_0_n_n 256 rfl rfl k
  have el : dot_S1024x48x256_S192x256_S1024x48x192_2_1_01_0_n_n.lhsIdx (ix3 b a j) ((ValueIdx.contrEquiv1 dot_S1024x48x256_S192x256_S1024x48x192_2_1_01_0_n_n 256 rfl rfl).symm k) = ix3 b a k := funext fun d => Fin.ext (by
    match d with
    | ⟨0, _⟩ => exact dg2_lhs0 _ _
    | ⟨1, _⟩ => exact dg2_lhs1 _ _
    | ⟨2, _⟩ => exact (dg2_lhs2 _ _).trans hk)
  have er : dot_S1024x48x256_S192x256_S1024x48x192_2_1_01_0_n_n.rhsIdx (ix3 b a j) ((ValueIdx.contrEquiv1 dot_S1024x48x256_S192x256_S1024x48x192_2_1_01_0_n_n 256 rfl rfl).symm k) = ix2 j k := funext fun d => Fin.ext (by
    match d with
    | ⟨0, _⟩ => exact dg2_rhs0 _ _
    | ⟨1, _⟩ => exact (dg2_rhs1 _ _).trans hk)
  rw [el, er]

theorem dg3_lhs0 (i : S1024x48x160.Idx) (q : dot_S1024x48x192_S160x192_S1024x48x160_2_1_01_0_n_n.contr.Idx) : (dot_S1024x48x192_S160x192_S1024x48x160_2_1_01_0_n_n.lhsIdx i q 0).val = (i 0).val := by
  unfold DotDims.lhsIdx
  rw [dif_neg (show ¬(0 : Fin S1024x48x192.rank) ∈ dot_S1024x48x192_S160x192_S1024x48x160_2_1_01_0_n_n.lhsBatch by decide), dif_pos (show (0 : Fin S1024x48x192.rank) ∈ dot_S1024x48x192_S160x192_S1024x48x160_2_1_01_0_n_n.lhsNonContracting by decide)]
  rfl
theorem dg3_lhs1 (i : S1024x48x160.Idx) (q : dot_S1024x48x192_S160x192_S1024x48x160_2_1_01_0_n_n.contr.Idx) : (dot_S1024x48x192_S160x192_S1024x48x160_2_1_01_0_n_n.lhsIdx i q 1).val = (i 1).val := by
  unfold DotDims.lhsIdx
  rw [dif_neg (show ¬(1 : Fin S1024x48x192.rank) ∈ dot_S1024x48x192_S160x192_S1024x48x160_2_1_01_0_n_n.lhsBatch by decide), dif_pos (show (1 : Fin S1024x48x192.rank) ∈ dot_S1024x48x192_S160x192_S1024x48x160_2_1_01_0_n_n.lhsNonContracting by decide)]
  rfl
theorem dg3_lhs2 (i : S1024x48x160.Idx) (q : dot_S1024x48x192_S160x192_S1024x48x160_2_1_01_0_n_n.contr.Idx) : (dot_S1024x48x192_S160x192_S1024x48x160_2_1_01_0_n_n.lhsIdx i q 2).val = (q ⟨0, by decide⟩).val :=
  dot_S1024x48x192_S160x192_S1024x48x160_2_1_01_0_n_n.lhsIdx_val_of_single rfl i q
theorem dg3_rhs0 (i : S1024x48x160.Idx) (q : dot_S1024x48x192_S160x192_S1024x48x160_2_1_01_0_n_n.contr.Idx) : (dot_S1024x48x192_S160x192_S1024x48x160_2_1_01_0_n_n.rhsIdx i q 0).val = (i 2).val := by
  unfold DotDims.rhsIdx
  rw [dif_neg (show ¬(0 : Fin S160x192.rank) ∈ dot_S1024x48x192_S160x192_S1024x48x160_2_1_01_0_n_n.rhsBatch by decide), dif_pos (show (0 : Fin S160x192.rank) ∈ dot_S1024x48x192_S160x192_S1024x48x160_2_1_01_0_n_n.rhsNonContracting by decide)]
  rfl
theorem dg3_rhs1 (i : S1024x48x160.Idx) (q : dot_S1024x48x192_S160x192_S1024x48x160_2_1_01_0_n_n.contr.Idx) : (dot_S1024x48x192_S160x192_S1024x48x160_2_1_01_0_n_n.rhsIdx i q 1).val = (q ⟨0, by decide⟩).val :=
  dot_S1024x48x192_S160x192_S1024x48x160_2_1_01_0_n_n.rhsIdx_val_of_single rfl i q

/-- The contraction over the last axis with a 160 × 192 matrix, at (b, a, j): the sum over the inner index. -/
theorem dg3_apply (x : FVec Ideal S1024x48x192 .f32) (y : FVec Ideal S160x192 .f32) (b : Fin 1024) (a : Fin 48) (j : Fin 160) :
    Host.dotGeneral dot_S1024x48x192_S160x192_S1024x48x160_2_1_01_0_n_n none x y (ix3 b a j) = ∑ k : Fin 192, x (ix3 b a k) * y (ix2 j k) := by
  simp only [Host.dotGeneral]
  rw [Ideal.dotGeneral_apply, ← Equiv.sum_comp (ValueIdx.contrEquiv1 dot_S1024x48x192_S160x192_S1024x48x160_2_1_01_0_n_n 192 rfl rfl).symm]
  refine Finset.sum_congr rfl fun k _ => ?_
  have hk := ValueIdx.contrEquiv1_symm_val dot_S1024x48x192_S160x192_S1024x48x160_2_1_01_0_n_n 192 rfl rfl k
  have el : dot_S1024x48x192_S160x192_S1024x48x160_2_1_01_0_n_n.lhsIdx (ix3 b a j) ((ValueIdx.contrEquiv1 dot_S1024x48x192_S160x192_S1024x48x160_2_1_01_0_n_n 192 rfl rfl).symm k) = ix3 b a k := funext fun d => Fin.ext (by
    match d with
    | ⟨0, _⟩ => exact dg3_lhs0 _ _
    | ⟨1, _⟩ => exact dg3_lhs1 _ _
    | ⟨2, _⟩ => exact (dg3_lhs2 _ _).trans hk)
  have er : dot_S1024x48x192_S160x192_S1024x48x160_2_1_01_0_n_n.rhsIdx (ix3 b a j) ((ValueIdx.contrEquiv1 dot_S1024x48x192_S160x192_S1024x48x160_2_1_01_0_n_n 192 rfl rfl).symm k) = ix2 j k := funext fun d => Fin.ext (by
    match d with
    | ⟨0, _⟩ => exact dg3_rhs0 _ _
    | ⟨1, _⟩ => exact (dg3_rhs1 _ _).trans hk)
  rw [el, er]

theorem dg4_lhs0 (i : S1024x48x1.Idx) (q : dot_S1024x48x160_S1x160_S1024x48x1_2_1_01_0_n_n.contr.Idx) : (dot_S1024x48x160_S1x160_S1024x48x1_2_1_01_0_n_n.lhsIdx i q 0).val = (i 0).val := by
  unfold DotDims.lhsIdx
  rw [dif_neg (show ¬(0 : Fin S1024x48x160.rank) ∈ dot_S1024x48x160_S1x160_S1024x48x1_2_1_01_0_n_n.lhsBatch by decide), dif_pos (show (0 : Fin S1024x48x160.rank) ∈ dot_S1024x48x160_S1x160_S1024x48x1_2_1_01_0_n_n.lhsNonContracting by decide)]
  rfl
theorem dg4_lhs1 (i : S1024x48x1.Idx) (q : dot_S1024x48x160_S1x160_S1024x48x1_2_1_01_0_n_n.contr.Idx) : (dot_S1024x48x160_S1x160_S1024x48x1_2_1_01_0_n_n.lhsIdx i q 1).val = (i 1).val := by
  unfold DotDims.lhsIdx
  rw [dif_neg (show ¬(1 : Fin S1024x48x160.rank) ∈ dot_S1024x48x160_S1x160_S1024x48x1_2_1_01_0_n_n.lhsBatch by decide), dif_pos (show (1 : Fin S1024x48x160.rank) ∈ dot_S1024x48x160_S1x160_S1024x48x1_2_1_01_0_n_n.lhsNonContracting by decide)]
  rfl
theorem dg4_lhs2 (i : S1024x48x1.Idx) (q : dot_S1024x48x160_S1x160_S1024x48x1_2_1_01_0_n_n.contr.Idx) : (dot_S1024x48x160_S1x160_S1024x48x1_2_1_01_0_n_n.lhsIdx i q 2).val = (q ⟨0, by decide⟩).val :=
  dot_S1024x48x160_S1x160_S1024x48x1_2_1_01_0_n_n.lhsIdx_val_of_single rfl i q
theorem dg4_rhs0 (i : S1024x48x1.Idx) (q : dot_S1024x48x160_S1x160_S1024x48x1_2_1_01_0_n_n.contr.Idx) : (dot_S1024x48x160_S1x160_S1024x48x1_2_1_01_0_n_n.rhsIdx i q 0).val = (i 2).val := by
  unfold DotDims.rhsIdx
  rw [dif_neg (show ¬(0 : Fin S1x160.rank) ∈ dot_S1024x48x160_S1x160_S1024x48x1_2_1_01_0_n_n.rhsBatch by decide), dif_pos (show (0 : Fin S1x160.rank) ∈ dot_S1024x48x160_S1x160_S1024x48x1_2_1_01_0_n_n.rhsNonContracting by decide)]
  rfl
theorem dg4_rhs1 (i : S1024x48x1.Idx) (q : dot_S1024x48x160_S1x160_S1024x48x1_2_1_01_0_n_n.contr.Idx) : (dot_S1024x48x160_S1x160_S1024x48x1_2_1_01_0_n_n.rhsIdx i q 1).val = (q ⟨0, by decide⟩).val :=
  dot_S1024x48x160_S1x160_S1024x48x1_2_1_01_0_n_n.rhsIdx_val_of_single rfl i q

/-- The contraction over the last axis with a 1 × 160 matrix, at (b, a, j): the sum over the inner index. -/
theorem dg4_apply (x : FVec Ideal S1024x48x160 .f32) (y : FVec Ideal S1x160 .f32) (b : Fin 1024) (a : Fin 48) (j : Fin 1) :
    Host.dotGeneral dot_S1024x48x160_S1x160_S1024x48x1_2_1_01_0_n_n none x y (ix3 b a j) = ∑ k : Fin 160, x (ix3 b a k) * y (ix2 j k) := by
  simp only [Host.dotGeneral]
  rw [Ideal.dotGeneral_apply, ← Equiv.sum_comp (ValueIdx.contrEquiv1 dot_S1024x48x160_S1x160_S1024x48x1_2_1_01_0_n_n 160 rfl rfl).symm]
  refine Finset.sum_congr rfl fun k _ => ?_
  have hk := ValueIdx.contrEquiv1_symm_val dot_S1024x48x160_S1x160_S1024x48x1_2_1_01_0_n_n 160 rfl rfl k
  have el : dot_S1024x48x160_S1x160_S1024x48x1_2_1_01_0_n_n.lhsIdx (ix3 b a j) ((ValueIdx.contrEquiv1 dot_S1024x48x160_S1x160_S1024x48x1_2_1_01_0_n_n 160 rfl rfl).symm k) = ix3 b a k := funext fun d => Fin.ext (by
    match d with
    | ⟨0, _⟩ => exact dg4_lhs0 _ _
    | ⟨1, _⟩ => exact dg4_lhs1 _ _
    | ⟨2, _⟩ => exact (dg4_lhs2 _ _).trans hk)
  have er : dot_S1024x48x160_S1x160_S1024x48x1_2_1_01_0_n_n.rhsIdx (ix3 b a j) ((ValueIdx.contrEquiv1 dot_S1024x48x160_S1x160_S1024x48x1_2_1_01_0_n_n 160 rfl rfl).symm k) = ix2 j k := funext fun d => Fin.ext (by
    match d with
    | ⟨0, _⟩ => exact dg4_rhs0 _ _
    | ⟨1, _⟩ => exact (dg4_rhs1 _ _).trans hk)
  rw [el, er]

/-! ## The four layers -/

/-- Layer 1 at (b, a, j) is the affine map on the vector at (b, a, ·). -/
theorem linH1_apply (x : FVec Ideal S1024x48x384 .f32) (w : FVec Ideal S1x256x384 .f32) (bb : FVec Ideal S1x256 .f32) (b : Fin 1024) (a : Fin 48) (j : Fin 256) :
    linH1 x w bb (ix3 b a j)
      = Cert.Energy.affine (fun k : Fin 384 => x (ix3 b a k)) (fun (j : Fin 256) (k : Fin 384) => w (ix3 (0 : Fin 1) j k))
          (fun j : Fin 256 => bb (ix2 (0 : Fin 1) j)) j := by
  unfold linH1 Cert.Energy.affine
  refine congrArg₂ (· + ·) ?_ ?_
  · refine (dg1_apply x _ b a j).trans (Finset.sum_congr rfl fun k _ => congrArg (x (ix3 b a k) * ·) ?_)
    exact shapeCast_1ab_ab_apply w _ j k
  · refine (broadcastInDim_apply _ _ _ (ix3 b a j) (ix3 (0 : Fin 1) (0 : Fin 1) j) fun d => ?_).trans
      ((broadcastInDim_apply _ _ _ (ix3 (0 : Fin 1) (0 : Fin 1) j) (ix1 j) fun d => ?_).trans (shapeCast_1a_a_apply bb _ j))
    · match d with
      | ⟨0, _⟩ => rfl
      | ⟨1, _⟩ => rfl
      | ⟨2, _⟩ =>
        exact (if_neg (by decide : ¬(256 = 1))).symm
    · match d with
      | ⟨0, _⟩ =>
        exact (if_neg (by decide : ¬(256 = 1))).symm

/-- Layer 2 at (b, a, j) is the affine map on the vector at (b, a, ·). -/
theorem linH2_apply (x : FVec Ideal S1024x48x256 .f32) (w : FVec Ideal S1x192x256 .f32) (bb : FVec Ideal S1x192 .f32) (b : Fin 1024) (a : Fin 48) (j : Fin 192) :
    linH2 x w bb (ix3 b a j)
      = Cert.Energy.affine (fun k : Fin 256 => x (ix3 b a k)) (fun (j : Fin 192) (k : Fin 256) => w (ix3 (0 : Fin 1) j k))
          (fun j : Fin 192 => bb (ix2 (0 : Fin 1) j)) j := by
  unfold linH2 Cert.Energy.affine
  refine congrArg₂ (· + ·) ?_ ?_
  · refine (dg2_apply x _ b a j).trans (Finset.sum_congr rfl fun k _ => congrArg (x (ix3 b a k) * ·) ?_)
    exact shapeCast_1ab_ab_apply w _ j k
  · refine (broadcastInDim_apply _ _ _ (ix3 b a j) (ix3 (0 : Fin 1) (0 : Fin 1) j) fun d => ?_).trans
      ((broadcastInDim_apply _ _ _ (ix3 (0 : Fin 1) (0 : Fin 1) j) (ix1 j) fun d => ?_).trans (shapeCast_1a_a_apply bb _ j))
    · match d with
      | ⟨0, _⟩ => rfl
      | ⟨1, _⟩ => rfl
      | ⟨2, _⟩ =>
        exact (if_neg (by decide : ¬(192 = 1))).symm
    · match d with
      | ⟨0, _⟩ =>
        exact (if_neg (by decide : ¬(192 = 1))).symm

/-- Layer 3 at (b, a, j) is the affine map on the vector at (b, a, ·). -/
theorem linH3_apply (x : FVec Ideal S1024x48x192 .f32) (w : FVec Ideal S1x160x192 .f32) (bb : FVec Ideal S1x160 .f32) (b : Fin 1024) (a : Fin 48) (j : Fin 160) :
    linH3 x w bb (ix3 b a j)
      = Cert.Energy.affine (fun k : Fin 192 => x (ix3 b a k)) (fun (j : Fin 160) (k : Fin 192) => w (ix3 (0 : Fin 1) j k))
          (fun j : Fin 160 => bb (ix2 (0 : Fin 1) j)) j := by
  unfold linH3 Cert.Energy.affine
  refine congrArg₂ (· + ·) ?_ ?_
  · refine (dg3_apply x _ b a j).trans (Finset.sum_congr rfl fun k _ => congrArg (x (ix3 b a k) * ·) ?_)
    exact shapeCast_1ab_ab_apply w _ j k
  · refine (broadcastInDim_apply _ _ _ (ix3 b a j) (ix3 (0 : Fin 1) (0 : Fin 1) j) fun d => ?_).trans
      ((broadcastInDim_apply _ _ _ (ix3 (0 : Fin 1) (0 : Fin 1) j) (ix1 j) fun d => ?_).trans (shapeCast_1a_a_apply bb _ j))
    · match d with
      | ⟨0, _⟩ => rfl
      | ⟨1, _⟩ => rfl
      | ⟨2, _⟩ =>
        exact (if_neg (by decide : ¬(160 = 1))).symm
    · match d with
      | ⟨0, _⟩ =>
        exact (if_neg (by decide : ¬(160 = 1))).symm

/-- Layer 4 at (b, a, j) is the affine map on the vector at (b, a, ·). -/
theorem linH4_apply (x : FVec Ideal S1024x48x160 .f32) (w : FVec Ideal S1x1x160 .f32) (bb : FVec Ideal S1x1 .f32) (b : Fin 1024) (a : Fin 48) (j : Fin 1) :
    linH4 x w bb (ix3 b a j)
      = Cert.Energy.affine (fun k : Fin 160 => x (ix3 b a k)) (fun (j : Fin 1) (k : Fin 160) => w (ix3 (0 : Fin 1) j k))
          (fun j : Fin 1 => bb (ix2 (0 : Fin 1) j)) j := by
  unfold linH4 Cert.Energy.affine
  refine congrArg₂ (· + ·) ?_ ?_
  · refine (dg4_apply x _ b a j).trans (Finset.sum_congr rfl fun k _ => congrArg (x (ix3 b a k) * ·) ?_)
    exact shapeCast_1ab_ab_apply w _ j k
  · refine (broadcastInDim_apply _ _ _ (ix3 b a j) (ix3 (0 : Fin 1) (0 : Fin 1) j) fun d => ?_).trans
      ((broadcastInDim_apply _ _ _ (ix3 (0 : Fin 1) (0 : Fin 1) j) (ix1 j) fun d => ?_).trans (shapeCast_1a_a_apply bb _ j))
    · match d with
      | ⟨0, _⟩ => rfl
      | ⟨1, _⟩ => rfl
      | ⟨2, _⟩ =>
        have hj : j.val = 0 := by have := j.isLt; omega
        show j.val = if 1 = 1 then 0 else j.val
        rw [hj]; exact (ite_self 0).symm
    · match d with
      | ⟨0, _⟩ =>
        have hj : j.val = 0 := by have := j.isLt; omega
        show j.val = if 1 = 1 then 0 else j.val
        rw [hj]; exact (ite_self 0).symm

/-! ## celu, the expert, routing, the sum -/

/-- The split celu at an entry is celu with the tenth scale of that entry. -/
theorem celuH_apply (S : Shape) (bc : S_.BroadcastsInDim S (![] : Fin 0 → Fin S.rank)) (h : FVec Ideal S .f32) (i : S.Idx) :
    celuH S bc h i = Cert.Energy.celu Cert.Energy.tenth (h i) := by
  have z : broadcastInDim S ![] bc (constant (F := Ideal) S_ .f32 0x00000000#32) i = 0 :=
    (broadcastInDim_scalar_apply _ _ _).trans Ideal.ofBits_zero_f32
  have t : broadcastInDim S ![] bc (id (constant (F := Ideal) S_ .f32 0x3DCCCCCD#32)) i = Cert.Energy.tenth :=
    broadcastInDim_scalar_apply _ _ _
  show max (h i) (broadcastInDim S ![] bc (constant (F := Ideal) S_ .f32 0x00000000#32) i)
      + broadcastInDim S ![] bc (id (constant (F := Ideal) S_ .f32 0x3DCCCCCD#32)) i
        * (Ideal.exp (Ideal.div (min (h i) (broadcastInDim S ![] bc (constant (F := Ideal) S_ .f32 0x00000000#32) i))
            (broadcastInDim S ![] bc (id (constant (F := Ideal) S_ .f32 0x3DCCCCCD#32)) i)) - 1) = _
  rw [z, t]
  exact Cert.Energy.celu_split _ _ Cert.Energy.tenth_ne_zero

/-- One species' array at atom (b, a) is its network on the atom's features. -/
theorem expertH_apply (x : FVec Ideal S1024x48x384 .f32)
    (w1 : FVec Ideal S1x256x384 .f32) (b1 : FVec Ideal S1x256 .f32) (w2 : FVec Ideal S1x192x256 .f32) (b2 : FVec Ideal S1x192 .f32)
    (w3 : FVec Ideal S1x160x192 .f32) (b3 : FVec Ideal S1x160 .f32) (w4 : FVec Ideal S1x1x160 .f32) (b4 : FVec Ideal S1x1 .f32)
    (b : Fin 1024) (a : Fin 48) :
    expertH x w1 b1 w2 b2 w3 b3 w4 b4 (ix2 b a)
      = Cert.Energy.expert Cert.Energy.tenth (fun k : Fin 384 => x (ix3 b a k))
          (fun j k => w1 (ix3 (0 : Fin 1) j k)) (fun j => b1 (ix2 (0 : Fin 1) j))
          (fun j k => w2 (ix3 (0 : Fin 1) j k)) (fun j => b2 (ix2 (0 : Fin 1) j))
          (fun j k => w3 (ix3 (0 : Fin 1) j k)) (fun j => b3 (ix2 (0 : Fin 1) j))
          (fun j k => w4 (ix3 (0 : Fin 1) j k)) (fun j => b4 (ix2 (0 : Fin 1) j)) := by
  unfold expertH Cert.Energy.expert
  refine (shapeCast_apply _ _ (ix2 b a) (ix3 b a (0 : Fin 1)) ?_).trans ?_
  · rw [Shape.rowMajor_val_three, Shape.rowMajor_val_two]
    show (b.val * 48 + a.val) * 1 + 0 = b.val * 48 + a.val
    omega
  rw [linH4_apply]
  simp only [celuH_apply, linH3_apply, linH2_apply, linH1_apply]

/-- One routing step at an atom. -/
theorem pickH_apply (s : BitVec 32) (sp : IVec S1024x48 32) (o e : FVec Ideal S1024x48 .f32) (i : S1024x48.Idx) :
    pickH s sp o e i = Cert.Energy.pick (sp i) s (o i) (e i) := by
  show Scalar.select (IntOp.cmpi .eq (sp i) (broadcastInDim S1024x48 ![] bcast_S_S1024x48 (constantI S_ 32 s) i)) (o i) (e i) = _
  rw [broadcastInDim_scalar_apply]
  rfl

/-- The starting array at an atom: the zero word's value. -/
theorem zeroH_apply (i : S1024x48.Idx) : zeroH i = Ideal.ofBits .f32 0x00000000#32 :=
  broadcastInDim_scalar_apply _ _ _

/-- The sum over a molecule's atoms. -/
theorem sumH_apply (e : FVec Ideal S1024x48 .f32) (b : Fin 1024) : sumH e (ix1 b) = ∑ a : Fin 48, e (ix2 b a) := by
  unfold sumH
  have hr : S1024x48.Reduces [1] S1024 := by decide
  refine (Ideal.hostReduceAdd_single reducesTo_S1024x48_S1024_d1 hr e _ (ix1 b)).trans ?_
  show Ideal.ofBits .f32 0x00000000#32 + (∑ a : Fin 48, e (hr.lift (ix1 b) a)) = _
  rw [Ideal.ofBits_zero_f32, zero_add]
  refine Finset.sum_congr rfl fun a _ => congrArg e (funext fun d => Fin.ext ?_)
  match d with
  | ⟨0, _⟩ => rfl
  | ⟨1, _⟩ => rfl

end Cert.ReferenceIdeal.Layers

end
-- ==== Proof.RefSpecies0.lean ====
/-
  The reference's operations for species 0, run from any contents `W` of the buffers: they leave, in the energy
  buffer they write, `pick 0` of this species' network on the feature array (its weights the slabs 0 of the stacked
  weight arrays) and of the zero array, and they do not touch the argument arrays.
  (the zero array's two operations and species 0's 82 of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops0 : List (HloOp τ sig (Elt F)) :=
  [ nullary main_cst (constant S_ .f32 0x00000000#32),
    unary main_cst main_v0 (broadcastInDim S1024x48 ![] bcast_S_S1024x48 : (⟨S_, .f32⟩ : BufTy).Contents (Elt F) → (⟨S1024x48, .f32⟩ : BufTy).Contents (Elt F)),
    nullary main_c (constantI S_ 32 0#32),
    unary main_c main_v1 (broadcastInDim S1024x48 ![] bcast_S_S1024x48 : (⟨S_, .i32⟩ : BufTy).Contents (Elt F) → (⟨S1024x48, .i32⟩ : BufTy).Contents (Elt F)),
    binary main_arg0 main_v1 main_v2 (cmpi .eq : (⟨S1024x48, .i32⟩ : BufTy).Contents (Elt F) → (⟨S1024x48, .i32⟩ : BufTy).Contents (Elt F) → (⟨S1024x48, .i1⟩ : BufTy).Contents (Elt F)),
    unary main_arg2 main_v3 ((extractStridedSlice S1x256x384 ![0, 0, 0] · slices_S7x256x384_S1x256x384_0_0_0) : (⟨S7x256x384, .f32⟩ : BufTy).Contents (Elt F) → (⟨S1x256x384, .f32⟩ : BufTy).Contents (Elt F)),
    reshape main_v3 main_v4 rfl shapeCasts_S1x256x384_S256x384,
    binary main_arg1 main_v4 main_v5 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v6 ((extractStridedSlice S1x256 ![0, 0] · slices_S7x256_S1x256_0_0) : (⟨S7x256, .f32⟩ : BufTy).Contents (Elt F) → (⟨S1x256, .f32⟩ : BufTy).Contents (Elt F)),
    reshape main_v6 main_v7 rfl shapeCasts_S1x256_S256,
    unary main_v7 main_v8 (broadcastInDim S1x1x256 ![2] bcast_S256_S1x1x256_2 : (⟨S256, .f32⟩ : BufTy).Contents (Elt F) → (⟨S1x1x256, .f32⟩ : BufTy).Contents (Elt F)),
    unary main_v8 main_v9 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v5 main_v9 main_v10 (addf : (⟨S1024x48x256, .f32⟩ : BufTy).Contents (Elt F) → (⟨S1024x48x256, .f32⟩ : BufTy).Contents (Elt F) → (⟨S1024x48x256, .f32⟩ : BufTy).Contents (Elt F)),
    nullary main_cst_0 (constant S_ .f32 0x3DCCCCCD#32),
    TRef.nullary (TRef.of (T := ⟨S_, .f32⟩) main_call0_cst) (constant S_ .f32 0x00000000#32),
    TRef.unary (TRef.of (T := ⟨S_, .f32⟩) main_call0_cst) (TRef.of (T := ⟨S1024x48x256, .f32⟩) main_call0_v0) (broadcastInDim S1024x48x256 ![] bcast_S_S1024x48x256),
    TRef.binary (TRef.of (T := ⟨S1024x48x256, .f32⟩) main_v10) (TRef.of (T := ⟨S1024x48x256, .f32⟩) main_call0_v0) (TRef.of (T := ⟨S1024x48x256, .f32⟩) main_call0_v1) maximumf,
    TRef.nullary (TRef.of (T := ⟨S_, .f32⟩) main_call0_cst_0) (constant S_ .f32 0x00000000#32),
    TRef.unary (TRef.of (T := ⟨S_, .f32⟩) main_call0_cst_0) (TRef.of (T := ⟨S1024x48x256, .f32⟩) main_call0_v2) (broadcastInDim S1024x48x256 ![] bcast_S_S1024x48x256),
    TRef.binary (TRef.of (T := ⟨S1024x48x256, .f32⟩) main_v10) (TRef.of (T := ⟨S1024x48x256, .f32⟩) main_call0_v2) (TRef.of (T := ⟨S1024x48x256, .f32⟩) main_call0_v3) minimumf,
    TRef.unary (TRef.of (T := ⟨S_, .f32⟩) main_cst_0) (TRef.of (T := ⟨S_, .f32⟩) main_call0_v4) id,
    TRef.unary (TRef.of (T := ⟨S_, .f32⟩) main_call0_v4) (TRef.of (T := ⟨S1024x48x256, .f32⟩) main_call0_v5) (broadcastInDim S1024x48x256 ![] bcast_S_S1024x48x256),
    TRef.binary (TRef.of (T := ⟨S1024x48x256, .f32⟩) main_call0_v3) (TRef.of (T := ⟨S1024x48x256, .f32⟩) main_call0_v5) (TRef.of (T := ⟨S1024x48x256, .f32⟩) main_call0_v6) Host.divf,
    TRef.unary (TRef.of (T := ⟨S1024x48x256, .f32⟩) main_call0_v6) (TRef.of (T := ⟨S1024x48x256, .f32⟩) main_call0_v7) Host.expm1,
    TRef.unary (TRef.of (T := ⟨S_, .f32⟩) main_cst_0) (TRef.of (T := ⟨S_, .f32⟩) main_call0_v8) id,
    TRef.unary (TRef.of (T := ⟨S_, .f32⟩) main_call0_v8) (TRef.of (T := ⟨S1024x48x256, .f32⟩) main_call0_v9) (broadcastInDim S1024x48x256 ![] bcast_S_S1024x48x256),
    TRef.binary (TRef.of (T := ⟨S1024x48x256, .f32⟩) main_call0_v9) (TRef.of (T := ⟨S1024x48x256, .f32⟩) main_call0_v7) (TRef.of (T := ⟨S1024x48x256, .f32⟩) main_call0_v10) mulf,
    TRef.binary (TRef.of (T := ⟨S1024x48x256, .f32⟩) main_call0_v1) (TRef.of (T := ⟨S1024x48x256, .f32⟩) main_call0_v10) (TRef.of (T := ⟨S1024x48x256, .f32⟩) main_v11) addf,
    unary main_arg4 main_v12 ((extractStridedSlice S1x192x256 ![0, 0, 0] · slices_S7x192x256_S1x192x256_0_0_0) : (⟨S7x192x256, .f32⟩ : BufTy).Contents (Elt F) → (⟨S1x192x256, .f32⟩ : BufTy).Contents (Elt F)),
    reshape main_v12 main_v13 rfl shapeCasts_S1x192x256_S192x256,
    binary main_v11 main_v13 main_v14 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v15 ((extractStridedSlice S1x192 ![0, 0] · slices_S7x192_S1x192_0_0) : (⟨S7x192, .f32⟩ : BufTy).Contents (Elt F) → (⟨S1x192, .f32⟩ : BufTy).Contents (Elt F)),
    reshape main_v15 main_v16 rfl shapeCasts_S1x192_S192,
    unary main_v16 main_v17 (broadcastInDim S1x1x192 ![2] bcast_S192_S1x1x192_2 : (⟨S192, .f32⟩ : BufTy).Contents (Elt F) → (⟨S1x1x192, .f32⟩ : BufTy).Contents (Elt F)),
    unary main_v17 main_v18 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v14 main_v18 main_v19 (addf : (⟨S1024x48x192, .f32⟩ : BufTy).Contents (Elt F) → (⟨S1024x48x192, .f32⟩ : BufTy).Contents (Elt F) → (⟨S1024x48x192, .f32⟩ : BufTy).Contents (Elt F)),
    nullary main_cst_1 (constant S_ .f32 0x3DCCCCCD#32),
    TRef.nullary (TRef.of (T := ⟨S_, .f32⟩) main_call1_cst) (constant S_ .f32 0x00000000#32),
    TRef.unary (TRef.of (T := ⟨S_, .f32⟩) main_call1_cst) (TRef.of (T := ⟨S1024x48x192, .f32⟩) main_call1_v0) (broadcastInDim S1024x48x192 ![] bcast_S_S1024x48x192),
    TRef.binary (TRef.of (T := ⟨S1024x48x192, .f32⟩) main_v19) (TRef.of (T := ⟨S1024x48x192, .f32⟩) main_call1_v0) (TRef.of (T := ⟨S1024x48x192, .f32⟩) main_call1_v1) maximumf,
    TRef.nullary (TRef.of (T := ⟨S_, .f32⟩) main_call1_cst_0) (constant S_ .f32 0x00000000#32),
    TRef.unary (TRef.of (T := ⟨S_, .f32⟩) main_call1_cst_0) (TRef.of (T := ⟨S1024x48x192, .f32⟩) main_call1_v2) (broadcastInDim S1024x48x192 ![] bcast_S_S1024x48x192),
    TRef.binary (TRef.of (T := ⟨S1024x48x192, .f32⟩) main_v19) (TRef.of (T := ⟨S1024x48x192, .f32⟩) main_call1_v2) (TRef.of (T := ⟨S1024x48x192, .f32⟩) main_call1_v3) minimumf,
    TRef.unary (TRef.of (T := ⟨S_, .f32⟩) main_cst_1) (TRef.of (T := ⟨S_, .f32⟩) main_call1_v4) id,
    TRef.unary (TRef.of (T := ⟨S_, .f32⟩) main_call1_v4) (TRef.of (T := ⟨S1024x48x192, .f32⟩) main_call1_v5) (broadcastInDim S1024x48x192 ![] bcast_S_S1024x48x192),
    TRef.binary (TRef.of (T := ⟨S1024x48x192, .f32⟩) main_call1_v3) (TRef.of (T := ⟨S1024x48x192, .f32⟩) main_call1_v5) (TRef.of (T := ⟨S1024x48x192, .f32⟩) main_call1_v6) Host.divf,
    TRef.unary (TRef.of (T := ⟨S1024x48x192, .f32⟩) main_call1_v6) (TRef.of (T := ⟨S1024x48x192, .f32⟩) main_call1_v7) Host.expm1,
    TRef.unary (TRef.of (T := ⟨S_, .f32⟩) main_cst_1) (TRef.of (T := ⟨S_, .f32⟩) main_call1_v8) id,
    TRef.unary (TRef.of (T := ⟨S_, .f32⟩) main_call1_v8) (TRef.of (T := ⟨S1024x48x192, .f32⟩) main_call1_v9) (broadcastInDim S1024x48x192 ![] bcast_S_S1024x48x192),
    TRef.binary (TRef.of (T := ⟨S1024x48x192, .f32⟩) main_call1_v9) (TRef.of (T := ⟨S1024x48x192, .f32⟩) main_call1_v7) (TRef.of (T := ⟨S1024x48x192, .f32⟩) main_call1_v10) mulf,
    TRef.binary (TRef.of (T := ⟨S1024x48x192, .f32⟩) main_call1_v1) (TRef.of (T := ⟨S1024x48x192, .f32⟩) main_call1_v10) (TRef.of (T := ⟨S1024x48x192, .f32⟩) main_v20) addf,
    unary main_arg6 main_v21 ((extractStridedSlice S1x160x192 ![0, 0, 0] · slices_S7x160x192_S1x160x192_0_0_0) : (⟨S7x160x192, .f32⟩ : BufTy).Contents (Elt F) → (⟨S1x160x192, .f32⟩ : BufTy).Contents (Elt F)),
    reshape main_v21 main_v22 rfl shapeCasts_S1x160x192_S160x192,
    binary main_v20 main_v22 main_v23 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v24 ((extractStridedSlice S1x160 ![0, 0] · slices_S7x160_S1x160_0_0) : (⟨S7x160, .f32⟩ : BufTy).Contents (Elt F) → (⟨S1x160, .f32⟩ : BufTy).Contents (Elt F)),
    reshape main_v24 main_v25 rfl shapeCasts_S1x160_S160,
    unary main_v25 main_v26 (broadcastInDim S1x1x160 ![2] bcast_S160_S1x1x160_2 : (⟨S160, .f32⟩ : BufTy).Contents (Elt F) → (⟨S1x1x160, .f32⟩ : BufTy).Contents (Elt F)),
    unary main_v26 main_v27 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v23 main_v27 main_v28 (addf : (⟨S1024x48x160, .f32⟩ : BufTy).Contents (Elt F) → (⟨S1024x48x160, .f32⟩ : BufTy).Contents (Elt F) → (⟨S1024x48x160, .f32⟩ : BufTy).Contents (Elt F)),
    nullary main_cst_2 (constant S_ .f32 0x3DCCCCCD#32),
    TRef.nullary (TRef.of (T := ⟨S_, .f32⟩) main_call2_cst) (constant S_ .f32 0x00000000#32),
    TRef.unary (TRef.of (T := ⟨S_, .f32⟩) main_call2_cst) (TRef.of (T := ⟨S1024x48x160, .f32⟩) main_call2_v0) (broadcastInDim S1024x48x160 ![] bcast_S_S1024x48x160),
    TRef.binary (TRef.of (T := ⟨S1024x48x160, .f32⟩) main_v28) (TRef.of (T := ⟨S1024x48x160, .f32⟩) main_call2_v0) (TRef.of (T := ⟨S1024x48x160, .f32⟩) main_call2_v1) maximumf,
    TRef.nullary (TRef.of (T := ⟨S_, .f32⟩) main_call2_cst_0) (constant S_ .f32 0x00000000#32),
    TRef.unary (TRef.of (T := ⟨S_, .f32⟩) main_call2_cst_0) (TRef.of (T := ⟨S1024x48x160, .f32⟩) main_call2_v2) (broadcastInDim S1024x48x160 ![] bcast_S_S1024x48x160),
    TRef.binary (TRef.of (T := ⟨S1024x48x160, .f32⟩) main_v28) (TRef.of (T := ⟨S1024x48x160, .f32⟩) main_call2_v2) (TRef.of (T := ⟨S1024x48x160, .f32⟩) main_call2_v3) minimumf,
    TRef.unary (TRef.of (T := ⟨S_, .f32⟩) main_cst_2) (TRef.of (T := ⟨S_, .f32⟩) main_call2_v4) id,
    TRef.unary (TRef.of (T := ⟨S_, .f32⟩) main_call2_v4) (TRef.of (T := ⟨S1024x48x160, .f32⟩) main_call2_v5) (broadcastInDim S1024x48x160 ![] bcast_S_S1024x48x160),
    TRef.binary (TRef.of (T := ⟨S1024x48x160, .f32⟩) main_call2_v3) (TRef.of (T := ⟨S1024x48x160, .f32⟩) main_call2_v5) (TRef.of (T := ⟨S1024x48x160, .f32⟩) main_call2_v6) Host.divf,
    TRef.unary (TRef.of (T := ⟨S1024x48x160, .f32⟩) main_call2_v6) (TRef.of (T := ⟨S1024x48x160, .f32⟩) main_call2_v7) Host.expm1,
    TRef.unary (TRef.of (T := ⟨S_, .f32⟩) main_cst_2) (TRef.of (T := ⟨S_, .f32⟩) main_call2_v8) id,
    TRef.unary (TRef.of (T := ⟨S_, .f32⟩) main_call2_v8) (TRef.of (T := ⟨S1024x48x160, .f32⟩) main_call2_v9) (broadcastInDim S1024x48x160 ![] bcast_S_S1024x48x160),
    TRef.binary (TRef.of (T := ⟨S1024x48x160, .f32⟩) main_call2_v9) (TRef.of (T := ⟨S1024x48x160, .f32⟩) main_call2_v7) (TRef.of (T := ⟨S1024x48x160, .f32⟩) main_call2_v10) mulf,
    TRef.binary (TRef.of (T := ⟨S1024x48x160, .f32⟩) main_call2_v1) (TRef.of (T := ⟨S1024x48x160, .f32⟩) main_call2_v10) (TRef.of (T := ⟨S1024x48x160, .f32⟩) main_v29) addf,
    unary main_arg8 main_v30 ((extractStridedSlice S1x1x160 ![0, 0, 0] · slices_S7x1x160_S1x1x160_0_0_0) : (⟨S7x1x160, .f32⟩ : BufTy).Contents (Elt F) → (⟨S1x1x160, .f32⟩ : BufTy).Contents (Elt F)),
    reshape main_v30 main_v31 rfl shapeCasts_S1x1x160_S1x160,
    binary main_v29 main_v31 main_v32 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v33 ((extractStridedSlice S1x1 ![0, 0] · slices_S7x1_S1x1_0_0) : (⟨S7x1, .f32⟩ : BufTy).Contents (Elt F) → (⟨S1x1, .f32⟩ : BufTy).Contents (Elt F)),
    reshape main_v33 main_v34 rfl shapeCasts_S1x1_S1,
    unary main_v34 main_v35 (broadcastInDim S1x1x1 ![2] bcast_S1_S1x1x1_2 : (⟨S1, .f32⟩ : BufTy).Contents (Elt F) → (⟨S1x1x1, .f32⟩ : BufTy).Contents (Elt F)),
    unary main_v35 main_v36 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v32 main_v36 main_v37 (addf : (⟨S1024x48x1, .f32⟩ : BufTy).Contents (Elt F) → (⟨S1024x48x1, .f32⟩ : BufTy).Contents (Elt F) → (⟨S1024x48x1, .f32⟩ : BufTy).Contents (Elt F)),
    reshape main_v37 main_v38 rfl shapeCasts_S1024x48x1_S1024x48,
    TRef.ternary (TRef.of (T := ⟨S1024x48, .i1⟩) main_v2) (TRef.of (T := ⟨S1024x48, .f32⟩) main_v38) (TRef.of (T := ⟨S1024x48, .f32⟩) main_v0) (TRef.of (T := ⟨S1024x48, .f32⟩) main_v39) select ]

theorem ops0_sub : (ops0 : List (HloOp τ sig (Elt F))).Forall fun op => op.bufs ⊆ tcRefs τ sig :=
  by unfold ops0; exact ⟨nullary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops0_fresh : ∀ op ∈ (ops0 : List (HloOp τ sig (Elt F))), op.fresh = ∅ := by
  intro _ h; unfold ops0 at h; (repeat (cases h with | head => rfl | tail _ h => ?_)); exact nomatch h

/-- What they leave in the energy buffer. -/
theorem energy0 (W : Valuation τ sig (Elt Ideal)) :
    after (ops0 (F := Ideal)) W (Proc.devRef .tc main_v39)
      = pickH 0#32 (W (Proc.devRef .tc main_arg0))
        (expertH (W (Proc.devRef .tc main_arg1))
          (extractStridedSlice S1x256x384 ![0, 0, 0] (W (Proc.devRef .tc main_arg2)) slices_S7x256x384_S1x256x384_0_0_0)
          (extractStridedSlice S1x256 ![0, 0] (W (Proc.devRef .tc main_arg3)) slices_S7x256_S1x256_0_0)
          (extractStridedSlice S1x192x256 ![0, 0, 0] (W (Proc.devRef .tc main_arg4)) slices_S7x192x256_S1x192x256_0_0_0)
          (extractStridedSlice S1x192 ![0, 0] (W (Proc.devRef .tc main_arg5)) slices_S7x192_S1x192_0_0)
          (extractStridedSlice S1x160x192 ![0, 0, 0] (W (Proc.devRef .tc main_arg6)) slices_S7x160x192_S1x160x192_0_0_0)
          (extractStridedSlice S1x160 ![0, 0] (W (Proc.devRef .tc main_arg7)) slices_S7x160_S1x160_0_0)
          (extractStridedSlice S1x1x160 ![0, 0, 0] (W (Proc.devRef .tc main_arg8)) slices_S7x1x160_S1x1x160_0_0_0)
          (extractStridedSlice S1x1 ![0, 0] (W (Proc.devRef .tc main_arg9)) slices_S7x1_S1x1_0_0))
        zeroH := by
  unfold ops0
  after_results_simp
  rfl

theorem kept0_0 (W : Valuation τ sig (Elt Ideal)) :
    after (ops0 (F := Ideal)) W (Proc.devRef .tc main_arg0) = W (Proc.devRef .tc main_arg0) := by
  unfold ops0
  after_results_simp

theorem kept0_1 (W : Valuation τ sig (Elt Ideal)) :
    after (ops0 (F := Ideal)) W (Proc.devRef .tc main_arg1) = W (Proc.devRef .tc main_arg1) := by
  unfold ops0
  after_results_simp

theorem kept0_2 (W : Valuation τ sig (Elt Ideal)) :
    after (ops0 (F := Ideal)) W (Proc.devRef .tc main_arg2) = W (Proc.devRef .tc main_arg2) := by
  unfold ops0
  after_results_simp

theorem kept0_3 (W : Valuation τ sig (Elt Ideal)) :
    after (ops0 (F := Ideal)) W (Proc.devRef .tc main_arg3) = W (Proc.devRef .tc main_arg3) := by
  unfold ops0
  after_results_simp

theorem kept0_4 (W : Valuation τ sig (Elt Ideal)) :
    after (ops0 (F := Ideal)) W (Proc.devRef .tc main_arg4) = W (Proc.devRef .tc main_arg4) := by
  unfold ops0
  after_results_simp

theorem kept0_5 (W : Valuation τ sig (Elt Ideal)) :
    after (ops0 (F := Ideal)) W (Proc.devRef .tc main_arg5) = W (Proc.devRef .tc main_arg5) := by
  unfold ops0
  after_results_simp

theorem kept0_6 (W : Valuation τ sig (Elt Ideal)) :
    after (ops0 (F := Ideal)) W (Proc.devRef .tc main_arg6) = W (Proc.devRef .tc main_arg6) := by
  unfold ops0
  after_results_simp

theorem kept0_7 (W : Valuation τ sig (Elt Ideal)) :
    after (ops0 (F := Ideal)) W (Proc.devRef .tc main_arg7) = W (Proc.devRef .tc main_arg7) := by
  unfold ops0
  after_results_simp

theorem kept0_8 (W : Valuation τ sig (Elt Ideal)) :
    after (ops0 (F := Ideal)) W (Proc.devRef .tc main_arg8) = W (Proc.devRef .tc main_arg8) := by
  unfold ops0
  after_results_simp

theorem kept0_9 (W : Valuation τ sig (Elt Ideal)) :
    after (ops0 (F := Ideal)) W (Proc.devRef .tc main_arg9) = W (Proc.devRef .tc main_arg9) := by
  unfold ops0
  after_results_simp

end Cert.ReferenceIdeal.Hand

end
-- ==== Proof.RefSpecies1.lean ====
/-
  The reference's operations for species 1, run from any contents `W` of the buffers: they leave, in the energy
  buffer they write, `pick 1` of this species' network on the feature array (its weights the slabs 1 of the stacked
  weight arrays) and of the energy buffer of the species before, and they do not touch the argument arrays.
  (species 1's 82 operations of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops1 : List (HloOp τ sig (Elt F)) :=
  [ nullary main_c_3 (constantI S_ 32 1#32),
    unary main_c_3 main_v40 (broadcastInDim S1024x48 ![] bcast_S_S1024x48 : (⟨S_, .i32⟩ : BufTy).Contents (Elt F) → (⟨S1024x48, .i32⟩ : BufTy).Contents (Elt F)),
    binary main_arg0 main_v40 main_v41 (cmpi .eq : (⟨S1024x48, .i32⟩ : BufTy).Contents (Elt F) → (⟨S1024x48, .i32⟩ : BufTy).Contents (Elt F) → (⟨S1024x48, .i1⟩ : BufTy).Contents (Elt F)),
    unary main_arg2 main_v42 ((extractStridedSlice S1x256x384 ![1, 0, 0] · slices_S7x256x384_S1x256x384_1_0_0) : (⟨S7x256x384, .f32⟩ : BufTy).Contents (Elt F) → (⟨S1x256x384, .f32⟩ : BufTy).Contents (Elt F)),
    reshape main_v42 main_v43 rfl shapeCasts_S1x256x384_S256x384,
    binary main_arg1 main_v43 main_v44 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v45 ((extractStridedSlice S1x256 ![1, 0] · slices_S7x256_S1x256_1_0) : (⟨S7x256, .f32⟩ : BufTy).Contents (Elt F) → (⟨S1x256, .f32⟩ : BufTy).Contents (Elt F)),
    reshape main_v45 main_v46 rfl shapeCasts_S1x256_S256,
    unary main_v46 main_v47 (broadcastInDim S1x1x256 ![2] bcast_S256_S1x1x256_2 : (⟨S256, .f32⟩ : BufTy).Contents (Elt F) → (⟨S1x1x256, .f32⟩ : BufTy).Contents (Elt F)),
    unary main_v47 main_v48 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v44 main_v48 main_v49 (addf : (⟨S1024x48x256, .f32⟩ : BufTy).Contents (Elt F) → (⟨S1024x48x256, .f32⟩ : BufTy).Contents (Elt F) → (⟨S1024x48x256, .f32⟩ : BufTy).Contents (Elt F)),
    nullary main_cst_4 (constant S_ .f32 0x3DCCCCCD#32),
    TRef.nullary (TRef.of (T := ⟨S_, .f32⟩) main_call4_cst) (constant S_ .f32 0x00000000#32),
    TRef.unary (TRef.of (T := ⟨S_, .f32⟩) main_call4_cst) (TRef.of (T := ⟨S1024x48x256, .f32⟩) main_call4_v0) (broadcastInDim S1024x48x256 ![] bcast_S_S1024x48x256),
    TRef.binary (TRef.of (T := ⟨S1024x48x256, .f32⟩) main_v49) (TRef.of (T := ⟨S1024x48x256, .f32⟩) main_call4_v0) (TRef.of (T := ⟨S1024x48x256, .f32⟩) main_call4_v1) maximumf,
    TRef.nullary (TRef.of (T := ⟨S_, .f32⟩) main_call4_cst_0) (constant S_ .f32 0x00000000#32),
    TRef.unary (TRef.of (T := ⟨S_, .f32⟩) main_call4_cst_0) (TRef.of (T := ⟨S1024x48x256, .f32⟩) main_call4_v2) (broadcastInDim S1024x48x256 ![] bcast_S_S1024x48x256),
    TRef.binary (TRef.of (T := ⟨S1024x48x256, .f32⟩) main_v49) (TRef.of (T := ⟨S1024x48x256, .f32⟩) main_call4_v2) (TRef.of (T := ⟨S1024x48x256, .f32⟩) main_call4_v3) minimumf,
    TRef.unary (TRef.of (T := ⟨S_, .f32⟩) main_cst_4) (TRef.of (T := ⟨S_, .f32⟩) main_call4_v4) id,
    TRef.unary (TRef.of (T := ⟨S_, .f32⟩) main_call4_v4) (TRef.of (T := ⟨S1024x48x256, .f32⟩) main_call4_v5) (broadcastInDim S1024x48x256 ![] bcast_S_S1024x48x256),
    TRef.binary (TRef.of (T := ⟨S1024x48x256, .f32⟩) main_call4_v3) (TRef.of (T := ⟨S1024x48x256, .f32⟩) main_call4_v5) (TRef.of (T := ⟨S1024x48x256, .f32⟩) main_call4_v6) Host.divf,
    TRef.unary (TRef.of (T := ⟨S1024x48x256, .f32⟩) main_call4_v6) (TRef.of (T := ⟨S1024x48x256, .f32⟩) main_call4_v7) Host.expm1,
    TRef.unary (TRef.of (T := ⟨S_, .f32⟩) main_cst_4) (TRef.of (T := ⟨S_, .f32⟩) main_call4_v8) id,
    TRef.unary (TRef.of (T := ⟨S_, .f32⟩) main_call4_v8) (TRef.of (T := ⟨S1024x48x256, .f32⟩) main_call4_v9) (broadcastInDim S1024x48x256 ![] bcast_S_S1024x48x256),
    TRef.binary (TRef.of (T := ⟨S1024x48x256, .f32⟩) main_call4_v9) (TRef.of (T := ⟨S1024x48x256, .f32⟩) main_call4_v7) (TRef.of (T := ⟨S1024x48x256, .f32⟩) main_call4_v10) mulf,
    TRef.binary (TRef.of (T := ⟨S1024x48x256, .f32⟩) main_call4_v1) (TRef.of (T := ⟨S1024x48x256, .f32⟩) main_call4_v10) (TRef.of (T := ⟨S1024x48x256, .f32⟩) main_v50) addf,
    unary main_arg4 main_v51 ((extractStridedSlice S1x192x256 ![1, 0, 0] · slices_S7x192x256_S1x192x256_1_0_0) : (⟨S7x192x256, .f32⟩ : BufTy).Contents (Elt F) → (⟨S1x192x256, .f32⟩ : BufTy).Contents (Elt F)),
    reshape main_v51 main_v52 rfl shapeCasts_S1x192x256_S192x256,
    binary main_v50 main_v52 main_v53 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v54 ((extractStridedSlice S1x192 ![1, 0] · slices_S7x192_S1x192_1_0) : (⟨S7x192, .f32⟩ : BufTy).Contents (Elt F) → (⟨S1x192, .f32⟩ : BufTy).Contents (Elt F)),
    reshape main_v54 main_v55 rfl shapeCasts_S1x192_S192,
    unary main_v55 main_v56 (broadcastInDim S1x1x192 ![2] bcast_S192_S1x1x192_2 : (⟨S192, .f32⟩ : BufTy).Contents (Elt F) → (⟨S1x1x192, .f32⟩ : BufTy).Contents (Elt F)),
    unary main_v56 main_v57 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v53 main_v57 main_v58 (addf : (⟨S1024x48x192, .f32⟩ : BufTy).Contents (Elt F) → (⟨S1024x48x192, .f32⟩ : BufTy).Contents (Elt F) → (⟨S1024x48x192, .f32⟩ : BufTy).Contents (Elt F)),
    nullary main_cst_5 (constant S_ .f32 0x3DCCCCCD#32),
    TRef.nullary (TRef.of (T := ⟨S_, .f32⟩) main_call5_cst) (constant S_ .f32 0x00000000#32),
    TRef.unary (TRef.of (T := ⟨S_, .f32⟩) main_call5_cst) (TRef.of (T := ⟨S1024x48x192, .f32⟩) main_call5_v0) (broadcastInDim S1024x48x192 ![] bcast_S_S1024x48x192),
    TRef.binary (TRef.of (T := ⟨S1024x48x192, .f32⟩) main_v58) (TRef.of (T := ⟨S1024x48x192, .f32⟩) main_call5_v0) (TRef.of (T := ⟨S1024x48x192, .f32⟩) main_call5_v1) maximumf,
    TRef.nullary (TRef.of (T := ⟨S_, .f32⟩) main_call5_cst_0) (constant S_ .f32 0x00000000#32),
    TRef.unary (TRef.of (T := ⟨S_, .f32⟩) main_call5_cst_0) (TRef.of (T := ⟨S1024x48x192, .f32⟩) main_call5_v2) (broadcastInDim S1024x48x192 ![] bcast_S_S1024x48x192),
    TRef.binary (TRef.of (T := ⟨S1024x48x192, .f32⟩) main_v58) (TRef.of (T := ⟨S1024x48x192, .f32⟩) main_call5_v2) (TRef.of (T := ⟨S1024x48x192, .f32⟩) main_call5_v3) minimumf,
    TRef.unary (TRef.of (T := ⟨S_, .f32⟩) main_cst_5) (TRef.of (T := ⟨S_, .f32⟩) main_call5_v4) id,
    TRef.unary (TRef.of (T := ⟨S_, .f32⟩) main_call5_v4) (TRef.of (T := ⟨S1024x48x192, .f32⟩) main_call5_v5) (broadcastInDim S1024x48x192 ![] bcast_S_S1024x48x192),
    TRef.binary (TRef.of (T := ⟨S1024x48x192, .f32⟩) main_call5_v3) (TRef.of (T := ⟨S1024x48x192, .f32⟩) main_call5_v5) (TRef.of (T := ⟨S1024x48x192, .f32⟩) main_call5_v6) Host.divf,
    TRef.unary (TRef.of (T := ⟨S1024x48x192, .f32⟩) main_call5_v6) (TRef.of (T := ⟨S1024x48x192, .f32⟩) main_call5_v7) Host.expm1,
    TRef.unary (TRef.of (T := ⟨S_, .f32⟩) main_cst_5) (TRef.of (T := ⟨S_, .f32⟩) main_call5_v8) id,
    TRef.unary (TRef.of (T := ⟨S_, .f32⟩) main_call5_v8) (TRef.of (T := ⟨S1024x48x192, .f32⟩) main_call5_v9) (broadcastInDim S1024x48x192 ![] bcast_S_S1024x48x192),
    TRef.binary (TRef.of (T := ⟨S1024x48x192, .f32⟩) main_call5_v9) (TRef.of (T := ⟨S1024x48x192, .f32⟩) main_call5_v7) (TRef.of (T := ⟨S1024x48x192, .f32⟩) main_call5_v10) mulf,
    TRef.binary (TRef.of (T := ⟨S1024x48x192, .f32⟩) main_call5_v1) (TRef.of (T := ⟨S1024x48x192, .f32⟩) main_call5_v10) (TRef.of (T := ⟨S1024x48x192, .f32⟩) main_v59) addf,
    unary main_arg6 main_v60 ((extractStridedSlice S1x160x192 ![1, 0, 0] · slices_S7x160x192_S1x160x192_1_0_0) : (⟨S7x160x192, .f32⟩ : BufTy).Contents (Elt F) → (⟨S1x160x192, .f32⟩ : BufTy).Contents (Elt F)),
    reshape main_v60 main_v61 rfl shapeCasts_S1x160x192_S160x192,
    binary main_v59 main_v61 main_v62 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v63 ((extractStridedSlice S1x160 ![1, 0] · slices_S7x160_S1x160_1_0) : (⟨S7x160, .f32⟩ : BufTy).Contents (Elt F) → (⟨S1x160, .f32⟩ : BufTy).Contents (Elt F)),
    reshape main_v63 main_v64 rfl shapeCasts_S1x160_S160,
    unary main_v64 main_v65 (broadcastInDim S1x1x160 ![2] bcast_S160_S1x1x160_2 : (⟨S160, .f32⟩ : BufTy).Contents (Elt F) → (⟨S1x1x160, .f32⟩ : BufTy).Contents (Elt F)),
    unary main_v65 main_v66 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v62 main_v66 main_v67 (addf : (⟨S1024x48x160, .f32⟩ : BufTy).Contents (Elt F) → (⟨S1024x48x160, .f32⟩ : BufTy).Contents (Elt F) → (⟨S1024x48x160, .f32⟩ : BufTy).Contents (Elt F)),
    nullary main_cst_6 (constant S_ .f32 0x3DCCCCCD#32),
    TRef.nullary (TRef.of (T := ⟨S_, .f32⟩) main_call6_cst) (constant S_ .f32 0x00000000#32),
    TRef.unary (TRef.of (T := ⟨S_, .f32⟩) main_call6_cst) (TRef.of (T := ⟨S1024x48x160, .f32⟩) main_call6_v0) (broadcastInDim S1024x48x160 ![] bcast_S_S1024x48x160),
    TRef.binary (TRef.of (T := ⟨S1024x48x160, .f32⟩) main_v67) (TRef.of (T := ⟨S1024x48x160, .f32⟩) main_call6_v0) (TRef.of (T := ⟨S1024x48x160, .f32⟩) main_call6_v1) maximumf,
    TRef.nullary (TRef.of (T := ⟨S_, .f32⟩) main_call6_cst_0) (constant S_ .f32 0x00000000#32),
    TRef.unary (TRef.of (T := ⟨S_, .f32⟩) main_call6_cst_0) (TRef.of (T := ⟨S1024x48x160, .f32⟩) main_call6_v2) (broadcastInDim S1024x48x160 ![] bcast_S_S1024x48x160),
    TRef.binary (TRef.of (T := ⟨S1024x48x160, .f32⟩) main_v67) (TRef.of (T := ⟨S1024x48x160, .f32⟩) main_call6_v2) (TRef.of (T := ⟨S1024x48x160, .f32⟩) main_call6_v3) minimumf,
    TRef.unary (TRef.of (T := ⟨S_, .f32⟩) main_cst_6) (TRef.of (T := ⟨S_, .f32⟩) main_call6_v4) id,
    TRef.unary (TRef.of (T := ⟨S_, .f32⟩) main_call6_v4) (TRef.of (T := ⟨S1024x48x160, .f32⟩) main_call6_v5) (broadcastInDim S1024x48x160 ![] bcast_S_S1024x48x160),
    TRef.binary (TRef.of (T := ⟨S1024x48x160, .f32⟩) main_call6_v3) (TRef.of (T := ⟨S1024x48x160, .f32⟩) main_call6_v5) (TRef.of (T := ⟨S1024x48x160, .f32⟩) main_call6_v6) Host.divf,
    TRef.unary (TRef.of (T := ⟨S1024x48x160, .f32⟩) main_call6_v6) (TRef.of (T := ⟨S1024x48x160, .f32⟩) main_call6_v7) Host.expm1,
    TRef.unary (TRef.of (T := ⟨S_, .f32⟩) main_cst_6) (TRef.of (T := ⟨S_, .f32⟩) main_call6_v8) id,
    TRef.unary (TRef.of (T := ⟨S_, .f32⟩) main_call6_v8) (TRef.of (T := ⟨S1024x48x160, .f32⟩) main_call6_v9) (broadcastInDim S1024x48x160 ![] bcast_S_S1024x48x160),
    TRef.binary (TRef.of (T := ⟨S1024x48x160, .f32⟩) main_call6_v9) (TRef.of (T := ⟨S1024x48x160, .f32⟩) main_call6_v7) (TRef.of (T := ⟨S1024x48x160, .f32⟩) main_call6_v10) mulf,
    TRef.binary (TRef.of (T := ⟨S1024x48x160, .f32⟩) main_call6_v1) (TRef.of (T := ⟨S1024x48x160, .f32⟩) main_call6_v10) (TRef.of (T := ⟨S1024x48x160, .f32⟩) main_v68) addf,
    unary main_arg8 main_v69 ((extractStridedSlice S1x1x160 ![1, 0, 0] · slices_S7x1x160_S1x1x160_1_0_0) : (⟨S7x1x160, .f32⟩ : BufTy).Contents (Elt F) → (⟨S1x1x160, .f32⟩ : BufTy).Contents (Elt F)),
    reshape main_v69 main_v70 rfl shapeCasts_S1x1x160_S1x160,
    binary main_v68 main_v70 main_v71 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v72 ((extractStridedSlice S1x1 ![1, 0] · slices_S7x1_S1x1_1_0) : (⟨S7x1, .f32⟩ : BufTy).Contents (Elt F) → (⟨S1x1, .f32⟩ : BufTy).Contents (Elt F)),
    reshape main_v72 main_v73 rfl shapeCasts_S1x1_S1,
    unary main_v73 main_v74 (broadcastInDim S1x1x1 ![2] bcast_S1_S1x1x1_2 : (⟨S1, .f32⟩ : BufTy).Contents (Elt F) → (⟨S1x1x1, .f32⟩ : BufTy).Contents (Elt F)),
    unary main_v74 main_v75 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v71 main_v75 main_v76 (addf : (⟨S1024x48x1, .f32⟩ : BufTy).Contents (Elt F) → (⟨S1024x48x1, .f32⟩ : BufTy).Contents (Elt F) → (⟨S1024x48x1, .f32⟩ : BufTy).Contents (Elt F)),
    reshape main_v76 main_v77 rfl shapeCasts_S1024x48x1_S1024x48,
    TRef.ternary (TRef.of (T := ⟨S1024x48, .i1⟩) main_v41) (TRef.of (T := ⟨S1024x48, .f32⟩) main_v77) (TRef.of (T := ⟨S1024x48, .f32⟩) main_v39) (TRef.of (T := ⟨S1024x48, .f32⟩) main_v78) select ]

theorem ops1_sub : (ops1 : List (HloOp τ sig (Elt F))).Forall fun op => op.bufs ⊆ tcRefs τ sig :=
  by unfold ops1; exact ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops1_fresh : ∀ op ∈ (ops1 : List (HloOp τ sig (Elt F))), op.fresh = ∅ := by
  intro _ h; unfold ops1 at h; (repeat (cases h with | head => rfl | tail _ h => ?_)); exact nomatch h

/-- What they leave in the energy buffer. -/
theorem energy1 (W : Valuation τ sig (Elt Ideal)) :
    after (ops1 (F := Ideal)) W (Proc.devRef .tc main_v78)
      = pickH 1#32 (W (Proc.devRef .tc main_arg0))
        (expertH (W (Proc.devRef .tc main_arg1))
          (extractStridedSlice S1x256x384 ![1, 0, 0] (W (Proc.devRef .tc main_arg2)) slices_S7x256x384_S1x256x384_1_0_0)
          (extractStridedSlice S1x256 ![1, 0] (W (Proc.devRef .tc main_arg3)) slices_S7x256_S1x256_1_0)
          (extractStridedSlice S1x192x256 ![1, 0, 0] (W (Proc.devRef .tc main_arg4)) slices_S7x192x256_S1x192x256_1_0_0)
          (extractStridedSlice S1x192 ![1, 0] (W (Proc.devRef .tc main_arg5)) slices_S7x192_S1x192_1_0)
          (extractStridedSlice S1x160x192 ![1, 0, 0] (W (Proc.devRef .tc main_arg6)) slices_S7x160x192_S1x160x192_1_0_0)
          (extractStridedSlice S1x160 ![1, 0] (W (Proc.devRef .tc main_arg7)) slices_S7x160_S1x160_1_0)
          (extractStridedSlice S1x1x160 ![1, 0, 0] (W (Proc.devRef .tc main_arg8)) slices_S7x1x160_S1x1x160_1_0_0)
          (extractStridedSlice S1x1 ![1, 0] (W (Proc.devRef .tc main_arg9)) slices_S7x1_S1x1_1_0))
        (W (Proc.devRef .tc main_v39)) := by
  unfold ops1
  after_results_simp
  rfl

theorem kept1_0 (W : Valuation τ sig (Elt Ideal)) :
    after (ops1 (F := Ideal)) W (Proc.devRef .tc main_arg0) = W (Proc.devRef .tc main_arg0) := by
  unfold ops1
  after_results_simp

theorem kept1_1 (W : Valuation τ sig (Elt Ideal)) :
    after (ops1 (F := Ideal)) W (Proc.devRef .tc main_arg1) = W (Proc.devRef .tc main_arg1) := by
  unfold ops1
  after_results_simp

theorem kept1_2 (W : Valuation τ sig (Elt Ideal)) :
    after (ops1 (F := Ideal)) W (Proc.devRef .tc main_arg2) = W (Proc.devRef .tc main_arg2) := by
  unfold ops1
  after_results_simp

theorem kept1_3 (W : Valuation τ sig (Elt Ideal)) :
    after (ops1 (F := Ideal)) W (Proc.devRef .tc main_arg3) = W (Proc.devRef .tc main_arg3) := by
  unfold ops1
  after_results_simp

theorem kept1_4 (W : Valuation τ sig (Elt Ideal)) :
    after (ops1 (F := Ideal)) W (Proc.devRef .tc main_arg4) = W (Proc.devRef .tc main_arg4) := by
  unfold ops1
  after_results_simp

theorem kept1_5 (W : Valuation τ sig (Elt Ideal)) :
    after (ops1 (F := Ideal)) W (Proc.devRef .tc main_arg5) = W (Proc.devRef .tc main_arg5) := by
  unfold ops1
  after_results_simp

theorem kept1_6 (W : Valuation τ sig (Elt Ideal)) :
    after (ops1 (F := Ideal)) W (Proc.devRef .tc main_arg6) = W (Proc.devRef .tc main_arg6) := by
  unfold ops1
  after_results_simp

theorem kept1_7 (W : Valuation τ sig (Elt Ideal)) :
    after (ops1 (F := Ideal)) W (Proc.devRef .tc main_arg7) = W (Proc.devRef .tc main_arg7) := by
  unfold ops1
  after_results_simp

theorem kept1_8 (W : Valuation τ sig (Elt Ideal)) :
    after (ops1 (F := Ideal)) W (Proc.devRef .tc main_arg8) = W (Proc.devRef .tc main_arg8) := by
  unfold ops1
  after_results_simp

theorem kept1_9 (W : Valuation τ sig (Elt Ideal)) :
    after (ops1 (F := Ideal)) W (Proc.devRef .tc main_arg9) = W (Proc.devRef .tc main_arg9) := by
  unfold ops1
  after_results_simp

end Cert.ReferenceIdeal.Hand

end
-- ==== Proof.RefSpecies2.lean ====
/-
  The reference's operations for species 2, run from any contents `W` of the buffers: they leave, in the energy
  buffer they write, `pick 2` of this species' network on the feature array (its weights the slabs 2 of the stacked
  weight arrays) and of the energy buffer of the species before, and they do not touch the argument arrays.
  (species 2's 82 operations of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops2 : List (HloOp τ sig (Elt F)) :=
  [ nullary main_c_7 (constantI S_ 32 2#32),
    unary main_c_7 main_v79 (broadcastInDim S1024x48 ![] bcast_S_S1024x48 : (⟨S_, .i32⟩ : BufTy).Contents (Elt F) → (⟨S1024x48, .i32⟩ : BufTy).Contents (Elt F)),
    binary main_arg0 main_v79 main_v80 (cmpi .eq : (⟨S1024x48, .i32⟩ : BufTy).Contents (Elt F) → (⟨S1024x48, .i32⟩ : BufTy).Contents (Elt F) → (⟨S1024x48, .i1⟩ : BufTy).Contents (Elt F)),
    unary main_arg2 main_v81 ((extractStridedSlice S1x256x384 ![2, 0, 0] · slices_S7x256x384_S1x256x384_2_0_0) : (⟨S7x256x384, .f32⟩ : BufTy).Contents (Elt F) → (⟨S1x256x384, .f32⟩ : BufTy).Contents (Elt F)),
    reshape main_v81 main_v82 rfl shapeCasts_S1x256x384_S256x384,
    binary main_arg1 main_v82 main_v83 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v84 ((extractStridedSlice S1x256 ![2, 0] · slices_S7x256_S1x256_2_0) : (⟨S7x256, .f32⟩ : BufTy).Contents (Elt F) → (⟨S1x256, .f32⟩ : BufTy).Contents (Elt F)),
    reshape main_v84 main_v85 rfl shapeCasts_S1x256_S256,
    unary main_v85 main_v86 (broadcastInDim S1x1x256 ![2] bcast_S256_S1x1x256_2 : (⟨S256, .f32⟩ : BufTy).Contents (Elt F) → (⟨S1x1x256, .f32⟩ : BufTy).Contents (Elt F)),
    unary main_v86 main_v87 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v83 main_v87 main_v88 (addf : (⟨S1024x48x256, .f32⟩ : BufTy).Contents (Elt F) → (⟨S1024x48x256, .f32⟩ : BufTy).Contents (Elt F) → (⟨S1024x48x256, .f32⟩ : BufTy).Contents (Elt F)),
    nullary main_cst_8 (constant S_ .f32 0x3DCCCCCD#32),
    TRef.nullary (TRef.of (T := ⟨S_, .f32⟩) main_call8_cst) (constant S_ .f32 0x00000000#32),
    TRef.unary (TRef.of (T := ⟨S_, .f32⟩) main_call8_cst) (TRef.of (T := ⟨S1024x48x256, .f32⟩) main_call8_v0) (broadcastInDim S1024x48x256 ![] bcast_S_S1024x48x256),
    TRef.binary (TRef.of (T := ⟨S1024x48x256, .f32⟩) main_v88) (TRef.of (T := ⟨S1024x48x256, .f32⟩) main_call8_v0) (TRef.of (T := ⟨S1024x48x256, .f32⟩) main_call8_v1) maximumf,
    TRef.nullary (TRef.of (T := ⟨S_, .f32⟩) main_call8_cst_0) (constant S_ .f32 0x00000000#32),
    TRef.unary (TRef.of (T := ⟨S_, .f32⟩) main_call8_cst_0) (TRef.of (T := ⟨S1024x48x256, .f32⟩) main_call8_v2) (broadcastInDim S1024x48x256 ![] bcast_S_S1024x48x256),
    TRef.binary (TRef.of (T := ⟨S1024x48x256, .f32⟩) main_v88) (TRef.of (T := ⟨S1024x48x256, .f32⟩) main_call8_v2) (TRef.of (T := ⟨S1024x48x256, .f32⟩) main_call8_v3) minimumf,
    TRef.unary (TRef.of (T := ⟨S_, .f32⟩) main_cst_8) (TRef.of (T := ⟨S_, .f32⟩) main_call8_v4) id,
    TRef.unary (TRef.of (T := ⟨S_, .f32⟩) main_call8_v4) (TRef.of (T := ⟨S1024x48x256, .f32⟩) main_call8_v5) (broadcastInDim S1024x48x256 ![] bcast_S_S1024x48x256),
    TRef.binary (TRef.of (T := ⟨S1024x48x256, .f32⟩) main_call8_v3) (TRef.of (T := ⟨S1024x48x256, .f32⟩) main_call8_v5) (TRef.of (T := ⟨S1024x48x256, .f32⟩) main_call8_v6) Host.divf,
    TRef.unary (TRef.of (T := ⟨S1024x48x256, .f32⟩) main_call8_v6) (TRef.of (T := ⟨S1024x48x256, .f32⟩) main_call8_v7) Host.expm1,
    TRef.unary (TRef.of (T := ⟨S_, .f32⟩) main_cst_8) (TRef.of (T := ⟨S_, .f32⟩) main_call8_v8) id,
    TRef.unary (TRef.of (T := ⟨S_, .f32⟩) main_call8_v8) (TRef.of (T := ⟨S1024x48x256, .f32⟩) main_call8_v9) (broadcastInDim S1024x48x256 ![] bcast_S_S1024x48x256),
    TRef.binary (TRef.of (T := ⟨S1024x48x256, .f32⟩) main_call8_v9) (TRef.of (T := ⟨S1024x48x256, .f32⟩) main_call8_v7) (TRef.of (T := ⟨S1024x48x256, .f32⟩) main_call8_v10) mulf,
    TRef.binary (TRef.of (T := ⟨S1024x48x256, .f32⟩) main_call8_v1) (TRef.of (T := ⟨S1024x48x256, .f32⟩) main_call8_v10) (TRef.of (T := ⟨S1024x48x256, .f32⟩) main_v89) addf,
    unary main_arg4 main_v90 ((extractStridedSlice S1x192x256 ![2, 0, 0] · slices_S7x192x256_S1x192x256_2_0_0) : (⟨S7x192x256, .f32⟩ : BufTy).Contents (Elt F) → (⟨S1x192x256, .f32⟩ : BufTy).Contents (Elt F)),
    reshape main_v90 main_v91 rfl shapeCasts_S1x192x256_S192x256,
    binary main_v89 main_v91 main_v92 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v93 ((extractStridedSlice S1x192 ![2, 0] · slices_S7x192_S1x192_2_0) : (⟨S7x192, .f32⟩ : BufTy).Contents (Elt F) → (⟨S1x192, .f32⟩ : BufTy).Contents (Elt F)),
    reshape main_v93 main_v94 rfl shapeCasts_S1x192_S192,
    unary main_v94 main_v95 (broadcastInDim S1x1x192 ![2] bcast_S192_S1x1x192_2 : (⟨S192, .f32⟩ : BufTy).Contents (Elt F) → (⟨S1x1x192, .f32⟩ : BufTy).Contents (Elt F)),
    unary main_v95 main_v96 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v92 main_v96 main_v97 (addf : (⟨S1024x48x192, .f32⟩ : BufTy).Contents (Elt F) → (⟨S1024x48x192, .f32⟩ : BufTy).Contents (Elt F) → (⟨S1024x48x192, .f32⟩ : BufTy).Contents (Elt F)),
    nullary main_cst_9 (constant S_ .f32 0x3DCCCCCD#32),
    TRef.nullary (TRef.of (T := ⟨S_, .f32⟩) main_call9_cst) (constant S_ .f32 0x00000000#32),
    TRef.unary (TRef.of (T := ⟨S_, .f32⟩) main_call9_cst) (TRef.of (T := ⟨S1024x48x192, .f32⟩) main_call9_v0) (broadcastInDim S1024x48x192 ![] bcast_S_S1024x48x192),
    TRef.binary (TRef.of (T := ⟨S1024x48x192, .f32⟩) main_v97) (TRef.of (T := ⟨S1024x48x192, .f32⟩) main_call9_v0) (TRef.of (T := ⟨S1024x48x192, .f32⟩) main_call9_v1) maximumf,
    TRef.nullary (TRef.of (T := ⟨S_, .f32⟩) main_call9_cst_0) (constant S_ .f32 0x00000000#32),
    TRef.unary (TRef.of (T := ⟨S_, .f32⟩) main_call9_cst_0) (TRef.of (T := ⟨S1024x48x192, .f32⟩) main_call9_v2) (broadcastInDim S1024x48x192 ![] bcast_S_S1024x48x192),
    TRef.binary (TRef.of (T := ⟨S1024x48x192, .f32⟩) main_v97) (TRef.of (T := ⟨S1024x48x192, .f32⟩) main_call9_v2) (TRef.of (T := ⟨S1024x48x192, .f32⟩) main_call9_v3) minimumf,
    TRef.unary (TRef.of (T := ⟨S_, .f32⟩) main_cst_9) (TRef.of (T := ⟨S_, .f32⟩) main_call9_v4) id,
    TRef.unary (TRef.of (T := ⟨S_, .f32⟩) main_call9_v4) (TRef.of (T := ⟨S1024x48x192, .f32⟩) main_call9_v5) (broadcastInDim S1024x48x192 ![] bcast_S_S1024x48x192),
    TRef.binary (TRef.of (T := ⟨S1024x48x192, .f32⟩) main_call9_v3) (TRef.of (T := ⟨S1024x48x192, .f32⟩) main_call9_v5) (TRef.of (T := ⟨S1024x48x192, .f32⟩) main_call9_v6) Host.divf,
    TRef.unary (TRef.of (T := ⟨S1024x48x192, .f32⟩) main_call9_v6) (TRef.of (T := ⟨S1024x48x192, .f32⟩) main_call9_v7) Host.expm1,
    TRef.unary (TRef.of (T := ⟨S_, .f32⟩) main_cst_9) (TRef.of (T := ⟨S_, .f32⟩) main_call9_v8) id,
    TRef.unary (TRef.of (T := ⟨S_, .f32⟩) main_call9_v8) (TRef.of (T := ⟨S1024x48x192, .f32⟩) main_call9_v9) (broadcastInDim S1024x48x192 ![] bcast_S_S1024x48x192),
    TRef.binary (TRef.of (T := ⟨S1024x48x192, .f32⟩) main_call9_v9) (TRef.of (T := ⟨S1024x48x192, .f32⟩) main_call9_v7) (TRef.of (T := ⟨S1024x48x192, .f32⟩) main_call9_v10) mulf,
    TRef.binary (TRef.of (T := ⟨S1024x48x192, .f32⟩) main_call9_v1) (TRef.of (T := ⟨S1024x48x192, .f32⟩) main_call9_v10) (TRef.of (T := ⟨S1024x48x192, .f32⟩) main_v98) addf,
    unary main_arg6 main_v99 ((extractStridedSlice S1x160x192 ![2, 0, 0] · slices_S7x160x192_S1x160x192_2_0_0) : (⟨S7x160x192, .f32⟩ : BufTy).Contents (Elt F) → (⟨S1x160x192, .f32⟩ : BufTy).Contents (Elt F)),
    reshape main_v99 main_v100 rfl shapeCasts_S1x160x192_S160x192,
    binary main_v98 main_v100 main_v101 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v102 ((extractStridedSlice S1x160 ![2, 0] · slices_S7x160_S1x160_2_0) : (⟨S7x160, .f32⟩ : BufTy).Contents (Elt F) → (⟨S1x160, .f32⟩ : BufTy).Contents (Elt F)),
    reshape main_v102 main_v103 rfl shapeCasts_S1x160_S160,
    unary main_v103 main_v104 (broadcastInDim S1x1x160 ![2] bcast_S160_S1x1x160_2 : (⟨S160, .f32⟩ : BufTy).Contents (Elt F) → (⟨S1x1x160, .f32⟩ : BufTy).Contents (Elt F)),
    unary main_v104 main_v105 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v101 main_v105 main_v106 (addf : (⟨S1024x48x160, .f32⟩ : BufTy).Contents (Elt F) → (⟨S1024x48x160, .f32⟩ : BufTy).Contents (Elt F) → (⟨S1024x48x160, .f32⟩ : BufTy).Contents (Elt F)),
    nullary main_cst_10 (constant S_ .f32 0x3DCCCCCD#32),
    TRef.nullary (TRef.of (T := ⟨S_, .f32⟩) main_call10_cst) (constant S_ .f32 0x00000000#32),
    TRef.unary (TRef.of (T := ⟨S_, .f32⟩) main_call10_cst) (TRef.of (T := ⟨S1024x48x160, .f32⟩) main_call10_v0) (broadcastInDim S1024x48x160 ![] bcast_S_S1024x48x160),
    TRef.binary (TRef.of (T := ⟨S1024x48x160, .f32⟩) main_v106) (TRef.of (T := ⟨S1024x48x160, .f32⟩) main_call10_v0) (TRef.of (T := ⟨S1024x48x160, .f32⟩) main_call10_v1) maximumf,
    TRef.nullary (TRef.of (T := ⟨S_, .f32⟩) main_call10_cst_0) (constant S_ .f32 0x00000000#32),
    TRef.unary (TRef.of (T := ⟨S_, .f32⟩) main_call10_cst_0) (TRef.of (T := ⟨S1024x48x160, .f32⟩) main_call10_v2) (broadcastInDim S1024x48x160 ![] bcast_S_S1024x48x160),
    TRef.binary (TRef.of (T := ⟨S1024x48x160, .f32⟩) main_v106) (TRef.of (T := ⟨S1024x48x160, .f32⟩) main_call10_v2) (TRef.of (T := ⟨S1024x48x160, .f32⟩) main_call10_v3) minimumf,
    TRef.unary (TRef.of (T := ⟨S_, .f32⟩) main_cst_10) (TRef.of (T := ⟨S_, .f32⟩) main_call10_v4) id,
    TRef.unary (TRef.of (T := ⟨S_, .f32⟩) main_call10_v4) (TRef.of (T := ⟨S1024x48x160, .f32⟩) main_call10_v5) (broadcastInDim S1024x48x160 ![] bcast_S_S1024x48x160),
    TRef.binary (TRef.of (T := ⟨S1024x48x160, .f32⟩) main_call10_v3) (TRef.of (T := ⟨S1024x48x160, .f32⟩) main_call10_v5) (TRef.of (T := ⟨S1024x48x160, .f32⟩) main_call10_v6) Host.divf,
    TRef.unary (TRef.of (T := ⟨S1024x48x160, .f32⟩) main_call10_v6) (TRef.of (T := ⟨S1024x48x160, .f32⟩) main_call10_v7) Host.expm1,
    TRef.unary (TRef.of (T := ⟨S_, .f32⟩) main_cst_10) (TRef.of (T := ⟨S_, .f32⟩) main_call10_v8) id,
    TRef.unary (TRef.of (T := ⟨S_, .f32⟩) main_call10_v8) (TRef.of (T := ⟨S1024x48x160, .f32⟩) main_call10_v9) (broadcastInDim S1024x48x160 ![] bcast_S_S1024x48x160),
    TRef.binary (TRef.of (T := ⟨S1024x48x160, .f32⟩) main_call10_v9) (TRef.of (T := ⟨S1024x48x160, .f32⟩) main_call10_v7) (TRef.of (T := ⟨S1024x48x160, .f32⟩) main_call10_v10) mulf,
    TRef.binary (TRef.of (T := ⟨S1024x48x160, .f32⟩) main_call10_v1) (TRef.of (T := ⟨S1024x48x160, .f32⟩) main_call10_v10) (TRef.of (T := ⟨S1024x48x160, .f32⟩) main_v107) addf,
    unary main_arg8 main_v108 ((extractStridedSlice S1x1x160 ![2, 0, 0] · slices_S7x1x160_S1x1x160_2_0_0) : (⟨S7x1x160, .f32⟩ : BufTy).Contents (Elt F) → (⟨S1x1x160, .f32⟩ : BufTy).Contents (Elt F)),
    reshape main_v108 main_v109 rfl shapeCasts_S1x1x160_S1x160,
    binary main_v107 main_v109 main_v110 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v111 ((extractStridedSlice S1x1 ![2, 0] · slices_S7x1_S1x1_2_0) : (⟨S7x1, .f32⟩ : BufTy).Contents (Elt F) → (⟨S1x1, .f32⟩ : BufTy).Contents (Elt F)),
    reshape main_v111 main_v112 rfl shapeCasts_S1x1_S1,
    unary main_v112 main_v113 (broadcastInDim S1x1x1 ![2] bcast_S1_S1x1x1_2 : (⟨S1, .f32⟩ : BufTy).Contents (Elt F) → (⟨S1x1x1, .f32⟩ : BufTy).Contents (Elt F)),
    unary main_v113 main_v114 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v110 main_v114 main_v115 (addf : (⟨S1024x48x1, .f32⟩ : BufTy).Contents (Elt F) → (⟨S1024x48x1, .f32⟩ : BufTy).Contents (Elt F) → (⟨S1024x48x1, .f32⟩ : BufTy).Contents (Elt F)),
    reshape main_v115 main_v116 rfl shapeCasts_S1024x48x1_S1024x48,
    TRef.ternary (TRef.of (T := ⟨S1024x48, .i1⟩) main_v80) (TRef.of (T := ⟨S1024x48, .f32⟩) main_v116) (TRef.of (T := ⟨S1024x48, .f32⟩) main_v78) (TRef.of (T := ⟨S1024x48, .f32⟩) main_v117) select ]

theorem ops2_sub : (ops2 : List (HloOp τ sig (Elt F))).Forall fun op => op.bufs ⊆ tcRefs τ sig :=
  by unfold ops2; exact ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops2_fresh : ∀ op ∈ (ops2 : List (HloOp τ sig (Elt F))), op.fresh = ∅ := by
  intro _ h; unfold ops2 at h; (repeat (cases h with | head => rfl | tail _ h => ?_)); exact nomatch h

/-- What they leave in the energy buffer. -/
theorem energy2 (W : Valuation τ sig (Elt Ideal)) :
    after (ops2 (F := Ideal)) W (Proc.devRef .tc main_v117)
      = pickH 2#32 (W (Proc.devRef .tc main_arg0))
        (expertH (W (Proc.devRef .tc main_arg1))
          (extractStridedSlice S1x256x384 ![2, 0, 0] (W (Proc.devRef .tc main_arg2)) slices_S7x256x384_S1x256x384_2_0_0)
          (extractStridedSlice S1x256 ![2, 0] (W (Proc.devRef .tc main_arg3)) slices_S7x256_S1x256_2_0)
          (extractStridedSlice S1x192x256 ![2, 0, 0] (W (Proc.devRef .tc main_arg4)) slices_S7x192x256_S1x192x256_2_0_0)
          (extractStridedSlice S1x192 ![2, 0] (W (Proc.devRef .tc main_arg5)) slices_S7x192_S1x192_2_0)
          (extractStridedSlice S1x160x192 ![2, 0, 0] (W (Proc.devRef .tc main_arg6)) slices_S7x160x192_S1x160x192_2_0_0)
          (extractStridedSlice S1x160 ![2, 0] (W (Proc.devRef .tc main_arg7)) slices_S7x160_S1x160_2_0)
          (extractStridedSlice S1x1x160 ![2, 0, 0] (W (Proc.devRef .tc main_arg8)) slices_S7x1x160_S1x1x160_2_0_0)
          (extractStridedSlice S1x1 ![2, 0] (W (Proc.devRef .tc main_arg9)) slices_S7x1_S1x1_2_0))
        (W (Proc.devRef .tc main_v78)) := by
  unfold ops2
  after_results_simp
  rfl

theorem kept2_0 (W : Valuation τ sig (Elt Ideal)) :
    after (ops2 (F := Ideal)) W (Proc.devRef .tc main_arg0) = W (Proc.devRef .tc main_arg0) := by
  unfold ops2
  after_results_simp

theorem kept2_1 (W : Valuation τ sig (Elt Ideal)) :
    after (ops2 (F := Ideal)) W (Proc.devRef .tc main_arg1) = W (Proc.devRef .tc main_arg1) := by
  unfold ops2
  after_results_simp

theorem kept2_2 (W : Valuation τ sig (Elt Ideal)) :
    after (ops2 (F := Ideal)) W (Proc.devRef .tc main_arg2) = W (Proc.devRef .tc main_arg2) := by
  unfold ops2
  after_results_simp

theorem kept2_3 (W : Valuation τ sig (Elt Ideal)) :
    after (ops2 (F := Ideal)) W (Proc.devRef .tc main_arg3) = W (Proc.devRef .tc main_arg3) := by
  unfold ops2
  after_results_simp

theorem kept2_4 (W : Valuation τ sig (Elt Ideal)) :
    after (ops2 (F := Ideal)) W (Proc.devRef .tc main_arg4) = W (Proc.devRef .tc main_arg4) := by
  unfold ops2
  after_results_simp

theorem kept2_5 (W : Valuation τ sig (Elt Ideal)) :
    after (ops2 (F := Ideal)) W (Proc.devRef .tc main_arg5) = W (Proc.devRef .tc main_arg5) := by
  unfold ops2
  after_results_simp

theorem kept2_6 (W : Valuation τ sig (Elt Ideal)) :
    after (ops2 (F := Ideal)) W (Proc.devRef .tc main_arg6) = W (Proc.devRef .tc main_arg6) := by
  unfold ops2
  after_results_simp

theorem kept2_7 (W : Valuation τ sig (Elt Ideal)) :
    after (ops2 (F := Ideal)) W (Proc.devRef .tc main_arg7) = W (Proc.devRef .tc main_arg7) := by
  unfold ops2
  after_results_simp

theorem kept2_8 (W : Valuation τ sig (Elt Ideal)) :
    after (ops2 (F := Ideal)) W (Proc.devRef .tc main_arg8) = W (Proc.devRef .tc main_arg8) := by
  unfold ops2
  after_results_simp

theorem kept2_9 (W : Valuation τ sig (Elt Ideal)) :
    after (ops2 (F := Ideal)) W (Proc.devRef .tc main_arg9) = W (Proc.devRef .tc main_arg9) := by
  unfold ops2
  after_results_simp

end Cert.ReferenceIdeal.Hand

end
-- ==== Proof.RefSpecies3.lean ====
/-
  The reference's operations for species 3, run from any contents `W` of the buffers: they leave, in the energy
  buffer they write, `pick 3` of this species' network on the feature array (its weights the slabs 3 of the stacked
  weight arrays) and of the energy buffer of the species before, and they do not touch the argument arrays.
  (species 3's 82 operations of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops3 : List (HloOp τ sig (Elt F)) :=
  [ nullary main_c_11 (constantI S_ 32 3#32),
    unary main_c_11 main_v118 (broadcastInDim S1024x48 ![] bcast_S_S1024x48 : (⟨S_, .i32⟩ : BufTy).Contents (Elt F) → (⟨S1024x48, .i32⟩ : BufTy).Contents (Elt F)),
    binary main_arg0 main_v118 main_v119 (cmpi .eq : (⟨S1024x48, .i32⟩ : BufTy).Contents (Elt F) → (⟨S1024x48, .i32⟩ : BufTy).Contents (Elt F) → (⟨S1024x48, .i1⟩ : BufTy).Contents (Elt F)),
    unary main_arg2 main_v120 ((extractStridedSlice S1x256x384 ![3, 0, 0] · slices_S7x256x384_S1x256x384_3_0_0) : (⟨S7x256x384, .f32⟩ : BufTy).Contents (Elt F) → (⟨S1x256x384, .f32⟩ : BufTy).Contents (Elt F)),
    reshape main_v120 main_v121 rfl shapeCasts_S1x256x384_S256x384,
    binary main_arg1 main_v121 main_v122 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v123 ((extractStridedSlice S1x256 ![3, 0] · slices_S7x256_S1x256_3_0) : (⟨S7x256, .f32⟩ : BufTy).Contents (Elt F) → (⟨S1x256, .f32⟩ : BufTy).Contents (Elt F)),
    reshape main_v123 main_v124 rfl shapeCasts_S1x256_S256,
    unary main_v124 main_v125 (broadcastInDim S1x1x256 ![2] bcast_S256_S1x1x256_2 : (⟨S256, .f32⟩ : BufTy).Contents (Elt F) → (⟨S1x1x256, .f32⟩ : BufTy).Contents (Elt F)),
    unary main_v125 main_v126 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v122 main_v126 main_v127 (addf : (⟨S1024x48x256, .f32⟩ : BufTy).Contents (Elt F) → (⟨S1024x48x256, .f32⟩ : BufTy).Contents (Elt F) → (⟨S1024x48x256, .f32⟩ : BufTy).Contents (Elt F)),
    nullary main_cst_12 (constant S_ .f32 0x3DCCCCCD#32),
    TRef.nullary (TRef.of (T := ⟨S_, .f32⟩) main_call12_cst) (constant S_ .f32 0x00000000#32),
    TRef.unary (TRef.of (T := ⟨S_, .f32⟩) main_call12_cst) (TRef.of (T := ⟨S1024x48x256, .f32⟩) main_call12_v0) (broadcastInDim S1024x48x256 ![] bcast_S_S1024x48x256),
    TRef.binary (TRef.of (T := ⟨S1024x48x256, .f32⟩) main_v127) (TRef.of (T := ⟨S1024x48x256, .f32⟩) main_call12_v0) (TRef.of (T := ⟨S1024x48x256, .f32⟩) main_call12_v1) maximumf,
    TRef.nullary (TRef.of (T := ⟨S_, .f32⟩) main_call12_cst_0) (constant S_ .f32 0x00000000#32),
    TRef.unary (TRef.of (T := ⟨S_, .f32⟩) main_call12_cst_0) (TRef.of (T := ⟨S1024x48x256, .f32⟩) main_call12_v2) (broadcastInDim S1024x48x256 ![] bcast_S_S1024x48x256),
    TRef.binary (TRef.of (T := ⟨S1024x48x256, .f32⟩) main_v127) (TRef.of (T := ⟨S1024x48x256, .f32⟩) main_call12_v2) (TRef.of (T := ⟨S1024x48x256, .f32⟩) main_call12_v3) minimumf,
    TRef.unary (TRef.of (T := ⟨S_, .f32⟩) main_cst_12) (TRef.of (T := ⟨S_, .f32⟩) main_call12_v4) id,
    TRef.unary (TRef.of (T := ⟨S_, .f32⟩) main_call12_v4) (TRef.of (T := ⟨S1024x48x256, .f32⟩) main_call12_v5) (broadcastInDim S1024x48x256 ![] bcast_S_S1024x48x256),
    TRef.binary (TRef.of (T := ⟨S1024x48x256, .f32⟩) main_call12_v3) (TRef.of (T := ⟨S1024x48x256, .f32⟩) main_call12_v5) (TRef.of (T := ⟨S1024x48x256, .f32⟩) main_call12_v6) Host.divf,
    TRef.unary (TRef.of (T := ⟨S1024x48x256, .f32⟩) main_call12_v6) (TRef.of (T := ⟨S1024x48x256, .f32⟩) main_call12_v7) Host.expm1,
    TRef.unary (TRef.of (T := ⟨S_, .f32⟩) main_cst_12) (TRef.of (T := ⟨S_, .f32⟩) main_call12_v8) id,
    TRef.unary (TRef.of (T := ⟨S_, .f32⟩) main_call12_v8) (TRef.of (T := ⟨S1024x48x256, .f32⟩) main_call12_v9) (broadcastInDim S1024x48x256 ![] bcast_S_S1024x48x256),
    TRef.binary (TRef.of (T := ⟨S1024x48x256, .f32⟩) main_call12_v9) (TRef.of (T := ⟨S1024x48x256, .f32⟩) main_call12_v7) (TRef.of (T := ⟨S1024x48x256, .f32⟩) main_call12_v10) mulf,
    TRef.binary (TRef.of (T := ⟨S1024x48x256, .f32⟩) main_call12_v1) (TRef.of (T := ⟨S1024x48x256, .f32⟩) main_call12_v10) (TRef.of (T := ⟨S1024x48x256, .f32⟩) main_v128) addf,
    unary main_arg4 main_v129 ((extractStridedSlice S1x192x256 ![3, 0, 0] · slices_S7x192x256_S1x192x256_3_0_0) : (⟨S7x192x256, .f32⟩ : BufTy).Contents (Elt F) → (⟨S1x192x256, .f32⟩ : BufTy).Contents (Elt F)),
    reshape main_v129 main_v130 rfl shapeCasts_S1x192x256_S192x256,
    binary main_v128 main_v130 main_v131 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v132 ((extractStridedSlice S1x192 ![3, 0] · slices_S7x192_S1x192_3_0) : (⟨S7x192, .f32⟩ : BufTy).Contents (Elt F) → (⟨S1x192, .f32⟩ : BufTy).Contents (Elt F)),
    reshape main_v132 main_v133 rfl shapeCasts_S1x192_S192,
    unary main_v133 main_v134 (broadcastInDim S1x1x192 ![2] bcast_S192_S1x1x192_2 : (⟨S192, .f32⟩ : BufTy).Contents (Elt F) → (⟨S1x1x192, .f32⟩ : BufTy).Contents (Elt F)),
    unary main_v134 main_v135 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v131 main_v135 main_v136 (addf : (⟨S1024x48x192, .f32⟩ : BufTy).Contents (Elt F) → (⟨S1024x48x192, .f32⟩ : BufTy).Contents (Elt F) → (⟨S1024x48x192, .f32⟩ : BufTy).Contents (Elt F)),
    nullary main_cst_13 (constant S_ .f32 0x3DCCCCCD#32),
    TRef.nullary (TRef.of (T := ⟨S_, .f32⟩) main_call13_cst) (constant S_ .f32 0x00000000#32),
    TRef.unary (TRef.of (T := ⟨S_, .f32⟩) main_call13_cst) (TRef.of (T := ⟨S1024x48x192, .f32⟩) main_call13_v0) (broadcastInDim S1024x48x192 ![] bcast_S_S1024x48x192),
    TRef.binary (TRef.of (T := ⟨S1024x48x192, .f32⟩) main_v136) (TRef.of (T := ⟨S1024x48x192, .f32⟩) main_call13_v0) (TRef.of (T := ⟨S1024x48x192, .f32⟩) main_call13_v1) maximumf,
    TRef.nullary (TRef.of (T := ⟨S_, .f32⟩) main_call13_cst_0) (constant S_ .f32 0x00000000#32),
    TRef.unary (TRef.of (T := ⟨S_, .f32⟩) main_call13_cst_0) (TRef.of (T := ⟨S1024x48x192, .f32⟩) main_call13_v2) (broadcastInDim S1024x48x192 ![] bcast_S_S1024x48x192),
    TRef.binary (TRef.of (T := ⟨S1024x48x192, .f32⟩) main_v136) (TRef.of (T := ⟨S1024x48x192, .f32⟩) main_call13_v2) (TRef.of (T := ⟨S1024x48x192, .f32⟩) main_call13_v3) minimumf,
    TRef.unary (TRef.of (T := ⟨S_, .f32⟩) main_cst_13) (TRef.of (T := ⟨S_, .f32⟩) main_call13_v4) id,
    TRef.unary (TRef.of (T := ⟨S_, .f32⟩) main_call13_v4) (TRef.of (T := ⟨S1024x48x192, .f32⟩) main_call13_v5) (broadcastInDim S1024x48x192 ![] bcast_S_S1024x48x192),
    TRef.binary (TRef.of (T := ⟨S1024x48x192, .f32⟩) main_call13_v3) (TRef.of (T := ⟨S1024x48x192, .f32⟩) main_call13_v5) (TRef.of (T := ⟨S1024x48x192, .f32⟩) main_call13_v6) Host.divf,
    TRef.unary (TRef.of (T := ⟨S1024x48x192, .f32⟩) main_call13_v6) (TRef.of (T := ⟨S1024x48x192, .f32⟩) main_call13_v7) Host.expm1,
    TRef.unary (TRef.of (T := ⟨S_, .f32⟩) main_cst_13) (TRef.of (T := ⟨S_, .f32⟩) main_call13_v8) id,
    TRef.unary (TRef.of (T := ⟨S_, .f32⟩) main_call13_v8) (TRef.of (T := ⟨S1024x48x192, .f32⟩) main_call13_v9) (broadcastInDim S1024x48x192 ![] bcast_S_S1024x48x192),
    TRef.binary (TRef.of (T := ⟨S1024x48x192, .f32⟩) main_call13_v9) (TRef.of (T := ⟨S1024x48x192, .f32⟩) main_call13_v7) (TRef.of (T := ⟨S1024x48x192, .f32⟩) main_call13_v10) mulf,
    TRef.binary (TRef.of (T := ⟨S1024x48x192, .f32⟩) main_call13_v1) (TRef.of (T := ⟨S1024x48x192, .f32⟩) main_call13_v10) (TRef.of (T := ⟨S1024x48x192, .f32⟩) main_v137) addf,
    unary main_arg6 main_v138 ((extractStridedSlice S1x160x192 ![3, 0, 0] · slices_S7x160x192_S1x160x192_3_0_0) : (⟨S7x160x192, .f32⟩ : BufTy).Contents (Elt F) → (⟨S1x160x192, .f32⟩ : BufTy).Contents (Elt F)),
    reshape main_v138 main_v139 rfl shapeCasts_S1x160x192_S160x192,
    binary main_v137 main_v139 main_v140 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v141 ((extractStridedSlice S1x160 ![3, 0] · slices_S7x160_S1x160_3_0) : (⟨S7x160, .f32⟩ : BufTy).Contents (Elt F) → (⟨S1x160, .f32⟩ : BufTy).Contents (Elt F)),
    reshape main_v141 main_v142 rfl shapeCasts_S1x160_S160,
    unary main_v142 main_v143 (broadcastInDim S1x1x160 ![2] bcast_S160_S1x1x160_2 : (⟨S160, .f32⟩ : BufTy).Contents (Elt F) → (⟨S1x1x160, .f32⟩ : BufTy).Contents (Elt F)),
    unary main_v143 main_v144 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v140 main_v144 main_v145 (addf : (⟨S1024x48x160, .f32⟩ : BufTy).Contents (Elt F) → (⟨S1024x48x160, .f32⟩ : BufTy).Contents (Elt F) → (⟨S1024x48x160, .f32⟩ : BufTy).Contents (Elt F)),
    nullary main_cst_14 (constant S_ .f32 0x3DCCCCCD#32),
    TRef.nullary (TRef.of (T := ⟨S_, .f32⟩) main_call14_cst) (constant S_ .f32 0x00000000#32),
    TRef.unary (TRef.of (T := ⟨S_, .f32⟩) main_call14_cst) (TRef.of (T := ⟨S1024x48x160, .f32⟩) main_call14_v0) (broadcastInDim S1024x48x160 ![] bcast_S_S1024x48x160),
    TRef.binary (TRef.of (T := ⟨S1024x48x160, .f32⟩) main_v145) (TRef.of (T := ⟨S1024x48x160, .f32⟩) main_call14_v0) (TRef.of (T := ⟨S1024x48x160, .f32⟩) main_call14_v1) maximumf,
    TRef.nullary (TRef.of (T := ⟨S_, .f32⟩) main_call14_cst_0) (constant S_ .f32 0x00000000#32),
    TRef.unary (TRef.of (T := ⟨S_, .f32⟩) main_call14_cst_0) (TRef.of (T := ⟨S1024x48x160, .f32⟩) main_call14_v2) (broadcastInDim S1024x48x160 ![] bcast_S_S1024x48x160),
    TRef.binary (TRef.of (T := ⟨S1024x48x160, .f32⟩) main_v145) (TRef.of (T := ⟨S1024x48x160, .f32⟩) main_call14_v2) (TRef.of (T := ⟨S1024x48x160, .f32⟩) main_call14_v3) minimumf,
    TRef.unary (TRef.of (T := ⟨S_, .f32⟩) main_cst_14) (TRef.of (T := ⟨S_, .f32⟩) main_call14_v4) id,
    TRef.unary (TRef.of (T := ⟨S_, .f32⟩) main_call14_v4) (TRef.of (T := ⟨S1024x48x160, .f32⟩) main_call14_v5) (broadcastInDim S1024x48x160 ![] bcast_S_S1024x48x160),
    TRef.binary (TRef.of (T := ⟨S1024x48x160, .f32⟩) main_call14_v3) (TRef.of (T := ⟨S1024x48x160, .f32⟩) main_call14_v5) (TRef.of (T := ⟨S1024x48x160, .f32⟩) main_call14_v6) Host.divf,
    TRef.unary (TRef.of (T := ⟨S1024x48x160, .f32⟩) main_call14_v6) (TRef.of (T := ⟨S1024x48x160, .f32⟩) main_call14_v7) Host.expm1,
    TRef.unary (TRef.of (T := ⟨S_, .f32⟩) main_cst_14) (TRef.of (T := ⟨S_, .f32⟩) main_call14_v8) id,
    TRef.unary (TRef.of (T := ⟨S_, .f32⟩) main_call14_v8) (TRef.of (T := ⟨S1024x48x160, .f32⟩) main_call14_v9) (broadcastInDim S1024x48x160 ![] bcast_S_S1024x48x160),
    TRef.binary (TRef.of (T := ⟨S1024x48x160, .f32⟩) main_call14_v9) (TRef.of (T := ⟨S1024x48x160, .f32⟩) main_call14_v7) (TRef.of (T := ⟨S1024x48x160, .f32⟩) main_call14_v10) mulf,
    TRef.binary (TRef.of (T := ⟨S1024x48x160, .f32⟩) main_call14_v1) (TRef.of (T := ⟨S1024x48x160, .f32⟩) main_call14_v10) (TRef.of (T := ⟨S1024x48x160, .f32⟩) main_v146) addf,
    unary main_arg8 main_v147 ((extractStridedSlice S1x1x160 ![3, 0, 0] · slices_S7x1x160_S1x1x160_3_0_0) : (⟨S7x1x160, .f32⟩ : BufTy).Contents (Elt F) → (⟨S1x1x160, .f32⟩ : BufTy).Contents (Elt F)),
    reshape main_v147 main_v148 rfl shapeCasts_S1x1x160_S1x160,
    binary main_v146 main_v148 main_v149 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v150 ((extractStridedSlice S1x1 ![3, 0] · slices_S7x1_S1x1_3_0) : (⟨S7x1, .f32⟩ : BufTy).Contents (Elt F) → (⟨S1x1, .f32⟩ : BufTy).Contents (Elt F)),
    reshape main_v150 main_v151 rfl shapeCasts_S1x1_S1,
    unary main_v151 main_v152 (broadcastInDim S1x1x1 ![2] bcast_S1_S1x1x1_2 : (⟨S1, .f32⟩ : BufTy).Contents (Elt F) → (⟨S1x1x1, .f32⟩ : BufTy).Contents (Elt F)),
    unary main_v152 main_v153 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v149 main_v153 main_v154 (addf : (⟨S1024x48x1, .f32⟩ : BufTy).Contents (Elt F) → (⟨S1024x48x1, .f32⟩ : BufTy).Contents (Elt F) → (⟨S1024x48x1, .f32⟩ : BufTy).Contents (Elt F)),
    reshape main_v154 main_v155 rfl shapeCasts_S1024x48x1_S1024x48,
    TRef.ternary (TRef.of (T := ⟨S1024x48, .i1⟩) main_v119) (TRef.of (T := ⟨S1024x48, .f32⟩) main_v155) (TRef.of (T := ⟨S1024x48, .f32⟩) main_v117) (TRef.of (T := ⟨S1024x48, .f32⟩) main_v156) select ]

theorem ops3_sub : (ops3 : List (HloOp τ sig (Elt F))).Forall fun op => op.bufs ⊆ tcRefs τ sig :=
  by unfold ops3; exact ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops3_fresh : ∀ op ∈ (ops3 : List (HloOp τ sig (Elt F))), op.fresh = ∅ := by
  intro _ h; unfold ops3 at h; (repeat (cases h with | head => rfl | tail _ h => ?_)); exact nomatch h

/-- What they leave in the energy buffer. -/
theorem energy3 (W : Valuation τ sig (Elt Ideal)) :
    after (ops3 (F := Ideal)) W (Proc.devRef .tc main_v156)
      = pickH 3#32 (W (Proc.devRef .tc main_arg0))
        (expertH (W (Proc.devRef .tc main_arg1))
          (extractStridedSlice S1x256x384 ![3, 0, 0] (W (Proc.devRef .tc main_arg2)) slices_S7x256x384_S1x256x384_3_0_0)
          (extractStridedSlice S1x256 ![3, 0] (W (Proc.devRef .tc main_arg3)) slices_S7x256_S1x256_3_0)
          (extractStridedSlice S1x192x256 ![3, 0, 0] (W (Proc.devRef .tc main_arg4)) slices_S7x192x256_S1x192x256_3_0_0)
          (extractStridedSlice S1x192 ![3, 0] (W (Proc.devRef .tc main_arg5)) slices_S7x192_S1x192_3_0)
          (extractStridedSlice S1x160x192 ![3, 0, 0] (W (Proc.devRef .tc main_arg6)) slices_S7x160x192_S1x160x192_3_0_0)
          (extractStridedSlice S1x160 ![3, 0] (W (Proc.devRef .tc main_arg7)) slices_S7x160_S1x160_3_0)
          (extractStridedSlice S1x1x160 ![3, 0, 0] (W (Proc.devRef .tc main_arg8)) slices_S7x1x160_S1x1x160_3_0_0)
          (extractStridedSlice S1x1 ![3, 0] (W (Proc.devRef .tc main_arg9)) slices_S7x1_S1x1_3_0))
        (W (Proc.devRef .tc main_v117)) := by
  unfold ops3
  after_results_simp
  rfl

theorem kept3_0 (W : Valuation τ sig (Elt Ideal)) :
    after (ops3 (F := Ideal)) W (Proc.devRef .tc main_arg0) = W (Proc.devRef .tc main_arg0) := by
  unfold ops3
  after_results_simp

theorem kept3_1 (W : Valuation τ sig (Elt Ideal)) :
    after (ops3 (F := Ideal)) W (Proc.devRef .tc main_arg1) = W (Proc.devRef .tc main_arg1) := by
  unfold ops3
  after_results_simp

theorem kept3_2 (W : Valuation τ sig (Elt Ideal)) :
    after (ops3 (F := Ideal)) W (Proc.devRef .tc main_arg2) = W (Proc.devRef .tc main_arg2) := by
  unfold ops3
  after_results_simp

theorem kept3_3 (W : Valuation τ sig (Elt Ideal)) :
    after (ops3 (F := Ideal)) W (Proc.devRef .tc main_arg3) = W (Proc.devRef .tc main_arg3) := by
  unfold ops3
  after_results_simp

theorem kept3_4 (W : Valuation τ sig (Elt Ideal)) :
    after (ops3 (F := Ideal)) W (Proc.devRef .tc main_arg4) = W (Proc.devRef .tc main_arg4) := by
  unfold ops3
  after_results_simp

theorem kept3_5 (W : Valuation τ sig (Elt Ideal)) :
    after (ops3 (F := Ideal)) W (Proc.devRef .tc main_arg5) = W (Proc.devRef .tc main_arg5) := by
  unfold ops3
  after_results_simp

theorem kept3_6 (W : Valuation τ sig (Elt Ideal)) :
    after (ops3 (F := Ideal)) W (Proc.devRef .tc main_arg6) = W (Proc.devRef .tc main_arg6) := by
  unfold ops3
  after_results_simp

theorem kept3_7 (W : Valuation τ sig (Elt Ideal)) :
    after (ops3 (F := Ideal)) W (Proc.devRef .tc main_arg7) = W (Proc.devRef .tc main_arg7) := by
  unfold ops3
  after_results_simp

theorem kept3_8 (W : Valuation τ sig (Elt Ideal)) :
    after (ops3 (F := Ideal)) W (Proc.devRef .tc main_arg8) = W (Proc.devRef .tc main_arg8) := by
  unfold ops3
  after_results_simp

theorem kept3_9 (W : Valuation τ sig (Elt Ideal)) :
    after (ops3 (F := Ideal)) W (Proc.devRef .tc main_arg9) = W (Proc.devRef .tc main_arg9) := by
  unfold ops3
  after_results_simp

end Cert.ReferenceIdeal.Hand

end
-- ==== Proof.RefSpecies4.lean ====
/-
  The reference's operations for species 4, run from any contents `W` of the buffers: they leave, in the energy
  buffer they write, `pick 4` of this species' network on the feature array (its weights the slabs 4 of the stacked
  weight arrays) and of the energy buffer of the species before, and they do not touch the argument arrays.
  (species 4's 82 operations of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops4 : List (HloOp τ sig (Elt F)) :=
  [ nullary main_c_15 (constantI S_ 32 4#32),
    unary main_c_15 main_v157 (broadcastInDim S1024x48 ![] bcast_S_S1024x48 : (⟨S_, .i32⟩ : BufTy).Contents (Elt F) → (⟨S1024x48, .i32⟩ : BufTy).Contents (Elt F)),
    binary main_arg0 main_v157 main_v158 (cmpi .eq : (⟨S1024x48, .i32⟩ : BufTy).Contents (Elt F) → (⟨S1024x48, .i32⟩ : BufTy).Contents (Elt F) → (⟨S1024x48, .i1⟩ : BufTy).Contents (Elt F)),
    unary main_arg2 main_v159 ((extractStridedSlice S1x256x384 ![4, 0, 0] · slices_S7x256x384_S1x256x384_4_0_0) : (⟨S7x256x384, .f32⟩ : BufTy).Contents (Elt F) → (⟨S1x256x384, .f32⟩ : BufTy).Contents (Elt F)),
    reshape main_v159 main_v160 rfl shapeCasts_S1x256x384_S256x384,
    binary main_arg1 main_v160 main_v161 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v162 ((extractStridedSlice S1x256 ![4, 0] · slices_S7x256_S1x256_4_0) : (⟨S7x256, .f32⟩ : BufTy).Contents (Elt F) → (⟨S1x256, .f32⟩ : BufTy).Contents (Elt F)),
    reshape main_v162 main_v163 rfl shapeCasts_S1x256_S256,
    unary main_v163 main_v164 (broadcastInDim S1x1x256 ![2] bcast_S256_S1x1x256_2 : (⟨S256, .f32⟩ : BufTy).Contents (Elt F) → (⟨S1x1x256, .f32⟩ : BufTy).Contents (Elt F)),
    unary main_v164 main_v165 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v161 main_v165 main_v166 (addf : (⟨S1024x48x256, .f32⟩ : BufTy).Contents (Elt F) → (⟨S1024x48x256, .f32⟩ : BufTy).Contents (Elt F) → (⟨S1024x48x256, .f32⟩ : BufTy).Contents (Elt F)),
    nullary main_cst_16 (constant S_ .f32 0x3DCCCCCD#32),
    TRef.nullary (TRef.of (T := ⟨S_, .f32⟩) main_call16_cst) (constant S_ .f32 0x00000000#32),
    TRef.unary (TRef.of (T := ⟨S_, .f32⟩) main_call16_cst) (TRef.of (T := ⟨S1024x48x256, .f32⟩) main_call16_v0) (broadcastInDim S1024x48x256 ![] bcast_S_S1024x48x256),
    TRef.binary (TRef.of (T := ⟨S1024x48x256, .f32⟩) main_v166) (TRef.of (T := ⟨S1024x48x256, .f32⟩) main_call16_v0) (TRef.of (T := ⟨S1024x48x256, .f32⟩) main_call16_v1) maximumf,
    TRef.nullary (TRef.of (T := ⟨S_, .f32⟩) main_call16_cst_0) (constant S_ .f32 0x00000000#32),
    TRef.unary (TRef.of (T := ⟨S_, .f32⟩) main_call16_cst_0) (TRef.of (T := ⟨S1024x48x256, .f32⟩) main_call16_v2) (broadcastInDim S1024x48x256 ![] bcast_S_S1024x48x256),
    TRef.binary (TRef.of (T := ⟨S1024x48x256, .f32⟩) main_v166) (TRef.of (T := ⟨S1024x48x256, .f32⟩) main_call16_v2) (TRef.of (T := ⟨S1024x48x256, .f32⟩) main_call16_v3) minimumf,
    TRef.unary (TRef.of (T := ⟨S_, .f32⟩) main_cst_16) (TRef.of (T := ⟨S_, .f32⟩) main_call16_v4) id,
    TRef.unary (TRef.of (T := ⟨S_, .f32⟩) main_call16_v4) (TRef.of (T := ⟨S1024x48x256, .f32⟩) main_call16_v5) (broadcastInDim S1024x48x256 ![] bcast_S_S1024x48x256),
    TRef.binary (TRef.of (T := ⟨S1024x48x256, .f32⟩) main_call16_v3) (TRef.of (T := ⟨S1024x48x256, .f32⟩) main_call16_v5) (TRef.of (T := ⟨S1024x48x256, .f32⟩) main_call16_v6) Host.divf,
    TRef.unary (TRef.of (T := ⟨S1024x48x256, .f32⟩) main_call16_v6) (TRef.of (T := ⟨S1024x48x256, .f32⟩) main_call16_v7) Host.expm1,
    TRef.unary (TRef.of (T := ⟨S_, .f32⟩) main_cst_16) (TRef.of (T := ⟨S_, .f32⟩) main_call16_v8) id,
    TRef.unary (TRef.of (T := ⟨S_, .f32⟩) main_call16_v8) (TRef.of (T := ⟨S1024x48x256, .f32⟩) main_call16_v9) (broadcastInDim S1024x48x256 ![] bcast_S_S1024x48x256),
    TRef.binary (TRef.of (T := ⟨S1024x48x256, .f32⟩) main_call16_v9) (TRef.of (T := ⟨S1024x48x256, .f32⟩) main_call16_v7) (TRef.of (T := ⟨S1024x48x256, .f32⟩) main_call16_v10) mulf,
    TRef.binary (TRef.of (T := ⟨S1024x48x256, .f32⟩) main_call16_v1) (TRef.of (T := ⟨S1024x48x256, .f32⟩) main_call16_v10) (TRef.of (T := ⟨S1024x48x256, .f32⟩) main_v167) addf,
    unary main_arg4 main_v168 ((extractStridedSlice S1x192x256 ![4, 0, 0] · slices_S7x192x256_S1x192x256_4_0_0) : (⟨S7x192x256, .f32⟩ : BufTy).Contents (Elt F) → (⟨S1x192x256, .f32⟩ : BufTy).Contents (Elt F)),
    reshape main_v168 main_v169 rfl shapeCasts_S1x192x256_S192x256,
    binary main_v167 main_v169 main_v170 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v171 ((extractStridedSlice S1x192 ![4, 0] · slices_S7x192_S1x192_4_0) : (⟨S7x192, .f32⟩ : BufTy).Contents (Elt F) → (⟨S1x192, .f32⟩ : BufTy).Contents (Elt F)),
    reshape main_v171 main_v172 rfl shapeCasts_S1x192_S192,
    unary main_v172 main_v173 (broadcastInDim S1x1x192 ![2] bcast_S192_S1x1x192_2 : (⟨S192, .f32⟩ : BufTy).Contents (Elt F) → (⟨S1x1x192, .f32⟩ : BufTy).Contents (Elt F)),
    unary main_v173 main_v174 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v170 main_v174 main_v175 (addf : (⟨S1024x48x192, .f32⟩ : BufTy).Contents (Elt F) → (⟨S1024x48x192, .f32⟩ : BufTy).Contents (Elt F) → (⟨S1024x48x192, .f32⟩ : BufTy).Contents (Elt F)),
    nullary main_cst_17 (constant S_ .f32 0x3DCCCCCD#32),
    TRef.nullary (TRef.of (T := ⟨S_, .f32⟩) main_call17_cst) (constant S_ .f32 0x00000000#32),
    TRef.unary (TRef.of (T := ⟨S_, .f32⟩) main_call17_cst) (TRef.of (T := ⟨S1024x48x192, .f32⟩) main_call17_v0) (broadcastInDim S1024x48x192 ![] bcast_S_S1024x48x192),
    TRef.binary (TRef.of (T := ⟨S1024x48x192, .f32⟩) main_v175) (TRef.of (T := ⟨S1024x48x192, .f32⟩) main_call17_v0) (TRef.of (T := ⟨S1024x48x192, .f32⟩) main_call17_v1) maximumf,
    TRef.nullary (TRef.of (T := ⟨S_, .f32⟩) main_call17_cst_0) (constant S_ .f32 0x00000000#32),
    TRef.unary (TRef.of (T := ⟨S_, .f32⟩) main_call17_cst_0) (TRef.of (T := ⟨S1024x48x192, .f32⟩) main_call17_v2) (broadcastInDim S1024x48x192 ![] bcast_S_S1024x48x192),
    TRef.binary (TRef.of (T := ⟨S1024x48x192, .f32⟩) main_v175) (TRef.of (T := ⟨S1024x48x192, .f32⟩) main_call17_v2) (TRef.of (T := ⟨S1024x48x192, .f32⟩) main_call17_v3) minimumf,
    TRef.unary (TRef.of (T := ⟨S_, .f32⟩) main_cst_17) (TRef.of (T := ⟨S_, .f32⟩) main_call17_v4) id,
    TRef.unary (TRef.of (T := ⟨S_, .f32⟩) main_call17_v4) (TRef.of (T := ⟨S1024x48x192, .f32⟩) main_call17_v5) (broadcastInDim S1024x48x192 ![] bcast_S_S1024x48x192),
    TRef.binary (TRef.of (T := ⟨S1024x48x192, .f32⟩) main_call17_v3) (TRef.of (T := ⟨S1024x48x192, .f32⟩) main_call17_v5) (TRef.of (T := ⟨S1024x48x192, .f32⟩) main_call17_v6) Host.divf,
    TRef.unary (TRef.of (T := ⟨S1024x48x192, .f32⟩) main_call17_v6) (TRef.of (T := ⟨S1024x48x192, .f32⟩) main_call17_v7) Host.expm1,
    TRef.unary (TRef.of (T := ⟨S_, .f32⟩) main_cst_17) (TRef.of (T := ⟨S_, .f32⟩) main_call17_v8) id,
    TRef.unary (TRef.of (T := ⟨S_, .f32⟩) main_call17_v8) (TRef.of (T := ⟨S1024x48x192, .f32⟩) main_call17_v9) (broadcastInDim S1024x48x192 ![] bcast_S_S1024x48x192),
    TRef.binary (TRef.of (T := ⟨S1024x48x192, .f32⟩) main_call17_v9) (TRef.of (T := ⟨S1024x48x192, .f32⟩) main_call17_v7) (TRef.of (T := ⟨S1024x48x192, .f32⟩) main_call17_v10) mulf,
    TRef.binary (TRef.of (T := ⟨S1024x48x192, .f32⟩) main_call17_v1) (TRef.of (T := ⟨S1024x48x192, .f32⟩) main_call17_v10) (TRef.of (T := ⟨S1024x48x192, .f32⟩) main_v176) addf,
    unary main_arg6 main_v177 ((extractStridedSlice S1x160x192 ![4, 0, 0] · slices_S7x160x192_S1x160x192_4_0_0) : (⟨S7x160x192, .f32⟩ : BufTy).Contents (Elt F) → (⟨S1x160x192, .f32⟩ : BufTy).Contents (Elt F)),
    reshape main_v177 main_v178 rfl shapeCasts_S1x160x192_S160x192,
    binary main_v176 main_v178 main_v179 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v180 ((extractStridedSlice S1x160 ![4, 0] · slices_S7x160_S1x160_4_0) : (⟨S7x160, .f32⟩ : BufTy).Contents (Elt F) → (⟨S1x160, .f32⟩ : BufTy).Contents (Elt F)),
    reshape main_v180 main_v181 rfl shapeCasts_S1x160_S160,
    unary main_v181 main_v182 (broadcastInDim S1x1x160 ![2] bcast_S160_S1x1x160_2 : (⟨S160, .f32⟩ : BufTy).Contents (Elt F) → (⟨S1x1x160, .f32⟩ : BufTy).Contents (Elt F)),
    unary main_v182 main_v183 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v179 main_v183 main_v184 (addf : (⟨S1024x48x160, .f32⟩ : BufTy).Contents (Elt F) → (⟨S1024x48x160, .f32⟩ : BufTy).Contents (Elt F) → (⟨S1024x48x160, .f32⟩ : BufTy).Contents (Elt F)),
    nullary main_cst_18 (constant S_ .f32 0x3DCCCCCD#32),
    TRef.nullary (TRef.of (T := ⟨S_, .f32⟩) main_call18_cst) (constant S_ .f32 0x00000000#32),
    TRef.unary (TRef.of (T := ⟨S_, .f32⟩) main_call18_cst) (TRef.of (T := ⟨S1024x48x160, .f32⟩) main_call18_v0) (broadcastInDim S1024x48x160 ![] bcast_S_S1024x48x160),
    TRef.binary (TRef.of (T := ⟨S1024x48x160, .f32⟩) main_v184) (TRef.of (T := ⟨S1024x48x160, .f32⟩) main_call18_v0) (TRef.of (T := ⟨S1024x48x160, .f32⟩) main_call18_v1) maximumf,
    TRef.nullary (TRef.of (T := ⟨S_, .f32⟩) main_call18_cst_0) (constant S_ .f32 0x00000000#32),
    TRef.unary (TRef.of (T := ⟨S_, .f32⟩) main_call18_cst_0) (TRef.of (T := ⟨S1024x48x160, .f32⟩) main_call18_v2) (broadcastInDim S1024x48x160 ![] bcast_S_S1024x48x160),
    TRef.binary (TRef.of (T := ⟨S1024x48x160, .f32⟩) main_v184) (TRef.of (T := ⟨S1024x48x160, .f32⟩) main_call18_v2) (TRef.of (T := ⟨S1024x48x160, .f32⟩) main_call18_v3) minimumf,
    TRef.unary (TRef.of (T := ⟨S_, .f32⟩) main_cst_18) (TRef.of (T := ⟨S_, .f32⟩) main_call18_v4) id,
    TRef.unary (TRef.of (T := ⟨S_, .f32⟩) main_call18_v4) (TRef.of (T := ⟨S1024x48x160, .f32⟩) main_call18_v5) (broadcastInDim S1024x48x160 ![] bcast_S_S1024x48x160),
    TRef.binary (TRef.of (T := ⟨S1024x48x160, .f32⟩) main_call18_v3) (TRef.of (T := ⟨S1024x48x160, .f32⟩) main_call18_v5) (TRef.of (T := ⟨S1024x48x160, .f32⟩) main_call18_v6) Host.divf,
    TRef.unary (TRef.of (T := ⟨S1024x48x160, .f32⟩) main_call18_v6) (TRef.of (T := ⟨S1024x48x160, .f32⟩) main_call18_v7) Host.expm1,
    TRef.unary (TRef.of (T := ⟨S_, .f32⟩) main_cst_18) (TRef.of (T := ⟨S_, .f32⟩) main_call18_v8) id,
    TRef.unary (TRef.of (T := ⟨S_, .f32⟩) main_call18_v8) (TRef.of (T := ⟨S1024x48x160, .f32⟩) main_call18_v9) (broadcastInDim S1024x48x160 ![] bcast_S_S1024x48x160),
    TRef.binary (TRef.of (T := ⟨S1024x48x160, .f32⟩) main_call18_v9) (TRef.of (T := ⟨S1024x48x160, .f32⟩) main_call18_v7) (TRef.of (T := ⟨S1024x48x160, .f32⟩) main_call18_v10) mulf,
    TRef.binary (TRef.of (T := ⟨S1024x48x160, .f32⟩) main_call18_v1) (TRef.of (T := ⟨S1024x48x160, .f32⟩) main_call18_v10) (TRef.of (T := ⟨S1024x48x160, .f32⟩) main_v185) addf,
    unary main_arg8 main_v186 ((extractStridedSlice S1x1x160 ![4, 0, 0] · slices_S7x1x160_S1x1x160_4_0_0) : (⟨S7x1x160, .f32⟩ : BufTy).Contents (Elt F) → (⟨S1x1x160, .f32⟩ : BufTy).Contents (Elt F)),
    reshape main_v186 main_v187 rfl shapeCasts_S1x1x160_S1x160,
    binary main_v185 main_v187 main_v188 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v189 ((extractStridedSlice S1x1 ![4, 0] · slices_S7x1_S1x1_4_0) : (⟨S7x1, .f32⟩ : BufTy).Contents (Elt F) → (⟨S1x1, .f32⟩ : BufTy).Contents (Elt F)),
    reshape main_v189 main_v190 rfl shapeCasts_S1x1_S1,
    unary main_v190 main_v191 (broadcastInDim S1x1x1 ![2] bcast_S1_S1x1x1_2 : (⟨S1, .f32⟩ : BufTy).Contents (Elt F) → (⟨S1x1x1, .f32⟩ : BufTy).Contents (Elt F)),
    unary main_v191 main_v192 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v188 main_v192 main_v193 (addf : (⟨S1024x48x1, .f32⟩ : BufTy).Contents (Elt F) → (⟨S1024x48x1, .f32⟩ : BufTy).Contents (Elt F) → (⟨S1024x48x1, .f32⟩ : BufTy).Contents (Elt F)),
    reshape main_v193 main_v194 rfl shapeCasts_S1024x48x1_S1024x48,
    TRef.ternary (TRef.of (T := ⟨S1024x48, .i1⟩) main_v158) (TRef.of (T := ⟨S1024x48, .f32⟩) main_v194) (TRef.of (T := ⟨S1024x48, .f32⟩) main_v156) (TRef.of (T := ⟨S1024x48, .f32⟩) main_v195) select ]

theorem ops4_sub : (ops4 : List (HloOp τ sig (Elt F))).Forall fun op => op.bufs ⊆ tcRefs τ sig :=
  by unfold ops4; exact ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops4_fresh : ∀ op ∈ (ops4 : List (HloOp τ sig (Elt F))), op.fresh = ∅ := by
  intro _ h; unfold ops4 at h; (repeat (cases h with | head => rfl | tail _ h => ?_)); exact nomatch h

/-- What they leave in the energy buffer. -/
theorem energy4 (W : Valuation τ sig (Elt Ideal)) :
    after (ops4 (F := Ideal)) W (Proc.devRef .tc main_v195)
      = pickH 4#32 (W (Proc.devRef .tc main_arg0))
        (expertH (W (Proc.devRef .tc main_arg1))
          (extractStridedSlice S1x256x384 ![4, 0, 0] (W (Proc.devRef .tc main_arg2)) slices_S7x256x384_S1x256x384_4_0_0)
          (extractStridedSlice S1x256 ![4, 0] (W (Proc.devRef .tc main_arg3)) slices_S7x256_S1x256_4_0)
          (extractStridedSlice S1x192x256 ![4, 0, 0] (W (Proc.devRef .tc main_arg4)) slices_S7x192x256_S1x192x256_4_0_0)
          (extractStridedSlice S1x192 ![4, 0] (W (Proc.devRef .tc main_arg5)) slices_S7x192_S1x192_4_0)
          (extractStridedSlice S1x160x192 ![4, 0, 0] (W (Proc.devRef .tc main_arg6)) slices_S7x160x192_S1x160x192_4_0_0)
          (extractStridedSlice S1x160 ![4, 0] (W (Proc.devRef .tc main_arg7)) slices_S7x160_S1x160_4_0)
          (extractStridedSlice S1x1x160 ![4, 0, 0] (W (Proc.devRef .tc main_arg8)) slices_S7x1x160_S1x1x160_4_0_0)
          (extractStridedSlice S1x1 ![4, 0] (W (Proc.devRef .tc main_arg9)) slices_S7x1_S1x1_4_0))
        (W (Proc.devRef .tc main_v156)) := by
  unfold ops4
  after_results_simp
  rfl

theorem kept4_0 (W : Valuation τ sig (Elt Ideal)) :
    after (ops4 (F := Ideal)) W (Proc.devRef .tc main_arg0) = W (Proc.devRef .tc main_arg0) := by
  unfold ops4
  after_results_simp

theorem kept4_1 (W : Valuation τ sig (Elt Ideal)) :
    after (ops4 (F := Ideal)) W (Proc.devRef .tc main_arg1) = W (Proc.devRef .tc main_arg1) := by
  unfold ops4
  after_results_simp

theorem kept4_2 (W : Valuation τ sig (Elt Ideal)) :
    after (ops4 (F := Ideal)) W (Proc.devRef .tc main_arg2) = W (Proc.devRef .tc main_arg2) := by
  unfold ops4
  after_results_simp

theorem kept4_3 (W : Valuation τ sig (Elt Ideal)) :
    after (ops4 (F := Ideal)) W (Proc.devRef .tc main_arg3) = W (Proc.devRef .tc main_arg3) := by
  unfold ops4
  after_results_simp

theorem kept4_4 (W : Valuation τ sig (Elt Ideal)) :
    after (ops4 (F := Ideal)) W (Proc.devRef .tc main_arg4) = W (Proc.devRef .tc main_arg4) := by
  unfold ops4
  after_results_simp

theorem kept4_5 (W : Valuation τ sig (Elt Ideal)) :
    after (ops4 (F := Ideal)) W (Proc.devRef .tc main_arg5) = W (Proc.devRef .tc main_arg5) := by
  unfold ops4
  after_results_simp

theorem kept4_6 (W : Valuation τ sig (Elt Ideal)) :
    after (ops4 (F := Ideal)) W (Proc.devRef .tc main_arg6) = W (Proc.devRef .tc main_arg6) := by
  unfold ops4
  after_results_simp

theorem kept4_7 (W : Valuation τ sig (Elt Ideal)) :
    after (ops4 (F := Ideal)) W (Proc.devRef .tc main_arg7) = W (Proc.devRef .tc main_arg7) := by
  unfold ops4
  after_results_simp

theorem kept4_8 (W : Valuation τ sig (Elt Ideal)) :
    after (ops4 (F := Ideal)) W (Proc.devRef .tc main_arg8) = W (Proc.devRef .tc main_arg8) := by
  unfold ops4
  after_results_simp

theorem kept4_9 (W : Valuation τ sig (Elt Ideal)) :
    after (ops4 (F := Ideal)) W (Proc.devRef .tc main_arg9) = W (Proc.devRef .tc main_arg9) := by
  unfold ops4
  after_results_simp

end Cert.ReferenceIdeal.Hand

end
-- ==== Proof.RefSpecies5.lean ====
/-
  The reference's operations for species 5, run from any contents `W` of the buffers: they leave, in the energy
  buffer they write, `pick 5` of this species' network on the feature array (its weights the slabs 5 of the stacked
  weight arrays) and of the energy buffer of the species before, and they do not touch the argument arrays.
  (species 5's 82 operations of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops5 : List (HloOp τ sig (Elt F)) :=
  [ nullary main_c_19 (constantI S_ 32 5#32),
    unary main_c_19 main_v196 (broadcastInDim S1024x48 ![] bcast_S_S1024x48 : (⟨S_, .i32⟩ : BufTy).Contents (Elt F) → (⟨S1024x48, .i32⟩ : BufTy).Contents (Elt F)),
    binary main_arg0 main_v196 main_v197 (cmpi .eq : (⟨S1024x48, .i32⟩ : BufTy).Contents (Elt F) → (⟨S1024x48, .i32⟩ : BufTy).Contents (Elt F) → (⟨S1024x48, .i1⟩ : BufTy).Contents (Elt F)),
    unary main_arg2 main_v198 ((extractStridedSlice S1x256x384 ![5, 0, 0] · slices_S7x256x384_S1x256x384_5_0_0) : (⟨S7x256x384, .f32⟩ : BufTy).Contents (Elt F) → (⟨S1x256x384, .f32⟩ : BufTy).Contents (Elt F)),
    reshape main_v198 main_v199 rfl shapeCasts_S1x256x384_S256x384,
    binary main_arg1 main_v199 main_v200 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v201 ((extractStridedSlice S1x256 ![5, 0] · slices_S7x256_S1x256_5_0) : (⟨S7x256, .f32⟩ : BufTy).Contents (Elt F) → (⟨S1x256, .f32⟩ : BufTy).Contents (Elt F)),
    reshape main_v201 main_v202 rfl shapeCasts_S1x256_S256,
    unary main_v202 main_v203 (broadcastInDim S1x1x256 ![2] bcast_S256_S1x1x256_2 : (⟨S256, .f32⟩ : BufTy).Contents (Elt F) → (⟨S1x1x256, .f32⟩ : BufTy).Contents (Elt F)),
    unary main_v203 main_v204 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v200 main_v204 main_v205 (addf : (⟨S1024x48x256, .f32⟩ : BufTy).Contents (Elt F) → (⟨S1024x48x256, .f32⟩ : BufTy).Contents (Elt F) → (⟨S1024x48x256, .f32⟩ : BufTy).Contents (Elt F)),
    nullary main_cst_20 (constant S_ .f32 0x3DCCCCCD#32),
    TRef.nullary (TRef.of (T := ⟨S_, .f32⟩) main_call20_cst) (constant S_ .f32 0x00000000#32),
    TRef.unary (TRef.of (T := ⟨S_, .f32⟩) main_call20_cst) (TRef.of (T := ⟨S1024x48x256, .f32⟩) main_call20_v0) (broadcastInDim S1024x48x256 ![] bcast_S_S1024x48x256),
    TRef.binary (TRef.of (T := ⟨S1024x48x256, .f32⟩) main_v205) (TRef.of (T := ⟨S1024x48x256, .f32⟩) main_call20_v0) (TRef.of (T := ⟨S1024x48x256, .f32⟩) main_call20_v1) maximumf,
    TRef.nullary (TRef.of (T := ⟨S_, .f32⟩) main_call20_cst_0) (constant S_ .f32 0x00000000#32),
    TRef.unary (TRef.of (T := ⟨S_, .f32⟩) main_call20_cst_0) (TRef.of (T := ⟨S1024x48x256, .f32⟩) main_call20_v2) (broadcastInDim S1024x48x256 ![] bcast_S_S1024x48x256),
    TRef.binary (TRef.of (T := ⟨S1024x48x256, .f32⟩) main_v205) (TRef.of (T := ⟨S1024x48x256, .f32⟩) main_call20_v2) (TRef.of (T := ⟨S1024x48x256, .f32⟩) main_call20_v3) minimumf,
    TRef.unary (TRef.of (T := ⟨S_, .f32⟩) main_cst_20) (TRef.of (T := ⟨S_, .f32⟩) main_call20_v4) id,
    TRef.unary (TRef.of (T := ⟨S_, .f32⟩) main_call20_v4) (TRef.of (T := ⟨S1024x48x256, .f32⟩) main_call20_v5) (broadcastInDim S1024x48x256 ![] bcast_S_S1024x48x256),
    TRef.binary (TRef.of (T := ⟨S1024x48x256, .f32⟩) main_call20_v3) (TRef.of (T := ⟨S1024x48x256, .f32⟩) main_call20_v5) (TRef.of (T := ⟨S1024x48x256, .f32⟩) main_call20_v6) Host.divf,
    TRef.unary (TRef.of (T := ⟨S1024x48x256, .f32⟩) main_call20_v6) (TRef.of (T := ⟨S1024x48x256, .f32⟩) main_call20_v7) Host.expm1,
    TRef.unary (TRef.of (T := ⟨S_, .f32⟩) main_cst_20) (TRef.of (T := ⟨S_, .f32⟩) main_call20_v8) id,
    TRef.unary (TRef.of (T := ⟨S_, .f32⟩) main_call20_v8) (TRef.of (T := ⟨S1024x48x256, .f32⟩) main_call20_v9) (broadcastInDim S1024x48x256 ![] bcast_S_S1024x48x256),
    TRef.binary (TRef.of (T := ⟨S1024x48x256, .f32⟩) main_call20_v9) (TRef.of (T := ⟨S1024x48x256, .f32⟩) main_call20_v7) (TRef.of (T := ⟨S1024x48x256, .f32⟩) main_call20_v10) mulf,
    TRef.binary (TRef.of (T := ⟨S1024x48x256, .f32⟩) main_call20_v1) (TRef.of (T := ⟨S1024x48x256, .f32⟩) main_call20_v10) (TRef.of (T := ⟨S1024x48x256, .f32⟩) main_v206) addf,
    unary main_arg4 main_v207 ((extractStridedSlice S1x192x256 ![5, 0, 0] · slices_S7x192x256_S1x192x256_5_0_0) : (⟨S7x192x256, .f32⟩ : BufTy).Contents (Elt F) → (⟨S1x192x256, .f32⟩ : BufTy).Contents (Elt F)),
    reshape main_v207 main_v208 rfl shapeCasts_S1x192x256_S192x256,
    binary main_v206 main_v208 main_v209 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v210 ((extractStridedSlice S1x192 ![5, 0] · slices_S7x192_S1x192_5_0) : (⟨S7x192, .f32⟩ : BufTy).Contents (Elt F) → (⟨S1x192, .f32⟩ : BufTy).Contents (Elt F)),
    reshape main_v210 main_v211 rfl shapeCasts_S1x192_S192,
    unary main_v211 main_v212 (broadcastInDim S1x1x192 ![2] bcast_S192_S1x1x192_2 : (⟨S192, .f32⟩ : BufTy).Contents (Elt F) → (⟨S1x1x192, .f32⟩ : BufTy).Contents (Elt F)),
    unary main_v212 main_v213 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v209 main_v213 main_v214 (addf : (⟨S1024x48x192, .f32⟩ : BufTy).Contents (Elt F) → (⟨S1024x48x192, .f32⟩ : BufTy).Contents (Elt F) → (⟨S1024x48x192, .f32⟩ : BufTy).Contents (Elt F)),
    nullary main_cst_21 (constant S_ .f32 0x3DCCCCCD#32),
    TRef.nullary (TRef.of (T := ⟨S_, .f32⟩) main_call21_cst) (constant S_ .f32 0x00000000#32),
    TRef.unary (TRef.of (T := ⟨S_, .f32⟩) main_call21_cst) (TRef.of (T := ⟨S1024x48x192, .f32⟩) main_call21_v0) (broadcastInDim S1024x48x192 ![] bcast_S_S1024x48x192),
    TRef.binary (TRef.of (T := ⟨S1024x48x192, .f32⟩) main_v214) (TRef.of (T := ⟨S1024x48x192, .f32⟩) main_call21_v0) (TRef.of (T := ⟨S1024x48x192, .f32⟩) main_call21_v1) maximumf,
    TRef.nullary (TRef.of (T := ⟨S_, .f32⟩) main_call21_cst_0) (constant S_ .f32 0x00000000#32),
    TRef.unary (TRef.of (T := ⟨S_, .f32⟩) main_call21_cst_0) (TRef.of (T := ⟨S1024x48x192, .f32⟩) main_call21_v2) (broadcastInDim S1024x48x192 ![] bcast_S_S1024x48x192),
    TRef.binary (TRef.of (T := ⟨S1024x48x192, .f32⟩) main_v214) (TRef.of (T := ⟨S1024x48x192, .f32⟩) main_call21_v2) (TRef.of (T := ⟨S1024x48x192, .f32⟩) main_call21_v3) minimumf,
    TRef.unary (TRef.of (T := ⟨S_, .f32⟩) main_cst_21) (TRef.of (T := ⟨S_, .f32⟩) main_call21_v4) id,
    TRef.unary (TRef.of (T := ⟨S_, .f32⟩) main_call21_v4) (TRef.of (T := ⟨S1024x48x192, .f32⟩) main_call21_v5) (broadcastInDim S1024x48x192 ![] bcast_S_S1024x48x192),
    TRef.binary (TRef.of (T := ⟨S1024x48x192, .f32⟩) main_call21_v3) (TRef.of (T := ⟨S1024x48x192, .f32⟩) main_call21_v5) (TRef.of (T := ⟨S1024x48x192, .f32⟩) main_call21_v6) Host.divf,
    TRef.unary (TRef.of (T := ⟨S1024x48x192, .f32⟩) main_call21_v6) (TRef.of (T := ⟨S1024x48x192, .f32⟩) main_call21_v7) Host.expm1,
    TRef.unary (TRef.of (T := ⟨S_, .f32⟩) main_cst_21) (TRef.of (T := ⟨S_, .f32⟩) main_call21_v8) id,
    TRef.unary (TRef.of (T := ⟨S_, .f32⟩) main_call21_v8) (TRef.of (T := ⟨S1024x48x192, .f32⟩) main_call21_v9) (broadcastInDim S1024x48x192 ![] bcast_S_S1024x48x192),
    TRef.binary (TRef.of (T := ⟨S1024x48x192, .f32⟩) main_call21_v9) (TRef.of (T := ⟨S1024x48x192, .f32⟩) main_call21_v7) (TRef.of (T := ⟨S1024x48x192, .f32⟩) main_call21_v10) mulf,
    TRef.binary (TRef.of (T := ⟨S1024x48x192, .f32⟩) main_call21_v1) (TRef.of (T := ⟨S1024x48x192, .f32⟩) main_call21_v10) (TRef.of (T := ⟨S1024x48x192, .f32⟩) main_v215) addf,
    unary main_arg6 main_v216 ((extractStridedSlice S1x160x192 ![5, 0, 0] · slices_S7x160x192_S1x160x192_5_0_0) : (⟨S7x160x192, .f32⟩ : BufTy).Contents (Elt F) → (⟨S1x160x192, .f32⟩ : BufTy).Contents (Elt F)),
    reshape main_v216 main_v217 rfl shapeCasts_S1x160x192_S160x192,
    binary main_v215 main_v217 main_v218 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v219 ((extractStridedSlice S1x160 ![5, 0] · slices_S7x160_S1x160_5_0) : (⟨S7x160, .f32⟩ : BufTy).Contents (Elt F) → (⟨S1x160, .f32⟩ : BufTy).Contents (Elt F)),
    reshape main_v219 main_v220 rfl shapeCasts_S1x160_S160,
    unary main_v220 main_v221 (broadcastInDim S1x1x160 ![2] bcast_S160_S1x1x160_2 : (⟨S160, .f32⟩ : BufTy).Contents (Elt F) → (⟨S1x1x160, .f32⟩ : BufTy).Contents (Elt F)),
    unary main_v221 main_v222 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v218 main_v222 main_v223 (addf : (⟨S1024x48x160, .f32⟩ : BufTy).Contents (Elt F) → (⟨S1024x48x160, .f32⟩ : BufTy).Contents (Elt F) → (⟨S1024x48x160, .f32⟩ : BufTy).Contents (Elt F)),
    nullary main_cst_22 (constant S_ .f32 0x3DCCCCCD#32),
    TRef.nullary (TRef.of (T := ⟨S_, .f32⟩) main_call22_cst) (constant S_ .f32 0x00000000#32),
    TRef.unary (TRef.of (T := ⟨S_, .f32⟩) main_call22_cst) (TRef.of (T := ⟨S1024x48x160, .f32⟩) main_call22_v0) (broadcastInDim S1024x48x160 ![] bcast_S_S1024x48x160),
    TRef.binary (TRef.of (T := ⟨S1024x48x160, .f32⟩) main_v223) (TRef.of (T := ⟨S1024x48x160, .f32⟩) main_call22_v0) (TRef.of (T := ⟨S1024x48x160, .f32⟩) main_call22_v1) maximumf,
    TRef.nullary (TRef.of (T := ⟨S_, .f32⟩) main_call22_cst_0) (constant S_ .f32 0x00000000#32),
    TRef.unary (TRef.of (T := ⟨S_, .f32⟩) main_call22_cst_0) (TRef.of (T := ⟨S1024x48x160, .f32⟩) main_call22_v2) (broadcastInDim S1024x48x160 ![] bcast_S_S1024x48x160),
    TRef.binary (TRef.of (T := ⟨S1024x48x160, .f32⟩) main_v223) (TRef.of (T := ⟨S1024x48x160, .f32⟩) main_call22_v2) (TRef.of (T := ⟨S1024x48x160, .f32⟩) main_call22_v3) minimumf,
    TRef.unary (TRef.of (T := ⟨S_, .f32⟩) main_cst_22) (TRef.of (T := ⟨S_, .f32⟩) main_call22_v4) id,
    TRef.unary (TRef.of (T := ⟨S_, .f32⟩) main_call22_v4) (TRef.of (T := ⟨S1024x48x160, .f32⟩) main_call22_v5) (broadcastInDim S1024x48x160 ![] bcast_S_S1024x48x160),
    TRef.binary (TRef.of (T := ⟨S1024x48x160, .f32⟩) main_call22_v3) (TRef.of (T := ⟨S1024x48x160, .f32⟩) main_call22_v5) (TRef.of (T := ⟨S1024x48x160, .f32⟩) main_call22_v6) Host.divf,
    TRef.unary (TRef.of (T := ⟨S1024x48x160, .f32⟩) main_call22_v6) (TRef.of (T := ⟨S1024x48x160, .f32⟩) main_call22_v7) Host.expm1,
    TRef.unary (TRef.of (T := ⟨S_, .f32⟩) main_cst_22) (TRef.of (T := ⟨S_, .f32⟩) main_call22_v8) id,
    TRef.unary (TRef.of (T := ⟨S_, .f32⟩) main_call22_v8) (TRef.of (T := ⟨S1024x48x160, .f32⟩) main_call22_v9) (broadcastInDim S1024x48x160 ![] bcast_S_S1024x48x160),
    TRef.binary (TRef.of (T := ⟨S1024x48x160, .f32⟩) main_call22_v9) (TRef.of (T := ⟨S1024x48x160, .f32⟩) main_call22_v7) (TRef.of (T := ⟨S1024x48x160, .f32⟩) main_call22_v10) mulf,
    TRef.binary (TRef.of (T := ⟨S1024x48x160, .f32⟩) main_call22_v1) (TRef.of (T := ⟨S1024x48x160, .f32⟩) main_call22_v10) (TRef.of (T := ⟨S1024x48x160, .f32⟩) main_v224) addf,
    unary main_arg8 main_v225 ((extractStridedSlice S1x1x160 ![5, 0, 0] · slices_S7x1x160_S1x1x160_5_0_0) : (⟨S7x1x160, .f32⟩ : BufTy).Contents (Elt F) → (⟨S1x1x160, .f32⟩ : BufTy).Contents (Elt F)),
    reshape main_v225 main_v226 rfl shapeCasts_S1x1x160_S1x160,
    binary main_v224 main_v226 main_v227 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v228 ((extractStridedSlice S1x1 ![5, 0] · slices_S7x1_S1x1_5_0) : (⟨S7x1, .f32⟩ : BufTy).Contents (Elt F) → (⟨S1x1, .f32⟩ : BufTy).Contents (Elt F)),
    reshape main_v228 main_v229 rfl shapeCasts_S1x1_S1,
    unary main_v229 main_v230 (broadcastInDim S1x1x1 ![2] bcast_S1_S1x1x1_2 : (⟨S1, .f32⟩ : BufTy).Contents (Elt F) → (⟨S1x1x1, .f32⟩ : BufTy).Contents (Elt F)),
    unary main_v230 main_v231 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v227 main_v231 main_v232 (addf : (⟨S1024x48x1, .f32⟩ : BufTy).Contents (Elt F) → (⟨S1024x48x1, .f32⟩ : BufTy).Contents (Elt F) → (⟨S1024x48x1, .f32⟩ : BufTy).Contents (Elt F)),
    reshape main_v232 main_v233 rfl shapeCasts_S1024x48x1_S1024x48,
    TRef.ternary (TRef.of (T := ⟨S1024x48, .i1⟩) main_v197) (TRef.of (T := ⟨S1024x48, .f32⟩) main_v233) (TRef.of (T := ⟨S1024x48, .f32⟩) main_v195) (TRef.of (T := ⟨S1024x48, .f32⟩) main_v234) select ]

theorem ops5_sub : (ops5 : List (HloOp τ sig (Elt F))).Forall fun op => op.bufs ⊆ tcRefs τ sig :=
  by unfold ops5; exact ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops5_fresh : ∀ op ∈ (ops5 : List (HloOp τ sig (Elt F))), op.fresh = ∅ := by
  intro _ h; unfold ops5 at h; (repeat (cases h with | head => rfl | tail _ h => ?_)); exact nomatch h

/-- What they leave in the energy buffer. -/
theorem energy5 (W : Valuation τ sig (Elt Ideal)) :
    after (ops5 (F := Ideal)) W (Proc.devRef .tc main_v234)
      = pickH 5#32 (W (Proc.devRef .tc main_arg0))
        (expertH (W (Proc.devRef .tc main_arg1))
          (extractStridedSlice S1x256x384 ![5, 0, 0] (W (Proc.devRef .tc main_arg2)) slices_S7x256x384_S1x256x384_5_0_0)
          (extractStridedSlice S1x256 ![5, 0] (W (Proc.devRef .tc main_arg3)) slices_S7x256_S1x256_5_0)
          (extractStridedSlice S1x192x256 ![5, 0, 0] (W (Proc.devRef .tc main_arg4)) slices_S7x192x256_S1x192x256_5_0_0)
          (extractStridedSlice S1x192 ![5, 0] (W (Proc.devRef .tc main_arg5)) slices_S7x192_S1x192_5_0)
          (extractStridedSlice S1x160x192 ![5, 0, 0] (W (Proc.devRef .tc main_arg6)) slices_S7x160x192_S1x160x192_5_0_0)
          (extractStridedSlice S1x160 ![5, 0] (W (Proc.devRef .tc main_arg7)) slices_S7x160_S1x160_5_0)
          (extractStridedSlice S1x1x160 ![5, 0, 0] (W (Proc.devRef .tc main_arg8)) slices_S7x1x160_S1x1x160_5_0_0)
          (extractStridedSlice S1x1 ![5, 0] (W (Proc.devRef .tc main_arg9)) slices_S7x1_S1x1_5_0))
        (W (Proc.devRef .tc main_v195)) := by
  unfold ops5
  after_results_simp
  rfl

theorem kept5_0 (W : Valuation τ sig (Elt Ideal)) :
    after (ops5 (F := Ideal)) W (Proc.devRef .tc main_arg0) = W (Proc.devRef .tc main_arg0) := by
  unfold ops5
  after_results_simp

theorem kept5_1 (W : Valuation τ sig (Elt Ideal)) :
    after (ops5 (F := Ideal)) W (Proc.devRef .tc main_arg1) = W (Proc.devRef .tc main_arg1) := by
  unfold ops5
  after_results_simp

theorem kept5_2 (W : Valuation τ sig (Elt Ideal)) :
    after (ops5 (F := Ideal)) W (Proc.devRef .tc main_arg2) = W (Proc.devRef .tc main_arg2) := by
  unfold ops5
  after_results_simp

theorem kept5_3 (W : Valuation τ sig (Elt Ideal)) :
    after (ops5 (F := Ideal)) W (Proc.devRef .tc main_arg3) = W (Proc.devRef .tc main_arg3) := by
  unfold ops5
  after_results_simp

theorem kept5_4 (W : Valuation τ sig (Elt Ideal)) :
    after (ops5 (F := Ideal)) W (Proc.devRef .tc main_arg4) = W (Proc.devRef .tc main_arg4) := by
  unfold ops5
  after_results_simp

theorem kept5_5 (W : Valuation τ sig (Elt Ideal)) :
    after (ops5 (F := Ideal)) W (Proc.devRef .tc main_arg5) = W (Proc.devRef .tc main_arg5) := by
  unfold ops5
  after_results_simp

theorem kept5_6 (W : Valuation τ sig (Elt Ideal)) :
    after (ops5 (F := Ideal)) W (Proc.devRef .tc main_arg6) = W (Proc.devRef .tc main_arg6) := by
  unfold ops5
  after_results_simp

theorem kept5_7 (W : Valuation τ sig (Elt Ideal)) :
    after (ops5 (F := Ideal)) W (Proc.devRef .tc main_arg7) = W (Proc.devRef .tc main_arg7) := by
  unfold ops5
  after_results_simp

theorem kept5_8 (W : Valuation τ sig (Elt Ideal)) :
    after (ops5 (F := Ideal)) W (Proc.devRef .tc main_arg8) = W (Proc.devRef .tc main_arg8) := by
  unfold ops5
  after_results_simp

theorem kept5_9 (W : Valuation τ sig (Elt Ideal)) :
    after (ops5 (F := Ideal)) W (Proc.devRef .tc main_arg9) = W (Proc.devRef .tc main_arg9) := by
  unfold ops5
  after_results_simp

end Cert.ReferenceIdeal.Hand

end
-- ==== Proof.RefSpecies6.lean ====
/-
  The reference's operations for species 6, run from any contents `W` of the buffers: they leave, in the energy
  buffer they write, `pick 6` of this species' network on the feature array (its weights the slabs 6 of the stacked
  weight arrays) and of the energy buffer of the species before, and they do not touch the argument arrays.
  (species 6's 82 operations of @main, in order, a called function's operations standing in its call's place.)
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def ops6 : List (HloOp τ sig (Elt F)) :=
  [ nullary main_c_23 (constantI S_ 32 6#32),
    unary main_c_23 main_v235 (broadcastInDim S1024x48 ![] bcast_S_S1024x48 : (⟨S_, .i32⟩ : BufTy).Contents (Elt F) → (⟨S1024x48, .i32⟩ : BufTy).Contents (Elt F)),
    binary main_arg0 main_v235 main_v236 (cmpi .eq : (⟨S1024x48, .i32⟩ : BufTy).Contents (Elt F) → (⟨S1024x48, .i32⟩ : BufTy).Contents (Elt F) → (⟨S1024x48, .i1⟩ : BufTy).Contents (Elt F)),
    unary main_arg2 main_v237 ((extractStridedSlice S1x256x384 ![6, 0, 0] · slices_S7x256x384_S1x256x384_6_0_0) : (⟨S7x256x384, .f32⟩ : BufTy).Contents (Elt F) → (⟨S1x256x384, .f32⟩ : BufTy).Contents (Elt F)),
    reshape main_v237 main_v238 rfl shapeCasts_S1x256x384_S256x384,
    binary main_arg1 main_v238 main_v239 ((fun l r => Host.dotGeneral dot_S1024x48x384_S256x384_S1024x48x256_2_1_01_0_n_n none l r) : (⟨S1024x48x384, .f32⟩ : BufTy).Contents (Elt F) → (⟨S256x384, .f32⟩ : BufTy).Contents (Elt F) → (⟨S1024x48x256, .f32⟩ : BufTy).Contents (Elt F)),
    unary main_arg3 main_v240 ((extractStridedSlice S1x256 ![6, 0] · slices_S7x256_S1x256_6_0) : (⟨S7x256, .f32⟩ : BufTy).Contents (Elt F) → (⟨S1x256, .f32⟩ : BufTy).Contents (Elt F)),
    reshape main_v240 main_v241 rfl shapeCasts_S1x256_S256,
    unary main_v241 main_v242 (broadcastInDim S1x1x256 ![2] bcast_S256_S1x1x256_2 : (⟨S256, .f32⟩ : BufTy).Contents (Elt F) → (⟨S1x1x256, .f32⟩ : BufTy).Contents (Elt F)),
    unary main_v242 main_v243 (broadcastInDim S1024x48x256 ![0, 1, 2] bcast_S1x1x256_S1024x48x256_0_1_2 : (⟨S1x1x256, .f32⟩ : BufTy).Contents (Elt F) → (⟨S1024x48x256, .f32⟩ : BufTy).Contents (Elt F)),
    binary main_v239 main_v243 main_v244 (addf : (⟨S1024x48x256, .f32⟩ : BufTy).Contents (Elt F) → (⟨S1024x48x256, .f32⟩ : BufTy).Contents (Elt F) → (⟨S1024x48x256, .f32⟩ : BufTy).Contents (Elt F)),
    nullary main_cst_24 (constant S_ .f32 0x3DCCCCCD#32),
    TRef.nullary (TRef.of (T := ⟨S_, .f32⟩) main_call24_cst) (constant S_ .f32 0x00000000#32),
    TRef.unary (TRef.of (T := ⟨S_, .f32⟩) main_call24_cst) (TRef.of (T := ⟨S1024x48x256, .f32⟩) main_call24_v0) (broadcastInDim S1024x48x256 ![] bcast_S_S1024x48x256),
    TRef.binary (TRef.of (T := ⟨S1024x48x256, .f32⟩) main_v244) (TRef.of (T := ⟨S1024x48x256, .f32⟩) main_call24_v0) (TRef.of (T := ⟨S1024x48x256, .f32⟩) main_call24_v1) maximumf,
    TRef.nullary (TRef.of (T := ⟨S_, .f32⟩) main_call24_cst_0) (constant S_ .f32 0x00000000#32),
    TRef.unary (TRef.of (T := ⟨S_, .f32⟩) main_call24_cst_0) (TRef.of (T := ⟨S1024x48x256, .f32⟩) main_call24_v2) (broadcastInDim S1024x48x256 ![] bcast_S_S1024x48x256),
    TRef.binary (TRef.of (T := ⟨S1024x48x256, .f32⟩) main_v244) (TRef.of (T := ⟨S1024x48x256, .f32⟩) main_call24_v2) (TRef.of (T := ⟨S1024x48x256, .f32⟩) main_call24_v3) minimumf,
    TRef.unary (TRef.of (T := ⟨S_, .f32⟩) main_cst_24) (TRef.of (T := ⟨S_, .f32⟩) main_call24_v4) id,
    TRef.unary (TRef.of (T := ⟨S_, .f32⟩) main_call24_v4) (TRef.of (T := ⟨S1024x48x256, .f32⟩) main_call24_v5) (broadcastInDim S1024x48x256 ![] bcast_S_S1024x48x256),
    TRef.binary (TRef.of (T := ⟨S1024x48x256, .f32⟩) main_call24_v3) (TRef.of (T := ⟨S1024x48x256, .f32⟩) main_call24_v5) (TRef.of (T := ⟨S1024x48x256, .f32⟩) main_call24_v6) Host.divf,
    TRef.unary (TRef.of (T := ⟨S1024x48x256, .f32⟩) main_call24_v6) (TRef.of (T := ⟨S1024x48x256, .f32⟩) main_call24_v7) Host.expm1,
    TRef.unary (TRef.of (T := ⟨S_, .f32⟩) main_cst_24) (TRef.of (T := ⟨S_, .f32⟩) main_call24_v8) id,
    TRef.unary (TRef.of (T := ⟨S_, .f32⟩) main_call24_v8) (TRef.of (T := ⟨S1024x48x256, .f32⟩) main_call24_v9) (broadcastInDim S1024x48x256 ![] bcast_S_S1024x48x256),
    TRef.binary (TRef.of (T := ⟨S1024x48x256, .f32⟩) main_call24_v9) (TRef.of (T := ⟨S1024x48x256, .f32⟩) main_call24_v7) (TRef.of (T := ⟨S1024x48x256, .f32⟩) main_call24_v10) mulf,
    TRef.binary (TRef.of (T := ⟨S1024x48x256, .f32⟩) main_call24_v1) (TRef.of (T := ⟨S1024x48x256, .f32⟩) main_call24_v10) (TRef.of (T := ⟨S1024x48x256, .f32⟩) main_v245) addf,
    unary main_arg4 main_v246 ((extractStridedSlice S1x192x256 ![6, 0, 0] · slices_S7x192x256_S1x192x256_6_0_0) : (⟨S7x192x256, .f32⟩ : BufTy).Contents (Elt F) → (⟨S1x192x256, .f32⟩ : BufTy).Contents (Elt F)),
    reshape main_v246 main_v247 rfl shapeCasts_S1x192x256_S192x256,
    binary main_v245 main_v247 main_v248 ((fun l r => Host.dotGeneral dot_S1024x48x256_S192x256_S1024x48x192_2_1_01_0_n_n none l r) : (⟨S1024x48x256, .f32⟩ : BufTy).Contents (Elt F) → (⟨S192x256, .f32⟩ : BufTy).Contents (Elt F) → (⟨S1024x48x192, .f32⟩ : BufTy).Contents (Elt F)),
    unary main_arg5 main_v249 ((extractStridedSlice S1x192 ![6, 0] · slices_S7x192_S1x192_6_0) : (⟨S7x192, .f32⟩ : BufTy).Contents (Elt F) → (⟨S1x192, .f32⟩ : BufTy).Contents (Elt F)),
    reshape main_v249 main_v250 rfl shapeCasts_S1x192_S192,
    unary main_v250 main_v251 (broadcastInDim S1x1x192 ![2] bcast_S192_S1x1x192_2 : (⟨S192, .f32⟩ : BufTy).Contents (Elt F) → (⟨S1x1x192, .f32⟩ : BufTy).Contents (Elt F)),
    unary main_v251 main_v252 (broadcastInDim S1024x48x192 ![0, 1, 2] bcast_S1x1x192_S1024x48x192_0_1_2 : (⟨S1x1x192, .f32⟩ : BufTy).Contents (Elt F) → (⟨S1024x48x192, .f32⟩ : BufTy).Contents (Elt F)),
    binary main_v248 main_v252 main_v253 (addf : (⟨S1024x48x192, .f32⟩ : BufTy).Contents (Elt F) → (⟨S1024x48x192, .f32⟩ : BufTy).Contents (Elt F) → (⟨S1024x48x192, .f32⟩ : BufTy).Contents (Elt F)),
    nullary main_cst_25 (constant S_ .f32 0x3DCCCCCD#32),
    TRef.nullary (TRef.of (T := ⟨S_, .f32⟩) main_call25_cst) (constant S_ .f32 0x00000000#32),
    TRef.unary (TRef.of (T := ⟨S_, .f32⟩) main_call25_cst) (TRef.of (T := ⟨S1024x48x192, .f32⟩) main_call25_v0) (broadcastInDim S1024x48x192 ![] bcast_S_S1024x48x192),
    TRef.binary (TRef.of (T := ⟨S1024x48x192, .f32⟩) main_v253) (TRef.of (T := ⟨S1024x48x192, .f32⟩) main_call25_v0) (TRef.of (T := ⟨S1024x48x192, .f32⟩) main_call25_v1) maximumf,
    TRef.nullary (TRef.of (T := ⟨S_, .f32⟩) main_call25_cst_0) (constant S_ .f32 0x00000000#32),
    TRef.unary (TRef.of (T := ⟨S_, .f32⟩) main_call25_cst_0) (TRef.of (T := ⟨S1024x48x192, .f32⟩) main_call25_v2) (broadcastInDim S1024x48x192 ![] bcast_S_S1024x48x192),
    TRef.binary (TRef.of (T := ⟨S1024x48x192, .f32⟩) main_v253) (TRef.of (T := ⟨S1024x48x192, .f32⟩) main_call25_v2) (TRef.of (T := ⟨S1024x48x192, .f32⟩) main_call25_v3) minimumf,
    TRef.unary (TRef.of (T := ⟨S_, .f32⟩) main_cst_25) (TRef.of (T := ⟨S_, .f32⟩) main_call25_v4) id,
    TRef.unary (TRef.of (T := ⟨S_, .f32⟩) main_call25_v4) (TRef.of (T := ⟨S1024x48x192, .f32⟩) main_call25_v5) (broadcastInDim S1024x48x192 ![] bcast_S_S1024x48x192),
    TRef.binary (TRef.of (T := ⟨S1024x48x192, .f32⟩) main_call25_v3) (TRef.of (T := ⟨S1024x48x192, .f32⟩) main_call25_v5) (TRef.of (T := ⟨S1024x48x192, .f32⟩) main_call25_v6) Host.divf,
    TRef.unary (TRef.of (T := ⟨S1024x48x192, .f32⟩) main_call25_v6) (TRef.of (T := ⟨S1024x48x192, .f32⟩) main_call25_v7) Host.expm1,
    TRef.unary (TRef.of (T := ⟨S_, .f32⟩) main_cst_25) (TRef.of (T := ⟨S_, .f32⟩) main_call25_v8) id,
    TRef.unary (TRef.of (T := ⟨S_, .f32⟩) main_call25_v8) (TRef.of (T := ⟨S1024x48x192, .f32⟩) main_call25_v9) (broadcastInDim S1024x48x192 ![] bcast_S_S1024x48x192),
    TRef.binary (TRef.of (T := ⟨S1024x48x192, .f32⟩) main_call25_v9) (TRef.of (T := ⟨S1024x48x192, .f32⟩) main_call25_v7) (TRef.of (T := ⟨S1024x48x192, .f32⟩) main_call25_v10) mulf,
    TRef.binary (TRef.of (T := ⟨S1024x48x192, .f32⟩) main_call25_v1) (TRef.of (T := ⟨S1024x48x192, .f32⟩) main_call25_v10) (TRef.of (T := ⟨S1024x48x192, .f32⟩) main_v254) addf,
    unary main_arg6 main_v255 ((extractStridedSlice S1x160x192 ![6, 0, 0] · slices_S7x160x192_S1x160x192_6_0_0) : (⟨S7x160x192, .f32⟩ : BufTy).Contents (Elt F) → (⟨S1x160x192, .f32⟩ : BufTy).Contents (Elt F)),
    reshape main_v255 main_v256 rfl shapeCasts_S1x160x192_S160x192,
    binary main_v254 main_v256 main_v257 ((fun l r => Host.dotGeneral dot_S1024x48x192_S160x192_S1024x48x160_2_1_01_0_n_n none l r) : (⟨S1024x48x192, .f32⟩ : BufTy).Contents (Elt F) → (⟨S160x192, .f32⟩ : BufTy).Contents (Elt F) → (⟨S1024x48x160, .f32⟩ : BufTy).Contents (Elt F)),
    unary main_arg7 main_v258 ((extractStridedSlice S1x160 ![6, 0] · slices_S7x160_S1x160_6_0) : (⟨S7x160, .f32⟩ : BufTy).Contents (Elt F) → (⟨S1x160, .f32⟩ : BufTy).Contents (Elt F)),
    reshape main_v258 main_v259 rfl shapeCasts_S1x160_S160,
    unary main_v259 main_v260 (broadcastInDim S1x1x160 ![2] bcast_S160_S1x1x160_2 : (⟨S160, .f32⟩ : BufTy).Contents (Elt F) → (⟨S1x1x160, .f32⟩ : BufTy).Contents (Elt F)),
    unary main_v260 main_v261 (broadcastInDim S1024x48x160 ![0, 1, 2] bcast_S1x1x160_S1024x48x160_0_1_2 : (⟨S1x1x160, .f32⟩ : BufTy).Contents (Elt F) → (⟨S1024x48x160, .f32⟩ : BufTy).Contents (Elt F)),
    binary main_v257 main_v261 main_v262 (addf : (⟨S1024x48x160, .f32⟩ : BufTy).Contents (Elt F) → (⟨S1024x48x160, .f32⟩ : BufTy).Contents (Elt F) → (⟨S1024x48x160, .f32⟩ : BufTy).Contents (Elt F)),
    nullary main_cst_26 (constant S_ .f32 0x3DCCCCCD#32),
    TRef.nullary (TRef.of (T := ⟨S_, .f32⟩) main_call26_cst) (constant S_ .f32 0x00000000#32),
    TRef.unary (TRef.of (T := ⟨S_, .f32⟩) main_call26_cst) (TRef.of (T := ⟨S1024x48x160, .f32⟩) main_call26_v0) (broadcastInDim S1024x48x160 ![] bcast_S_S1024x48x160),
    TRef.binary (TRef.of (T := ⟨S1024x48x160, .f32⟩) main_v262) (TRef.of (T := ⟨S1024x48x160, .f32⟩) main_call26_v0) (TRef.of (T := ⟨S1024x48x160, .f32⟩) main_call26_v1) maximumf,
    TRef.nullary (TRef.of (T := ⟨S_, .f32⟩) main_call26_cst_0) (constant S_ .f32 0x00000000#32),
    TRef.unary (TRef.of (T := ⟨S_, .f32⟩) main_call26_cst_0) (TRef.of (T := ⟨S1024x48x160, .f32⟩) main_call26_v2) (broadcastInDim S1024x48x160 ![] bcast_S_S1024x48x160),
    TRef.binary (TRef.of (T := ⟨S1024x48x160, .f32⟩) main_v262) (TRef.of (T := ⟨S1024x48x160, .f32⟩) main_call26_v2) (TRef.of (T := ⟨S1024x48x160, .f32⟩) main_call26_v3) minimumf,
    TRef.unary (TRef.of (T := ⟨S_, .f32⟩) main_cst_26) (TRef.of (T := ⟨S_, .f32⟩) main_call26_v4) id,
    TRef.unary (TRef.of (T := ⟨S_, .f32⟩) main_call26_v4) (TRef.of (T := ⟨S1024x48x160, .f32⟩) main_call26_v5) (broadcastInDim S1024x48x160 ![] bcast_S_S1024x48x160),
    TRef.binary (TRef.of (T := ⟨S1024x48x160, .f32⟩) main_call26_v3) (TRef.of (T := ⟨S1024x48x160, .f32⟩) main_call26_v5) (TRef.of (T := ⟨S1024x48x160, .f32⟩) main_call26_v6) Host.divf,
    TRef.unary (TRef.of (T := ⟨S1024x48x160, .f32⟩) main_call26_v6) (TRef.of (T := ⟨S1024x48x160, .f32⟩) main_call26_v7) Host.expm1,
    TRef.unary (TRef.of (T := ⟨S_, .f32⟩) main_cst_26) (TRef.of (T := ⟨S_, .f32⟩) main_call26_v8) id,
    TRef.unary (TRef.of (T := ⟨S_, .f32⟩) main_call26_v8) (TRef.of (T := ⟨S1024x48x160, .f32⟩) main_call26_v9) (broadcastInDim S1024x48x160 ![] bcast_S_S1024x48x160),
    TRef.binary (TRef.of (T := ⟨S1024x48x160, .f32⟩) main_call26_v9) (TRef.of (T := ⟨S1024x48x160, .f32⟩) main_call26_v7) (TRef.of (T := ⟨S1024x48x160, .f32⟩) main_call26_v10) mulf,
    TRef.binary (TRef.of (T := ⟨S1024x48x160, .f32⟩) main_call26_v1) (TRef.of (T := ⟨S1024x48x160, .f32⟩) main_call26_v10) (TRef.of (T := ⟨S1024x48x160, .f32⟩) main_v263) addf,
    unary main_arg8 main_v264 ((extractStridedSlice S1x1x160 ![6, 0, 0] · slices_S7x1x160_S1x1x160_6_0_0) : (⟨S7x1x160, .f32⟩ : BufTy).Contents (Elt F) → (⟨S1x1x160, .f32⟩ : BufTy).Contents (Elt F)),
    reshape main_v264 main_v265 rfl shapeCasts_S1x1x160_S1x160,
    binary main_v263 main_v265 main_v266 ((fun l r => Host.dotGeneral dot_S1024x48x160_S1x160_S1024x48x1_2_1_01_0_n_n none l r) : (⟨S1024x48x160, .f32⟩ : BufTy).Contents (Elt F) → (⟨S1x160, .f32⟩ : BufTy).Contents (Elt F) → (⟨S1024x48x1, .f32⟩ : BufTy).Contents (Elt F)),
    unary main_arg9 main_v267 ((extractStridedSlice S1x1 ![6, 0] · slices_S7x1_S1x1_6_0) : (⟨S7x1, .f32⟩ : BufTy).Contents (Elt F) → (⟨S1x1, .f32⟩ : BufTy).Contents (Elt F)),
    reshape main_v267 main_v268 rfl shapeCasts_S1x1_S1,
    unary main_v268 main_v269 (broadcastInDim S1x1x1 ![2] bcast_S1_S1x1x1_2 : (⟨S1, .f32⟩ : BufTy).Contents (Elt F) → (⟨S1x1x1, .f32⟩ : BufTy).Contents (Elt F)),
    unary main_v269 main_v270 (broadcastInDim S1024x48x1 ![0, 1, 2] bcast_S1x1x1_S1024x48x1_0_1_2 : (⟨S1x1x1, .f32⟩ : BufTy).Contents (Elt F) → (⟨S1024x48x1, .f32⟩ : BufTy).Contents (Elt F)),
    binary main_v266 main_v270 main_v271 (addf : (⟨S1024x48x1, .f32⟩ : BufTy).Contents (Elt F) → (⟨S1024x48x1, .f32⟩ : BufTy).Contents (Elt F) → (⟨S1024x48x1, .f32⟩ : BufTy).Contents (Elt F)),
    reshape main_v271 main_v272 rfl shapeCasts_S1024x48x1_S1024x48,
    TRef.ternary (TRef.of (T := ⟨S1024x48, .i1⟩) main_v236) (TRef.of (T := ⟨S1024x48, .f32⟩) main_v272) (TRef.of (T := ⟨S1024x48, .f32⟩) main_v234) (TRef.of (T := ⟨S1024x48, .f32⟩) main_v273) select ]

theorem ops6_sub : (ops6 : List (HloOp τ sig (Elt F))).Forall fun op => op.bufs ⊆ tcRefs τ sig :=
  by unfold ops6; exact ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., reshape_bufs_sub .., ternary_bufs_sub ..⟩

theorem ops6_fresh : ∀ op ∈ (ops6 : List (HloOp τ sig (Elt F))), op.fresh = ∅ := by
  intro _ h; unfold ops6 at h; (repeat (cases h with | head => rfl | tail _ h => ?_)); exact nomatch h

/-- What they leave in the energy buffer. -/
theorem energy6 (W : Valuation τ sig (Elt Ideal)) :
    after (ops6 (F := Ideal)) W (Proc.devRef .tc main_v273)
      = pickH 6#32 (W (Proc.devRef .tc main_arg0))
        (expertH (W (Proc.devRef .tc main_arg1))
          (extractStridedSlice S1x256x384 ![6, 0, 0] (W (Proc.devRef .tc main_arg2)) slices_S7x256x384_S1x256x384_6_0_0)
          (extractStridedSlice S1x256 ![6, 0] (W (Proc.devRef .tc main_arg3)) slices_S7x256_S1x256_6_0)
          (extractStridedSlice S1x192x256 ![6, 0, 0] (W (Proc.devRef .tc main_arg4)) slices_S7x192x256_S1x192x256_6_0_0)
          (extractStridedSlice S1x192 ![6, 0] (W (Proc.devRef .tc main_arg5)) slices_S7x192_S1x192_6_0)
          (extractStridedSlice S1x160x192 ![6, 0, 0] (W (Proc.devRef .tc main_arg6)) slices_S7x160x192_S1x160x192_6_0_0)
          (extractStridedSlice S1x160 ![6, 0] (W (Proc.devRef .tc main_arg7)) slices_S7x160_S1x160_6_0)
          (extractStridedSlice S1x1x160 ![6, 0, 0] (W (Proc.devRef .tc main_arg8)) slices_S7x1x160_S1x1x160_6_0_0)
          (extractStridedSlice S1x1 ![6, 0] (W (Proc.devRef .tc main_arg9)) slices_S7x1_S1x1_6_0))
        (W (Proc.devRef .tc main_v234)) := by
  unfold ops6
  after_results_simp
  rfl

theorem kept6_0 (W : Valuation τ sig (Elt Ideal)) :
    after (ops6 (F := Ideal)) W (Proc.devRef .tc main_arg0) = W (Proc.devRef .tc main_arg0) := by
  unfold ops6
  after_results_simp

theorem kept6_1 (W : Valuation τ sig (Elt Ideal)) :
    after (ops6 (F := Ideal)) W (Proc.devRef .tc main_arg1) = W (Proc.devRef .tc main_arg1) := by
  unfold ops6
  after_results_simp

theorem kept6_2 (W : Valuation τ sig (Elt Ideal)) :
    after (ops6 (F := Ideal)) W (Proc.devRef .tc main_arg2) = W (Proc.devRef .tc main_arg2) := by
  unfold ops6
  after_results_simp

theorem kept6_3 (W : Valuation τ sig (Elt Ideal)) :
    after (ops6 (F := Ideal)) W (Proc.devRef .tc main_arg3) = W (Proc.devRef .tc main_arg3) := by
  unfold ops6
  after_results_simp

theorem kept6_4 (W : Valuation τ sig (Elt Ideal)) :
    after (ops6 (F := Ideal)) W (Proc.devRef .tc main_arg4) = W (Proc.devRef .tc main_arg4) := by
  unfold ops6
  after_results_simp

theorem kept6_5 (W : Valuation τ sig (Elt Ideal)) :
    after (ops6 (F := Ideal)) W (Proc.devRef .tc main_arg5) = W (Proc.devRef .tc main_arg5) := by
  unfold ops6
  after_results_simp

theorem kept6_6 (W : Valuation τ sig (Elt Ideal)) :
    after (ops6 (F := Ideal)) W (Proc.devRef .tc main_arg6) = W (Proc.devRef .tc main_arg6) := by
  unfold ops6
  after_results_simp

theorem kept6_7 (W : Valuation τ sig (Elt Ideal)) :
    after (ops6 (F := Ideal)) W (Proc.devRef .tc main_arg7) = W (Proc.devRef .tc main_arg7) := by
  unfold ops6
  after_results_simp

theorem kept6_8 (W : Valuation τ sig (Elt Ideal)) :
    after (ops6 (F := Ideal)) W (Proc.devRef .tc main_arg8) = W (Proc.devRef .tc main_arg8) := by
  unfold ops6
  after_results_simp

theorem kept6_9 (W : Valuation τ sig (Elt Ideal)) :
    after (ops6 (F := Ideal)) W (Proc.devRef .tc main_arg9) = W (Proc.devRef .tc main_arg9) := by
  unfold ops6
  after_results_simp

end Cert.ReferenceIdeal.Hand

end
-- ==== Proof.RefTail.lean ====
/-
  The reference's last two operations, run from any contents `W` of the buffers: the zero word, and the sum over each
  molecule's atoms of the last species' energy buffer. They do not touch the argument arrays.
-/
import proofs.«151302_j80032420593970_1_alg».proof.Proof.RefLayers
import Idealize.ShloMosaic.Lib.StableHlo.Run

set_option maxRecDepth 8192

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The operations. -/
def opsT : List (HloOp τ sig (Elt F)) :=
  [ nullary main_cst_27 (constant S_ .f32 0x00000000#32),
    binary main_v273 main_cst_27 main_v274 ((fun x v => Host.reduceAdd x v reducesTo_S1024x48_S1024_d1 h_S_) : (⟨S1024x48, .f32⟩ : BufTy).Contents (Elt F) → (⟨S_, .f32⟩ : BufTy).Contents (Elt F) → (⟨S1024, .f32⟩ : BufTy).Contents (Elt F)) ]

theorem opsT_sub : (opsT : List (HloOp τ sig (Elt F))).Forall fun op => op.bufs ⊆ tcRefs τ sig :=
  by unfold opsT; exact ⟨nullary_bufs_sub .., binary_bufs_sub ..⟩

theorem opsT_fresh : ∀ op ∈ (opsT : List (HloOp τ sig (Elt F))), op.fresh = ∅ := by
  intro _ h; unfold opsT at h; (repeat (cases h with | head => rfl | tail _ h => ?_)); exact nomatch h

/-- What they leave in the result buffer. -/
theorem resultT (W : Valuation τ sig (Elt Ideal)) :
    after (opsT (F := Ideal)) W (Proc.devRef .tc main_v274) = sumH (W (Proc.devRef .tc main_v273)) := by
  unfold opsT
  after_results_simp
  rfl

theorem keptT_0 (W : Valuation τ sig (Elt Ideal)) :
    after (opsT (F := Ideal)) W (Proc.devRef .tc main_arg0) = W (Proc.devRef .tc main_arg0) := by
  unfold opsT
  after_results_simp

theorem keptT_1 (W : Valuation τ sig (Elt Ideal)) :
    after (opsT (F := Ideal)) W (Proc.devRef .tc main_arg1) = W (Proc.devRef .tc main_arg1) := by
  unfold opsT
  after_results_simp

theorem keptT_2 (W : Valuation τ sig (Elt Ideal)) :
    after (opsT (F := Ideal)) W (Proc.devRef .tc main_arg2) = W (Proc.devRef .tc main_arg2) := by
  unfold opsT
  after_results_simp

theorem keptT_3 (W : Valuation τ sig (Elt Ideal)) :
    after (opsT (F := Ideal)) W (Proc.devRef .tc main_arg3) = W (Proc.devRef .tc main_arg3) := by
  unfold opsT
  after_results_simp

theorem keptT_4 (W : Valuation τ sig (Elt Ideal)) :
    after (opsT (F := Ideal)) W (Proc.devRef .tc main_arg4) = W (Proc.devRef .tc main_arg4) := by
  unfold opsT
  after_results_simp

theorem keptT_5 (W : Valuation τ sig (Elt Ideal)) :
    after (opsT (F := Ideal)) W (Proc.devRef .tc main_arg5) = W (Proc.devRef .tc main_arg5) := by
  unfold opsT
  after_results_simp

theorem keptT_6 (W : Valuation τ sig (Elt Ideal)) :
    after (opsT (F := Ideal)) W (Proc.devRef .tc main_arg6) = W (Proc.devRef .tc main_arg6) := by
  unfold opsT
  after_results_simp

theorem keptT_7 (W : Valuation τ sig (Elt Ideal)) :
    after (opsT (F := Ideal)) W (Proc.devRef .tc main_arg7) = W (Proc.devRef .tc main_arg7) := by
  unfold opsT
  after_results_simp

theorem keptT_8 (W : Valuation τ sig (Elt Ideal)) :
    after (opsT (F := Ideal)) W (Proc.devRef .tc main_arg8) = W (Proc.devRef .tc main_arg8) := by
  unfold opsT
  after_results_simp

theorem keptT_9 (W : Valuation τ sig (Elt Ideal)) :
    after (opsT (F := Ideal)) W (Proc.devRef .tc main_arg9) = W (Proc.devRef .tc main_arg9) := by
  unfold opsT
  after_results_simp

end Cert.ReferenceIdeal.Hand

end
-- ==== Proof.RefRead.lean ====
/-
  The reference's whole term, read at a molecule.

  The weights of species `s` are cut out of the stacked arrays by slices at offsets (s, 0, 0) (or (s, 0)) of sizes
  (1, ·, ·): slab `s`. With the layers read at an atom (RefLayers), species `s`'s array at atom (b, a) is species `s`'s
  network of Energy on the features at (b, a, ·); the seven selects are the routing chain; the host sum from the zero word
  is the sum over the 48 atoms (0 + x = x). So entry `b` of the reference's result is molecule `b`'s energy.
-/
import proofs.«151302_j80032420593970_1_alg».proof.Proof.RefLayers

noncomputable section

namespace Cert.ReferenceIdeal.Layers

open Cert.ReferenceIdeal Cert.ReferenceIdeal.Gen Idealize.ShloMosaic Idealize.ShloMosaic.ValueIdx
open scoped BigOperators

/-- The reference's result as one term of the argument arrays: the sum over atoms of the seven nested selects. -/
def refEnergies (SP : IVec S1024x48 32) (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) : FVec Ideal S1024 .f32 :=
  sumH (pickH 6#32 SP
      (expertH X
          (extractStridedSlice S1x256x384 ![6, 0, 0] W1 slices_S7x256x384_S1x256x384_6_0_0)
          (extractStridedSlice S1x256 ![6, 0] B1 slices_S7x256_S1x256_6_0)
          (extractStridedSlice S1x192x256 ![6, 0, 0] W2 slices_S7x192x256_S1x192x256_6_0_0)
          (extractStridedSlice S1x192 ![6, 0] B2 slices_S7x192_S1x192_6_0)
          (extractStridedSlice S1x160x192 ![6, 0, 0] W3 slices_S7x160x192_S1x160x192_6_0_0)
          (extractStridedSlice S1x160 ![6, 0] B3 slices_S7x160_S1x160_6_0)
          (extractStridedSlice S1x1x160 ![6, 0, 0] W4 slices_S7x1x160_S1x1x160_6_0_0)
          (extractStridedSlice S1x1 ![6, 0] B4 slices_S7x1_S1x1_6_0))
      (pickH 5#32 SP
      (expertH X
          (extractStridedSlice S1x256x384 ![5, 0, 0] W1 slices_S7x256x384_S1x256x384_5_0_0)
          (extractStridedSlice S1x256 ![5, 0] B1 slices_S7x256_S1x256_5_0)
          (extractStridedSlice S1x192x256 ![5, 0, 0] W2 slices_S7x192x256_S1x192x256_5_0_0)
          (extractStridedSlice S1x192 ![5, 0] B2 slices_S7x192_S1x192_5_0)
          (extractStridedSlice S1x160x192 ![5, 0, 0] W3 slices_S7x160x192_S1x160x192_5_0_0)
          (extractStridedSlice S1x160 ![5, 0] B3 slices_S7x160_S1x160_5_0)
          (extractStridedSlice S1x1x160 ![5, 0, 0] W4 slices_S7x1x160_S1x1x160_5_0_0)
          (extractStridedSlice S1x1 ![5, 0] B4 slices_S7x1_S1x1_5_0))
      (pickH 4#32 SP
      (expertH X
          (extractStridedSlice S1x256x384 ![4, 0, 0] W1 slices_S7x256x384_S1x256x384_4_0_0)
          (extractStridedSlice S1x256 ![4, 0] B1 slices_S7x256_S1x256_4_0)
          (extractStridedSlice S1x192x256 ![4, 0, 0] W2 slices_S7x192x256_S1x192x256_4_0_0)
          (extractStridedSlice S1x192 ![4, 0] B2 slices_S7x192_S1x192_4_0)
          (extractStridedSlice S1x160x192 ![4, 0, 0] W3 slices_S7x160x192_S1x160x192_4_0_0)
          (extractStridedSlice S1x160 ![4, 0] B3 slices_S7x160_S1x160_4_0)
          (extractStridedSlice S1x1x160 ![4, 0, 0] W4 slices_S7x1x160_S1x1x160_4_0_0)
          (extractStridedSlice S1x1 ![4, 0] B4 slices_S7x1_S1x1_4_0))
      (pickH 3#32 SP
      (expertH X
          (extractStridedSlice S1x256x384 ![3, 0, 0] W1 slices_S7x256x384_S1x256x384_3_0_0)
          (extractStridedSlice S1x256 ![3, 0] B1 slices_S7x256_S1x256_3_0)
          (extractStridedSlice S1x192x256 ![3, 0, 0] W2 slices_S7x192x256_S1x192x256_3_0_0)
          (extractStridedSlice S1x192 ![3, 0] B2 slices_S7x192_S1x192_3_0)
          (extractStridedSlice S1x160x192 ![3, 0, 0] W3 slices_S7x160x192_S1x160x192_3_0_0)
          (extractStridedSlice S1x160 ![3, 0] B3 slices_S7x160_S1x160_3_0)
          (extractStridedSlice S1x1x160 ![3, 0, 0] W4 slices_S7x1x160_S1x1x160_3_0_0)
          (extractStridedSlice S1x1 ![3, 0] B4 slices_S7x1_S1x1_3_0))
      (pickH 2#32 SP
      (expertH X
          (extractStridedSlice S1x256x384 ![2, 0, 0] W1 slices_S7x256x384_S1x256x384_2_0_0)
          (extractStridedSlice S1x256 ![2, 0] B1 slices_S7x256_S1x256_2_0)
          (extractStridedSlice S1x192x256 ![2, 0, 0] W2 slices_S7x192x256_S1x192x256_2_0_0)
          (extractStridedSlice S1x192 ![2, 0] B2 slices_S7x192_S1x192_2_0)
          (extractStridedSlice S1x160x192 ![2, 0, 0] W3 slices_S7x160x192_S1x160x192_2_0_0)
          (extractStridedSlice S1x160 ![2, 0] B3 slices_S7x160_S1x160_2_0)
          (extractStridedSlice S1x1x160 ![2, 0, 0] W4 slices_S7x1x160_S1x1x160_2_0_0)
          (extractStridedSlice S1x1 ![2, 0] B4 slices_S7x1_S1x1_2_0))
      (pickH 1#32 SP
      (expertH X
          (extractStridedSlice S1x256x384 ![1, 0, 0] W1 slices_S7x256x384_S1x256x384_1_0_0)
          (extractStridedSlice S1x256 ![1, 0] B1 slices_S7x256_S1x256_1_0)
          (extractStridedSlice S1x192x256 ![1, 0, 0] W2 slices_S7x192x256_S1x192x256_1_0_0)
          (extractStridedSlice S1x192 ![1, 0] B2 slices_S7x192_S1x192_1_0)
          (extractStridedSlice S1x160x192 ![1, 0, 0] W3 slices_S7x160x192_S1x160x192_1_0_0)
          (extractStridedSlice S1x160 ![1, 0] B3 slices_S7x160_S1x160_1_0)
          (extractStridedSlice S1x1x160 ![1, 0, 0] W4 slices_S7x1x160_S1x1x160_1_0_0)
          (extractStridedSlice S1x1 ![1, 0] B4 slices_S7x1_S1x1_1_0))
      (pickH 0#32 SP
      (expertH X
          (extractStridedSlice S1x256x384 ![0, 0, 0] W1 slices_S7x256x384_S1x256x384_0_0_0)
          (extractStridedSlice S1x256 ![0, 0] B1 slices_S7x256_S1x256_0_0)
          (extractStridedSlice S1x192x256 ![0, 0, 0] W2 slices_S7x192x256_S1x192x256_0_0_0)
          (extractStridedSlice S1x192 ![0, 0] B2 slices_S7x192_S1x192_0_0)
          (extractStridedSlice S1x160x192 ![0, 0, 0] W3 slices_S7x160x192_S1x160x192_0_0_0)
          (extractStridedSlice S1x160 ![0, 0] B3 slices_S7x160_S1x160_0_0)
          (extractStridedSlice S1x1x160 ![0, 0, 0] W4 slices_S7x1x160_S1x1x160_0_0_0)
          (extractStridedSlice S1x1 ![0, 0] B4 slices_S7x1_S1x1_0_0))
      zeroH)))))))

/-! ## Slabs cut by slices -/

/-- Slab `s` of a stack of matrices, cut by the slice at offsets (s, 0, 0) of sizes (1, a, b). -/
theorem slice_slab3 {α : Type} {n a b : ℕ} (X : (⟨3, ![n, a, b]⟩ : Shape).Idx → α) (off : Fin 3 → ℕ)
    (h : (⟨3, ![n, a, b]⟩ : Shape).Slices off ⟨3, ![1, a, b]⟩) (s : Fin n) (h0 : off 0 = s.val) (h1 : off 1 = 0) (h2 : off 2 = 0)
    (j : Fin a) (k : Fin b) :
    extractStridedSlice ⟨3, ![1, a, b]⟩ off X h (ix3 (0 : Fin 1) j k) = X (ix3 s j k) :=
  extractStridedSlice_apply off X h _ _ fun d => match d with
    | ⟨0, _⟩ => by show s.val = off 0 + 0; omega
    | ⟨1, _⟩ => by show j.val = off 1 + j.val; omega
    | ⟨2, _⟩ => by show k.val = off 2 + k.val; omega

/-- Row `s` of a stack of vectors, cut by the slice at offsets (s, 0) of sizes (1, a). -/
theorem slice_slab2 {α : Type} {n a : ℕ} (X : (⟨2, ![n, a]⟩ : Shape).Idx → α) (off : Fin 2 → ℕ)
    (h : (⟨2, ![n, a]⟩ : Shape).Slices off ⟨2, ![1, a]⟩) (s : Fin n) (h0 : off 0 = s.val) (h1 : off 1 = 0) (j : Fin a) :
    extractStridedSlice ⟨2, ![1, a]⟩ off X h (ix2 (0 : Fin 1) j) = X (ix2 s j) :=
  extractStridedSlice_apply off X h _ _ fun d => match d with
    | ⟨0, _⟩ => by show s.val = off 0 + 0; omega
    | ⟨1, _⟩ => by show j.val = off 1 + j.val; omega

/-! ## Each species' array at an atom, over the stacked weight arrays -/

/-- Species 0. -/
theorem expert0_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![0, 0, 0] W1 slices_S7x256x384_S1x256x384_0_0_0)
          (extractStridedSlice S1x256 ![0, 0] B1 slices_S7x256_S1x256_0_0)
          (extractStridedSlice S1x192x256 ![0, 0, 0] W2 slices_S7x192x256_S1x192x256_0_0_0)
          (extractStridedSlice S1x192 ![0, 0] B2 slices_S7x192_S1x192_0_0)
          (extractStridedSlice S1x160x192 ![0, 0, 0] W3 slices_S7x160x192_S1x160x192_0_0_0)
          (extractStridedSlice S1x160 ![0, 0] B3 slices_S7x160_S1x160_0_0)
          (extractStridedSlice S1x1x160 ![0, 0, 0] W4 slices_S7x1x160_S1x1x160_0_0_0)
          (extractStridedSlice S1x1 ![0, 0] B4 slices_S7x1_S1x1_0_0) (ix2 b a)
      = Cert.Energy.expertOf 0 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![0, 0, 0] W1 slices_S7x256x384_S1x256x384_0_0_0 (ix3 (0 : Fin 1) j k))
      = fun j k => W1 (ix3 (0 : Fin 7) j k) :=
    funext fun j => funext fun k => slice_slab3 W1 ![0, 0, 0] _ (0 : Fin 7) rfl rfl rfl j k
  have e3 : (fun (j : Fin 256) => extractStridedSlice S1x256 ![0, 0] B1 slices_S7x256_S1x256_0_0 (ix2 (0 : Fin 1) j))
      = fun j => B1 (ix2 (0 : Fin 7) j) :=
    funext fun j => slice_slab2 B1 ![0, 0] _ (0 : Fin 7) rfl rfl j
  have e4 : (fun (j : Fin 192) (k : Fin 256) => extractStridedSlice S1x192x256 ![0, 0, 0] W2 slices_S7x192x256_S1x192x256_0_0_0 (ix3 (0 : Fin 1) j k))
      = fun j k => W2 (ix3 (0 : Fin 7) j k) :=
    funext fun j => funext fun k => slice_slab3 W2 ![0, 0, 0] _ (0 : Fin 7) rfl rfl rfl j k
  have e5 : (fun (j : Fin 192) => extractStridedSlice S1x192 ![0, 0] B2 slices_S7x192_S1x192_0_0 (ix2 (0 : Fin 1) j))
      = fun j => B2 (ix2 (0 : Fin 7) j) :=
    funext fun j => slice_slab2 B2 ![0, 0] _ (0 : Fin 7) rfl rfl j
  have e6 : (fun (j : Fin 160) (k : Fin 192) => extractStridedSlice S1x160x192 ![0, 0, 0] W3 slices_S7x160x192_S1x160x192_0_0_0 (ix3 (0 : Fin 1) j k))
      = fun j k => W3 (ix3 (0 : Fin 7) j k) :=
    funext fun j => funext fun k => slice_slab3 W3 ![0, 0, 0] _ (0 : Fin 7) rfl rfl rfl j k
  have e7 : (fun (j : Fin 160) => extractStridedSlice S1x160 ![0, 0] B3 slices_S7x160_S1x160_0_0 (ix2 (0 : Fin 1) j))
      = fun j => B3 (ix2 (0 : Fin 7) j) :=
    funext fun j => slice_slab2 B3 ![0, 0] _ (0 : Fin 7) rfl rfl j
  have e8 : (fun (j : Fin 1) (k : Fin 160) => extractStridedSlice S1x1x160 ![0, 0, 0] W4 slices_S7x1x160_S1x1x160_0_0_0 (ix3 (0 : Fin 1) j k))
      = fun j k => W4 (ix3 (0 : Fin 7) j k) :=
    funext fun j => funext fun k => slice_slab3 W4 ![0, 0, 0] _ (0 : Fin 7) rfl rfl rfl j k
  have e9 : (fun (j : Fin 1) => extractStridedSlice S1x1 ![0, 0] B4 slices_S7x1_S1x1_0_0 (ix2 (0 : Fin 1) j))
      = fun j => B4 (ix2 (0 : Fin 7) j) :=
    funext fun j => slice_slab2 B4 ![0, 0] _ (0 : Fin 7) rfl rfl j
  rw [e2, e3, e4, e5, e6, e7, e8, e9]

/-- Species 1. -/
theorem expert1_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![1, 0, 0] W1 slices_S7x256x384_S1x256x384_1_0_0)
          (extractStridedSlice S1x256 ![1, 0] B1 slices_S7x256_S1x256_1_0)
          (extractStridedSlice S1x192x256 ![1, 0, 0] W2 slices_S7x192x256_S1x192x256_1_0_0)
          (extractStridedSlice S1x192 ![1, 0] B2 slices_S7x192_S1x192_1_0)
          (extractStridedSlice S1x160x192 ![1, 0, 0] W3 slices_S7x160x192_S1x160x192_1_0_0)
          (extractStridedSlice S1x160 ![1, 0] B3 slices_S7x160_S1x160_1_0)
          (extractStridedSlice S1x1x160 ![1, 0, 0] W4 slices_S7x1x160_S1x1x160_1_0_0)
          (extractStridedSlice S1x1 ![1, 0] B4 slices_S7x1_S1x1_1_0) (ix2 b a)
      = Cert.Energy.expertOf 1 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![1, 0, 0] W1 slices_S7x256x384_S1x256x384_1_0_0 (ix3 (0 : Fin 1) j k))
      = fun j k => W1 (ix3 (1 : Fin 7) j k) :=
    funext fun j => funext fun k => slice_slab3 W1 ![1, 0, 0] _ (1 : Fin 7) rfl rfl rfl j k
  have e3 : (fun (j : Fin 256) => extractStridedSlice S1x256 ![1, 0] B1 slices_S7x256_S1x256_1_0 (ix2 (0 : Fin 1) j))
      = fun j => B1 (ix2 (1 : Fin 7) j) :=
    funext fun j => slice_slab2 B1 ![1, 0] _ (1 : Fin 7) rfl rfl j
  have e4 : (fun (j : Fin 192) (k : Fin 256) => extractStridedSlice S1x192x256 ![1, 0, 0] W2 slices_S7x192x256_S1x192x256_1_0_0 (ix3 (0 : Fin 1) j k))
      = fun j k => W2 (ix3 (1 : Fin 7) j k) :=
    funext fun j => funext fun k => slice_slab3 W2 ![1, 0, 0] _ (1 : Fin 7) rfl rfl rfl j k
  have e5 : (fun (j : Fin 192) => extractStridedSlice S1x192 ![1, 0] B2 slices_S7x192_S1x192_1_0 (ix2 (0 : Fin 1) j))
      = fun j => B2 (ix2 (1 : Fin 7) j) :=
    funext fun j => slice_slab2 B2 ![1, 0] _ (1 : Fin 7) rfl rfl j
  have e6 : (fun (j : Fin 160) (k : Fin 192) => extractStridedSlice S1x160x192 ![1, 0, 0] W3 slices_S7x160x192_S1x160x192_1_0_0 (ix3 (0 : Fin 1) j k))
      = fun j k => W3 (ix3 (1 : Fin 7) j k) :=
    funext fun j => funext fun k => slice_slab3 W3 ![1, 0, 0] _ (1 : Fin 7) rfl rfl rfl j k
  have e7 : (fun (j : Fin 160) => extractStridedSlice S1x160 ![1, 0] B3 slices_S7x160_S1x160_1_0 (ix2 (0 : Fin 1) j))
      = fun j => B3 (ix2 (1 : Fin 7) j) :=
    funext fun j => slice_slab2 B3 ![1, 0] _ (1 : Fin 7) rfl rfl j
  have e8 : (fun (j : Fin 1) (k : Fin 160) => extractStridedSlice S1x1x160 ![1, 0, 0] W4 slices_S7x1x160_S1x1x160_1_0_0 (ix3 (0 : Fin 1) j k))
      = fun j k => W4 (ix3 (1 : Fin 7) j k) :=
    funext fun j => funext fun k => slice_slab3 W4 ![1, 0, 0] _ (1 : Fin 7) rfl rfl rfl j k
  have e9 : (fun (j : Fin 1) => extractStridedSlice S1x1 ![1, 0] B4 slices_S7x1_S1x1_1_0 (ix2 (0 : Fin 1) j))
      = fun j => B4 (ix2 (1 : Fin 7) j) :=
    funext fun j => slice_slab2 B4 ![1, 0] _ (1 : Fin 7) rfl rfl j
  rw [e2, e3, e4, e5, e6, e7, e8, e9]

/-- Species 2. -/
theorem expert2_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![2, 0, 0] W1 slices_S7x256x384_S1x256x384_2_0_0)
          (extractStridedSlice S1x256 ![2, 0] B1 slices_S7x256_S1x256_2_0)
          (extractStridedSlice S1x192x256 ![2, 0, 0] W2 slices_S7x192x256_S1x192x256_2_0_0)
          (extractStridedSlice S1x192 ![2, 0] B2 slices_S7x192_S1x192_2_0)
          (extractStridedSlice S1x160x192 ![2, 0, 0] W3 slices_S7x160x192_S1x160x192_2_0_0)
          (extractStridedSlice S1x160 ![2, 0] B3 slices_S7x160_S1x160_2_0)
          (extractStridedSlice S1x1x160 ![2, 0, 0] W4 slices_S7x1x160_S1x1x160_2_0_0)
          (extractStridedSlice S1x1 ![2, 0] B4 slices_S7x1_S1x1_2_0) (ix2 b a)
      = Cert.Energy.expertOf 2 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![2, 0, 0] W1 slices_S7x256x384_S1x256x384_2_0_0 (ix3 (0 : Fin 1) j k))
      = fun j k => W1 (ix3 (2 : Fin 7) j k) :=
    funext fun j => funext fun k => slice_slab3 W1 ![2, 0, 0] _ (2 : Fin 7) rfl rfl rfl j k
  have e3 : (fun (j : Fin 256) => extractStridedSlice S1x256 ![2, 0] B1 slices_S7x256_S1x256_2_0 (ix2 (0 : Fin 1) j))
      = fun j => B1 (ix2 (2 : Fin 7) j) :=
    funext fun j => slice_slab2 B1 ![2, 0] _ (2 : Fin 7) rfl rfl j
  have e4 : (fun (j : Fin 192) (k : Fin 256) => extractStridedSlice S1x192x256 ![2, 0, 0] W2 slices_S7x192x256_S1x192x256_2_0_0 (ix3 (0 : Fin 1) j k))
      = fun j k => W2 (ix3 (2 : Fin 7) j k) :=
    funext fun j => funext fun k => slice_slab3 W2 ![2, 0, 0] _ (2 : Fin 7) rfl rfl rfl j k
  have e5 : (fun (j : Fin 192) => extractStridedSlice S1x192 ![2, 0] B2 slices_S7x192_S1x192_2_0 (ix2 (0 : Fin 1) j))
      = fun j => B2 (ix2 (2 : Fin 7) j) :=
    funext fun j => slice_slab2 B2 ![2, 0] _ (2 : Fin 7) rfl rfl j
  have e6 : (fun (j : Fin 160) (k : Fin 192) => extractStridedSlice S1x160x192 ![2, 0, 0] W3 slices_S7x160x192_S1x160x192_2_0_0 (ix3 (0 : Fin 1) j k))
      = fun j k => W3 (ix3 (2 : Fin 7) j k) :=
    funext fun j => funext fun k => slice_slab3 W3 ![2, 0, 0] _ (2 : Fin 7) rfl rfl rfl j k
  have e7 : (fun (j : Fin 160) => extractStridedSlice S1x160 ![2, 0] B3 slices_S7x160_S1x160_2_0 (ix2 (0 : Fin 1) j))
      = fun j => B3 (ix2 (2 : Fin 7) j) :=
    funext fun j => slice_slab2 B3 ![2, 0] _ (2 : Fin 7) rfl rfl j
  have e8 : (fun (j : Fin 1) (k : Fin 160) => extractStridedSlice S1x1x160 ![2, 0, 0] W4 slices_S7x1x160_S1x1x160_2_0_0 (ix3 (0 : Fin 1) j k))
      = fun j k => W4 (ix3 (2 : Fin 7) j k) :=
    funext fun j => funext fun k => slice_slab3 W4 ![2, 0, 0] _ (2 : Fin 7) rfl rfl rfl j k
  have e9 : (fun (j : Fin 1) => extractStridedSlice S1x1 ![2, 0] B4 slices_S7x1_S1x1_2_0 (ix2 (0 : Fin 1) j))
      = fun j => B4 (ix2 (2 : Fin 7) j) :=
    funext fun j => slice_slab2 B4 ![2, 0] _ (2 : Fin 7) rfl rfl j
  rw [e2, e3, e4, e5, e6, e7, e8, e9]

/-- Species 3. -/
theorem expert3_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![3, 0, 0] W1 slices_S7x256x384_S1x256x384_3_0_0)
          (extractStridedSlice S1x256 ![3, 0] B1 slices_S7x256_S1x256_3_0)
          (extractStridedSlice S1x192x256 ![3, 0, 0] W2 slices_S7x192x256_S1x192x256_3_0_0)
          (extractStridedSlice S1x192 ![3, 0] B2 slices_S7x192_S1x192_3_0)
          (extractStridedSlice S1x160x192 ![3, 0, 0] W3 slices_S7x160x192_S1x160x192_3_0_0)
          (extractStridedSlice S1x160 ![3, 0] B3 slices_S7x160_S1x160_3_0)
          (extractStridedSlice S1x1x160 ![3, 0, 0] W4 slices_S7x1x160_S1x1x160_3_0_0)
          (extractStridedSlice S1x1 ![3, 0] B4 slices_S7x1_S1x1_3_0) (ix2 b a)
      = Cert.Energy.expertOf 3 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![3, 0, 0] W1 slices_S7x256x384_S1x256x384_3_0_0 (ix3 (0 : Fin 1) j k))
      = fun j k => W1 (ix3 (3 : Fin 7) j k) :=
    funext fun j => funext fun k => slice_slab3 W1 ![3, 0, 0] _ (3 : Fin 7) rfl rfl rfl j k
  have e3 : (fun (j : Fin 256) => extractStridedSlice S1x256 ![3, 0] B1 slices_S7x256_S1x256_3_0 (ix2 (0 : Fin 1) j))
      = fun j => B1 (ix2 (3 : Fin 7) j) :=
    funext fun j => slice_slab2 B1 ![3, 0] _ (3 : Fin 7) rfl rfl j
  have e4 : (fun (j : Fin 192) (k : Fin 256) => extractStridedSlice S1x192x256 ![3, 0, 0] W2 slices_S7x192x256_S1x192x256_3_0_0 (ix3 (0 : Fin 1) j k))
      = fun j k => W2 (ix3 (3 : Fin 7) j k) :=
    funext fun j => funext fun k => slice_slab3 W2 ![3, 0, 0] _ (3 : Fin 7) rfl rfl rfl j k
  have e5 : (fun (j : Fin 192) => extractStridedSlice S1x192 ![3, 0] B2 slices_S7x192_S1x192_3_0 (ix2 (0 : Fin 1) j))
      = fun j => B2 (ix2 (3 : Fin 7) j) :=
    funext fun j => slice_slab2 B2 ![3, 0] _ (3 : Fin 7) rfl rfl j
  have e6 : (fun (j : Fin 160) (k : Fin 192) => extractStridedSlice S1x160x192 ![3, 0, 0] W3 slices_S7x160x192_S1x160x192_3_0_0 (ix3 (0 : Fin 1) j k))
      = fun j k => W3 (ix3 (3 : Fin 7) j k) :=
    funext fun j => funext fun k => slice_slab3 W3 ![3, 0, 0] _ (3 : Fin 7) rfl rfl rfl j k
  have e7 : (fun (j : Fin 160) => extractStridedSlice S1x160 ![3, 0] B3 slices_S7x160_S1x160_3_0 (ix2 (0 : Fin 1) j))
      = fun j => B3 (ix2 (3 : Fin 7) j) :=
    funext fun j => slice_slab2 B3 ![3, 0] _ (3 : Fin 7) rfl rfl j
  have e8 : (fun (j : Fin 1) (k : Fin 160) => extractStridedSlice S1x1x160 ![3, 0, 0] W4 slices_S7x1x160_S1x1x160_3_0_0 (ix3 (0 : Fin 1) j k))
      = fun j k => W4 (ix3 (3 : Fin 7) j k) :=
    funext fun j => funext fun k => slice_slab3 W4 ![3, 0, 0] _ (3 : Fin 7) rfl rfl rfl j k
  have e9 : (fun (j : Fin 1) => extractStridedSlice S1x1 ![3, 0] B4 slices_S7x1_S1x1_3_0 (ix2 (0 : Fin 1) j))
      = fun j => B4 (ix2 (3 : Fin 7) j) :=
    funext fun j => slice_slab2 B4 ![3, 0] _ (3 : Fin 7) rfl rfl j
  rw [e2, e3, e4, e5, e6, e7, e8, e9]

/-- Species 4. -/
theorem expert4_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![4, 0, 0] W1 slices_S7x256x384_S1x256x384_4_0_0)
          (extractStridedSlice S1x256 ![4, 0] B1 slices_S7x256_S1x256_4_0)
          (extractStridedSlice S1x192x256 ![4, 0, 0] W2 slices_S7x192x256_S1x192x256_4_0_0)
          (extractStridedSlice S1x192 ![4, 0] B2 slices_S7x192_S1x192_4_0)
          (extractStridedSlice S1x160x192 ![4, 0, 0] W3 slices_S7x160x192_S1x160x192_4_0_0)
          (extractStridedSlice S1x160 ![4, 0] B3 slices_S7x160_S1x160_4_0)
          (extractStridedSlice S1x1x160 ![4, 0, 0] W4 slices_S7x1x160_S1x1x160_4_0_0)
          (extractStridedSlice S1x1 ![4, 0] B4 slices_S7x1_S1x1_4_0) (ix2 b a)
      = Cert.Energy.expertOf 4 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![4, 0, 0] W1 slices_S7x256x384_S1x256x384_4_0_0 (ix3 (0 : Fin 1) j k))
      = fun j k => W1 (ix3 (4 : Fin 7) j k) :=
    funext fun j => funext fun k => slice_slab3 W1 ![4, 0, 0] _ (4 : Fin 7) rfl rfl rfl j k
  have e3 : (fun (j : Fin 256) => extractStridedSlice S1x256 ![4, 0] B1 slices_S7x256_S1x256_4_0 (ix2 (0 : Fin 1) j))
      = fun j => B1 (ix2 (4 : Fin 7) j) :=
    funext fun j => slice_slab2 B1 ![4, 0] _ (4 : Fin 7) rfl rfl j
  have e4 : (fun (j : Fin 192) (k : Fin 256) => extractStridedSlice S1x192x256 ![4, 0, 0] W2 slices_S7x192x256_S1x192x256_4_0_0 (ix3 (0 : Fin 1) j k))
      = fun j k => W2 (ix3 (4 : Fin 7) j k) :=
    funext fun j => funext fun k => slice_slab3 W2 ![4, 0, 0] _ (4 : Fin 7) rfl rfl rfl j k
  have e5 : (fun (j : Fin 192) => extractStridedSlice S1x192 ![4, 0] B2 slices_S7x192_S1x192_4_0 (ix2 (0 : Fin 1) j))
      = fun j => B2 (ix2 (4 : Fin 7) j) :=
    funext fun j => slice_slab2 B2 ![4, 0] _ (4 : Fin 7) rfl rfl j
  have e6 : (fun (j : Fin 160) (k : Fin 192) => extractStridedSlice S1x160x192 ![4, 0, 0] W3 slices_S7x160x192_S1x160x192_4_0_0 (ix3 (0 : Fin 1) j k))
      = fun j k => W3 (ix3 (4 : Fin 7) j k) :=
    funext fun j => funext fun k => slice_slab3 W3 ![4, 0, 0] _ (4 : Fin 7) rfl rfl rfl j k
  have e7 : (fun (j : Fin 160) => extractStridedSlice S1x160 ![4, 0] B3 slices_S7x160_S1x160_4_0 (ix2 (0 : Fin 1) j))
      = fun j => B3 (ix2 (4 : Fin 7) j) :=
    funext fun j => slice_slab2 B3 ![4, 0] _ (4 : Fin 7) rfl rfl j
  have e8 : (fun (j : Fin 1) (k : Fin 160) => extractStridedSlice S1x1x160 ![4, 0, 0] W4 slices_S7x1x160_S1x1x160_4_0_0 (ix3 (0 : Fin 1) j k))
      = fun j k => W4 (ix3 (4 : Fin 7) j k) :=
    funext fun j => funext fun k => slice_slab3 W4 ![4, 0, 0] _ (4 : Fin 7) rfl rfl rfl j k
  have e9 : (fun (j : Fin 1) => extractStridedSlice S1x1 ![4, 0] B4 slices_S7x1_S1x1_4_0 (ix2 (0 : Fin 1) j))
      = fun j => B4 (ix2 (4 : Fin 7) j) :=
    funext fun j => slice_slab2 B4 ![4, 0] _ (4 : Fin 7) rfl rfl j
  rw [e2, e3, e4, e5, e6, e7, e8, e9]

/-- Species 5. -/
theorem expert5_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![5, 0, 0] W1 slices_S7x256x384_S1x256x384_5_0_0)
          (extractStridedSlice S1x256 ![5, 0] B1 slices_S7x256_S1x256_5_0)
          (extractStridedSlice S1x192x256 ![5, 0, 0] W2 slices_S7x192x256_S1x192x256_5_0_0)
          (extractStridedSlice S1x192 ![5, 0] B2 slices_S7x192_S1x192_5_0)
          (extractStridedSlice S1x160x192 ![5, 0, 0] W3 slices_S7x160x192_S1x160x192_5_0_0)
          (extractStridedSlice S1x160 ![5, 0] B3 slices_S7x160_S1x160_5_0)
          (extractStridedSlice S1x1x160 ![5, 0, 0] W4 slices_S7x1x160_S1x1x160_5_0_0)
          (extractStridedSlice S1x1 ![5, 0] B4 slices_S7x1_S1x1_5_0) (ix2 b a)
      = Cert.Energy.expertOf 5 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![5, 0, 0] W1 slices_S7x256x384_S1x256x384_5_0_0 (ix3 (0 : Fin 1) j k))
      = fun j k => W1 (ix3 (5 : Fin 7) j k) :=
    funext fun j => funext fun k => slice_slab3 W1 ![5, 0, 0] _ (5 : Fin 7) rfl rfl rfl j k
  have e3 : (fun (j : Fin 256) => extractStridedSlice S1x256 ![5, 0] B1 slices_S7x256_S1x256_5_0 (ix2 (0 : Fin 1) j))
      = fun j => B1 (ix2 (5 : Fin 7) j) :=
    funext fun j => slice_slab2 B1 ![5, 0] _ (5 : Fin 7) rfl rfl j
  have e4 : (fun (j : Fin 192) (k : Fin 256) => extractStridedSlice S1x192x256 ![5, 0, 0] W2 slices_S7x192x256_S1x192x256_5_0_0 (ix3 (0 : Fin 1) j k))
      = fun j k => W2 (ix3 (5 : Fin 7) j k) :=
    funext fun j => funext fun k => slice_slab3 W2 ![5, 0, 0] _ (5 : Fin 7) rfl rfl rfl j k
  have e5 : (fun (j : Fin 192) => extractStridedSlice S1x192 ![5, 0] B2 slices_S7x192_S1x192_5_0 (ix2 (0 : Fin 1) j))
      = fun j => B2 (ix2 (5 : Fin 7) j) :=
    funext fun j => slice_slab2 B2 ![5, 0] _ (5 : Fin 7) rfl rfl j
  have e6 : (fun (j : Fin 160) (k : Fin 192) => extractStridedSlice S1x160x192 ![5, 0, 0] W3 slices_S7x160x192_S1x160x192_5_0_0 (ix3 (0 : Fin 1) j k))
      = fun j k => W3 (ix3 (5 : Fin 7) j k) :=
    funext fun j => funext fun k => slice_slab3 W3 ![5, 0, 0] _ (5 : Fin 7) rfl rfl rfl j k
  have e7 : (fun (j : Fin 160) => extractStridedSlice S1x160 ![5, 0] B3 slices_S7x160_S1x160_5_0 (ix2 (0 : Fin 1) j))
      = fun j => B3 (ix2 (5 : Fin 7) j) :=
    funext fun j => slice_slab2 B3 ![5, 0] _ (5 : Fin 7) rfl rfl j
  have e8 : (fun (j : Fin 1) (k : Fin 160) => extractStridedSlice S1x1x160 ![5, 0, 0] W4 slices_S7x1x160_S1x1x160_5_0_0 (ix3 (0 : Fin 1) j k))
      = fun j k => W4 (ix3 (5 : Fin 7) j k) :=
    funext fun j => funext fun k => slice_slab3 W4 ![5, 0, 0] _ (5 : Fin 7) rfl rfl rfl j k
  have e9 : (fun (j : Fin 1) => extractStridedSlice S1x1 ![5, 0] B4 slices_S7x1_S1x1_5_0 (ix2 (0 : Fin 1) j))
      = fun j => B4 (ix2 (5 : Fin 7) j) :=
    funext fun j => slice_slab2 B4 ![5, 0] _ (5 : Fin 7) rfl rfl j
  rw [e2, e3, e4, e5, e6, e7, e8, e9]

/-- Species 6. -/
theorem expert6_at (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) (a : Fin 48) :
    expertH X
          (extractStridedSlice S1x256x384 ![6, 0, 0] W1 slices_S7x256x384_S1x256x384_6_0_0)
          (extractStridedSlice S1x256 ![6, 0] B1 slices_S7x256_S1x256_6_0)
          (extractStridedSlice S1x192x256 ![6, 0, 0] W2 slices_S7x192x256_S1x192x256_6_0_0)
          (extractStridedSlice S1x192 ![6, 0] B2 slices_S7x192_S1x192_6_0)
          (extractStridedSlice S1x160x192 ![6, 0, 0] W3 slices_S7x160x192_S1x160x192_6_0_0)
          (extractStridedSlice S1x160 ![6, 0] B3 slices_S7x160_S1x160_6_0)
          (extractStridedSlice S1x1x160 ![6, 0, 0] W4 slices_S7x1x160_S1x1x160_6_0_0)
          (extractStridedSlice S1x1 ![6, 0] B4 slices_S7x1_S1x1_6_0) (ix2 b a)
      = Cert.Energy.expertOf 6 (fun k : Fin 384 => X (ix3 b a k)) W1 B1 W2 B2 W3 B3 W4 B4 := by
  rw [expertH_apply]
  unfold Cert.Energy.expertOf
  have e2 : (fun (j : Fin 256) (k : Fin 384) => extractStridedSlice S1x256x384 ![6, 0, 0] W1 slices_S7x256x384_S1x256x384_6_0_0 (ix3 (0 : Fin 1) j k))
      = fun j k => W1 (ix3 (6 : Fin 7) j k) :=
    funext fun j => funext fun k => slice_slab3 W1 ![6, 0, 0] _ (6 : Fin 7) rfl rfl rfl j k
  have e3 : (fun (j : Fin 256) => extractStridedSlice S1x256 ![6, 0] B1 slices_S7x256_S1x256_6_0 (ix2 (0 : Fin 1) j))
      = fun j => B1 (ix2 (6 : Fin 7) j) :=
    funext fun j => slice_slab2 B1 ![6, 0] _ (6 : Fin 7) rfl rfl j
  have e4 : (fun (j : Fin 192) (k : Fin 256) => extractStridedSlice S1x192x256 ![6, 0, 0] W2 slices_S7x192x256_S1x192x256_6_0_0 (ix3 (0 : Fin 1) j k))
      = fun j k => W2 (ix3 (6 : Fin 7) j k) :=
    funext fun j => funext fun k => slice_slab3 W2 ![6, 0, 0] _ (6 : Fin 7) rfl rfl rfl j k
  have e5 : (fun (j : Fin 192) => extractStridedSlice S1x192 ![6, 0] B2 slices_S7x192_S1x192_6_0 (ix2 (0 : Fin 1) j))
      = fun j => B2 (ix2 (6 : Fin 7) j) :=
    funext fun j => slice_slab2 B2 ![6, 0] _ (6 : Fin 7) rfl rfl j
  have e6 : (fun (j : Fin 160) (k : Fin 192) => extractStridedSlice S1x160x192 ![6, 0, 0] W3 slices_S7x160x192_S1x160x192_6_0_0 (ix3 (0 : Fin 1) j k))
      = fun j k => W3 (ix3 (6 : Fin 7) j k) :=
    funext fun j => funext fun k => slice_slab3 W3 ![6, 0, 0] _ (6 : Fin 7) rfl rfl rfl j k
  have e7 : (fun (j : Fin 160) => extractStridedSlice S1x160 ![6, 0] B3 slices_S7x160_S1x160_6_0 (ix2 (0 : Fin 1) j))
      = fun j => B3 (ix2 (6 : Fin 7) j) :=
    funext fun j => slice_slab2 B3 ![6, 0] _ (6 : Fin 7) rfl rfl j
  have e8 : (fun (j : Fin 1) (k : Fin 160) => extractStridedSlice S1x1x160 ![6, 0, 0] W4 slices_S7x1x160_S1x1x160_6_0_0 (ix3 (0 : Fin 1) j k))
      = fun j k => W4 (ix3 (6 : Fin 7) j k) :=
    funext fun j => funext fun k => slice_slab3 W4 ![6, 0, 0] _ (6 : Fin 7) rfl rfl rfl j k
  have e9 : (fun (j : Fin 1) => extractStridedSlice S1x1 ![6, 0] B4 slices_S7x1_S1x1_6_0 (ix2 (0 : Fin 1) j))
      = fun j => B4 (ix2 (6 : Fin 7) j) :=
    funext fun j => slice_slab2 B4 ![6, 0] _ (6 : Fin 7) rfl rfl j
  rw [e2, e3, e4, e5, e6, e7, e8, e9]

/-! ## The result at a molecule -/

/-- Entry `b` of the reference's result is molecule `b`'s energy. -/
theorem refEnergies_apply (SP : IVec S1024x48 32) (X : FVec Ideal S1024x48x384 .f32) (W1 : FVec Ideal S7x256x384 .f32) (B1 : FVec Ideal S7x256 .f32) (W2 : FVec Ideal S7x192x256 .f32) (B2 : FVec Ideal S7x192 .f32) (W3 : FVec Ideal S7x160x192 .f32) (B3 : FVec Ideal S7x160 .f32) (W4 : FVec Ideal S7x1x160 .f32) (B4 : FVec Ideal S7x1 .f32) (b : Fin 1024) :
    refEnergies SP X W1 B1 W2 B2 W3 B3 W4 B4 (ix1 b) = Cert.Energy.molEnergy SP X W1 B1 W2 B2 W3 B3 W4 B4 b := by
  unfold refEnergies Cert.Energy.molEnergy Cert.Energy.atomEnergy Cert.Energy.routed
  rw [sumH_apply]
  refine Finset.sum_congr rfl fun a _ => ?_
  simp only [pickH_apply, zeroH_apply, expert0_at, expert1_at, expert2_at, expert3_at, expert4_at, expert5_at, expert6_at]

end Cert.ReferenceIdeal.Layers

end
-- ==== Proof.RefRunHand.lean ====
/-
  The reference's run, assembled.

  @main's operations are the zero array's, then species 0's … species 6's, then the final sum's, in that order: @main IS
  the straight line of their concatenation (both sides unfold to the same sequence of steps). Run from the launch
  contents, species after species, each leaves its routing step in its energy buffer and keeps the arguments, so the
  result buffer ends at the whole nested term of the ARGUMENT arrays, and the arguments end unchanged.
-/
import proofs.«151302_j80032420593970_1_alg».proof.Proof.RefSpecies0
import proofs.«151302_j80032420593970_1_alg».proof.Proof.RefSpecies1
import proofs.«151302_j80032420593970_1_alg».proof.Proof.RefSpecies2
import proofs.«151302_j80032420593970_1_alg».proof.Proof.RefSpecies3
import proofs.«151302_j80032420593970_1_alg».proof.Proof.RefSpecies4
import proofs.«151302_j80032420593970_1_alg».proof.Proof.RefSpecies5
import proofs.«151302_j80032420593970_1_alg».proof.Proof.RefSpecies6
import proofs.«151302_j80032420593970_1_alg».proof.Proof.RefTail
import proofs.«151302_j80032420593970_1_alg».proof.Proof.RefRead
import Idealize.ShloMosaic.Lib.Pipeline.Regions

set_option maxRecDepth 16384

noncomputable section

namespace Cert.ReferenceIdeal.Hand

open Cert.ReferenceIdeal Cert.ReferenceIdeal.Gen Cert.ReferenceIdeal.Layers Idealize.ShloMosaic Idealize.ShloMosaic.TcCoe Idealize.SL.Sem Idealize.ShloMosaic.StableHlo

/-- @main's operations, in order. -/
def ops : List (HloOp τ sig (Elt Ideal)) := ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))

/-- @main is that straight line. -/
theorem main_eq (c : Dev nD) : main (F := Ideal) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- Running two lines one after the other folds the second over what the first left. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt Ideal))).Forall fun op => op.bufs ⊆ tcRefs τ sig :=
  forall_append ops0_sub (forall_append ops1_sub (forall_append ops2_sub (forall_append ops3_sub (forall_append ops4_sub
    (forall_append ops5_sub (forall_append ops6_sub opsT_sub))))))

theorem ops_fresh : ∀ op ∈ (ops : List (HloOp τ sig (Elt Ideal))), op.fresh = ∅ := by
  intro op h
  unfold ops at h
  simp only [List.mem_append] at h
  rcases h with h | h | h | h | h | h | h | h
  · exact ops0_fresh op h
  · exact ops1_fresh op h
  · exact ops2_fresh op h
  · exact ops3_fresh op h
  · exact ops4_fresh op h
  · exact ops5_fresh op h
  · exact ops6_fresh op h
  · exact opsT_fresh op h

/-- Argument 0 is never written. -/
theorem kept_0 (V : Valuation τ sig (Elt Ideal)) : after ops V (Proc.devRef .tc main_arg0) = V (Proc.devRef .tc main_arg0) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_0, kept6_0, kept5_0, kept4_0, kept3_0, kept2_0, kept1_0, kept0_0]

/-- Argument 1 is never written. -/
theorem kept_1 (V : Valuation τ sig (Elt Ideal)) : after ops V (Proc.devRef .tc main_arg1) = V (Proc.devRef .tc main_arg1) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_1, kept6_1, kept5_1, kept4_1, kept3_1, kept2_1, kept1_1, kept0_1]

/-- Argument 2 is never written. -/
theorem kept_2 (V : Valuation τ sig (Elt Ideal)) : after ops V (Proc.devRef .tc main_arg2) = V (Proc.devRef .tc main_arg2) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_2, kept6_2, kept5_2, kept4_2, kept3_2, kept2_2, kept1_2, kept0_2]

/-- Argument 3 is never written. -/
theorem kept_3 (V : Valuation τ sig (Elt Ideal)) : after ops V (Proc.devRef .tc main_arg3) = V (Proc.devRef .tc main_arg3) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_3, kept6_3, kept5_3, kept4_3, kept3_3, kept2_3, kept1_3, kept0_3]

/-- Argument 4 is never written. -/
theorem kept_4 (V : Valuation τ sig (Elt Ideal)) : after ops V (Proc.devRef .tc main_arg4) = V (Proc.devRef .tc main_arg4) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_4, kept6_4, kept5_4, kept4_4, kept3_4, kept2_4, kept1_4, kept0_4]

/-- Argument 5 is never written. -/
theorem kept_5 (V : Valuation τ sig (Elt Ideal)) : after ops V (Proc.devRef .tc main_arg5) = V (Proc.devRef .tc main_arg5) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_5, kept6_5, kept5_5, kept4_5, kept3_5, kept2_5, kept1_5, kept0_5]

/-- Argument 6 is never written. -/
theorem kept_6 (V : Valuation τ sig (Elt Ideal)) : after ops V (Proc.devRef .tc main_arg6) = V (Proc.devRef .tc main_arg6) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_6, kept6_6, kept5_6, kept4_6, kept3_6, kept2_6, kept1_6, kept0_6]

/-- Argument 7 is never written. -/
theorem kept_7 (V : Valuation τ sig (Elt Ideal)) : after ops V (Proc.devRef .tc main_arg7) = V (Proc.devRef .tc main_arg7) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_7, kept6_7, kept5_7, kept4_7, kept3_7, kept2_7, kept1_7, kept0_7]

/-- Argument 8 is never written. -/
theorem kept_8 (V : Valuation τ sig (Elt Ideal)) : after ops V (Proc.devRef .tc main_arg8) = V (Proc.devRef .tc main_arg8) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_8, kept6_8, kept5_8, kept4_8, kept3_8, kept2_8, kept1_8, kept0_8]

/-- Argument 9 is never written. -/
theorem kept_9 (V : Valuation τ sig (Elt Ideal)) : after ops V (Proc.devRef .tc main_arg9) = V (Proc.devRef .tc main_arg9) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append,
    keptT_9, kept6_9, kept5_9, kept4_9, kept3_9, kept2_9, kept1_9, kept0_9]

/-- The result buffer after all of them: the whole term of the argument arrays. -/
theorem result (V : Valuation τ sig (Elt Ideal)) :
    after ops V (Proc.devRef .tc main_v274)
      = refEnergies (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  show after (ops0 (F := Ideal) ++ (ops1 (F := Ideal) ++ (ops2 (F := Ideal) ++ (ops3 (F := Ideal) ++ (ops4 (F := Ideal) ++ (ops5 (F := Ideal) ++ (ops6 (F := Ideal) ++ opsT (F := Ideal)))))))) V _ = _
  rw [after_append, after_append, after_append, after_append, after_append, after_append, after_append]
  rw [resultT, energy6, energy5, energy4, energy3, energy2, energy1, energy0]
  rw [
    kept5_0, kept5_1, kept5_2, kept5_3, kept5_4, kept5_5, kept5_6, kept5_7, kept5_8, kept5_9,
    kept4_0, kept4_1, kept4_2, kept4_3, kept4_4, kept4_5, kept4_6, kept4_7, kept4_8, kept4_9,
    kept3_0, kept3_1, kept3_2, kept3_3, kept3_4, kept3_5, kept3_6, kept3_7, kept3_8, kept3_9,
    kept2_0, kept2_1, kept2_2, kept2_3, kept2_4, kept2_5, kept2_6, kept2_7, kept2_8, kept2_9,
    kept1_0, kept1_1, kept1_2, kept1_3, kept1_4, kept1_5, kept1_6, kept1_7, kept1_8, kept1_9,
    kept0_0, kept0_1, kept0_2, kept0_3, kept0_4, kept0_5, kept0_6, kept0_7, kept0_8, kept0_9]
  rfl

/-- The reference's run, read: the result at the whole term of the arguments as launched, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v274) = refEnergies (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v274).trans (result _),
      (h c main_arg0).trans (kept_0 _),
      (h c main_arg1).trans (kept_1 _),
      (h c main_arg2).trans (kept_2 _),
      (h c main_arg3).trans (kept_3 _),
      (h c main_arg4).trans (kept_4 _),
      (h c main_arg5).trans (kept_5 _),
      (h c main_arg6).trans (kept_6 _),
      (h c main_arg7).trans (kept_7 _),
      (h c main_arg8).trans (kept_8 _),
      (h c main_arg9).trans (kept_9 _)⟩)
    (run_seq scopedRefs_eq scopedSems_eq defs main (fun _ => ops) main_eq (fun _ => ops_sub) m ρ (fun _ => ops_fresh))

end Cert.ReferenceIdeal.Hand

end
-- ==== Proof.lean ====
/-
  A species-routed network of per-atom energies, summed per molecule: the Pallas kernel against its jnp reference, equal
  as extended reals.

  THE MATHEMATICS. 1024 molecules of 48 atoms; an atom has 384 features and a species word. For each of seven species a
  four-layer network (384 → 256 → 192 → 160 → 1; each layer an affine map, the first three followed by celu with the scale
  the f32 word nearest one tenth) is applied to the atom's features; the atom's energy is the output of its own species'
  network, chosen by a chain of seven selects starting from zero; a molecule's energy is the sum over its atoms
  (Proof/Energy.lean states this once, as `molEnergy`).

  THE KERNEL takes 64 molecules per grid point, lays their 3072 atoms out as the rows of a matrix, does each layer as a
  matrix product with the transposed weights (operands narrowed to bf16, which is the identity on extended reals), spells
  celu as a select on `x > 0`, and sums each molecule's 48 rows; a host reshape turns the 1024 × 1 column into a vector.
  THE REFERENCE keeps the 1024 × 48 × · arrays whole, contracts over the last axis, and spells celu as
  `max x 0 + c · expm1 (min x 0 / c)`.
  The two differ in layout, in tiling, in the order of the sums (commutative and associative on the extended reals) and in
  the spelling of celu; the two spellings agree at EVERY extended real because the scale is not zero (Energy.celu_split):
  above zero the split form adds `c · (e^0 − 1) = 0`, elsewhere its `max` is 0 and its `min` is `x`. So no use is made of
  the precondition: both results are `molEnergy` of the arguments, entry by entry.

  THE MODULES. Kernel side: BlockTerm (the body's value as a composition of row-wise functions), BlockEq (the body's stored
  value IS that composition), RowRead (those functions at an entry), BlockValue (the stored block at an entry),
  KernelValue (the 16 blocks tile the column; the host reshape; the run). Reference side: RefLayers (its whole-array
  functions and their reads at an atom), RefRead (its whole term at a molecule), RefSpecies0 … 6 and RefTail (its
  operations, species by species, run from any buffer contents), RefRunHand (the run). The idealization rewrote nothing,
  so `preserves` is `True`; the two kernel frames are the generated ones; the reference's frame is its run with the result
  dropped.
-/
import proofs.«151302_j80032420593970_1_alg».proof.Defs
import proofs.«151302_j80032420593970_1_alg».proof.Proof.Gen.Kernel
import proofs.«151302_j80032420593970_1_alg».proof.Proof.Gen.Kernel.Frame
import proofs.«151302_j80032420593970_1_alg».proof.Proof.Gen.KernelIdeal
import proofs.«151302_j80032420593970_1_alg».proof.Proof.Gen.KernelIdeal.Frame
import proofs.«151302_j80032420593970_1_alg».proof.Proof.Gen.ReferenceIdeal
import proofs.«151302_j80032420593970_1_alg».proof.Proof.Gen.Pre_finite_inputs
import proofs.«151302_j80032420593970_1_alg».proof.Proof.KernelValue
import proofs.«151302_j80032420593970_1_alg».proof.Proof.RefRunHand
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- Both idealized programs end with every molecule's energy of the (agreeing) arguments. -/
theorem algebraic : Cert.algebraic_KernelIdeal_ReferenceIdeal := by
  intro m ρ m' ρ' _ hagree
  refine ⟨fun c => Cert.KernelIdeal.Whole.energyVec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7, a8, a9⟩ := hagree c
  rw [a0, a1, a2, a3, a4, a5, a6, a7, a8, a9]
  funext i
  obtain ⟨b, rfl⟩ : ∃ b : Fin 1024, i = ix1 b := ⟨i 0, eq_ix1 (n := 1024) i⟩
  exact Cert.ReferenceIdeal.Layers.refEnergies_apply _ _ _ _ _ _ _ _ _ _ b

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
